-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S2x18 : Shape := ⟨2, ![2, 18]⟩
abbrev S1x1024x1024 : Shape := ⟨3, ![1, 1024, 1024]⟩
abbrev S3x1024x1024 : Shape := ⟨3, ![3, 1024, 1024]⟩
abbrev S8192x1024 : Shape := ⟨2, ![8192, 1024]⟩
abbrev S3x8192x1024 : Shape := ⟨3, ![3, 8192, 1024]⟩
abbrev S3x4x2048x1024 : Shape := ⟨4, ![3, 4, 2048, 1024]⟩
abbrev S1x4x256x1024 : Shape := ⟨4, ![1, 4, 256, 1024]⟩
abbrev S1x1 : Shape := ⟨2, ![1, 1]⟩
abbrev S4x256x1024 : Shape := ⟨3, ![4, 256, 1024]⟩
abbrev S4x256x1 : Shape := ⟨3, ![4, 256, 1]⟩
abbrev S4x256x256 : Shape := ⟨3, ![4, 256, 256]⟩
abbrev S4x256 : Shape := ⟨2, ![4, 256]⟩

abbrev nBuf : Space → Nat
  | .hbm => 16
  | .vmem => 16
  | .smem => 2
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S3x1024x1024, .f32⟩
  | .hbm, ⟨11, _⟩ => ⟨S3x1024x1024, .bf16⟩
  | .hbm, ⟨12, _⟩ => ⟨S8192x1024, .f32⟩
  | .hbm, ⟨13, _⟩ => ⟨S3x8192x1024, .bf16⟩
  | .hbm, ⟨14, _⟩ => ⟨S3x4x2048x1024, .bf16⟩
  | .hbm, ⟨15, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S3x1024x1024, .bf16⟩
  | .local _ .vmem, ⟨3, _⟩ => ⟨S3x1024x1024, .bf16⟩
  | .local _ .vmem, ⟨4, _⟩ => ⟨S3x1024x1024, .bf16⟩
  | .local _ .vmem, ⟨5, _⟩ => ⟨S1x4x256x1024, .bf16⟩
  | .local _ .vmem, ⟨6, _⟩ => ⟨S1x4x256x1024, .bf16⟩
  | .local _ .vmem, ⟨7, _⟩ => ⟨S1x4x256x1024, .bf16⟩
  | .local _ .vmem, ⟨8, _⟩ => ⟨S1x4x256x1024, .bf16⟩
  | .local _ .vmem, ⟨9, _⟩ => ⟨S1x4x256x1024, .bf16⟩
  | .local _ .vmem, ⟨10, _⟩ => ⟨S1x4x256x1024, .bf16⟩
  | .local _ .vmem, ⟨11, _⟩ => ⟨S4x256x1024, .f32⟩
  | .local _ .vmem, ⟨12, _⟩ => ⟨S4x256x1024, .f32⟩
  | .local _ .vmem, ⟨13, _⟩ => ⟨S4x256x1, .f32⟩
  | .local _ .vmem, ⟨14, _⟩ => ⟨S4x256x1, .f32⟩
  | .local _ .vmem, ⟨15, _⟩ => ⟨S4x256x1024, .f32⟩
  | .local _ .smem, ⟨0, _⟩ => ⟨S2x18, .i32⟩
  | .local _ .smem, ⟨1, _⟩ => ⟨S2x18, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 18], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_cond2 (v2 : BitVec 32) (v5 : BitVec 32) : BitVec 1 :=
  let v59 : BitVec 1 := Scalar.cmpi .eq v5 v2
  let v60 : BitVec 32 := Scalar.extui v59
  let c0_i32_39 : BitVec 32 := 0#32
  let v61 : BitVec 1 := Scalar.cmpi .ne v60 c0_i32_39
  v61

def cc1_transform_0 (k1_off1_inb : ∀ i : grid1.Coords, ∀ a, (k1_off1 i) a + S1x1.size a ≤ S2x18.size a) (numel1_S1x1 : S1x1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc1_transform_1 (k1_off1_inb : ∀ i : grid1.Coords, ∀ a, (k1_off1 i) a + S1x1.size a ≤ S2x18.size a) (numel1_S1x1 : S1x1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c1_i32 : BitVec 32 := 1#32
  let c0_i32 : BitVec 32 := 0#32
  let c0_i32_0 : BitVec 32 := 0#32
  let c0_i32_1 : BitVec 32 := 0#32
  ![c1_i32.toNat, c0_i32.toNat, v2.toNat, c0_i32_0.toNat]

def cc1_transform_2 (k1_off1_inb : ∀ i : grid1.Coords, ∀ a, (k1_off1 i) a + S1x1.size a ≤ S2x18.size a) (numel1_S1x1 : S1x1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x18) ![v0.toNat, v1.toNat] S1x1.size (k1_off1_inb i)) numel1_S1x1
  let c2_i32 : BitVec 32 := 2#32
  let c0_i32 : BitVec 32 := 0#32
  let c0_i32_0 : BitVec 32 := 0#32
  let c0_i32_1 : BitVec 32 := 0#32
  ![c2_i32.toNat, c0_i32.toNat, v2.toNat, c0_i32_0.toNat]

def cc1_transform_3 (k1_off1_inb : ∀ i : grid1.Coords, ∀ a, (k1_off1 i) a + S1x1.size a ≤ S2x18.size a) (numel1_S1x1 : S1x1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x18) ![v0.toNat, v1.toNat] S1x1.size (k1_off1_inb i)) numel1_S1x1
  let c0_i32 : BitVec 32 := 0#32
  let c0_i32_0 : BitVec 32 := 0#32
  let c0_i32_1 : BitVec 32 := 0#32
  ![c0_i32.toNat, v2.toNat, c0_i32_0.toNat]

abbrev stage1_0 : Fin 2 → Memref sig .tc .vmem S1x4x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S3x1024x1024_S1x1024x1024_0_0_0 : (Rect.unit (s := S3x1024x1024) ![0, 0, 0] S1x1024x1024.size inb_S3x1024x1024_S1x1024x1024_0_0_0).PackedRows (EltTy.packing .bf16)
  inb_S3x1024x1024_S1x1024x1024_1_0_0 : ∀ a, (![1, 0, 0] : Fin 3 → Nat) a + S1x1024x1024.size a ≤ S3x1024x1024.size a
  packedbf16_S3x1024x1024_S1x1024x1024_1_0_0 : (Rect.unit (s := S3x1024x1024) ![1, 0, 0] S1x1024x1024.size inb_S3x1024x1024_S1x1024x1024_1_0_0).PackedRows (EltTy.packing .bf16)
  inb_S3x1024x1024_S1x1024x1024_2_0_0 : ∀ a, (![2, 0, 0] : Fin 3 → Nat) a + S1x1024x1024.size a ≤ S3x1024x1024.size a
  packedbf16_S3x1024x1024_S1x1024x1024_2_0_0 : (Rect.unit (s := S3x1024x1024) ![2, 0, 0] S1x1024x1024.size inb_S3x1024x1024_S1x1024x1024_2_0_0).PackedRows (EltTy.packing .bf16)
  shapeCasts_S3x8192x1024_S3x4x2048x1024 : S3x8192x1024.ShapeCasts S3x4x2048x1024
  numel1_S1x1 : S1x1.numel = 1
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  inb_S1x4x256x1024_S1x4x256x1024_0_0_0_0 : ∀ a, (![0, 0, 0, 0] : Fin 4 → Nat) a + S1x4x256x1024.size a ≤ S1x4x256x1024.size a
  h_S1x4x256x1024 : 0 < S1x4x256x1024.numel
  shapeCasts_S1x4x256x1024_S4x256x1024 : S1x4x256x1024.ShapeCasts S4x256x1024
  iota_S4x256x256_d1_w32 : S4x256x256.Iotas .tc 32 [1]
  iota_S4x256x256_d2_w32 : S4x256x256.Iotas .tc 32 [2]
  reduces_S4x256x256_S4x256 : S4x256x256.Reduces [2] S4x256
  shapeCasts_S4x256_S4x256x1 : S4x256.ShapeCasts S4x256x1
  broadcasts_S4x256x1_S4x256x256 : S4x256x1.Broadcasts S4x256x256
  broadcasts_S4x256x1_S4x256x1024 : S4x256x1.Broadcasts S4x256x1024
  dot_S1024x1024_S1024x1024_S1024x1024_1_0_0_1_n_n_wf : DotDims.WF S1024x1024 S1024x1024 S1024x1024 [1] [0] [0] [1] [] []
  dot_S4x256x1024_S4x256x1024_S4x256x256_2_2_1_1_0_0_wf : DotDims.WF S4x256x1024 S4x256x1024 S4x256x256 [2] [2] [1] [1] [0] [0]
  dot_S4x256x256_S4x256x1024_S4x256x1024_2_1_1_2_0_0_wf : DotDims.WF S4x256x256 S4x256x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024x1024.size a ≤ S3x1024x1024.size a
  hwx0_1 : ∀ i : grid0.Coords, EltTy.bits .bf16 = 32 ∨ (Rect.block (s := S3x1024x1024) S3x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1024x1024.size a ≤ S3x8192x1024.size a
  hwx0_2 : ∀ i : grid0.Coords, EltTy.bits .bf16 = 32 ∨ (Rect.block (s := S3x8192x1024) S3x1024x1024.size (cc0_transform_2 i) (hinb0_2 i)).WholeWords (EltTy.packing .bf16)
  hrank1 : 0 < grid1.rank
  k1_off1_inb : ∀ i : grid1.Coords, ∀ a, (k1_off1 i) a + S1x1.size a ≤ S2x18.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1x1 pf i = cc1_transform_1 k1_off1_inb numel1_S1x1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1x1 pf i = cc1_transform_2 k1_off1_inb numel1_S1x1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1x1 pf i = cc1_transform_3 k1_off1_inb numel1_S1x1 pf i'

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S4x256x1024_S4x256x1024_S4x256x256_2_2_1_1_0_0 : DotDims S4x256x1024 S4x256x1024 S4x256x256 where
  lhsContracting := [2]
  rhsContracting := [2]
  lhsNonContracting := [1]
  rhsNonContracting := [1]
  lhsBatch := [0]
  rhsBatch := [0]
  wf := dot_S4x256x1024_S4x256x1024_S4x256x256_2_2_1_1_0_0_wf
def dot_S4x256x256_S4x256x1024_S4x256x1024_2_1_1_2_0_0 : DotDims S4x256x256 S4x256x1024 S4x256x1024 where
  lhsContracting := [2]
  rhsContracting := [1]
  lhsNonContracting := [1]
  rhsNonContracting := [2]
  lhsBatch := [0]
  rhsBatch := [0]
  wf := dot_S4x256x256_S4x256x1024_S4x256x1024_2_1_1_2_0_0_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v10) S1x4x256x1024.size reads1_0 false false 2 stage1_0 sem1_0 nbuf1_0 hstage1_0

abbrev spec1_1 : Pipeline.WinSpec sig grid1.rank :=
  Pipeline.WinSpec.ofSpec (Memref.whole main_v10) S1x4x256x1024.size reads1_1 false false 2 stage1_1 sem1_1 nbuf1_1 hstage1_1

abbrev spec1_2 : Pipeline.WinSpec sig grid1.rank :=
  Pipeline.WinSpec.ofSpec (Memref.whole main_v10) S1x4x256x1024.size reads1_2 false false 2 stage1_2 sem1_2 nbuf1_2 hstage1_2

abbrev spec1_3 : Pipeline.WinSpec sig grid1.rank :=
  Pipeline.WinSpec.ofSpec (Memref.whole main_v11) S4x256x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1x1 pf | 1 => cc1_transform_1 k1_off1_inb numel1_S1x1 pf | 2 => cc1_transform_2 k1_off1_inb numel1_S1x1 pf | 3 => cc1_transform_3 k1_off1_inb numel1_S1x1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S1x4x256x1024.size a ≤ S3x4x2048x1024.size a), EltTy.bits .bf16 = 32 ∨ (Rect.block (s := S3x4x2048x1024) S1x4x256x1024.size (cc1_transform_0 k1_off1_inb numel1_S1x1 pf i) h).WholeWords (EltTy.packing .bf16)) ∧
  (∀ i : grid1.Coords, ∃ h : (∀ a, (cc1_transform_1 k1_off1_inb numel1_S1x1 pf i a + 1) * S1x4x256x1024.size a ≤ S3x4x2048x1024.size a), EltTy.bits .bf16 = 32 ∨ (Rect.block (s := S3x4x2048x1024) S1x4x256x1024.size (cc1_transform_1 k1_off1_inb numel1_S1x1 pf i) h).WholeWords (EltTy.packing .bf16)) ∧
  (∀ i : grid1.Coords, ∃ h : (∀ a, (cc1_transform_2 k1_off1_inb numel1_S1x1 pf i a + 1) * S1x4x256x1024.size a ≤ S3x4x2048x1024.size a), EltTy.bits .bf16 = 32 ∨ (Rect.block (s := S3x4x2048x1024) S1x4x256x1024.size (cc1_transform_2 k1_off1_inb numel1_S1x1 pf i) h).WholeWords (EltTy.packing .bf16)) ∧
  (∀ i : grid1.Coords, ∃ h : (∀ a, (cc1_transform_3 k1_off1_inb numel1_S1x1 pf i a + 1) * S4x256x1024.size a ≤ S4x2048x1024.size a), EltTy.bits .f32 = 32 ∨ (Rect.block (s := S4x2048x1024) S4x256x1024.size (cc1_transform_3 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x2048x2048, .i1⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Base.lean ====
/-
  Shared names for the two kernel regions' records and the program's run: the ghost-state parameters at which the
  whole certificate is stated (no variants, no dues between cores, no levels), what rides beside the buffers between
  two items of the program (the generator register at some state, nothing owed), and the launch's ghost element.
-/
import proofs.«105760_j5128190951601_2_alg».proof.Proof.Gen.KernelIdeal.Regions
import Idealize.ShloMosaic.Lib.Pipeline.Kit

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

/-- No variant is used, no core owes another anything, no level is assigned. -/
abbrev 𝒱₀ : Variants := Variants.none
abbrev L : GSem nD τ sig → Finset Unit := fun _ => ∅
abbrev lv : GSem nD τ sig → Unit → ℕ := fun _ _ => 0

/-- What rides beside the buffers between two items of the program: the core's generator register at some state and
    the core owing nothing. -/
abbrev E (_ : Fin 3) (c : Dev nD) : sProp 𝕄 :=
  iprop((∃ r, prngReg c r) ∗ ∃ W, owes (c : Thread nD τ) (0 : CellTallies nD τ sig Unit) W)

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, H⟩; iexact H

/-- The launch's ghost element: the staging cells of both regions and their launch tokens. -/
abbrev u₀ (a : (p : Fin 2) → (pcfgs (F := F) p).Adm) : UR sig nD τ :=
  initOf (Pipeline.cells (Pipeline.pin (pcfgs (F := F)) a) (cellOf_inj a)) (Pipeline.launchToks (Pipeline.pin (pcfgs (F := F)) a) (cellOf_inj a))

theorem hu₀ (a : (p : Fin 2) → (pcfgs (F := F) p).Adm) :
    (ownU (u₀ a) : sProp 𝕄) ⊢ |={Set.univ}=> iprop(BI.own (emb₁ (u₀ a)) ∗ bigSep Finset.univ (fun _ : Dev nD => (iprop(emp) : sProp 𝕄))) := by
  iintro Hu; imodintro
  isplitl [Hu]
  · iapply (show (ownU (u₀ a) : sProp 𝕄) ⊢ BI.own (emb₁ (u₀ a)) from .rfl)
    iexact Hu
  iapply (show (BI.emp : sProp 𝕄) ⊢ bigSep Finset.univ (fun _ : Dev nD => (BI.emp : sProp 𝕄)) from by rw [BI.bigSep_emp_const])
  iempintro

end Cert.KernelIdeal.Asm

end
-- ==== Proof.Assemble.lean ====
/-
  The idealized kernel program's run, assembled from its two regions.

  The program is a line of host operations (transposes of the three weight matrices, their stacking, a change of format,
  a reshape of the activations), the projection region, a reshape, and the attention region. Given, for each region, a
  record saying that the region runs from the buffer contents the line before it leaves to those contents with the
  region's result array replaced by what its write-backs leave, the whole program runs from any memory: it terminates,
  faults nowhere, leaves the four argument arrays as launched — and the result array ends holding what the attention
  region's write-backs leave in it.
-/
import proofs.«105760_j5128190951601_2_alg».proof.Proof.Base

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

/-- The launch: on every core the unscoped buffers are held at the launch contents, and whatever the rest of the
    launch's resources make (`E0`) rides beside them. -/
theorem hinit_of (m : (ℓ : Loc nD τ sig) → Buf (Elt F) ℓ) (ρ : Dev nD → PrngReg) (E0 : Dev nD → sProp 𝕄)
    (hE : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => iprop(StableHlo.held (c : Thread nD τ) (Pipeline.ucRefs τ sig) (V0 m c) ∗ E0 c)) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod hE $$ [Hr Hla] with HE
  · isplitl [Hr]; · iexact Hr
    iexact Hla
  imodintro
  rw [bigSep_sep']
  isplitl [Hh]; · iexact Hh
  iexact HE

section
variable (m : (ℓ : Loc nD τ sig) → Buf (Elt F) ℓ) (ρ : Dev nD → PrngReg) (outs : Outs (F := F))
  (a : (p : Fin 2) → (pcfgs (F := F) p).Adm)
  (pdats : (p : Fin 2) → (c : Dev nD) → Dat τ (Elt F) Unit ℕ (UR sig nD τ) ℕ (Pipeline.pin (pcfgs (F := F)) a p) c)
  (R0 : RegionSeg (pcfgs (F := F)) a pdats () defs₀ 𝒱₀ L lv 0)
  (hpre0 : ∀ c : Dev nD, iprop(StableHlo.held (c : Thread nD τ) (Pipeline.ucRefs τ sig) (V1 m c) ∗ E 0 c) ⊢ R0.pre c)
  (hpost0 : ∀ c : Dev nD, R0.post c ⊢ iprop(StableHlo.held (c : Thread nD τ) (Pipeline.ucRefs τ sig) (V2 m outs c) ∗ E 1 c))
  (R1 : RegionSeg (pcfgs (F := F)) a pdats () defs₀ 𝒱₀ L lv 1)
  (hpre1 : ∀ c : Dev nD, iprop(StableHlo.held (c : Thread nD τ) (Pipeline.ucRefs τ sig) (V3 m outs c) ∗ E 1 c) ⊢ R1.pre c)
  (hpost1 : ∀ c : Dev nD, R1.post c ⊢ iprop(StableHlo.held (c : Thread nD τ) (Pipeline.ucRefs τ sig) (V4 m outs c) ∗ E 2 c))

include hpre0 hpost0 hpre1 hpost1 in
/-- The frame: with a record for each region, the program runs and its argument arrays end as launched. -/
theorem frame_of_regions :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ outs a pdats 0 (fun _ => iprop(emp)) (u₀ a) (hu₀ a) E (hE0 ρ) hE2
    R0 hpre0 hpost0 R1 hpre1 hpost1

set_option backward.isDefEq.respectTransparency.types false in
include hpre0 hpost0 hpre1 hpost1 in
/-- The run with the result named: besides the frame, the result array ends at what the attention region leaves in it. -/
theorem run_of_regions :
    θ_run defs (onTc (τ := τ) (main (F := F))) ⟨m, fun _ => 0, ρ⟩ (fun r => ∀ c : Dev nD,
      r.2.mem ((c.tc : Thread nD τ).loc main_v11) = outs 4 main_v11 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) a pdats () (cellOf_inj a) emb₁ defs₀ 𝒱₀ L lv m ρ main
    (segs m outs 𝒱₀ L lv E () a pdats R0 R1)
    (fun c Q => by
      rewrite [main_chain c, Seg.run_eq_chain,
        show (segs m outs 𝒱₀ L lv E () a pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) 0 (fun _ _ => rfl) (fun _ => iprop(emp)) (u₀ a) (hu₀ a)
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v11) = outs 4 main_v11 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · exact hinit_of m ρ (E 0) (hE0 ρ)
  · -- the end: the result's and each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)).trans (Function.update_self ..),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c)⟩
    · iexact HSI

end

end Cert.KernelIdeal.Asm

end
-- ==== Proof.Outs.lean ====
/-
  The contents the two regions leave, as one family: the projection region leaves its result array at what its
  write-backs make of it; the attention region is entered from the buffers after the reshape of that array, and leaves
  its own result array at what its write-backs make of it.
-/
import proofs.«105760_j5128190951601_2_alg».proof.Proof.Gen.KernelIdeal.Regions

noncomputable section

namespace Cert.KernelIdeal.Asm

open Idealize.ShloMosaic Idealize.ShloMosaic.TcCoe Idealize.SL.Sem
open Cert.KernelIdeal Cert.KernelIdeal.Gen

variable {F : FTy → Type} [FloatOps F] [Named F]

/-- The family that is `o9` at the projection's result array and `o11` at the attention's, whatever elsewhere. -/
def mkOuts (o9 : (c : Dev nD) → Buf (Elt F) ((c : Thread nD τ).loc main_v9))
    (o11 : (c : Dev nD) → Buf (Elt F) ((c : Thread nD τ).loc main_v11)) : Outs (F := F) :=
  fun _ r c => if h : r = main_v9 then (by subst h; exact o9 c) else if h' : r = main_v11 then (by subst h'; exact o11 c)
    else fun _ => Classical.choice inferInstance

theorem mkOuts_v9 (o9 : (c : Dev nD) → Buf (Elt F) ((c : Thread nD τ).loc main_v9))
    (o11 : (c : Dev nD) → Buf (Elt F) ((c : Thread nD τ).loc main_v11)) (J : ℕ) (c : Dev nD) :
    mkOuts o9 o11 J main_v9 c = o9 c := by
  unfold mkOuts; rw [dif_pos rfl]

theorem mkOuts_v11 (o9 : (c : Dev nD) → Buf (Elt F) ((c : Thread nD τ).loc main_v9))
    (o11 : (c : Dev nD) → Buf (Elt F) ((c : Thread nD τ).loc main_v11)) (J : ℕ) (c : Dev nD) :
    mkOuts o9 o11 J main_v11 c = o11 c := by
  unfold mkOuts; rw [dif_neg (by decide), dif_pos rfl]

variable (m : (ℓ : Loc nD τ sig) → Buf (Elt F) ℓ)

/-- The buffers when the attention region is entered, from what the projection region left in its result array. -/
abbrev V3' (o9 : (c : Dev nD) → Buf (Elt F) ((c : Thread nD τ).loc main_v9)) (c : Dev nD) : Valuation τ sig (Elt F) :=
  StableHlo.after hostOps1 (Function.update (V1 m c) main_v9 (o9 c))

theorem V3_mkOuts (o9 : (c : Dev nD) → Buf (Elt F) ((c : Thread nD τ).loc main_v9))
    (o11 : (c : Dev nD) → Buf (Elt F) ((c : Thread nD τ).loc main_v11)) (c : Dev nD) :
    V3 m (mkOuts o9 o11) c = V3' m o9 c := by
  show StableHlo.after hostOps1 (Function.update (V1 m c) main_v9 (mkOuts o9 o11 2 main_v9 c)) = _
  rw [mkOuts_v9]

end Cert.KernelIdeal.Asm

end
-- ==== Proof.Region0Body.lean ====
/- Region 0 of @main: the projection kernel, one grid point per block of 1024 rows.  Its three stores write the
   three projections of the row block; the proof data, the body's triple and the body obligation, at a
   PARAMETER V, the TensorCore buffers' contents when the region is entered. -/
import proofs.«105760_j5128190951601_2_alg».proof.Proof.Gen.KernelIdeal.Launch
import proofs.«105760_j5128190951601_2_alg».proof.Proof.Gen.KernelIdeal.Skeleton
import proofs.«105760_j5128190951601_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S1024x1024 := Rect.unit (s := S1024x1024) ![0, 0] S1024x1024.size inb_S1024x1024_S1024x1024_0_0
abbrev rW0 : Rect S3x1024x1024 := Rect.unit (s := S3x1024x1024) ![0, 0, 0] S1x1024x1024.size inb_S3x1024x1024_S1x1024x1024_0_0_0
abbrev rW1 : Rect S3x1024x1024 := Rect.unit (s := S3x1024x1024) ![1, 0, 0] S1x1024x1024.size inb_S3x1024x1024_S1x1024x1024_1_0_0
abbrev rW2 : Rect S3x1024x1024 := Rect.unit (s := S3x1024x1024) ![2, 0, 0] S1x1024x1024.size inb_S3x1024x1024_S1x1024x1024_2_0_0

/-! ## What the body leaves in the output window's buffer -/

/-- Window 2's staging buffer after the body, from the input windows' blocks: its three stores as pieces, last first. -/
def out0_2 (x0 : Vec F S1024x1024 .f32) (x1 : Vec F S3x1024x1024 .bf16) : Vec F S3x1024x1024 .bf16 :=
  View.canon [⟨rW2, k0_pay4 (View.ld x0 rX) (View.ld x1 rW2)⟩,
    ⟨rW1, k0_pay3 (View.ld x0 rX) (View.ld x1 rW1)⟩,
    ⟨rW0, k0_pay2 (View.ld x0 rX) (View.ld x1 rW0)⟩]

/-- The three stores tile the buffer, so they cover it. -/
theorem cover0_2 (p0 p1 p2 : Vec F S1x1024x1024 .bf16) (y : S3x1024x1024.Idx) :
    ∃ pc ∈ ([⟨rW2, p0⟩, ⟨rW1, p1⟩, ⟨rW0, p2⟩] : List (View.Piece (Elt F) S3x1024x1024 .bf16)), y ∈ pc.1.set :=
  View.cover_of_tiled [⟨rW2, p0⟩, ⟨rW1, p1⟩, ⟨rW0, p2⟩] S1x1024x1024.size (by rfl) y

/-! ## The body's triple -/

set_option maxHeartbeats 1000000 in
/-- The kernel body on whole staging memrefs, the inputs' at read contents and the output's at anything, runs to the
    continuation holding the inputs' as they were and the output's at out0_2 of the inputs'. -/
theorem sound_kernel0 (c : Dev nD) (E : Set ℕ) (i : grid0.Coords)
    (arg1 : Memref sig .tc .vmem S1024x1024 .f32) (harg1 : arg1.IsWhole)
    (arg2 : Memref sig .tc .vmem S3x1024x1024 .bf16) (harg2 : arg2.IsWhole)
    (arg3 : Memref sig .tc .vmem S3x1024x1024 .bf16) (harg3 : arg3.IsWhole)
    (x0 : Vec F S1024x1024 .f32) (x1 : Vec F S3x1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _ _ _)

/-! ## The pipeline's proof data -/

/-- The proof data of pipeline 0 on core c: the arrays as the region finds them; after the body at point t each
    input's buffer at its block and the output's at out0_2 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.R0

end
-- ==== Proof.FlashAdm.lean ====
/-
  The admissible contents of the flash kernel's two prefetched tables.

  The tables are host constants: the schedule's query-tile index and key-tile index at each of the
  2 x 18 grid points.  Their contents are stated once, as the literals the program writes.  The
  pipeline's side condition on them (every block the index maps name lies inside its array and ends on
  whole words) follows from every tile index being below 8 = 2048 / 256: the blocks are whole tiles.
-/
import proofs.«105760_j5128190951601_2_alg».proof.Proof.Gen.KernelIdeal

set_option synthInstance.maxSize 4096
set_option Elab.async false

noncomputable section

namespace Cert.KernelIdeal.Flash

open Idealize.ShloMosaic Idealize.SL.Sem
open Cert.KernelIdeal Cert.KernelIdeal.Gen
open Cert.KernelIdeal.Facts₀ Cert.KernelIdeal.Facts

variable {F : FTy → Type} [FloatOps F] [Named F]

/-- Every tile index either table names is below 8. -/
theorem lit0_lt : ∀ j : Fin 36, (lit0 j).toNat < 8 := by decide
theorem lit1_lt : ∀ j : Fin 36, (lit1 j).toNat < 8 := by decide

/-- The pipeline's side condition holds of any tables all of whose words are below 8: each window's block
    index is then a tile of its array (8 tiles of 256 rows), and every block is whole rows of whole words. -/
theorem ok1_of_lt (pf : pre1.Contents (Elt F))
    (h0 : ∀ x : S2x18.Idx, BitVec.toNat (pf 0 x : BitVec 32) < 8) (h1 : ∀ x : S2x18.Idx, BitVec.toNat (pf 1 x : BitVec 32) < 8) :
    ok1 pf := by
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · intro a
    have key : ∀ (x : S2x18.Idx) (a : Fin 4), ((![0, 0, BitVec.toNat (pf 0 x : BitVec 32), 0] : Fin 4 → ℕ) a + 1) * S1x4x256x1024.size a ≤ S3x4x2048x1024.size a := by
      intro x a; have := h0 x
      match a with
      | ⟨0, _⟩ => show (0 + 1) * 1 ≤ 3; omega
      | ⟨1, _⟩ => show (0 + 1) * 4 ≤ 4; omega
      | ⟨2, _⟩ => show (BitVec.toNat (pf 0 x : BitVec 32) + 1) * 256 ≤ 2048; omega
      | ⟨3, _⟩ => show (0 + 1) * 1024 ≤ 1024; omega
      | ⟨_ + 4, h⟩ => exact absurd h (by omega)
    exact key _ a
  · intro a
    have key : ∀ (x : S2x18.Idx) (a : Fin 4), ((![1, 0, BitVec.toNat (pf 1 x : BitVec 32), 0] : Fin 4 → ℕ) a + 1) * S1x4x256x1024.size a ≤ S3x4x2048x1024.size a := by
      intro x a; have := h1 x
      match a with
      | ⟨0, _⟩ => show (1 + 1) * 1 ≤ 3; omega
      | ⟨1, _⟩ => show (0 + 1) * 4 ≤ 4; omega
      | ⟨2, _⟩ => show (BitVec.toNat (pf 1 x : BitVec 32) + 1) * 256 ≤ 2048; omega
      | ⟨3, _⟩ => show (0 + 1) * 1024 ≤ 1024; omega
      | ⟨_ + 4, h⟩ => exact absurd h (by omega)
    exact key _ a
  · intro a
    have key : ∀ (x : S2x18.Idx) (a : Fin 4), ((![2, 0, BitVec.toNat (pf 1 x : BitVec 32), 0] : Fin 4 → ℕ) a + 1) * S1x4x256x1024.size a ≤ S3x4x2048x1024.size a := by
      intro x a; have := h1 x
      match a with
      | ⟨0, _⟩ => show (2 + 1) * 1 ≤ 3; omega
      | ⟨1, _⟩ => show (0 + 1) * 4 ≤ 4; omega
      | ⟨2, _⟩ => show (BitVec.toNat (pf 1 x : BitVec 32) + 1) * 256 ≤ 2048; omega
      | ⟨3, _⟩ => show (0 + 1) * 1024 ≤ 1024; omega
      | ⟨_ + 4, h⟩ => exact absurd h (by omega)
    exact key _ a
  · intro a
    have key : ∀ (x : S2x18.Idx) (a : Fin 3), ((![0, BitVec.toNat (pf 0 x : BitVec 32), 0] : Fin 3 → ℕ) a + 1) * S4x256x1024.size a ≤ S4x2048x1024.size a := by
      intro x a; have := h0 x
      match a with
      | ⟨0, _⟩ => show (0 + 1) * 4 ≤ 4; omega
      | ⟨1, _⟩ => show (BitVec.toNat (pf 0 x : BitVec 32) + 1) * 256 ≤ 2048; omega
      | ⟨2, _⟩ => show (0 + 1) * 1024 ≤ 1024; omega
      | ⟨_ + 3, h⟩ => exact absurd h (by omega)
    exact key _ a

/-- The two tables' contents: table 0 the query-tile index of each grid point, table 1 its key-tile index. -/
def tbl : pre1.Contents (Elt F) := fun
  | 0 => fun i => lit0 (S2x18.rowMajor i)
  | 1 => fun i => lit1 (S2x18.rowMajor i)
  | ⟨_ + 2, h⟩ => absurd h (Nat.not_lt.2 (Nat.le_add_left _ _))

theorem tbl_0 : (tbl (F := F)) 0 = fun i => lit0 (S2x18.rowMajor i) := rfl
theorem tbl_1 : (tbl (F := F)) 1 = fun i => lit1 (S2x18.rowMajor i) := rfl

/-- The pipeline's side condition holds of the literal tables. -/
theorem ok1_tbl : ok1 (F := F) tbl := ok1_of_lt tbl (fun x => lit0_lt _) (fun x => lit1_lt _)

/-- The tables' admissible contents. -/
def adm1 : (pcfg1 (F := F)).Adm := ⟨tbl, ok1_tbl⟩

theorem adm1_val : (adm1 (F := F)).1 = tbl := rfl

/-- The admissible contents of every pipeline's tables: the projection kernel has none. -/
def adm : (p : Fin 2) → (pcfgs (F := F) p).Adm
  | ⟨0, _⟩ => cfg0.toPCfg_adm
  | ⟨1, _⟩ => adm1
  | ⟨_ + 2, h⟩ => absurd h (Nat.not_lt.2 (Nat.le_add_left _ _))

theorem adm_0 : adm (F := F) 0 = cfg0.toPCfg_adm := rfl
theorem adm_1 : adm (F := F) 1 = adm1 := rfl

end Cert.KernelIdeal.Flash

end
-- ==== Proof.Region0Seg.lean ====
/- Region 0 of @main as a segment of the program's run: entered from every unscoped buffer at the contents the first
   host stretch leaves, left with the projection's output array at what the pipeline's write-backs leave and every other
   buffer as entered; the generator register rides into the region's invariant and out; nothing is owed. -/
import proofs.«105760_j5128190951601_2_alg».proof.Proof.Region0Body
import proofs.«105760_j5128190951601_2_alg».proof.Proof.Base
import proofs.«105760_j5128190951601_2_alg».proof.Proof.FlashAdm

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- Region 0's entry contents, read at the TensorCore's references (what its proof data take). -/
abbrev V1r : (c : Dev nD) → (b : Ref sig .tc) → Buf (Elt F) ((c : Thread nD τ).loc b) := fun c b => Gen.V1 m c b

/-- Every pipeline's proof data: region 0's at its entry contents, region 1's a parameter. -/
def pdats (d1 : (c : Dev nD) → Dat τ (Elt F) Unit ℕ (UR sig nD τ) ℕ (Pipeline.pin (pcfgs (F := F)) Flash.adm 1) c) :
    (p : Fin 2) → (c : Dev nD) → Dat τ (Elt F) Unit ℕ (UR sig nD τ) ℕ (Pipeline.pin (pcfgs (F := F)) Flash.adm p) c
  | ⟨0, _⟩ => fun c => dat0 (V1r m) c
  | ⟨1, _⟩ => d1

variable (d1 : (c : Dev nD) → Dat τ (Elt F) Unit ℕ (UR sig nD τ) ℕ (Pipeline.pin (pcfgs (F := F)) Flash.adm 1) c)
variable (outs : Gen.Outs (F := F))

/-- Region 0's exit contents, read at the TensorCore's references. -/
abbrev V2r : (c : Dev nD) → (b : Ref sig .tc) → Buf (Elt F) ((c : Thread nD τ).loc b) := fun c b => Gen.V2 m outs c b

/-- At region 0's exit each of its arrays holds what the pipeline leaves, -/
theorem hF0 (houts : ∀ c, outs 2 main_v9 c = (dat0 (V1r m) c).arrAt 2 cfg0.N) (c : Dev nD) (w : Fin cfg0.W) :
    (dat0 (V1r m) c).arrAt w cfg0.N = V2r m outs c (Pipeline.arrRef spec0 w) := by
  match w with
  | ⟨0, _⟩ => exact ((dat0 (V1r m) c).arrAt_in 0 rfl _).trans ((A_eq0 (V1r m) c 0).trans (Gen.V2_of m outs c main_v8 (by decide)).symm)
  | ⟨1, _⟩ => exact ((dat0 (V1r m) c).arrAt_in 1 rfl _).trans ((A_eq0 (V1r m) c 1).trans (Gen.V2_of m outs c main_v7 (by decide)).symm)
  | ⟨2, _⟩ =>
    refine (houts c).symm.trans ?_
    show outs 2 main_v9 c = Function.update (Gen.V1 m c) (Proc.devRef .tc main_v9) (outs 2 main_v9 c) (Proc.devRef .tc main_v9)
    rw [Function.update_self]

/-- and every other buffer what it held at entry. -/
theorem hrest0 (c : Dev nD) : ∀ b, b ∉ Finset.univ.image (Pipeline.arrRef spec0) → V2r m outs c b = V1r m c b := by
  intro b hb
  refine Gen.V2_of m outs c b fun h => hb ?_
  rw [List.mem_singleton] at h
  subst h
  exact Finset.mem_image.mpr ⟨2, Finset.mem_univ _, rfl⟩

set_option backward.isDefEq.respectTransparency.types false in
/-- REGION 0 over the thread state: entered from every unscoped buffer at the first host stretch's contents, left at
    those contents with the output array replaced by what the write-backs leave. Its arrays split out of the unscoped
    buffers and put back at the exit contents; the generator register into the region's invariant and out; nothing
    owed; no semaphore of the kernel's own. -/
def reg0 (houts : ∀ c, outs 2 main_v9 c = (dat0 (V1r m) c).arrAt 2 cfg0.N) :
    RegionSeg (pcfgs (F := F)) Flash.adm (pdats m d1) () defs₀ Asm.𝒱₀ Asm.L Asm.lv 0 where
  win := winFacts0.to₀
  block_pos := block_pos0
  stage_whole := stage_whole0
  K := PEmpty
  osem k := k.elim
  ho := Pipeline.OwnSemFacts.none _
  hbody c := (body_obligation0 (V1r m) c).loose
  hwaits := Pipeline.hwaits_of_owed_zero _ _ _ _ Asm.L Asm.lv 0 fun _ _ => rfl
  pre c := iprop(StableHlo.held (c : Thread nD τ) (Pipeline.ucRefs τ sig) (Gen.V1 m c) ∗ Asm.E 0 c)
  post c := iprop(StableHlo.held (c : Thread nD τ) (Pipeline.ucRefs τ sig) (Gen.V2 m outs c) ∗ Asm.E 1 c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) Flash.adm (pdats m d1) winFacts0 arr_whole0 c
      ((pdats m d1 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Flash.adm (Ix := Unit) (Name := ℕ) (U := UR sig nD τ) (Lvl := ℕ)
      winFacts0 arr_whole0 c (pdats m d1) ((pdats m d1 0 c).share_full fun _ => rfl)
      (V1r m c) (V2r m outs c) ((pdats m d1 0 c).arrAt · cfg0.N) (hF0 m outs houts c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from, and left at, exactly the thread states the program's run names. -/
theorem reg0_pre (houts : ∀ c, outs 2 main_v9 c = (dat0 (V1r m) c).arrAt 2 cfg0.N) (c : Dev nD) :
    iprop(StableHlo.held (c : Thread nD τ) (Pipeline.ucRefs τ sig) (Gen.V1 m c) ∗ Asm.E 0 c) ⊢ (reg0 m d1 outs houts).pre c := .rfl
theorem reg0_post (houts : ∀ c, outs 2 main_v9 c = (dat0 (V1r m) c).arrAt 2 cfg0.N) (c : Dev nD) :
    (reg0 m d1 outs houts).post c ⊢ iprop(StableHlo.held (c : Thread nD τ) (Pipeline.ucRefs τ sig) (Gen.V2 m outs c) ∗ Asm.E 1 c) := .rfl

end Cert.KernelIdeal.R0

end
-- ==== Proof.FlashBody.lean ====
/-
  One grid point of the causal flash-attention kernel, as a triple over pure functions.

  At a grid point the kernel body reads two table words — the query tile `qi` and the key tile `ki` —, the
  query, key and value blocks `q`, `k`, `v`, and three carried buffers: the running row maximum `m`, the running
  denominator `l` and the running numerator `a`. At an opening point (`ki = 0`) it first resets them to `−∞`, `0`,
  `0`. It then forms the masked scaled scores `s = where(qpos ≥ kpos, q·kᵀ/32, NEG)`, the new maximum
  `m' = max(m, rowmax s)`, and leaves `l ← exp(m − m')·l + rowsum exp(s − m')`,
  `a ← exp(m − m')·a + exp(s − m')·v`, `m ← m'`; at a closing point (`ki = qi`) it writes the output block `a / l`.

  This module names what each buffer holds afterwards as a pure function of what it held before and of the blocks
  (`mOut`, `lOut`, `aOut`, `oOut`, compositions of the generated skeleton's payloads; `mIn`, `lIn`, `aIn` for the
  reset), and proves, for each of the four control cases and for all of them at once (`body_step`), that the printed
  body run on whole buffers at those contents ends with the buffers at those functions' values, the tables and the
  input blocks unchanged. Nothing here evaluates a payload: the values' meaning is read elsewhere.
-/
import proofs.«105760_j5128190951601_2_alg».proof.Proof.Gen.KernelIdeal.Launch
import proofs.«105760_j5128190951601_2_alg».proof.Proof.Gen.KernelIdeal.Skeleton
import proofs.«105760_j5128190951601_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.WholeRead

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-! ## What one grid point of the flash kernel leaves, as pure functions

The body reads two table words `qi`, `ki` (the query tile and the key tile of the point), the three
blocks `q`, `k`, `v`, and the carried running maximum `m`, running denominator `l` and running
numerator `a`. Below: the masked scaled scores, the new maximum, and what the three carried buffers
and the output block hold afterwards, each as a composition of the skeleton's payloads. -/

/-- The masked, scaled scores `s = where(qpos ≥ kpos, q·kᵀ/32, NEG)` of the point. -/
def scores (qi ki : BitVec 32) (q k : Vec F S1x4x256x1024 .bf16) : FVec F S4x256x256 .f32 :=
  k1_pay11 qi ki q k

/-- The new running maximum `m' = max(m, rowmax s)`. -/
def mNew (qi ki : BitVec 32) (q k : Vec F S1x4x256x1024 .bf16) (m : Vec F S4x256x1 .f32) : FVec F S4x256x1 .f32 :=
  k1_pay12 qi ki q k m

/-- The running maximum the point leaves (the new maximum, stored). -/
def mOut (qi ki : BitVec 32) (q k : Vec F S1x4x256x1024 .bf16) (m : Vec F S4x256x1 .f32) : Vec F S4x256x1 .f32 :=
  k1_pay5 (mNew qi ki q k m)

/-- The running denominator the point leaves: `exp(m − m')·l + rowsum exp(s − m')`. -/
def lOut (qi ki : BitVec 32) (q k : Vec F S1x4x256x1024 .bf16) (m l : Vec F S4x256x1 .f32) : Vec F S4x256x1 .f32 :=
  k1_pay3 (scores qi ki q k) (mNew qi ki q k m) m l

/-- The running numerator the point leaves: `exp(m − m')·a + exp(s − m')·v`. -/
def aOut (qi ki : BitVec 32) (q k v : Vec F S1x4x256x1024 .bf16) (m : Vec F S4x256x1 .f32) (a : Vec F S4x256x1024 .f32) :
    Vec F S4x256x1024 .f32 :=
  k1_pay4 (k1_pay10 v) (scores qi ki q k) (mNew qi ki q k m) m a

/-- The output block a closing point (`ki = qi`) writes: numerator over denominator, both as just left. -/
def oOut (qi ki : BitVec 32) (q k v : Vec F S1x4x256x1024 .bf16) (m l : Vec F S4x256x1 .f32) (a : Vec F S4x256x1024 .f32) :
    Vec F S4x256x1024 .f32 :=
  k1_pay6 (aOut qi ki q k v m a) (lOut qi ki q k m l)

/-- The carried buffers as the point's update finds them: reset (`−∞`, `0`, `0`) at an opening point
    (`ki = 0`), else as the point before left them. -/
def mIn (ki : BitVec 32) (m : Vec F S4x256x1 .f32) : Vec F S4x256x1 .f32 := if ki = 0#32 then k1_pay7 (F := F) else m
def lIn (ki : BitVec 32) (l : Vec F S4x256x1 .f32) : Vec F S4x256x1 .f32 := if ki = 0#32 then k1_pay8 (F := F) else l
def aIn (ki : BitVec 32) (a : Vec F S4x256x1024 .f32) : Vec F S4x256x1024 .f32 := if ki = 0#32 then k1_pay9 (F := F) else a

/-- The word the body loads from a table held at contents `T`, at the grid point `i`. -/
def tword (c : Dev nD) (M : Memref sig .tc .smem S2x18 .i32) (T : Buf (Elt F) (M.view.loc (c : Thread nD τ))) (i : grid1.Coords) : BitVec 32 :=
  M.view.readAt (Elt F) (Rect.unit (s := S2x18) (k1_off1 i) S1x1.size (k1_off1_inb i)).toLoadRect T (Shape.Idx.first (numel1_S1x1.symm ▸ Nat.one_pos))

/-- A table's buffer as the body is handed it: the right half of the full share (read-only). -/
abbrev tbPt (c : Dev nD) (M : Memref sig .tc .smem S2x18 .i32) (T : Buf (Elt F) (M.view.loc (c : Thread nD τ))) : sProp 𝕄 :=
  M.view.loc (c : Thread nD τ) ↦{fullShare.right} T

/-- The reset test on the key-tile word: `(zext (ki == 0)) ≠ 0` holds exactly when `ki = 0`. -/
theorem open_iff (w : BitVec 32) :
    Scalar.cmpi .ne (Scalar.extui (Scalar.cmpi .eq w 0#32)) 0#32 = 1#1 ↔ w = 0#32 := by
  by_cases h : w = 0#32
  · subst h; decide
  · have hb : (w == 0#32) = false := by simpa using h
    have : Scalar.cmpi .eq w 0#32 = 0#1 := by
      show BitVec.ofBool (w == 0#32) = 0#1
      rw [hb]; rfl
    rw [this]
    constructor
    · intro h'; exact absurd h' (by decide)
    · intro h'; exact absurd h' h

theorem zeros3 : (![0, 0, 0] : Fin 3 → ℕ) = fun _ => 0 := by funext a; fin_cases a <;> rfl
theorem zeros4 : (![0, 0, 0, 0] : Fin 4 → ℕ) = fun _ => 0 := by funext a; fin_cases a <;> rfl

/-- A load of the whole shape through a whole memref held at the contents that read `X` reads `X`. -/
theorem readAt_full {κ : Kind} {sp : Space} {S : Shape} {e : EltTy} {m : Memref sig κ sp S e} (h : m.IsWhole) (X : S.Idx → Elt F e)
    {off : Fin S.rank → ℕ} (ho : off = fun _ => 0) (inb : ∀ a, off a + S.size a ≤ S.size a) :
    m.view.readAt (Elt F) (Rect.unit off S.size inb).toLoadRect (h.unread X) = X := by
  rw [View.readAt_eq_ld, h.read_unread, View.ld_unit_zero ho]

/-- A load of the whole shape after stores the LAST of which filled the whole shape reads that store's payload. -/
theorem readCov_cons_unit_zero {κ : Kind} {sp : Space} {S : Shape} {e : EltTy} (v : View sig κ sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-! ## The body's triples

Each triple: with the two tables held (read-only halves) at contents whose words at the point are `qi`, `ki`, the three
input blocks' buffers at `q`, `k`, `v`, the output block's buffer at `d7` and the carried buffers at `m0`, `l0`, `a0`,
the body runs to the continuation holding the tables and the inputs as they were, the carried buffers at `mOut`,
`lOut`, `aOut` of what the update found (the reset values at an opening point), and the output block's buffer at
`oOut` at a closing point, else untouched. The two conditionals are decided from the hypotheses on `ki` and on the
closing test; every load of a buffer filled earlier in the body reads the payload last stored. -/

set_option maxHeartbeats 1000000 in
/-- An opening and closing point (`ki = 0 = qi`): the carried buffers are reset, updated, and the output block written. -/
theorem body_open_close (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki = 0#32) (hfin : k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (oOut qi ki q k v (k1_pay7 (F := F)) (k1_pay8 (F := F)) (k1_pay9 (F := F)))
            ∗ owns (c : Thread nD τ) arg8 fullShare (mOut qi ki q k (k1_pay7 (F := F)))
            ∗ owns (c : Thread nD τ) arg9 fullShare (lOut qi ki q k (k1_pay7 (F := F)) (k1_pay8 (F := F)))
            ∗ owns (c : Thread nD τ) arg10 fullShare (aOut qi ki q k v (k1_pay7 (F := F)) (k1_pay9 (F := F)))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := (open_iff _).2 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    delta body_open_close.sl.v62 body_open_close.sl.v63 body_open_close.sl.H10_2 body_open_close.sl.H9_2 body_open_close.sl.H10_1 body_open_close.sl.H9_1 body_open_close.sl.r_4 body_open_close.sl.r_3 body_open_close.sl.r_2 body_open_close.sl.r_1 body_open_close.sl.r body_open_close.sl.v29 body_open_close.sl.v33 body_open_close.sl.v39 body_open_close.sl.v47 body_open_close.sl.H8_1
    refine (View.read_writes_eq_canon _ _ _ (fun y => ⟨_, List.mem_singleton_self _, View.mem_set_unit_zero zeros3 inb_S4x256x1024_S4x256x1024_0_0_0 y⟩)).trans ?_
    refine (View.canon_unit_zero zeros3 inb_S4x256x1024_S4x256x1024_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, readCov_cons_unit_zero (S := S4x256x1) _ zeros3 inb_S4x256x1_S4x256x1_0_0_0 _ _, readCov_cons_unit_zero (S := S4x256x1024) _ zeros3 inb_S4x256x1024_S4x256x1024_0_0_0 _ _, oOut, aOut, lOut, mNew, scores]
  isplitl [H8]
  · iexists _; isplitr
    swap; · iexact H8
    ipureintro
    delta body_open_close.sl.r_4 body_open_close.sl.r_1 body_open_close.sl.r body_open_close.sl.v29 body_open_close.sl.H8_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_open_close.sl.H9_2 body_open_close.sl.H9_1 body_open_close.sl.r_4 body_open_close.sl.r_3 body_open_close.sl.r_1 body_open_close.sl.r body_open_close.sl.v29 body_open_close.sl.v33 body_open_close.sl.v39 body_open_close.sl.H8_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_open_close.sl.H10_2 body_open_close.sl.H10_1 body_open_close.sl.r_4 body_open_close.sl.r_3 body_open_close.sl.r_2 body_open_close.sl.r_1 body_open_close.sl.r body_open_close.sl.v29 body_open_close.sl.v33 body_open_close.sl.v47 body_open_close.sl.H8_1
  refine (View.read_writes_eq_canon _ _ _ (fun y => ⟨_, List.mem_cons_self, View.mem_set_unit_zero zeros3 inb_S4x256x1024_S4x256x1024_0_0_0 y⟩)).trans ?_
  refine (View.canon_cons_unit_zero zeros3 inb_S4x256x1024_S4x256x1024_0_0_0 _ _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

set_option maxHeartbeats 1000000 in
/-- An opening point that does not close (`ki = 0 ≠ qi`): reset and update; the output block is left as it was. -/
theorem body_open (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki = 0#32) (hfin : ¬ k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (d7)
            ∗ owns (c : Thread nD τ) arg8 fullShare (mOut qi ki q k (k1_pay7 (F := F)))
            ∗ owns (c : Thread nD τ) arg9 fullShare (lOut qi ki q k (k1_pay7 (F := F)) (k1_pay8 (F := F)))
            ∗ owns (c : Thread nD τ) arg10 fullShare (aOut qi ki q k v (k1_pay7 (F := F)) (k1_pay9 (F := F)))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := (open_iff _).2 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    delta body_open.sl.r_4 body_open.sl.r_1 body_open.sl.r body_open.sl.v29 body_open.sl.H8_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_open.sl.r_4 body_open.sl.r_3 body_open.sl.r_1 body_open.sl.r body_open.sl.v29 body_open.sl.v33 body_open.sl.v39 body_open.sl.H8_1 body_open.sl.H9_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_open.sl.r_4 body_open.sl.r_3 body_open.sl.r_2 body_open.sl.r_1 body_open.sl.r body_open.sl.v29 body_open.sl.v33 body_open.sl.v47 body_open.sl.H8_1 body_open.sl.H10_1
  refine (View.read_writes_eq_canon _ _ _ (fun y => ⟨_, List.mem_cons_self, View.mem_set_unit_zero zeros3 inb_S4x256x1024_S4x256x1024_0_0_0 y⟩)).trans ?_
  refine (View.canon_cons_unit_zero zeros3 inb_S4x256x1024_S4x256x1024_0_0_0 _ _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

set_option maxHeartbeats 1000000 in
/-- A closing point that does not open (`ki = qi ≠ 0`): update from what the point before left, and write the output block. -/
theorem body_close (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki ≠ 0#32) (hfin : k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (oOut qi ki q k v (m0) (l0) (a0))
            ∗ owns (c : Thread nD τ) arg8 fullShare (mOut qi ki q k (m0))
            ∗ owns (c : Thread nD τ) arg9 fullShare (lOut qi ki q k (m0) (l0))
            ∗ owns (c : Thread nD τ) arg10 fullShare (aOut qi ki q k v (m0) (a0))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := mt (open_iff _).1 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    delta body_close.sl.v62 body_close.sl.v63 body_close.sl.H10_1 body_close.sl.H9_1 body_close.sl.r_4 body_close.sl.r_3 body_close.sl.r_2 body_close.sl.r_1 body_close.sl.r
    refine (View.read_writes_eq_canon _ _ _ (fun y => ⟨_, List.mem_singleton_self _, View.mem_set_unit_zero zeros3 inb_S4x256x1024_S4x256x1024_0_0_0 y⟩)).trans ?_
    refine (View.canon_unit_zero zeros3 inb_S4x256x1024_S4x256x1024_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, oOut, aOut, lOut, mNew, scores]
  isplitl [H8]
  · iexists _; isplitr
    swap; · iexact H8
    ipureintro
    delta body_close.sl.r_4 body_close.sl.r_1 body_close.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_close.sl.H9_1 body_close.sl.r_4 body_close.sl.r_3 body_close.sl.r_1 body_close.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_close.sl.H10_1 body_close.sl.r_4 body_close.sl.r_3 body_close.sl.r_2 body_close.sl.r_1 body_close.sl.r
  refine (View.read_writes_eq_canon _ _ _ (fun y => ⟨_, List.mem_singleton_self _, View.mem_set_unit_zero zeros3 inb_S4x256x1024_S4x256x1024_0_0_0 y⟩)).trans ?_
  refine (View.canon_unit_zero zeros3 inb_S4x256x1024_S4x256x1024_0_0_0 _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

set_option maxHeartbeats 1000000 in
/-- A point that neither opens nor closes: update only. -/
theorem body_mid (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki ≠ 0#32) (hfin : ¬ k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (d7)
            ∗ owns (c : Thread nD τ) arg8 fullShare (mOut qi ki q k (m0))
            ∗ owns (c : Thread nD τ) arg9 fullShare (lOut qi ki q k (m0) (l0))
            ∗ owns (c : Thread nD τ) arg10 fullShare (aOut qi ki q k v (m0) (a0))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := mt (open_iff _).1 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    delta body_mid.sl.r_4 body_mid.sl.r_1 body_mid.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_mid.sl.r_4 body_mid.sl.r_3 body_mid.sl.r_1 body_mid.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_mid.sl.r_4 body_mid.sl.r_3 body_mid.sl.r_2 body_mid.sl.r_1 body_mid.sl.r
  refine (View.read_writes_eq_canon _ _ _ (fun y => ⟨_, List.mem_singleton_self _, View.mem_set_unit_zero zeros3 inb_S4x256x1024_S4x256x1024_0_0_0 y⟩)).trans ?_
  refine (View.canon_unit_zero zeros3 inb_S4x256x1024_S4x256x1024_0_0_0 _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

/-- Every point, the four cases in one statement. -/
theorem body_step (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : True) (hfin : True)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (if k1_cond2 qi ki = 1#1 then oOut qi ki q k v (mIn ki m0) (lIn ki l0) (aIn ki a0) else d7)
            ∗ owns (c : Thread nD τ) arg8 fullShare (mOut qi ki q k (mIn ki m0))
            ∗ owns (c : Thread nD τ) arg9 fullShare (lOut qi ki q k (mIn ki m0) (lIn ki l0))
            ∗ owns (c : Thread nD τ) arg10 fullShare (aOut qi ki q k v (mIn ki m0) (aIn ki a0))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  by_cases h0 : ki = 0#32
  · by_cases hf : k1_cond2 qi ki = 1#1
    · rw [show mIn ki m0 = k1_pay7 (F := F) from if_pos h0, show lIn ki l0 = k1_pay8 (F := F) from if_pos h0,
        show aIn ki a0 = k1_pay9 (F := F) from if_pos h0, if_pos hf]
      exact body_open_close c E i arg2 harg2 arg3 harg3 arg4 harg4 arg5 harg5 arg6 harg6 arg7 harg7 arg8 harg8 arg9 harg9 arg10 harg10 T0 T1 qi ki hqi hki h0 hf q k v d7 m0 l0 a0 K
    · rw [show mIn ki m0 = k1_pay7 (F := F) from if_pos h0, show lIn ki l0 = k1_pay8 (F := F) from if_pos h0,
        show aIn ki a0 = k1_pay9 (F := F) from if_pos h0, if_neg hf]
      exact body_open c E i arg2 harg2 arg3 harg3 arg4 harg4 arg5 harg5 arg6 harg6 arg7 harg7 arg8 harg8 arg9 harg9 arg10 harg10 T0 T1 qi ki hqi hki h0 hf q k v d7 m0 l0 a0 K
  · by_cases hf : k1_cond2 qi ki = 1#1
    · rw [show mIn ki m0 = m0 from if_neg h0, show lIn ki l0 = l0 from if_neg h0, show aIn ki a0 = a0 from if_neg h0, if_pos hf]
      exact body_close c E i arg2 harg2 arg3 harg3 arg4 harg4 arg5 harg5 arg6 harg6 arg7 harg7 arg8 harg8 arg9 harg9 arg10 harg10 T0 T1 qi ki hqi hki h0 hf q k v d7 m0 l0 a0 K
    · rw [show mIn ki m0 = m0 from if_neg h0, show lIn ki l0 = l0 from if_neg h0, show aIn ki a0 = a0 from if_neg h0, if_neg hf]
      exact body_mid c E i arg2 harg2 arg3 harg3 arg4 harg4 arg5 harg5 arg6 harg6 arg7 harg7 arg8 harg8 arg9 harg9 arg10 harg10 T0 T1 qi ki hqi hki h0 hf q k v d7 m0 l0 a0 K

end Cert.KernelIdeal.Flash

end
-- ==== Proof.FlashDat.lean ====
/-
  The attention region's proof data: what each of its 36 grid points finds and leaves.

  The region visits, for each query tile, the key tiles 0 .. (that tile) in order; the two tables name
  the query tile and the key tile of every point.  Three carried buffers hold the running row maximum,
  the running denominator and the running numerator of the online softmax: a point whose key tile is 0
  resets them, every point updates them from its three blocks, and a point whose key tile is its query
  tile divides numerator by denominator into the output block, which is written back after that point
  and at no other.  The carried contents are named by a recursion over the points (the first point
  resets, so what the buffers held before the region does not matter).
-/
import proofs.«105760_j5128190951601_2_alg».proof.Proof.FlashAdm
import proofs.«105760_j5128190951601_2_alg».proof.Proof.FlashBody
import proofs.«105760_j5128190951601_2_alg».proof.Proof.Gen.KernelIdeal.Launch
import proofs.«105760_j5128190951601_2_alg».proof.Proof.Gen.KernelIdeal.Skeleton
import Idealize.ShloMosaic.Lib.Pipeline.FrameBody
import Idealize.ShloMosaic.Lib.Pipeline.TableIdle
import Idealize.ShloMosaic.Lib.Pipeline.Kit
import Idealize.ShloMosaic.Lib.Tactic

set_option maxRecDepth 16384
set_option Elab.async false

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The attention pipeline at the literal tables. -/
abbrev cfgF : Pipeline.Cfg sig Λ₀ := cfg1 (adm1 (F := F))

/-! ## The tables' words, point by point -/

/-- The row-major position, in a 2 x 18 table, of the word the body and the index maps read at grid point `i`. -/
def pos (i : grid1.Coords) : Fin 36 :=
  S2x18.rowMajor ((Rect.unit (s := S2x18) (k1_off1 i) S1x1.size (Facts₀.k1_off1_inb i)).emb (Shape.Idx.first (Facts₀.numel1_S1x1.symm ▸ Nat.one_pos)))

/-- The query tile and the key tile of point `t`. -/
def qiAt (t : Fin grid1.N) : BitVec 32 := lit0 (pos (grid1.coords t))
def kiAt (t : Fin grid1.N) : BitVec 32 := lit1 (pos (grid1.coords t))

/-- The first point opens a query tile's run: its key tile is 0. -/
theorem ki_first : kiAt ⟨0, by decide⟩ = 0#32 := by decide +kernel
/-- A point that does not close its query tile's run (key tile ≠ query tile) is followed by a point of the same
    query tile. -/
theorem sched3 : ∀ t : Fin grid1.N, ¬ k1_cond2 (qiAt t) (kiAt t) = 1#1 → ∃ h : t.val + 1 < grid1.N, qiAt ⟨t.val + 1, h⟩ = qiAt t := by decide +kernel

/-- The words the body loads from the two tables at a grid point. -/
theorem tword_tbl0 (c : Dev nD) (i : grid1.Coords) : tword (F := F) c (Memref.whole main_c) ((tbl (F := F)) 0) i = lit0 (pos i) := rfl
theorem tword_tbl1 (c : Dev nD) (i : grid1.Coords) : tword (F := F) c (Memref.whole main_c_0) ((tbl (F := F)) 1) i = lit1 (pos i) := rfl

theorem atD_tbl0 (i : grid1.Coords) : (tbl (F := F)).atD 0 (k1_off1 i) = lit0 (pos i) := by
  have h : ∀ a : Fin 2, k1_off1 i a + 1 ≤ S2x18.size a := fun a => match a with
    | ⟨0, _⟩ => Facts₀.k1_off1_inb i 0
    | ⟨1, _⟩ => Facts₀.k1_off1_inb i 1
  unfold Pipeline.Prefetch.Contents.atD
  refine (dif_pos h).trans ?_
  show lit0 (S2x18.rowMajor _) = lit0 (pos i)
  refine congrArg lit0 (congrArg S2x18.rowMajor ?_)
  funext a; exact Fin.ext rfl

theorem atD_tbl1 (i : grid1.Coords) : (tbl (F := F)).atD 1 (k1_off1 i) = lit1 (pos i) := by
  have h : ∀ a : Fin 2, k1_off1 i a + 1 ≤ S2x18.size a := fun a => match a with
    | ⟨0, _⟩ => Facts₀.k1_off1_inb i 0
    | ⟨1, _⟩ => Facts₀.k1_off1_inb i 1
  unfold Pipeline.Prefetch.Contents.atD
  refine (dif_pos h).trans ?_
  show lit1 (S2x18.rowMajor _) = lit1 (pos i)
  refine congrArg lit1 (congrArg S2x18.rowMajor ?_)
  funext a; exact Fin.ext rfl

/-- The output window's block index at a point: the point's query tile. -/
theorem outIndex3 (t : Fin (cfgF (F := F)).N) : ((cfgF (F := F)).win (3 : Fin 4)).index t = ![0, (qiAt t).toNat, 0] := rfl

/-- The output window is idle exactly at the points that do not close a run. -/
theorem idle3 (t : Fin (cfgF (F := F)).N) :
    (cfgF (F := F)).idle (3 : Fin 4) ((cfgF (F := F)).grid.coords t) = !(k1_cond2 (qiAt t) (kiAt t) == 1#1) := by
  show (!(k1_cond2 ((tbl (F := F)).atD 0 (k1_off1 (grid1.coords t))) ((tbl (F := F)).atD 1 (k1_off1 (grid1.coords t))) == 1#1)) = _
  rw [atD_tbl0, atD_tbl1]; rfl

/-- and at those points it is not written back: the next point has the same block index. -/
theorem flush3_of_idle (t : Fin (cfgF (F := F)).N) (h : ¬ k1_cond2 (qiAt t) (kiAt t) = 1#1) :
    ((cfgF (F := F)).win (3 : Fin 4)).flush t = false := by
  obtain ⟨hlt, hq⟩ := sched3 t h
  unfold Pipeline.Window.flush
  have h1 : decide (t.val + 1 = (cfgF (F := F)).grid.N) = false := decide_eq_false (Nat.ne_of_lt hlt)
  have h2 : decide (∃ h : t.val + 1 < (cfgF (F := F)).grid.N, ((cfgF (F := F)).win (3 : Fin 4)).index ⟨t.val + 1, h⟩ ≠ ((cfgF (F := F)).win (3 : Fin 4)).index t) = false := by
    refine decide_eq_false ?_
    rintro ⟨h', hne⟩
    apply hne
    rw [outIndex3, outIndex3, hq]
  rw [h1, h2]; simp

/-! ## The blocks, and the carried buffers' contents point by point -/

section Data

variable (V : (c : Dev nD) → (b : Ref sig .tc) → Buf (Elt F) ((c : Thread nD τ).loc b))

/-- Window `w`'s block at point `t`, read off its array as the region finds it (`V`). -/
def iblk (c : Dev nD) (w : Fin 4) (t : Fin (cfgF (F := F)).N) :
    (((cfgF (F := F)).win w).xblock ((cfgF (F := F)).grid.coords t)).Idx → Elt F ((cfgF (F := F)).win w).elt :=
  (((cfgF (F := F)).win w).blk t).view.read (Elt F) (V c (Pipeline.arrRef spec1 w))

/-- The three carried buffers' contents: running maximum, running denominator, running numerator. -/
abbrev St (F : FTy → Type) [FloatOps F] [Named F] : Type := Vec F S4x256x1 .f32 × Vec F S4x256x1 .f32 × Vec F S4x256x1024 .f32

/-- What the carried buffers hold after the body at point `t`, from what they held before it. -/
def stepS (c : Dev nD) (t : Fin (cfgF (F := F)).N) (s : St F) : St F :=
  (mOut (qiAt t) (kiAt t) (iblk V c 0 t) (iblk V c 1 t) (mIn (kiAt t) s.1),
   lOut (qiAt t) (kiAt t) (iblk V c 0 t) (iblk V c 1 t) (mIn (kiAt t) s.1) (lIn (kiAt t) s.2.1),
   aOut (qiAt t) (kiAt t) (iblk V c 0 t) (iblk V c 1 t) (iblk V c 2 t) (mIn (kiAt t) s.1) (aIn (kiAt t) s.2.2))

/-- The output block a closing point writes, from what the carried buffers held before it. -/
def outS (c : Dev nD) (t : Fin (cfgF (F := F)).N) (s : St F) : Vec F S4x256x1024 .f32 :=
  oOut (qiAt t) (kiAt t) (iblk V c 0 t) (iblk V c 1 t) (iblk V c 2 t) (mIn (kiAt t) s.1) (lIn (kiAt t) s.2.1) (aIn (kiAt t) s.2.2)

/-- A point whose key tile is 0 resets the carried buffers: what they held before does not matter. -/
theorem stepS_reset (c : Dev nD) (t : Fin (cfgF (F := F)).N) (h : kiAt t = 0#32) (s s' : St F) : stepS V c t s = stepS V c t s' := by
  simp only [stepS, mIn, lIn, aIn, if_pos h]
theorem outS_reset (c : Dev nD) (t : Fin (cfgF (F := F)).N) (h : kiAt t = 0#32) (s s' : St F) : outS V c t s = outS V c t s' := by
  simp only [outS, mIn, lIn, aIn, if_pos h]

/-- The carried buffers' contents before position `n` (before the first point: the reset values, which the
    first point would write anyway). -/
def traj (c : Dev nD) : ℕ → St F
  | 0 => (k1_pay7 (F := F), k1_pay8 (F := F), k1_pay9 (F := F))
  | n + 1 => if h : n < (cfgF (F := F)).N then stepS V c ⟨n, h⟩ (traj c n) else traj c n

theorem traj_succ (c : Dev nD) (t : Fin (cfgF (F := F)).N) : traj V c (t.val + 1) = stepS V c t (traj V c t.val) := by
  rw [traj, dif_pos t.isLt]

/-- Contents that are the recursion's once a point has run are as good as the recursion's at every point:
    the first point resets. -/
theorem stepS_known (c : Dev nD) (t : Fin (cfgF (F := F)).N) (s : St F) (hs : t.val ≠ 0 → s = traj V c t.val) :
    stepS V c t s = traj V c (t.val + 1) := by
  rw [traj_succ]
  by_cases h0 : t.val = 0
  · exact stepS_reset V c t (by obtain ⟨tv, ht⟩ := t; simp only at h0; subst h0; exact ki_first) _ _
  · rw [hs h0]
theorem outS_known (c : Dev nD) (t : Fin (cfgF (F := F)).N) (s : St F) (hs : t.val ≠ 0 → s = traj V c t.val) :
    outS V c t s = outS V c t (traj V c t.val) := by
  by_cases h0 : t.val = 0
  · exact outS_reset V c t (by obtain ⟨tv, ht⟩ := t; simp only at h0; subst h0; exact ki_first) _ _
  · rw [hs h0]

/-! ## The invariant and the proof data -/

/-- The projection region's staging buffers, which this region does not touch, each at some contents. -/
def otherBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The carried buffers at contents `s`. -/
def carried (c : Dev nD) (s : St F) : sProp 𝕄 :=
  iprop(owns (c : Thread nD τ) (Memref.whole cc1_scratch0) fullShare s.1
    ∗ owns (c : Thread nD τ) (Memref.whole cc1_scratch1) fullShare s.2.1
    ∗ owns (c : Thread nD τ) (Memref.whole cc1_scratch2) fullShare s.2.2)

/-- THE INVARIANT before point `t`: the two tables whole at their contents; the carried buffers at what the
    recursion says once a point has run (anything before the first point); the other region's buffers and the
    generator register, untouched. -/
def Phi (c : Dev nD) (t : Fin ((cfgF (F := F)).N + 1)) : sProp 𝕄 :=
  iprop(Pipeline.prefHeld (Ix := Unit) (Name := ℕ) (U := UR sig nD τ) (Lvl := ℕ) pre1 c (fun _ => fullShare) (tbl (F := F))
    ∗ (∃ s : St F, ⌜t.val ≠ 0 → s = traj V c t.val⌝ ∗ carried c s)
    ∗ otherBufs (F := F) c ∗ ∃ r, prngReg c r)

/-- The proof data of the attention pipeline on core `c`: the arrays as the region finds them (`V`); after the
    body each input's buffer at its block and, at a closing point, the output's at the quotient; the three input
    windows' shares of the one array they read; nothing owed. -/
def dat1 (c : Dev nD) : Dat τ (Elt F) Unit ℕ (UR sig nD τ) ℕ (cfgF (F := F)) c where
  A w := V c (Pipeline.arrRef spec1 w)
  after w t := match w with
    | ⟨0, _⟩ => iblk V c 0 t
    | ⟨1, _⟩ => iblk V c 1 t
    | ⟨2, _⟩ => iblk V c 2 t
    | ⟨3, _⟩ => outS V c t (traj V c t.val)
  Φ t := Phi V c t
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfgF (F := F)).W) : (dat1 V c).A w = V c (Pipeline.arrRef spec1 w) := by
  dsimp only [dat1]

theorem after1_0 (c : Dev nD) (t : Fin (cfgF (F := F)).N) : (dat1 V c).after 0 t = iblk V c 0 t := by dsimp only [dat1]; try rfl
theorem after1_1 (c : Dev nD) (t : Fin (cfgF (F := F)).N) : (dat1 V c).after 1 t = iblk V c 1 t := by dsimp only [dat1]; try rfl
theorem after1_2 (c : Dev nD) (t : Fin (cfgF (F := F)).N) : (dat1 V c).after 2 t = iblk V c 2 t := by dsimp only [dat1]; try rfl
theorem after1_3 (c : Dev nD) (t : Fin (cfgF (F := F)).N) : (dat1 V c).after 3 t = outS V c t (traj V c t.val) := by dsimp only [dat1]; try rfl

/-- Each input's current staging buffer holds its block at every point, fetched there or not. -/
theorem before1_0 (c : Dev nD) (t : Fin (cfgF (F := F)).N) (d) : (dat1 V c).before 0 t d = iblk V c 0 t :=
  ((dat1 V c).before_in_eq_fetched 0 rfl (fun _ => rfl) (fun _ _ _ => rfl) (fun t => by rw [after1_0]; unfold Dat.blockOf iblk; rw [A_eq1]; try rfl) t d).trans
    (by unfold Dat.fetched Dat.blockOf iblk; rw [A_eq1]; try rfl)
theorem before1_1 (c : Dev nD) (t : Fin (cfgF (F := F)).N) (d) : (dat1 V c).before 1 t d = iblk V c 1 t :=
  ((dat1 V c).before_in_eq_fetched 1 rfl (fun _ => rfl) (fun _ _ _ => rfl) (fun t => by rw [after1_1]; unfold Dat.blockOf iblk; rw [A_eq1]; try rfl) t d).trans
    (by unfold Dat.fetched Dat.blockOf iblk; rw [A_eq1]; try rfl)
theorem before1_2 (c : Dev nD) (t : Fin (cfgF (F := F)).N) (d) : (dat1 V c).before 2 t d = iblk V c 2 t :=
  ((dat1 V c).before_in_eq_fetched 2 rfl (fun _ => rfl) (fun _ _ _ => rfl) (fun t => by rw [after1_2]; unfold Dat.blockOf iblk; rw [A_eq1]; try rfl) t d).trans
    (by unfold Dat.fetched Dat.blockOf iblk; rw [A_eq1]; try rfl)

end Data

/-! ## The body obligation -/

section Body

variable (V : (c : Dev nD) → (b : Ref sig .tc) → Buf (Elt F) ((c : Thread nD τ).loc b))

/-- The two tables, one by one. -/
theorem prefHeld1_eq (c : Dev nD) (q : Fin 2 → PosShare TreeShare) (v : pre1.Contents (Elt F)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

/-- A whole buffer's points-to along the halves of the full share. -/
theorem pt_split (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem pt_join (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- Once a point has run, the invariant names the carried buffers' contents. -/
theorem Phi_pos (c : Dev nD) (t : Fin ((cfgF (F := F)).N + 1)) (h0 : t.val ≠ 0) :
    Phi V c t = iprop(Pipeline.prefHeld (Ix := Unit) (Name := ℕ) (U := UR sig nD τ) (Lvl := ℕ) pre1 c (fun _ => fullShare) (tbl (F := F))
      ∗ carried c (traj V c t.val) ∗ otherBufs (F := F) c ∗ ∃ r, prngReg c r) := by
  unfold Phi; rw [exists_held h0 (traj V c t.val) (carried (F := F) c)]

/-- The current staging memref of each window at point `t`. -/
abbrev st1_0 (t : Fin (cfgF (F := F)).N) := ((cfgF (F := F)).win 0).stage ((cfgF (F := F)).slots t 0)
abbrev st1_1 (t : Fin (cfgF (F := F)).N) := ((cfgF (F := F)).win 1).stage ((cfgF (F := F)).slots t 1)
abbrev st1_2 (t : Fin (cfgF (F := F)).N) := ((cfgF (F := F)).win 2).stage ((cfgF (F := F)).slots t 2)
abbrev st1_3 (t : Fin (cfgF (F := F)).N) := ((cfgF (F := F)).win 3).stage ((cfgF (F := F)).slots t 3)

/-- The kernel body at point `t`, on what the pipeline calls it with. -/
abbrev bodyAt1 (t : Fin (cfgF (F := F)).N) : Prog (TpuEff nD τ sig (Elt F) Λ₀ .tc) PUnit :=
  cc1__flash_causal_kernel (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)

/-- What the body obligation asks at point `t`, the windows one by one on the left. -/
def BodyGoal (c : Dev nD) (t : Fin (cfgF (F := F)).N) : Prop :=
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ bigSep Finset.univ fun w : Fin (cfgF (F := F)).W =>
                match (cfgF (F := F)).idle w ((cfgF (F := F)).grid.coords t) with
                | true =>
                  match ((cfgF (F := F)).win w).flush t with
                  | false => iprop(∃ d, owns (c : Thread nD τ) (((cfgF (F := F)).win w).stage ((cfgF (F := F)).slots t w)) fullShare ((dat1 V c).before w t d))
                  | true => owns (c : Thread nD τ) (((cfgF (F := F)).win w).stage ((cfgF (F := F)).slots t w)) fullShare ((dat1 V c).after w t)
                | false => owns (c : Thread nD τ) (((cfgF (F := F)).win w).stage ((cfgF (F := F)).slots t w)) fullShare ((dat1 V c).after w t))

set_option maxHeartbeats 4000000 in
/-- The body at the first point (its key tile is 0: the carried buffers are reset whatever they held), closing its run: the output's buffer ends at the quotient. -/
theorem sound_first_close (c : Dev nD) (t : Fin (cfgF (F := F)).N) (h0 : t.val = 0) (hc : k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have hk0 : kiAt t = 0#32 := by obtain ⟨tv, ht⟩ := t; simp only at h0; subst h0; exact ki_first
  unfold Phi
  rw [prefHeld1_eq]
  have hb : (!(k1_cond2 (qiAt t) (kiAt t) == 1#1)) = false := by rw [hc]; rfl
  rw [hb]
  simp only [if_pos hc] at hB
  simp only [before1_0, before1_1, before1_2, after1_0, after1_1, after1_2, after1_3, carried, stepS, outS, mIn, lIn, aIn, if_pos hk0]
  simp only [mIn, lIn, aIn, if_pos hk0] at hB
  iintro ⟨⟨⟨HT0, HT1⟩, ⟨%s, -, HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) s.1 s.2.1 s.2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexact H3

set_option maxHeartbeats 4000000 in
/-- The body at the first point (its key tile is 0: the carried buffers are reset whatever they held), not closing its run: the output's buffer is handed back as found. -/
theorem sound_first_open (c : Dev nD) (t : Fin (cfgF (F := F)).N) (h0 : t.val = 0) (hc : ¬ k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have hk0 : kiAt t = 0#32 := by obtain ⟨tv, ht⟩ := t; simp only at h0; subst h0; exact ki_first
  unfold Phi
  rw [prefHeld1_eq]
  have hb : (!(k1_cond2 (qiAt t) (kiAt t) == 1#1)) = true := by simp [hc]
  rw [hb, flush3_of_idle t hc]
  simp only [if_neg hc] at hB
  simp only [before1_0, before1_1, before1_2, after1_0, after1_1, after1_2, carried, stepS, mIn, lIn, aIn, if_pos hk0]
  simp only [mIn, lIn, aIn, if_pos hk0] at hB
  iintro ⟨⟨⟨HT0, HT1⟩, ⟨%s, -, HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) s.1 s.2.1 s.2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexists d3; iexact H3

set_option maxHeartbeats 4000000 in
/-- The body at a later point (the carried buffers hold what the recursion says), closing its run: the output's buffer ends at the quotient. -/
theorem sound_later_close (c : Dev nD) (t : Fin (cfgF (F := F)).N) (h0 : t.val ≠ 0) (hc : k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have h0' : t.castSucc.val ≠ 0 := by rw [Fin.coe_castSucc]; exact h0
  rw [Phi_pos V c t.castSucc h0', Fin.coe_castSucc, prefHeld1_eq]
  have hb : (!(k1_cond2 (qiAt t) (kiAt t) == 1#1)) = false := by rw [hc]; rfl
  rw [hb]
  simp only [if_pos hc] at hB
  simp only [before1_0, before1_1, before1_2, after1_0, after1_1, after1_2, after1_3, carried, stepS, outS]
  iintro ⟨⟨⟨HT0, HT1⟩, ⟨HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) (traj V c t.val).1 (traj V c t.val).2.1 (traj V c t.val).2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexact H3

set_option maxHeartbeats 4000000 in
/-- The body at a later point (the carried buffers hold what the recursion says), not closing its run: the output's buffer is handed back as found. -/
theorem sound_later_open (c : Dev nD) (t : Fin (cfgF (F := F)).N) (h0 : t.val ≠ 0) (hc : ¬ k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have h0' : t.castSucc.val ≠ 0 := by rw [Fin.coe_castSucc]; exact h0
  rw [Phi_pos V c t.castSucc h0', Fin.coe_castSucc, prefHeld1_eq]
  have hb : (!(k1_cond2 (qiAt t) (kiAt t) == 1#1)) = true := by simp [hc]
  rw [hb, flush3_of_idle t hc]
  simp only [if_neg hc] at hB
  simp only [before1_0, before1_1, before1_2, after1_0, after1_1, after1_2, carried, stepS]
  iintro ⟨⟨⟨HT0, HT1⟩, ⟨HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) (traj V c t.val).1 (traj V c t.val).2.1 (traj V c t.val).2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexists d3; iexact H3

/-- The body at any point: the tables' words are the point's tiles; the inputs' memrefs hold their blocks; the carried
    buffers hold what the recursion says (or anything, at the first point, which resets them); so the kernel's triple
    applies.  The output's buffer is left as found at a point that does not close its run, and holds the quotient at a
    closing point. -/
theorem sound_body1 (c : Dev nD) (t : Fin (cfgF (F := F)).N) : BodyGoal V c t := by
  by_cases h0 : t.val = 0
  · by_cases hc : k1_cond2 (qiAt t) (kiAt t) = 1#1
    · exact sound_first_close V c t h0 hc
    · exact sound_first_open V c t h0 hc
  · by_cases hc : k1_cond2 (qiAt t) (kiAt t) = 1#1
    · exact sound_later_close V c t h0 hc
    · exact sound_later_open V c t h0 hc

/-- The library's body obligation, at every point. -/
theorem body_obligation1 (c : Dev nD) : BodyObligation (dat1 (F := F) V c) (defs₀ (F := F)) Variants.none () Set.univ := fun t => by
  rw [bigSep_W1]
  exact sound_body1 V c t

end Body

end Cert.KernelIdeal.Flash

end
-- ==== Proof.Final.lean ====
/-
  The kernel program's run, put together: what the two regions leave in their result arrays, named once; the family
  of those contents the program's run is stated over; the frame of the whole program and its run with the result named.
-/
import proofs.«105760_j5128190951601_2_alg».proof.Proof.Assemble
import proofs.«105760_j5128190951601_2_alg».proof.Proof.Outs
import proofs.«105760_j5128190951601_2_alg».proof.Proof.Region0Seg
import proofs.«105760_j5128190951601_2_alg».proof.Proof.FlashDat

noncomputable section

namespace Cert.KernelIdeal.Final

open Idealize.ShloMosaic Idealize.ShloMosaic.TcCoe Idealize.SL.Sem
open Idealize.ShloMosaic.Pipeline (Dat RegionSeg)
open Cert.KernelIdeal Cert.KernelIdeal.Gen

variable {F : FTy → Type} [FloatOps F] [Named F]
variable (m : (ℓ : Loc nD τ sig) → Buf (Elt F) ℓ)

/-- What the projection region leaves in its result array. -/
def o9 (c : Dev nD) : Buf (Elt F) ((c : Thread nD τ).loc main_v9) := (R0.dat0 (R0.V1r m) c).arrAt 2 cfg0.N

/-- The buffers when the attention region is entered. -/
abbrev V3r : (c : Dev nD) → (b : Ref sig .tc) → Buf (Elt F) ((c : Thread nD τ).loc b) := fun c b => Asm.V3' m (o9 m) c b

/-- What the attention region leaves in its result array. -/
def o11 (c : Dev nD) : Buf (Elt F) ((c : Thread nD τ).loc main_v11) := (Flash.dat1 (V3r m) c).arrAt 3 (Flash.cfgF (F := F)).N

/-- The family of contents the regions leave. -/
def outs : Outs (F := F) := Asm.mkOuts (o9 m) (o11 m)

theorem houts0 (c : Dev nD) : outs m 2 main_v9 c = (R0.dat0 (R0.V1r m) c).arrAt 2 cfg0.N := Asm.mkOuts_v9 _ _ _ _

theorem V3_eq : (fun (c : Dev nD) (b : Ref sig .tc) => Gen.V3 m (outs m) c b) = V3r m :=
  funext fun c => funext fun b => congrFun (Asm.V3_mkOuts m (o9 m) (o11 m) c) _

theorem houts1 (c : Dev nD) :
    outs m 4 main_v11 c = (Flash.dat1 (fun c b => Gen.V3 m (outs m) c b) c).arrAt 3 (Flash.cfgF (F := F)).N := by
  rw [V3_eq]; exact Asm.mkOuts_v11 _ _ _ _

end Cert.KernelIdeal.Final

end
-- ==== Proof.FlashSplitGen.lean ====
/-
  The attention region's entry and exit, as separation-logic bookkeeping.  Three of the region's four windows read
  one array; the fourth writes another.  At the entry the core's unscoped buffers, each whole at the full share, are
  dealt out: the shared array in three holdings (a half and two quarters of its full share), one per reading window,
  the output array whole, the two tables, and the rest.  At the exit the three holdings are put back together (the
  reading windows never write, so all three still hold the entry contents), the output array is taken at what the
  region left in it, and the buffers are whole again.  Stated for any proof data of the pipeline with those entry
  contents and shares.
-/
import proofs.«105760_j5128190951601_2_alg».proof.Proof.FlashAdm
import proofs.«105760_j5128190951601_2_alg».proof.Proof.Gen.KernelIdeal.Launch
import Idealize.ShloMosaic.Lib.Pipeline.Regions
import Idealize.ShloMosaic.Lib.Pipeline.Frame

set_option maxRecDepth 16384
set_option Elab.async false

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F] [Named F]

local notation "𝕄" => MT nD τ sig Unit (Elt F) ℕ (UR sig nD τ) ℕ

/-- The attention pipeline at the literal tables. -/
abbrev cfgSplit : Pipeline.Cfg sig Λ₀ := cfg1 (adm1 (F := F))

/-- The windows' arrays, one by one. -/
theorem arrays_eq4 (c : Dev nD) (dat : Dat τ (Elt F) Unit ℕ (UR sig nD τ) ℕ (cfgSplit (F := F)) c)
    (hq0 : dat.q 0 = fullShare.left) (hq1 : dat.q 1 = fullShare.right.left) (hq2 : dat.q 2 = fullShare.right.right)
    (G : (w : Fin (cfgSplit (F := F)).W) → Buf (Elt F) (((cfgSplit (F := F)).win w).arr.view.loc (c.tc : Thread nD τ))) :
    (dat.arrays G : sProp 𝕄)
      = iprop((((c : Thread nD τ).loc main_v10) ↦{fullShare.left} G 0) ∗ (((c : Thread nD τ).loc main_v10) ↦{fullShare.right.left} G 1)
          ∗ (((c : Thread nD τ).loc main_v10) ↦{fullShare.right.right} G 2) ∗ (((c : Thread nD τ).loc main_v11) ↦{fullShare} G 3)) := by
  unfold Dat.arrays
  rw [bigSep_W1]
  have s0 : dat.share 0 = fullShare.left := by unfold Dat.share; exact (if_neg Bool.false_ne_true).trans hq0
  have s1 : dat.share 1 = fullShare.right.left := by unfold Dat.share; exact (if_neg Bool.false_ne_true).trans hq1
  have s2 : dat.share 2 = fullShare.right.right := by unfold Dat.share; exact (if_neg Bool.false_ne_true).trans hq2
  have s3 : dat.share 3 = fullShare := by unfold Dat.share; exact if_pos rfl
  have e0 : ((cfgSplit (F := F)).win 0).arr.view.set = Finset.univ := (arr_whole1 0).set_eq_univ
  have e1 : ((cfgSplit (F := F)).win 1).arr.view.set = Finset.univ := (arr_whole1 1).set_eq_univ
  have e2 : ((cfgSplit (F := F)).win 2).arr.view.set = Finset.univ := (arr_whole1 2).set_eq_univ
  have e3 : ((cfgSplit (F := F)).win 3).arr.view.set = Finset.univ := (arr_whole1 3).set_eq_univ
  rw [s0, s1, s2, s3]
  have p0 : ∀ (q : PosShare TreeShare) (g : Buf (Elt F) (((cfgSplit (F := F)).win 0).arr.view.loc (c.tc : Thread nD τ))),
      ((((cfgSplit (F := F)).win 0).arr.view.loc (c.tc : Thread nD τ)) ↦[((cfgSplit (F := F)).win 0).arr.view.set]{q} g : sProp 𝕄)
        = (((c : Thread nD τ).loc main_v10) ↦{q} g) :=
    fun q g => congrArg (fun I => ((((cfgSplit (F := F)).win 0).arr.view.loc (c.tc : Thread nD τ)) ↦[I]{q} g : sProp 𝕄)) e0
  have p1 : ∀ (q : PosShare TreeShare) (g : Buf (Elt F) (((cfgSplit (F := F)).win 1).arr.view.loc (c.tc : Thread nD τ))),
      ((((cfgSplit (F := F)).win 1).arr.view.loc (c.tc : Thread nD τ)) ↦[((cfgSplit (F := F)).win 1).arr.view.set]{q} g : sProp 𝕄)
        = (((c : Thread nD τ).loc main_v10) ↦{q} g) :=
    fun q g => congrArg (fun I => ((((cfgSplit (F := F)).win 1).arr.view.loc (c.tc : Thread nD τ)) ↦[I]{q} g : sProp 𝕄)) e1
  have p2 : ∀ (q : PosShare TreeShare) (g : Buf (Elt F) (((cfgSplit (F := F)).win 2).arr.view.loc (c.tc : Thread nD τ))),
      ((((cfgSplit (F := F)).win 2).arr.view.loc (c.tc : Thread nD τ)) ↦[((cfgSplit (F := F)).win 2).arr.view.set]{q} g : sProp 𝕄)
        = (((c : Thread nD τ).loc main_v10) ↦{q} g) :=
    fun q g => congrArg (fun I => ((((cfgSplit (F := F)).win 2).arr.view.loc (c.tc : Thread nD τ)) ↦[I]{q} g : sProp 𝕄)) e2
  have p3 : ∀ (q : PosShare TreeShare) (g : Buf (Elt F) (((cfgSplit (F := F)).win 3).arr.view.loc (c.tc : Thread nD τ))),
      ((((cfgSplit (F := F)).win 3).arr.view.loc (c.tc : Thread nD τ)) ↦[((cfgSplit (F := F)).win 3).arr.view.set]{q} g : sProp 𝕄)
        = (((c : Thread nD τ).loc main_v11) ↦{q} g) :=
    fun q g => congrArg (fun I => ((((cfgSplit (F := F)).win 3).arr.view.loc (c.tc : Thread nD τ)) ↦[I]{q} g : sProp 𝕄)) e3
  exact congrArg₂ (fun a b : sProp 𝕄 => iprop(a ∗ b)) (p0 _ _)
    (congrArg₂ (fun a b : sProp 𝕄 => iprop(a ∗ b)) (p1 _ _)
      (congrArg₂ (fun a b : sProp 𝕄 => iprop(a ∗ b)) (p2 _ _) (p3 _ _)))

/-- A core's unscoped buffers are the buffers behind the windows' arrays and the rest, the arrays distinct or not. -/
theorem unscopedBufs_split1 (c : Dev nD) (V : (b : Ref sig .tc) → Buf (Elt F) ((c.tc : Thread nD τ).loc b)) :
    (unscopedBufs c V : sProp 𝕄) = iprop((Pipeline.arrBufs spec1 c V : sProp 𝕄) ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The buffers behind the windows' arrays are two: the operand array and the output array. -/
theorem arrBufs1_eq (c : Dev nD) (V : (b : Ref sig .tc) → Buf (Elt F) ((c.tc : Thread nD τ).loc b)) :
    (Pipeline.arrBufs spec1 c V : sProp 𝕄)
      = iprop((((c : Thread nD τ).loc main_v10) ↦{fullShare} V main_v10) ∗ (((c : Thread nD τ).loc main_v11) ↦{fullShare} V main_v11)) := by
  unfold Pipeline.arrBufs
  rw [show Finset.univ.image (Pipeline.arrRef spec1) = insert main_v10 {main_v11} from by decide, bigSep_insert (by decide), bigSep_singleton]
  rfl

/-- A whole buffer at the full share is three holdings of it at a half and two quarters … -/
theorem share3_split {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) :=
  (pointsTo_share (PosShare.mem_left_op_right fullShare)).1.trans
    (sep_mono .rfl (pointsTo_share (PosShare.mem_left_op_right fullShare.right)).1)

/-- … and back. -/
theorem share3_join {ℓ : Loc nD τ sig} (f : Buf (Elt F) ℓ) :
    iprop((ℓ ↦{fullShare.left} f) ∗ (ℓ ↦{fullShare.right.left} f) ∗ (ℓ ↦{fullShare.right.right} f)) ⊢ (ℓ ↦{fullShare} f : sProp 𝕄) :=
  (sep_mono .rfl (pointsTo_share (PosShare.mem_left_op_right fullShare.right)).2).trans
    (pointsTo_share (PosShare.mem_left_op_right fullShare)).2

/-! ## Entry and exit, for any proof data with these entry contents and shares -/

section Gen
variable (W : Dev nD → Valuation τ sig (Elt F))

/-- A valuation of the core's buffers, read reference by reference. -/
abbrev VofW : (c : Dev nD) → (b : Ref sig .tc) → Buf (Elt F) ((c : Thread nD τ).loc b) := fun c b => W c b

/-- ENTRY: the unscoped buffers held whole at `W c` are the windows' arrays at their entry contents, dealt among
    the windows, the two tables, and the rest. -/
theorem entry_split_gen (c : Dev nD) (dat : Dat τ (Elt F) Unit ℕ (UR sig nD τ) ℕ (cfgSplit (F := F)) c)
    (hA : ∀ w, dat.A w = VofW W c (Pipeline.arrRef spec1 w))
    (hq0 : dat.q 0 = fullShare.left) (hq1 : dat.q 1 = fullShare.right.left) (hq2 : dat.q 2 = fullShare.right.right)
    (htbl : ∀ k, W c (pre1.ref k) = tbl (F := F) k) :
    (StableHlo.held (c : Thread nD τ) (Pipeline.ucRefs τ sig) (W c) : sProp 𝕄)
      ⊢ iprop(dat.arrays (dat.arrAt · 0)
          ∗ Pipeline.prefHeld pre1 c (fun _ => fullShare) (tbl (F := F))
          ∗ Pipeline.unscopedRestP pre1 spec1 c (VofW W c)) := by
  rw [← Pipeline.unscopedBufs_held (Ix := Unit) (Name := ℕ) (U := UR sig nD τ) (Lvl := ℕ) c (W c)]
  rw [unscopedBufs_split1, Pipeline.unscopedRest_split preFacts1, arrBufs1_eq,
    arrays_eq4 c dat hq0 hq1 hq2]
  have ht : (fun k => W c (Proc.devRef .tc (pre1.ref k))) = tbl (F := F) := funext htbl
  rw [ht]
  have a0 : dat.arrAt 0 0 = W c (Proc.devRef .tc main_v10) := hA 0
  have a1 : dat.arrAt 1 0 = W c (Proc.devRef .tc main_v10) := hA 1
  have a2 : dat.arrAt 2 0 = W c (Proc.devRef .tc main_v10) := hA 2
  have a3 : dat.arrAt 3 0 = W c (Proc.devRef .tc main_v11) := hA 3
  rw [a0, a1, a2, a3]
  iintro ⟨⟨HA, HB⟩, Hrest⟩
  ihave H := (share3_split _) $$ HA
  icases H with ⟨Hp, Hq, Hr⟩
  isplitr [Hrest]
  · isplitl [Hp]; · iexact Hp
    isplitl [Hq]; · iexact Hq
    isplitl [Hr]; · iexact Hr
    iexact HB
  · iexact Hrest

/-- EXIT: the windows' arrays at their final contents — the three reading windows' holdings still at the entry
    contents, the output array at what the region left — with the tables and the rest make the unscoped buffers
    held whole at any valuation `W'` that is `W c` off the output array and the region's result on it. -/
theorem exit_join_gen (c : Dev nD) (dat : Dat τ (Elt F) Unit ℕ (UR sig nD τ) ℕ (cfgSplit (F := F)) c)
    (hA : ∀ w, dat.A w = VofW W c (Pipeline.arrRef spec1 w))
    (hq0 : dat.q 0 = fullShare.left) (hq1 : dat.q 1 = fullShare.right.left) (hq2 : dat.q 2 = fullShare.right.right)
    (W' : Valuation τ sig (Elt F))
    (hout : W' main_v11 = dat.arrAt 3 (cfgSplit (F := F)).N)
    (hrest : ∀ b : Ref sig .tc, b ≠ main_v11 → W' b = W c b)
    (htbl : ∀ k, W c (pre1.ref k) = tbl (F := F) k) :
    iprop(dat.arrays (dat.arrAt · (cfgSplit (F := F)).N)
        ∗ Pipeline.prefHeld pre1 c (fun _ => fullShare) (tbl (F := F))
        ∗ Pipeline.unscopedRestP pre1 spec1 c (VofW W c))
      ⊢ (StableHlo.held (c : Thread nD τ) (Pipeline.ucRefs τ sig) W' : sProp 𝕄) := by
  rw [← Pipeline.unscopedBufs_held (Ix := Unit) (Name := ℕ) (U := UR sig nD τ) (Lvl := ℕ) c W']
  rw [unscopedBufs_split1, Pipeline.unscopedRest_split preFacts1, arrBufs1_eq,
    arrays_eq4 c dat hq0 hq1 hq2]
  have ht : (fun k => W' (Proc.devRef .tc (pre1.ref k))) = tbl (F := F) :=
    funext fun k => (hrest (pre1.ref k) (preFacts1.disj k 3)).trans (htbl k)
  rw [ht]
  have hr : (Pipeline.unscopedRestP pre1 spec1 c (fun b => W' (Proc.devRef .tc b)) : sProp 𝕄)
      = Pipeline.unscopedRestP pre1 spec1 c (VofW W c) := by
    unfold Pipeline.unscopedRestP
    refine bigSep_congr fun b hb => ?_
    have hne : b ≠ main_v11 := fun e =>
      (Finset.mem_sdiff.mp (Finset.mem_sdiff.mp hb).1).2 (Finset.mem_image.mpr ⟨3, Finset.mem_univ _, e ▸ rfl⟩)
    exact congrArg (fun f => (((c.tc : Thread nD τ).loc b) ↦{fullShare} f : sProp 𝕄)) (hrest b hne)
  rw [hr]
  have a0 : dat.arrAt 0 (cfgSplit (F := F)).N = W c (Proc.devRef .tc main_v10) := (Dat.arrAt_in dat 0 rfl _).trans (hA 0)
  have a1 : dat.arrAt 1 (cfgSplit (F := F)).N = W c (Proc.devRef .tc main_v10) := (Dat.arrAt_in dat 1 rfl _).trans (hA 1)
  have a2 : dat.arrAt 2 (cfgSplit (F := F)).N = W c (Proc.devRef .tc main_v10) := (Dat.arrAt_in dat 2 rfl _).trans (hA 2)
  have a3 : dat.arrAt 3 (cfgSplit (F := F)).N = W' (Proc.devRef .tc main_v11) := hout.symm
  have b0 : W' (Proc.devRef .tc main_v10) = W c (Proc.devRef .tc main_v10) := hrest main_v10 (by decide)
  rw [a0, a1, a2, a3, b0]
  iintro ⟨⟨Hp, Hq, Hr, HB⟩, Hrest⟩
  isplitr [Hrest]
  · isplitr [HB]
    · iapply (share3_join _)
      isplitl [Hp]; · iexact Hp
      isplitl [Hq]; · iexact Hq
      iexact Hr
    · iexact HB
  · iexact Hrest

end Gen

end Cert.KernelIdeal.Flash

end
-- ==== Proof.FlashSplit.lean ====
/-
  The attention region's entry and exit at its proof data: the general statements of the entry and exit
  bookkeeping, at the data's entry contents (the buffers as the region finds them) and its three shares of the
  operand array.
-/
import proofs.«105760_j5128190951601_2_alg».proof.Proof.FlashDat
import proofs.«105760_j5128190951601_2_alg».proof.Proof.FlashSplitGen

set_option maxRecDepth 16384
set_option Elab.async false

noncomputable section

namespace Cert.KernelIdeal.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F] [Named F]

local notation "𝕄" => MT nD τ sig Unit (Elt F) ℕ (UR sig nD τ) ℕ

variable (W : Dev nD → Valuation τ sig (Elt F))

/-- ENTRY of the attention region from the buffers held at `W c`. -/
theorem entry_split (c : Dev nD) (htbl : ∀ k, W c (pre1.ref k) = tbl (F := F) k) :
    (StableHlo.held (c : Thread nD τ) (Pipeline.ucRefs τ sig) (W c) : sProp 𝕄)
      ⊢ iprop((dat1 (VofW W) c).arrays ((dat1 (VofW W) c).arrAt · 0)
          ∗ Pipeline.prefHeld pre1 c (fun _ => fullShare) (tbl (F := F))
          ∗ Pipeline.unscopedRestP pre1 spec1 c (VofW W c)) :=
  entry_split_gen W c (dat1 (VofW W) c) (fun _ => rfl) rfl rfl rfl htbl

/-- EXIT of the attention region to the buffers held at `W'`. -/
theorem exit_join (c : Dev nD) (W' : Valuation τ sig (Elt F))
    (hout : W' main_v11 = (dat1 (VofW W) c).arrAt 3 (cfgF (F := F)).N)
    (hrest : ∀ b : Ref sig .tc, b ≠ main_v11 → W' b = W c b)
    (htbl : ∀ k, W c (pre1.ref k) = tbl (F := F) k) :
    iprop((dat1 (VofW W) c).arrays ((dat1 (VofW W) c).arrAt · (cfgF (F := F)).N)
        ∗ Pipeline.prefHeld pre1 c (fun _ => fullShare) (tbl (F := F))
        ∗ Pipeline.unscopedRestP pre1 spec1 c (VofW W c))
      ⊢ (StableHlo.held (c : Thread nD τ) (Pipeline.ucRefs τ sig) W' : sProp 𝕄) :=
  exit_join_gen W c (dat1 (VofW W) c) (fun _ => rfl) rfl rfl rfl W' hout hrest htbl

end Cert.KernelIdeal.Flash

end
-- ==== Proof.FlashSeg.lean ====
/-
  The attention region as a segment of the program's run: entered from every unscoped buffer at the contents the
  reshape before it leaves, left with the result array replaced by what the write-backs leave and every other buffer
  as entered.  At entry the one array the three input windows read is dealt among them (a third of the full share
  each, in effect), the two tables go to the pipeline, and the generator register and the carried buffers enter the
  region's invariant; at exit everything is put back.
-/
import proofs.«105760_j5128190951601_2_alg».proof.Proof.FlashDat
import proofs.«105760_j5128190951601_2_alg».proof.Proof.FlashSplit
import proofs.«105760_j5128190951601_2_alg».proof.Proof.Region0Seg
import proofs.«105760_j5128190951601_2_alg».proof.Proof.Base
import Idealize.ShloMosaic.Lib.StableHlo.Run
import Idealize.ShloMosaic.Lib.Pipeline.Regions

set_option maxRecDepth 16384
set_option Elab.async false

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (outs : Gen.Outs (F := F))

/-- The region's entry contents, read at the TensorCore's references (what its proof data take). -/
abbrev V3r : (c : Dev nD) → (b : Ref sig .tc) → Buf (Elt F) ((c : Thread nD τ).loc b) := fun c b => Gen.V3 m outs c b

/-- The region's proof data at its entry contents. -/
abbrev d1 : (c : Dev nD) → Dat τ (Elt F) Unit ℕ (UR sig nD τ) ℕ (Pipeline.pin (pcfgs (F := F)) adm 1) c :=
  fun c => dat1 (V3r m outs) c

/-! ## The tables when the region is entered: the literals the first host lines wrote -/

theorem V1_main_c (c : Dev nD) : Gen.V1 m c main_c = (tbl (F := F)) 0 := by
  show StableHlo.after hostOps0 (fun b => m (c, b)) (Proc.devRef .tc main_c) = _
  after_results
  rfl
theorem V1_main_c_0 (c : Dev nD) : Gen.V1 m c main_c_0 = (tbl (F := F)) 1 := by
  show StableHlo.after hostOps0 (fun b => m (c, b)) (Proc.devRef .tc main_c_0) = _
  after_results
  rfl

theorem V3_tbl (c : Dev nD) (k : Fin 2) : Gen.V3 m outs c (pre1.ref k) = (tbl (F := F)) k := by
  match k with
  | ⟨0, _⟩ => exact (Gen.V3_of m outs c main_c (by decide)).trans ((Gen.V2_of m outs c main_c (by decide)).trans (V1_main_c m c))
  | ⟨1, _⟩ => exact (Gen.V3_of m outs c main_c_0 (by decide)).trans ((Gen.V2_of m outs c main_c_0 (by decide)).trans (V1_main_c_0 m c))

/-! ## The invariant at the first point, and what the last point gives back -/

theorem hin1 (c : Dev nD) :
    iprop((∃ r, prngReg c r) ∗ Pipeline.prefHeld (Ix := Unit) (Name := ℕ) (U := UR sig nD τ) (Lvl := ℕ) pre1 c (fun _ => fullShare) (tbl (F := F))
        ∗ Pipeline.scopedRest (Ix := Unit) (Name := ℕ) (U := UR sig nD τ) (Lvl := ℕ) (Val := Elt F) spec1 c)
      ⊢ (Phi (V3r m outs) c 0 : sProp 𝕄) := by
  rw [Gen.scopedRest1_eq]
  unfold Phi otherBufs carried
  iintro ⟨Hp, HT, H00, H01, H10, H20, H21, ⟨%f0, HS0⟩, ⟨%f1, HS1⟩, ⟨%f2, HS2⟩⟩
  isplitl [HT]; · iexact HT
  isplitl [HS0 HS1 HS2]
  · iexists (f0, f1, f2)
    isplitr; · ipureintro; intro h; exact absurd rfl h
    rw [owns_whole, owns_whole, owns_whole]
    isplitl [HS0]; · iexact HS0
    isplitl [HS1]; · iexact HS1
    iexact HS2
  isplitl [H00 H01 H10 H20 H21]
  · isplitl [H00]; · iexact H00
    isplitl [H01]; · iexact H01
    isplitl [H10]; · iexact H10
    isplitl [H20]; · iexact H20
    iexact H21
  iexact Hp

theorem hout1 (c : Dev nD) :
    (Phi (V3r m outs) c (Fin.last (cfgF (F := F)).N) : sProp 𝕄)
      ⊢ iprop(((∃ r, prngReg c r) ∗ Pipeline.prefHeld (Ix := Unit) (Name := ℕ) (U := UR sig nD τ) (Lvl := ℕ) pre1 c (fun _ => fullShare) (tbl (F := F)))
        ∗ Pipeline.scopedRest (Ix := Unit) (Name := ℕ) (U := UR sig nD τ) (Lvl := ℕ) (Val := Elt F) spec1 c) := by
  rw [Gen.scopedRest1_eq]
  unfold Phi otherBufs carried
  simp only [owns_whole]
  iintro ⟨HT, ⟨%s, -, HS0, HS1, HS2⟩, ⟨H00, H01, H10, H20, H21⟩, Hp⟩
  isplitl [Hp HT]
  · isplitl [Hp]; · iexact Hp
    iexact HT
  isplitl [H00]; · iexact H00
  isplitl [H01]; · iexact H01
  isplitl [H10]; · iexact H10
  isplitl [H20]; · iexact H20
  isplitl [H21]; · iexact H21
  isplitl [HS0]; · iexists _; iexact HS0
  isplitl [HS1]; · iexists _; iexact HS1
  iexists _; iexact HS2

/-! ## The region -/

-- a library lemma stated over the pinned configuration unifies with the printed one only when unification may
-- unfold plain definitions in a metavariable's type
set_option backward.isDefEq.respectTransparency.types false in
/-- REGION 1 over the thread state. -/
def reg1 (houts : ∀ c, outs 4 main_v11 c = (dat1 (V3r m outs) c).arrAt 3 (cfgF (F := F)).N) :
    RegionSeg (pcfgs (F := F)) adm (R0.pdats m (d1 m outs)) () defs₀ Asm.𝒱₀ Asm.L Asm.lv 1 where
  win := winFacts₀1
  block_pos := block_pos1
  stage_whole := stage_whole1
  K := PEmpty
  osem k := k.elim
  ho := Pipeline.OwnSemFacts.none _
  hbody c := (body_obligation1 (V3r m outs) c).loose
  hwaits := Pipeline.hwaits_of_owed_zero _ _ _ _ Asm.L Asm.lv 1 fun _ _ => rfl
  pre c := iprop(StableHlo.held (c : Thread nD τ) (Pipeline.ucRefs τ sig) (Gen.V3 m outs c) ∗ Asm.E 1 c)
  post c := iprop(StableHlo.held (c : Thread nD τ) (Pipeline.ucRefs τ sig) (Gen.V4 m outs c) ∗ Asm.E 2 c)
  X c := iprop(∃ r, prngReg c r)
  Y c := iprop((∃ r, prngReg c r) ∗ Pipeline.prefHeld (Ix := Unit) (Name := ℕ) (U := UR sig nD τ) (Lvl := ℕ) pre1 c (fun _ => fullShare) (tbl (F := F)))
  Z c := Pipeline.unscopedRestP (Ix := Unit) (Name := ℕ) (U := UR sig nD τ) (Lvl := ℕ) pre1 spec1 c (V3r m outs c)
  hentry c := by
    rw [Pipeline.ownSems0_none]
    have hsplit := entry_split (F := F) (Gen.V3 m outs) c (V3_tbl m outs c)
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (R0.pdats m (d1 m outs) 1 c).Φ 0 = Phi (V3r m outs) c 0 from rfl]
    exact hin1 m outs c
  hout c := by
    rw [Pipeline.ownSems0_none, show (R0.pdats m (d1 m outs) 1 c).Φ (Fin.last _) = Phi (V3r m outs) c (Fin.last _) from rfl]
    refine (hout1 m outs c).trans ?_
    iintro ⟨HY, Hr⟩
    isplitl [HY]; · iexact HY
    isplitr; · iempintro
    iexact Hr
  hexit c := by
    have hjoin := exit_join (F := F) (Gen.V3 m outs) c (Gen.V4 m outs c)
      ((show Gen.V4 m outs c main_v11 = outs 4 main_v11 c from Function.update_self ..).trans (houts c))
      (fun b hb => Gen.V4_of m outs c b (by simpa using hb)) (V3_tbl m outs c)
    iintro ⟨Ha, HO, ⟨Hp, HT⟩, Hrest⟩
    imodintro
    isplitl [Ha HT Hrest]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

/-- The region is entered from, and left at, exactly the thread states the program's run names. -/
theorem reg1_pre (houts : ∀ c, outs 4 main_v11 c = (dat1 (V3r m outs) c).arrAt 3 (cfgF (F := F)).N) (c : Dev nD) :
    iprop(StableHlo.held (c : Thread nD τ) (Pipeline.ucRefs τ sig) (Gen.V3 m outs c) ∗ Asm.E 1 c) ⊢ (reg1 m outs houts).pre c := .rfl
theorem reg1_post (houts : ∀ c, outs 4 main_v11 c = (dat1 (V3r m outs) c).arrAt 3 (cfgF (F := F)).N) (c : Dev nD) :
    (reg1 m outs houts).post c ⊢ iprop(StableHlo.held (c : Thread nD τ) (Pipeline.ucRefs τ sig) (Gen.V4 m outs c) ∗ Asm.E 2 c) := .rfl

end Cert.KernelIdeal.Flash

end
-- ==== Proof.FinalRun.lean ====
/-
  The kernel program's frame and its run with the result named, from the two regions' records.
-/
import proofs.«105760_j5128190951601_2_alg».proof.Proof.Final
import proofs.«105760_j5128190951601_2_alg».proof.Proof.FlashSeg

noncomputable section

namespace Cert.KernelIdeal.Final

open Idealize.ShloMosaic Idealize.ShloMosaic.TcCoe Idealize.SL.Sem
open Idealize.ShloMosaic.Pipeline (Dat RegionSeg)
open Cert.KernelIdeal Cert.KernelIdeal.Gen

variable {F : FTy → Type} [FloatOps F] [Named F]
variable (m : (ℓ : Loc nD τ sig) → Buf (Elt F) ℓ) (ρ : Dev nD → PrngReg)

/-- The frame: every weakly fair execution terminates, nothing faults, the argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Asm.frame_of_regions m ρ (outs m) Flash.adm (R0.pdats m (Flash.d1 m (outs m)))
    (R0.reg0 m (Flash.d1 m (outs m)) (outs m) (houts0 m)) (R0.reg0_pre m (Flash.d1 m (outs m)) (outs m) (houts0 m))
    (R0.reg0_post m (Flash.d1 m (outs m)) (outs m) (houts0 m))
    (Flash.reg1 m (outs m) (houts1 m)) (Flash.reg1_pre m (outs m) (houts1 m)) (Flash.reg1_post m (outs m) (houts1 m))

/-- The run with the result named: the result array ends at what the attention region's write-backs leave. -/
theorem run :
    θ_run defs (onTc (τ := τ) (main (F := F))) ⟨m, fun _ => 0, ρ⟩ (fun r => ∀ c : Dev nD,
      r.2.mem ((c.tc : Thread nD τ).loc main_v11) = outs m 4 main_v11 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Asm.run_of_regions m ρ (outs m) Flash.adm (R0.pdats m (Flash.d1 m (outs m)))
    (R0.reg0 m (Flash.d1 m (outs m)) (outs m) (houts0 m)) (R0.reg0_pre m (Flash.d1 m (outs m)) (outs m) (houts0 m))
    (R0.reg0_post m (Flash.d1 m (outs m)) (outs m) (houts0 m))
    (Flash.reg1 m (outs m) (houts1 m)) (Flash.reg1_pre m (outs m) (houts1 m)) (Flash.reg1_post m (outs m) (houts1 m))

end Cert.KernelIdeal.Final

end
-- ==== Proof.FlashSched.lean ====
/-
  The schedule of the attention region: which query tile and key tile each of the 36 grid points works on.

  The two prefetched tables hold, for the grid point t (row-major in the 2 x 18 grid), the query-tile index qi t and the
  key-tile index ki t. The facts below are decided once over the 36 points of the literal tables:
    * ki t ≤ qi t ≤ 7 (a point works at or below the diagonal, inside the 8 tiles);
    * a point either opens a query tile (ki t = 0) or continues the point before it (same qi, ki one more);
    * going back k ≤ ki t points from t stays in the same query tile, at key tile ki t − k;
    * every query tile q has exactly one closing point (qi = ki = q).
  The word an index map or the body reads from a table at the point's coordinates is the literal of that point.
-/
import proofs.«105760_j5128190951601_2_alg».proof.Proof.FlashAdm

set_option synthInstance.maxSize 4096
set_option Elab.async false

noncomputable section

namespace Cert.KernelIdeal.Flash

open Idealize.ShloMosaic Idealize.SL.Sem
open Cert.KernelIdeal
open Cert.KernelIdeal.Facts₀ Cert.KernelIdeal.Facts

variable {F : FTy → Type} [FloatOps F] [Named F]

/-! ## The tables' words by grid point -/

/-- The query-tile word of point t. -/
def qiW (t : Fin grid1.N) : BitVec 32 := lit0 ⟨t.val, t.isLt⟩
/-- The key-tile word of point t. -/
def kiW (t : Fin grid1.N) : BitVec 32 := lit1 ⟨t.val, t.isLt⟩
/-- The query tile of point t. -/
def qiN (t : Fin grid1.N) : ℕ := (qiW t).toNat
/-- The key tile of point t. -/
def kiN (t : Fin grid1.N) : ℕ := (kiW t).toNat

theorem qiW_toNat (t : Fin grid1.N) : (qiW t).toNat = qiN t := rfl
theorem kiW_toNat (t : Fin grid1.N) : (kiW t).toNat = kiN t := rfl

/-- The point k steps before t (t itself when there is none). -/
def backPt (t : Fin grid1.N) (k : ℕ) : Fin grid1.N := ⟨t.val - k, lt_of_le_of_lt (Nat.sub_le _ _) t.isLt⟩

theorem backPt_val (t : Fin grid1.N) (k : ℕ) : (backPt t k).val = t.val - k := rfl

/-! ## The schedule, decided over the 36 points -/

/-- A point works at or below the diagonal, inside the 8 tiles. -/
theorem sched_le : ∀ t : Fin grid1.N, kiN t ≤ qiN t ∧ qiN t ≤ 7 := by decide

/-- The key-tile word is the zero word exactly at an opening point. -/
theorem kiW_eq_zero_iff : ∀ t : Fin grid1.N, kiW t = 0#32 ↔ kiN t = 0 := by decide

/-- The closing test the body computes from the two words holds exactly where the key tile is the query tile. -/
theorem cond_iff : ∀ t : Fin grid1.N, k1_cond2 (qiW t) (kiW t) = 1#1 ↔ kiN t = qiN t := by decide

/-- A point opens a query tile or continues the point before it. -/
theorem sched_chain : ∀ t : Fin grid1.N,
    kiN t = 0 ∨ (0 < t.val ∧ qiN (backPt t 1) = qiN t ∧ kiN (backPt t 1) + 1 = kiN t) := by decide

/-- Going back k ≤ ki t points stays in the query tile, at key tile ki t − k. -/
theorem sched_back : ∀ (t : Fin grid1.N) (k : Fin 8), k.val ≤ kiN t →
    k.val ≤ t.val ∧ qiN (backPt t k.val) = qiN t ∧ kiN (backPt t k.val) + k.val = kiN t := by decide

/-- Every query tile has a closing point. -/
theorem closing_surj : ∀ q : Fin 8, ∃ t : Fin grid1.N, qiN t = q.val ∧ kiN t = q.val := by decide

/-- ... and only one. -/
theorem closing_inj : ∀ t t' : Fin grid1.N, qiN t = kiN t → qiN t' = kiN t' → qiN t = qiN t' → t = t' := by decide

/-! ## The word read from a table at a point's coordinates -/

/-- The offsets the loads compute at a point are its row and column in the 2 x 18 table. -/
theorem off_lt : ∀ t : Fin grid1.N, k1_off1 (grid1.coords t) 0 < 2 ∧ k1_off1 (grid1.coords t) 1 < 18 := by decide

/-- ... whose row-major position is the point. -/
theorem off_rowMajor : ∀ t : Fin grid1.N, k1_off1 (grid1.coords t) 0 * 18 + k1_off1 (grid1.coords t) 1 = t.val := by
  decide

/-- The word an index map reads from table 0 at point t's coordinates is the query-tile word of t. -/
theorem tbl_at_qi (t : Fin grid1.N) :
    (tbl (F := F)).at 0 (Rect.unit (s := S2x18) (k1_off1 (grid1.coords t)) S1x1.size (k1_off1_inb (grid1.coords t)))
      numel1_S1x1 = qiW t := by
  show lit0 (S2x18.rowMajor _) = lit0 ⟨t.val, t.isLt⟩
  refine congrArg lit0 (Fin.ext ?_)
  refine (Shape.rowMajor_val_two (d := ![2, 18]) _).trans ?_
  exact off_rowMajor t

/-- The word an index map reads from table 1 at point t's coordinates is the key-tile word of t. -/
theorem tbl_at_ki (t : Fin grid1.N) :
    (tbl (F := F)).at 1 (Rect.unit (s := S2x18) (k1_off1 (grid1.coords t)) S1x1.size (k1_off1_inb (grid1.coords t)))
      numel1_S1x1 = kiW t := by
  show lit1 (S2x18.rowMajor _) = lit1 ⟨t.val, t.isLt⟩
  refine congrArg lit1 (Fin.ext ?_)
  refine (Shape.rowMajor_val_two (d := ![2, 18]) _).trans ?_
  exact off_rowMajor t

/-- The offsets of a point are inside the table. -/
theorem off_inb0 (t : Fin grid1.N) : ∀ a, k1_off1 (grid1.coords t) a + 1 ≤ (pre1.ref 0).ty.shape.size a := by
  intro a
  have := off_lt t
  match a with
  | ⟨0, _⟩ => show k1_off1 (grid1.coords t) 0 + 1 ≤ 2; omega
  | ⟨1, _⟩ => show k1_off1 (grid1.coords t) 1 + 1 ≤ 18; omega

theorem off_inb1 (t : Fin grid1.N) : ∀ a, k1_off1 (grid1.coords t) a + 1 ≤ (pre1.ref 1).ty.shape.size a := by
  intro a
  have := off_lt t
  match a with
  | ⟨0, _⟩ => show k1_off1 (grid1.coords t) 0 + 1 ≤ 2; omega
  | ⟨1, _⟩ => show k1_off1 (grid1.coords t) 1 + 1 ≤ 18; omega

/-- The same words, read by offsets (the form the idle test is written in). -/
theorem tbl_atD_qi (t : Fin grid1.N) : (tbl (F := F)).atD 0 (k1_off1 (grid1.coords t)) = qiW t := by
  have e : (tbl (F := F)).atD 0 (k1_off1 (grid1.coords t))
      = (tbl (F := F)) 0 (fun a => ⟨k1_off1 (grid1.coords t) a, off_inb0 t a⟩) := dif_pos (off_inb0 t)
  rw [e]
  show lit0 (S2x18.rowMajor _) = lit0 ⟨t.val, t.isLt⟩
  refine congrArg lit0 (Fin.ext ?_)
  refine (Shape.rowMajor_val_two (d := ![2, 18]) _).trans ?_
  exact off_rowMajor t

theorem tbl_atD_ki (t : Fin grid1.N) : (tbl (F := F)).atD 1 (k1_off1 (grid1.coords t)) = kiW t := by
  have e : (tbl (F := F)).atD 1 (k1_off1 (grid1.coords t))
      = (tbl (F := F)) 1 (fun a => ⟨k1_off1 (grid1.coords t) a, off_inb1 t a⟩) := dif_pos (off_inb1 t)
  rw [e]
  show lit1 (S2x18.rowMajor _) = lit1 ⟨t.val, t.isLt⟩
  refine congrArg lit1 (Fin.ext ?_)
  refine (Shape.rowMajor_val_two (d := ![2, 18]) _).trans ?_
  exact off_rowMajor t

/-- The output window is idle at a point exactly where the point is not a closing one. -/
theorem idle3_iff (t : Fin grid1.N) : idle1 (tbl (F := F)) 3 (grid1.coords t) = true ↔ kiN t ≠ qiN t := by
  show (!(k1_cond2 ((tbl (F := F)).atD 0 (k1_off1 (grid1.coords t))) ((tbl (F := F)).atD 1 (k1_off1 (grid1.coords t))) == 1#1)) = true ↔ _
  rw [tbl_atD_qi, tbl_atD_ki, Ne, ← cond_iff t]
  simp

/-- The query tile changes after a point (or the point is the last) exactly at a closing point. -/
theorem qi_changes_iff : ∀ t : Fin grid1.N,
    (t.val + 1 = grid1.N ∨ ∃ h : t.val + 1 < grid1.N, qiN ⟨t.val + 1, h⟩ ≠ qiN t) ↔ kiN t = qiN t := by decide

end Cert.KernelIdeal.Flash

end
-- ==== Proof.FlashBlocks.lean ====
/-
  The blocks of the attention region: where an element of a window's block at a grid point sits in the window's array.

  The index maps read the prefetched tables: at point t, with query tile qi t and key tile ki t, the three input windows
  take the blocks (0, 0, qi t, 0), (1, 0, ki t, 0), (2, 0, ki t, 0) of the [3, 4, 2048, 1024] array of projections (blocks
  of [1, 4, 256, 1024]) and the output window the block (0, qi t, 0) of the [4, 2048, 1024] result (blocks of
  [4, 256, 1024]). A block's element sits, on each axis, at the block index times the block's size plus its own
  coordinate: row r of the query block is row qi t · 256 + r of projection 0, and so on. The output block is written
  back exactly at the closing points (ki t = qi t), where the query tile changes or the grid ends.
-/
import proofs.«105760_j5128190951601_2_alg».proof.Proof.FlashSched
import Idealize.ShloMosaic.Lib.ValueIdx

set_option synthInstance.maxSize 4096
set_option Elab.async false

noncomputable section

namespace Cert.KernelIdeal.Flash

open Idealize.ShloMosaic Idealize.SL.Sem Idealize.ShloMosaic.ValueIdx
open Cert.KernelIdeal
open Cert.KernelIdeal.Facts₀ Cert.KernelIdeal.Facts

variable {F : FTy → Type} [FloatOps F] [Named F]

/-! ## The index maps, at any contents of the tables -/

theorem transform0_eq (pf : pre1.Contents (Elt F)) (i : grid1.Coords) :
    cc1_transform_0 k1_off1_inb numel1_S1x1 pf i
      = ![0, 0, (pf.at 0 (Rect.unit (s := S2x18) (k1_off1 i) S1x1.size (k1_off1_inb i)) numel1_S1x1).toNat, 0] := rfl

theorem transform1_eq (pf : pre1.Contents (Elt F)) (i : grid1.Coords) :
    cc1_transform_1 k1_off1_inb numel1_S1x1 pf i
      = ![1, 0, (pf.at 1 (Rect.unit (s := S2x18) (k1_off1 i) S1x1.size (k1_off1_inb i)) numel1_S1x1).toNat, 0] := rfl

theorem transform2_eq (pf : pre1.Contents (Elt F)) (i : grid1.Coords) :
    cc1_transform_2 k1_off1_inb numel1_S1x1 pf i
      = ![2, 0, (pf.at 1 (Rect.unit (s := S2x18) (k1_off1 i) S1x1.size (k1_off1_inb i)) numel1_S1x1).toNat, 0] := rfl

theorem transform3_eq (pf : pre1.Contents (Elt F)) (i : grid1.Coords) :
    cc1_transform_3 k1_off1_inb numel1_S1x1 pf i
      = ![0, (pf.at 0 (Rect.unit (s := S2x18) (k1_off1 i) S1x1.size (k1_off1_inb i)) numel1_S1x1).toNat, 0] := rfl

/-! ## The block indices at the literal tables -/

/-- The query window's block at point t: tile qi t of projection 0. -/
theorem blkIndex0 (a : (pcfg1 (F := F)).Adm) (hpf : a.1 = tbl) (t : Fin grid1.N) :
    ((cfg1 a).win 0).index t = ![0, 0, qiN t, 0] := by
  show cc1_transform_0 k1_off1_inb numel1_S1x1 a.1 (grid1.coords t) = _
  rw [transform0_eq, hpf, tbl_at_qi]
  rfl

/-- The key window's block at point t: tile ki t of projection 1. -/
theorem blkIndex1 (a : (pcfg1 (F := F)).Adm) (hpf : a.1 = tbl) (t : Fin grid1.N) :
    ((cfg1 a).win 1).index t = ![1, 0, kiN t, 0] := by
  show cc1_transform_1 k1_off1_inb numel1_S1x1 a.1 (grid1.coords t) = _
  rw [transform1_eq, hpf, tbl_at_ki]
  rfl

/-- The value window's block at point t: tile ki t of projection 2. -/
theorem blkIndex2 (a : (pcfg1 (F := F)).Adm) (hpf : a.1 = tbl) (t : Fin grid1.N) :
    ((cfg1 a).win 2).index t = ![2, 0, kiN t, 0] := by
  show cc1_transform_2 k1_off1_inb numel1_S1x1 a.1 (grid1.coords t) = _
  rw [transform2_eq, hpf, tbl_at_ki]
  rfl

/-- The output window's block at point t: tile qi t of the result. -/
theorem blkIndex3 (a : (pcfg1 (F := F)).Adm) (hpf : a.1 = tbl) (t : Fin grid1.N) :
    ((cfg1 a).win 3).index t = ![0, qiN t, 0] := by
  show cc1_transform_3 k1_off1_inb numel1_S1x1 a.1 (grid1.coords t) = _
  rw [transform3_eq, hpf, tbl_at_qi]
  rfl

theorem qi_row_lt (t : Fin grid1.N) (r : Fin 256) : qiN t * 256 + r.val < 2048 := by
  have := (sched_le t).2
  have := r.isLt
  omega

theorem ki_row_lt (t : Fin grid1.N) (r : Fin 256) : kiN t * 256 + r.val < 2048 := by
  have := sched_le t
  have := r.isLt
  omega

/-! ## Where a block's element sits in the array -/

/-- Element (b, r, e) of the query block at point t is element (0, b, qi t · 256 + r, e) of the projections. -/
theorem emb0 (a : (pcfg1 (F := F)).Adm) (hpf : a.1 = tbl) (t : Fin grid1.N) (b : Fin 4) (r : Fin 256) (e : Fin 1024) :
    (((cfg1 a).win 0).blk t).view.emb (ix4 (0 : Fin 1) b r e)
      = ix4 (0 : Fin 3) b ⟨qiN t * 256 + r.val, qi_row_lt t r⟩ e := by
  funext ax
  apply Fin.ext
  have hi := blkIndex0 a hpf t
  match ax with
  | ⟨0, _⟩ => show ((cfg1 a).win 0).index t (0 : Fin 4) * 1 + 1 * (0 : ℕ) = 0; rw [hi]; rfl
  | ⟨1, _⟩ => show ((cfg1 a).win 0).index t (1 : Fin 4) * 4 + 1 * b.val = b.val; rw [hi]; show 0 * 4 + 1 * b.val = b.val; omega
  | ⟨2, _⟩ => show ((cfg1 a).win 0).index t (2 : Fin 4) * 256 + 1 * r.val = qiN t * 256 + r.val; rw [hi]; show qiN t * 256 + 1 * r.val = _; omega
  | ⟨3, _⟩ => show ((cfg1 a).win 0).index t (3 : Fin 4) * 1024 + 1 * e.val = e.val; rw [hi]; show 0 * 1024 + 1 * e.val = e.val; omega

/-- Element (b, r, e) of the key block at point t is element (1, b, ki t · 256 + r, e) of the projections. -/
theorem emb1 (a : (pcfg1 (F := F)).Adm) (hpf : a.1 = tbl) (t : Fin grid1.N) (b : Fin 4) (r : Fin 256) (e : Fin 1024) :
    (((cfg1 a).win 1).blk t).view.emb (ix4 (0 : Fin 1) b r e)
      = ix4 (1 : Fin 3) b ⟨kiN t * 256 + r.val, ki_row_lt t r⟩ e := by
  funext ax
  apply Fin.ext
  have hi := blkIndex1 a hpf t
  match ax with
  | ⟨0, _⟩ => show ((cfg1 a).win 1).index t (0 : Fin 4) * 1 + 1 * (0 : ℕ) = 1; rw [hi]; rfl
  | ⟨1, _⟩ => show ((cfg1 a).win 1).index t (1 : Fin 4) * 4 + 1 * b.val = b.val; rw [hi]; show 0 * 4 + 1 * b.val = b.val; omega
  | ⟨2, _⟩ => show ((cfg1 a).win 1).index t (2 : Fin 4) * 256 + 1 * r.val = kiN t * 256 + r.val; rw [hi]; show kiN t * 256 + 1 * r.val = _; omega
  | ⟨3, _⟩ => show ((cfg1 a).win 1).index t (3 : Fin 4) * 1024 + 1 * e.val = e.val; rw [hi]; show 0 * 1024 + 1 * e.val = e.val; omega

/-- Element (b, r, e) of the value block at point t is element (2, b, ki t · 256 + r, e) of the projections. -/
theorem emb2 (a : (pcfg1 (F := F)).Adm) (hpf : a.1 = tbl) (t : Fin grid1.N) (b : Fin 4) (r : Fin 256) (e : Fin 1024) :
    (((cfg1 a).win 2).blk t).view.emb (ix4 (0 : Fin 1) b r e)
      = ix4 (2 : Fin 3) b ⟨kiN t * 256 + r.val, ki_row_lt t r⟩ e := by
  funext ax
  apply Fin.ext
  have hi := blkIndex2 a hpf t
  match ax with
  | ⟨0, _⟩ => show ((cfg1 a).win 2).index t (0 : Fin 4) * 1 + 1 * (0 : ℕ) = 2; rw [hi]; rfl
  | ⟨1, _⟩ => show ((cfg1 a).win 2).index t (1 : Fin 4) * 4 + 1 * b.val = b.val; rw [hi]; show 0 * 4 + 1 * b.val = b.val; omega
  | ⟨2, _⟩ => show ((cfg1 a).win 2).index t (2 : Fin 4) * 256 + 1 * r.val = kiN t * 256 + r.val; rw [hi]; show kiN t * 256 + 1 * r.val = _; omega
  | ⟨3, _⟩ => show ((cfg1 a).win 2).index t (3 : Fin 4) * 1024 + 1 * e.val = e.val; rw [hi]; show 0 * 1024 + 1 * e.val = e.val; omega

/-- Element (b, r, o) of the output block at point t is element (b, qi t · 256 + r, o) of the result. -/
theorem emb3 (a : (pcfg1 (F := F)).Adm) (hpf : a.1 = tbl) (t : Fin grid1.N) (b : Fin 4) (r : Fin 256) (o : Fin 1024) :
    (((cfg1 a).win 3).blk t).view.emb (ix3 b r o) = ix3 b ⟨qiN t * 256 + r.val, qi_row_lt t r⟩ o := by
  funext ax
  apply Fin.ext
  have hi := blkIndex3 a hpf t
  match ax with
  | ⟨0, _⟩ => show ((cfg1 a).win 3).index t (0 : Fin 3) * 4 + 1 * b.val = b.val; rw [hi]; show 0 * 4 + 1 * b.val = b.val; omega
  | ⟨1, _⟩ => show ((cfg1 a).win 3).index t (1 : Fin 3) * 256 + 1 * r.val = qiN t * 256 + r.val; rw [hi]; show qiN t * 256 + 1 * r.val = _; omega
  | ⟨2, _⟩ => show ((cfg1 a).win 3).index t (2 : Fin 3) * 1024 + 1 * o.val = o.val; rw [hi]; show 0 * 1024 + 1 * o.val = o.val; omega

/-! ## The block reads -/

/-- The query block at point t, read off any contents x of the projections. -/
theorem read0 (a : (pcfg1 (F := F)).Adm) (hpf : a.1 = tbl) (x : S3x4x2048x1024.Idx → Elt F .bf16) (t : Fin grid1.N)
    (b : Fin 4) (r : Fin 256) (e : Fin 1024) :
    (((cfg1 a).win 0).blk t).view.read (Elt F) x (ix4 (0 : Fin 1) b r e)
      = x (ix4 (0 : Fin 3) b ⟨qiN t * 256 + r.val, qi_row_lt t r⟩ e) := by
  show x ((((cfg1 a).win 0).blk t).view.emb (ix4 (0 : Fin 1) b r e)) = _
  rw [emb0 a hpf]

/-- The key block at point t. -/
theorem read1 (a : (pcfg1 (F := F)).Adm) (hpf : a.1 = tbl) (x : S3x4x2048x1024.Idx → Elt F .bf16) (t : Fin grid1.N)
    (b : Fin 4) (r : Fin 256) (e : Fin 1024) :
    (((cfg1 a).win 1).blk t).view.read (Elt F) x (ix4 (0 : Fin 1) b r e)
      = x (ix4 (1 : Fin 3) b ⟨kiN t * 256 + r.val, ki_row_lt t r⟩ e) := by
  show x ((((cfg1 a).win 1).blk t).view.emb (ix4 (0 : Fin 1) b r e)) = _
  rw [emb1 a hpf]

/-- The value block at point t. -/
theorem read2 (a : (pcfg1 (F := F)).Adm) (hpf : a.1 = tbl) (x : S3x4x2048x1024.Idx → Elt F .bf16) (t : Fin grid1.N)
    (b : Fin 4) (r : Fin 256) (e : Fin 1024) :
    (((cfg1 a).win 2).blk t).view.read (Elt F) x (ix4 (0 : Fin 1) b r e)
      = x (ix4 (2 : Fin 3) b ⟨kiN t * 256 + r.val, ki_row_lt t r⟩ e) := by
  show x ((((cfg1 a).win 2).blk t).view.emb (ix4 (0 : Fin 1) b r e)) = _
  rw [emb2 a hpf]

/-! ## At the literal tables' admissible contents -/

theorem read0_adm (x : S3x4x2048x1024.Idx → Elt F .bf16) (t : Fin grid1.N) (b : Fin 4) (r : Fin 256) (e : Fin 1024) :
    (((cfg1 (adm1 (F := F))).win 0).blk t).view.read (Elt F) x (ix4 (0 : Fin 1) b r e)
      = x (ix4 (0 : Fin 3) b ⟨qiN t * 256 + r.val, qi_row_lt t r⟩ e) := read0 adm1 rfl x t b r e

theorem read1_adm (x : S3x4x2048x1024.Idx → Elt F .bf16) (t : Fin grid1.N) (b : Fin 4) (r : Fin 256) (e : Fin 1024) :
    (((cfg1 (adm1 (F := F))).win 1).blk t).view.read (Elt F) x (ix4 (0 : Fin 1) b r e)
      = x (ix4 (1 : Fin 3) b ⟨kiN t * 256 + r.val, ki_row_lt t r⟩ e) := read1 adm1 rfl x t b r e

theorem read2_adm (x : S3x4x2048x1024.Idx → Elt F .bf16) (t : Fin grid1.N) (b : Fin 4) (r : Fin 256) (e : Fin 1024) :
    (((cfg1 (adm1 (F := F))).win 2).blk t).view.read (Elt F) x (ix4 (0 : Fin 1) b r e)
      = x (ix4 (2 : Fin 3) b ⟨kiN t * 256 + r.val, ki_row_lt t r⟩ e) := read2 adm1 rfl x t b r e

theorem emb3_adm (t : Fin grid1.N) (b : Fin 4) (r : Fin 256) (o : Fin 1024) :
    (((cfg1 (adm1 (F := F))).win 3).blk t).view.emb (ix3 b r o) = ix3 b ⟨qiN t * 256 + r.val, qi_row_lt t r⟩ o :=
  emb3 adm1 rfl t b r o

end Cert.KernelIdeal.Flash

end
-- ==== Proof.Spec.lean ====
/-
  The mathematics both programs are compared against: single-head causal attention on one
  row.  Everything here is stated over extended reals and imports no program.

  For an input array X : [4, 2048, 1024] and weight matrices W : [1024, 1024]
    proj X W b s n   = Σ_d X[b, s, d] · W[n, d]                 (a linear layer y = x · Wᵀ)
    qk X Wq Wk b i j = Σ_n proj X Wq b i n · proj X Wk b j n    (the raw score q_i · k_j)
    score … b i j    = −∞ if j > i (the causal mask), else qk · (1/32)   (32 = √1024)
  and for a row of scores x and a column of values v
    refRow x v = Σ_j  exp (x_j − M) / Z · v_j,   M = max_j x_j,  Z = Σ_k exp (x_k − M)
  (the numerically stable softmax, as the reference computes it, contracted with v).
-/
import Idealize.ShloMosaic.Lib.ValueIdx

noncomputable section

open scoped BigOperators

namespace Cert.Attn

open Idealize.ShloMosaic Idealize.ShloMosaic.ValueIdx

/-- An activation array `[4, 2048, 1024]` of extended reals. -/
abbrev Act : Type := (⟨3, ![4, 2048, 1024]⟩ : Shape).Idx → EReal
/-- A weight matrix `[1024, 1024]` (`[d_out, d_in]`) of extended reals. -/
abbrev Wt : Type := (⟨2, ![1024, 1024]⟩ : Shape).Idx → EReal

/-- The linear layer `y = x · Wᵀ`: output feature `n` of token `(b, s)`. -/
def proj (X : Act) (W : Wt) (b : Fin 4) (s : Fin 2048) (n : Fin 1024) : EReal :=
  ∑ d : Fin 1024, X (ix3 b s d) * W (ix2 n d)

/-- The raw attention score `q_i · k_j` in batch `b`. -/
def qk (X : Act) (Wq Wk : Wt) (b : Fin 4) (i j : Fin 2048) : EReal :=
  ∑ n : Fin 1024, proj X Wq b i n * proj X Wk b j n

/-- The masked, scaled score: `−∞` above the diagonal, `q_i · k_j / √1024` on and below it. -/
def score (X : Act) (Wq Wk : Wt) (b : Fin 4) (i j : Fin 2048) : EReal :=
  if i.val < j.val then ⊥ else qk X Wq Wk b i j * ((1 / 32 : ℝ) : EReal)

/-- The greatest entry of a row (`−∞` for the empty row). -/
def rowMax {n : ℕ} (x : Fin n → EReal) : EReal := Finset.univ.sup x

/-- The softmax denominator of a row, shifted by its maximum. -/
def rowZ {n : ℕ} (x : Fin n → EReal) : EReal := ∑ k : Fin n, Ideal.exp (x k - rowMax x)

/-- One output element of attention: the stable softmax of the score row `x` contracted with the
    value column `v`. -/
def refRow {n : ℕ} (x v : Fin n → EReal) : EReal :=
  ∑ j : Fin n, Ideal.div (Ideal.exp (x j - rowMax x)) (rowZ x) * v j

/-! ## The float words the two programs print, as extended reals -/

/-- The word of `1024.0`. -/
theorem word_1024 : Ideal.ofBits .f32 0x44800000#32 = ((1024 : ℝ) : EReal) := by
  simp [Ideal.ofBits, Ideal.ieee, -EReal.coe_mul]; norm_num
/-- The word of `1/32 = 0.03125`. -/
theorem word_inv32 : Ideal.ofBits .f32 0x3D000000#32 = ((1 / 32 : ℝ) : EReal) := by
  simp [Ideal.ofBits, Ideal.ieee, -EReal.coe_mul]; norm_num
/-- The word of `−∞`. -/
theorem word_neg_inf : Ideal.ofBits .f32 0xFF800000#32 = ⊥ := by
  simp [Ideal.ofBits, Ideal.ieee]
/-- The word of `+∞`. -/
theorem word_pos_inf : Ideal.ofBits .f32 0x7F800000#32 = ⊤ := by
  simp [Ideal.ofBits, Ideal.ieee]
/-- The word of `0.0`. -/
theorem word_zero : Ideal.ofBits .f32 0x00000000#32 = 0 := by
  simp [Ideal.ofBits, Ideal.ieee]
/-- `√1024 = 32`. -/
theorem sqrt_word_1024 : Ideal.sqrt (Ideal.ofBits .f32 0x44800000#32) = ((32 : ℝ) : EReal) := by
  rw [word_1024, Ideal.sqrt_coe, if_neg (by norm_num)]
  congr 1
  rw [show (1024 : ℝ) = 32 ^ 2 by norm_num]
  exact Real.sqrt_sq (by norm_num)
/-- Dividing by `32` is multiplying by `1/32`, at the infinities too. -/
theorem div32 (y : EReal) : Ideal.div y ((32 : ℝ) : EReal) = y * ((1 / 32 : ℝ) : EReal) :=
  Ideal.div_coe (by norm_num) y
/-- `−∞ · (1/32) = −∞`. -/
theorem bot_mul_inv32 : (⊥ : EReal) * ((1 / 32 : ℝ) : EReal) = ⊥ :=
  EReal.bot_mul_coe_of_pos (by norm_num)

end Cert.Attn

end
-- ==== Proof.LibERealSums.lean ====
/-
  Finite sums over the extended reals: real-valued terms, and sums read block by block.

  Four general facts, none about a particular program.

  1. The inclusion of the reals in the extended reals commutes with finite sums.
  2. "Is a real number" (the value is the image of some real) is closed under +, *, finite sums, the logistic
     function, the cosine and the quotient by a nonzero real. These closure facts are what lets a law of the real field
     (distributivity) be used on extended reals, where it fails at the infinities.
  3. A sum over N = m * n consecutive indices is the sum over m blocks of the sums over the n indices of each block;
     this holds in every additive commutative monoid, the extended reals included, with no finiteness assumption.
  4. Moving a scalar out of a product with a matrix column: for reals s, v d, W d, b,
       sum_d (s + v d) * W d + b = sum_d v d * W d + (b + s * sum_d W d),
     stated on the images in the extended reals.
-/
import Idealize.ShloMosaic.PureOps.Ideal
import Mathlib.Data.EReal.Inv
import Mathlib.Logic.Equiv.Fin.Basic
import Mathlib.Algebra.BigOperators.Fin

noncomputable section

namespace Cert.Lib.ERealSums

open Idealize.ShloMosaic

/-! ## The coercion of a finite sum -/

/-- The image in the extended reals of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum {ι : Type*} [Fintype ι] (f : ι → ℝ) : ((∑ i, f i : ℝ) : EReal) = ∑ i, (f i : EReal) :=
  coe_finset_sum Finset.univ f

/-! ## Real-valued extended reals -/

/-- An extended real that is (the image of) a real number. -/
def IsReal (x : EReal) : Prop := ∃ y : ℝ, x = (y : EReal)

theorem isReal_coe (y : ℝ) : IsReal (y : EReal) := ⟨y, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- A finite sum of real-valued terms is real-valued. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The same over a whole finite type. -/
theorem isReal_sum {ι : Type*} [Fintype ι] (f : ι → EReal) (h : ∀ i, IsReal (f i)) : IsReal (∑ i, f i) :=
  isReal_finset_sum Finset.univ f fun i _ => h i

/-- The logistic function of a real is a real. -/
theorem IsReal.logistic {x : EReal} (hx : IsReal x) : IsReal (Ideal.logistic x) := by
  obtain ⟨a, rfl⟩ := hx
  exact ⟨_, Ideal.logistic_coe a⟩

/-- The cosine of a real is a real. -/
theorem IsReal.cos {x : EReal} (hx : IsReal x) : IsReal (Ideal.cos x) := by
  obtain ⟨a, rfl⟩ := hx
  exact ⟨_, Ideal.cos_coe a⟩

/-- The quotient of a real by a nonzero real is a real. -/
theorem IsReal.div_coe {x : EReal} (hx : IsReal x) {y : ℝ} (hy : y ≠ 0) : IsReal (Ideal.div x (y : EReal)) := by
  rw [Ideal.div_coe hy]
  exact hx.mul (isReal_coe _)

/-! ## A sum read block by block -/

/-- A sum over `N = m * n` indices is the sum over `m` blocks of the sum over the `n` indices of a block, when
    `g t p` is index `t * n + p`. Holds in any additive commutative monoid. -/
theorem sum_blocks {M : Type*} [AddCommMonoid M] {N : ℕ} (m n : ℕ) (h : m * n = N) (f : Fin N → M)
    (g : Fin m → Fin n → Fin N) (hg : ∀ t p, (g t p).val = t.val * n + p.val) :
    ∑ e : Fin N, f e = ∑ t : Fin m, ∑ p : Fin n, f (g t p) := by
  subst h
  rw [← Equiv.sum_comp finProdFinEquiv f, Fintype.sum_prod_type]
  refine Finset.sum_congr rfl fun t _ => Finset.sum_congr rfl fun p _ => congrArg f (Fin.ext ?_)
  rw [hg t p]
  show p.val + n * t.val = t.val * n + p.val
  rw [Nat.mul_comm, Nat.add_comm]

/-- The blocked sum with the two inner sums exchanged: a family `f e d` summed over all `e` and a lane `d` is the
    sum over blocks and lanes of the per-block partial sums. -/
theorem sum_blocks_comm {M : Type*} [AddCommMonoid M] {N L : ℕ} (m n : ℕ) (h : m * n = N) (f : Fin N → Fin L → M)
    (g : Fin m → Fin n → Fin N) (hg : ∀ t p, (g t p).val = t.val * n + p.val) :
    ∑ t : Fin m, ∑ d : Fin L, ∑ p : Fin n, f (g t p) d = ∑ e : Fin N, ∑ d : Fin L, f e d := by
  rw [sum_blocks m n h (fun e => ∑ d : Fin L, f e d) g hg]
  exact Finset.sum_congr rfl fun t _ => Finset.sum_comm

/-! ## A scalar moved from the row into the bias -/

/-- For reals: adding `s` to every entry of a row before the product with a matrix column is adding `s` times
    the column's sum to the bias. False at the infinities of the extended reals, hence stated for images of reals. -/
theorem sum_add_mul_coe {ι : Type*} [Fintype ι] (s : ℝ) (v W : ι → ℝ) (b : ℝ) :
    (∑ d, ((s : EReal) + (v d : EReal)) * (W d : EReal)) + (b : EReal)
      = (∑ d, (v d : EReal) * (W d : EReal)) + ((b : EReal) + (s : EReal) * ∑ d, (W d : EReal)) := by
  have hL : (∑ d, ((s : EReal) + (v d : EReal)) * (W d : EReal)) = ((∑ d, (s + v d) * W d : ℝ) : EReal) := by
    rw [coe_sum]
    exact Finset.sum_congr rfl fun d _ => by rw [EReal.coe_mul, EReal.coe_add]
  have hR : (∑ d, (v d : EReal) * (W d : EReal)) = ((∑ d, v d * W d : ℝ) : EReal) := by
    rw [coe_sum]
    exact Finset.sum_congr rfl fun d _ => by rw [EReal.coe_mul]
  rw [hL, hR, ← coe_sum, ← EReal.coe_mul, ← EReal.coe_add, ← EReal.coe_add, ← EReal.coe_add]
  congr 1
  simp only [add_mul, Finset.sum_add_distrib, ← Finset.mul_sum]
  ring

end Cert.Lib.ERealSums

end
-- ==== Proof.OnlineSoftmax.lean ====
/-
  The online (tiled, running-maximum) softmax of one row equals the softmax of the whole row, on the extended reals.

  A row of scores is cut into tiles of n keys. Each score is a real number or −∞ (a masked key); the first tile has
  at least one real score. The running state (m, l, acc) starts from (−∞, 0, 0) and a tile t updates it by
      m' = max m (max_j s t j),   a = exp (m − m'),   p j = exp (s t j − m'),
      l' = a · l + Σ_j p j,       acc' = a · acc + Σ_j p j · v t j.
  After T ≥ 1 tiles, with M = m_T the maximum of all scores seen,
      l_T = Σ_t Σ_j exp (s t j − M),      acc_T = Σ_t Σ_j exp (s t j − M) · v t j,
  because exp (m − m') · exp (x − m) = exp (x − m') for real m, m' and x real or −∞ (where both sides are 0).
  Hence acc_T / l_T is the softmax-weighted sum of the values. The second part reads a full row of N = K · n scores
  whose keys beyond the first T tiles are all −∞: those keys contribute exp (−∞) = 0 to every sum, and the maximum of
  the row is the maximum of its first T tiles, so the row's softmax-weighted sum is the tiled one.
-/
import proofs.«105760_j5128190951601_2_alg».proof.Proof.LibERealSums

noncomputable section

namespace Cert.Attn

open Idealize.ShloMosaic Cert.Lib.ERealSums

/-! ## Definitions -/

/-- The maximum of a finite family of extended reals, the reduction starting from −∞. -/
def tileMax {n : ℕ} (x : Fin n → EReal) : EReal := (Finset.univ : Finset (Fin n)).fold max ⊥ x

/-- The running maximum after k tiles. -/
def runM {n : ℕ} (s : ℕ → Fin n → EReal) : ℕ → EReal
  | 0 => ⊥
  | k + 1 => max (runM s k) (tileMax (s k))

/-- The running denominator after k tiles. -/
def runL {n : ℕ} (s : ℕ → Fin n → EReal) : ℕ → EReal
  | 0 => 0
  | k + 1 => Ideal.exp (runM s k - runM s (k + 1)) * runL s k + ∑ j, Ideal.exp (s k j - runM s (k + 1))

/-- The running numerator (for one value column) after k tiles. -/
def runAcc {n : ℕ} (s v : ℕ → Fin n → EReal) : ℕ → EReal
  | 0 => 0
  | k + 1 => Ideal.exp (runM s k - runM s (k + 1)) * runAcc s v k
      + ∑ j, Ideal.exp (s k j - runM s (k + 1)) * v k j

/-- The output of the online softmax after T tiles: numerator over denominator. -/
def onlineRow {n : ℕ} (T : ℕ) (s v : ℕ → Fin n → EReal) : EReal := Ideal.div (runAcc s v T) (runL s T)

/-- The hypotheses on the first T tiles of scores: no score is +∞, and the first tile has a real score. -/
structure Scores {n : ℕ} (s : ℕ → Fin n → EReal) (T : ℕ) : Prop where
  pos : 0 < T
  ne_top : ∀ t, t < T → ∀ j, s t j ≠ ⊤
  first : ∃ j, s 0 j ≠ ⊥

/-! ## Real-valued extended reals and the exponential -/

theorem isReal_iff {x : EReal} : IsReal x ↔ x ≠ ⊤ ∧ x ≠ ⊥ := by
  constructor
  · rintro ⟨y, rfl⟩
    exact ⟨EReal.coe_ne_top y, EReal.coe_ne_bot y⟩
  · rintro ⟨h1, h2⟩
    exact ⟨x.toReal, (EReal.coe_toReal h1 h2).symm⟩

theorem exp_nonneg (x : EReal) : 0 ≤ Ideal.exp x := by
  induction x using EReal.rec with
  | bot => exact le_of_eq Ideal.exp_bot.symm
  | coe r => rw [Ideal.exp_coe]; exact EReal.coe_nonneg.mpr (Real.exp_pos r).le
  | top => rw [Ideal.exp_top]; exact le_top

/-- The exponential of (a real or −∞) minus a real is a real. -/
theorem isReal_exp_sub {x : EReal} (hx : x ≠ ⊤) (m : ℝ) : IsReal (Ideal.exp (x - (m : EReal))) := by
  induction x using EReal.rec with
  | bot => rw [EReal.bot_sub, Ideal.exp_bot]; exact isReal_zero
  | coe r => rw [← EReal.coe_sub, Ideal.exp_coe]; exact isReal_coe _
  | top => exact absurd rfl hx

/-- ... and positive when the argument is a real. -/
theorem exp_sub_pos {x : EReal} (hx : x ≠ ⊤) (hx' : x ≠ ⊥) (m : ℝ) : 0 < Ideal.exp (x - (m : EReal)) := by
  induction x using EReal.rec with
  | bot => exact absurd rfl hx'
  | coe r => rw [← EReal.coe_sub, Ideal.exp_coe]; exact EReal.coe_pos.mpr (Real.exp_pos _)
  | top => exact absurd rfl hx

/-- Changing the reference point of the exponent: exp (m − m') · exp (x − m) = exp (x − m'). -/
theorem exp_rescale {x : EReal} (hx : x ≠ ⊤) (m m' : ℝ) :
    Ideal.exp ((m : EReal) - (m' : EReal)) * Ideal.exp (x - (m : EReal)) = Ideal.exp (x - (m' : EReal)) := by
  induction x using EReal.rec with
  | bot => simp only [EReal.bot_sub, Ideal.exp_bot, mul_zero]
  | coe r =>
    rw [← EReal.coe_sub, ← EReal.coe_sub, ← EReal.coe_sub, Ideal.exp_coe, Ideal.exp_coe, Ideal.exp_coe,
      ← EReal.coe_mul, ← Real.exp_add]
    congr 2
    ring
  | top => exact absurd rfl hx

/-- A real factor distributes over a finite sum of real-valued terms. -/
theorem mul_sum_of_isReal {ι : Type*} (S : Finset ι) {a : EReal} (ha : IsReal a) (f : ι → EReal)
    (hf : ∀ i ∈ S, IsReal (f i)) : a * ∑ i ∈ S, f i = ∑ i ∈ S, a * f i := by
  obtain ⟨a', rfl⟩ := ha
  have hf' : ∀ i ∈ S, f i = (((f i).toReal : ℝ) : EReal) := fun i hi => by
    obtain ⟨y, hy⟩ := hf i hi
    rw [hy, EReal.toReal_coe]
  calc (a' : EReal) * ∑ i ∈ S, f i
      = (a' : EReal) * ∑ i ∈ S, (((f i).toReal : ℝ) : EReal) := by rw [Finset.sum_congr rfl hf']
    _ = ((∑ i ∈ S, a' * (f i).toReal : ℝ) : EReal) := by
        rw [← coe_finset_sum, ← EReal.coe_mul, Finset.mul_sum]
    _ = ∑ i ∈ S, (a' : EReal) * f i := by
        rw [coe_finset_sum]
        exact Finset.sum_congr rfl fun i hi => by rw [EReal.coe_mul, ← hf' i hi]

theorem sum_mul_of_isReal {ι : Type*} (S : Finset ι) {a : EReal} (ha : IsReal a) (f : ι → EReal)
    (hf : ∀ i ∈ S, IsReal (f i)) : (∑ i ∈ S, f i) * a = ∑ i ∈ S, f i * a := by
  rw [mul_comm, mul_sum_of_isReal S ha f hf]
  exact Finset.sum_congr rfl fun i _ => mul_comm _ _

/-! ## The maximum -/

theorem tileMax_le_iff {n : ℕ} (x : Fin n → EReal) (c : EReal) : tileMax x ≤ c ↔ ∀ j, x j ≤ c := by
  unfold tileMax
  rw [Finset.fold_max_le]
  exact ⟨fun h j => h.2 j (Finset.mem_univ j), fun h => ⟨bot_le, fun j _ => h j⟩⟩

theorem tileMax_ne_top {n : ℕ} {x : Fin n → EReal} (h : ∀ j, x j ≠ ⊤) : tileMax x ≠ ⊤ := by
  rw [← lt_top_iff_ne_top]
  unfold tileMax
  rw [Finset.fold_max_lt]
  exact ⟨bot_lt_top, fun j _ => lt_top_iff_ne_top.mpr (h j)⟩

/-- The running maximum is the least upper bound of the scores seen. -/
theorem runM_le_iff {n : ℕ} (s : ℕ → Fin n → EReal) (k : ℕ) (c : EReal) :
    runM s k ≤ c ↔ ∀ t, t < k → ∀ j, s t j ≤ c := by
  induction k with
  | zero => exact ⟨fun _ t ht => absurd ht (Nat.not_lt_zero t), fun _ => bot_le⟩
  | succ k ih =>
    show max (runM s k) (tileMax (s k)) ≤ c ↔ _
    rw [max_le_iff, ih, tileMax_le_iff]
    constructor
    · rintro ⟨h1, h2⟩ t ht j
      rcases Nat.lt_succ_iff_lt_or_eq.mp ht with h | rfl
      · exact h1 t h j
      · exact h2 j
    · intro h
      exact ⟨fun t ht j => h t (Nat.lt_succ_of_lt ht) j, fun j => h k (Nat.lt_succ_self k) j⟩

theorem runM_ne_top {n : ℕ} {s : ℕ → Fin n → EReal} {T : ℕ} (h : Scores s T) {k : ℕ} (hkT : k ≤ T) :
    runM s k ≠ ⊤ := by
  induction k with
  | zero => exact bot_ne_top
  | succ k ih =>
    show max (runM s k) (tileMax (s k)) ≠ ⊤
    rw [← lt_top_iff_ne_top, max_lt_iff, lt_top_iff_ne_top, lt_top_iff_ne_top]
    exact ⟨ih (Nat.le_of_succ_le hkT), tileMax_ne_top (h.ne_top k hkT)⟩

theorem runM_isReal {n : ℕ} {s : ℕ → Fin n → EReal} {T : ℕ} (h : Scores s T) {k : ℕ} (hk : 0 < k) (hkT : k ≤ T) :
    IsReal (runM s k) := by
  refine isReal_iff.mpr ⟨runM_ne_top h hkT, ?_⟩
  obtain ⟨j, hj⟩ := h.first
  exact ne_bot_of_le_ne_bot hj ((runM_le_iff s k _).mp le_rfl 0 hk j)

/-! ## The closed forms of the running sums -/

/-- Re-referencing a weighted sum of exponentials over the first k tiles from m to m'. -/
theorem rescale_sum {n : ℕ} (s w : ℕ → Fin n → EReal) (k : ℕ) (hs : ∀ t, t < k → ∀ j, s t j ≠ ⊤)
    (hw : ∀ t, t < k → ∀ j, IsReal (w t j)) (m m' : ℝ) :
    Ideal.exp ((m : EReal) - (m' : EReal)) * ∑ t ∈ Finset.range k, ∑ j, Ideal.exp (s t j - (m : EReal)) * w t j
      = ∑ t ∈ Finset.range k, ∑ j, Ideal.exp (s t j - (m' : EReal)) * w t j := by
  have ha : IsReal (Ideal.exp ((m : EReal) - (m' : EReal))) := isReal_exp_sub (EReal.coe_ne_top m) m'
  rw [mul_sum_of_isReal _ ha _ fun t ht => isReal_sum _ fun j =>
    (isReal_exp_sub (hs t (Finset.mem_range.mp ht) j) m).mul (hw t (Finset.mem_range.mp ht) j)]
  refine Finset.sum_congr rfl fun t ht => ?_
  have ht' := Finset.mem_range.mp ht
  rw [mul_sum_of_isReal _ ha _ fun j _ => (isReal_exp_sub (hs t ht' j) m).mul (hw t ht' j)]
  refine Finset.sum_congr rfl fun j _ => ?_
  rw [← mul_assoc, exp_rescale (hs t ht' j)]

theorem runAcc_eq {n : ℕ} {s v : ℕ → Fin n → EReal} {T : ℕ} (h : Scores s T)
    (hv : ∀ t, t < T → ∀ j, IsReal (v t j)) {k : ℕ} (hkT : k ≤ T) :
    runAcc s v k = ∑ t ∈ Finset.range k, ∑ j, Ideal.exp (s t j - runM s k) * v t j := by
  induction k with
  | zero => simp [runAcc]
  | succ k ih =>
    have hk : k ≤ T := Nat.le_of_succ_le hkT
    obtain ⟨m', hm'⟩ := runM_isReal h (Nat.succ_pos k) hkT
    show Ideal.exp (runM s k - runM s (k + 1)) * runAcc s v k + ∑ j, Ideal.exp (s k j - runM s (k + 1)) * v k j = _
    rw [Finset.sum_range_succ, ih hk]
    congr 1
    rcases Nat.eq_zero_or_pos k with rfl | hkpos
    · simp
    · obtain ⟨m, hm⟩ := runM_isReal h hkpos hk
      rw [hm, hm']
      exact rescale_sum s v k (fun t ht => h.ne_top t (lt_of_lt_of_le ht hk))
        (fun t ht => hv t (lt_of_lt_of_le ht hk)) m m'

theorem runL_eq {n : ℕ} {s : ℕ → Fin n → EReal} {T : ℕ} (h : Scores s T) {k : ℕ} (hkT : k ≤ T) :
    runL s k = ∑ t ∈ Finset.range k, ∑ j, Ideal.exp (s t j - runM s k) := by
  induction k with
  | zero => simp [runL]
  | succ k ih =>
    have hk : k ≤ T := Nat.le_of_succ_le hkT
    obtain ⟨m', hm'⟩ := runM_isReal h (Nat.succ_pos k) hkT
    show Ideal.exp (runM s k - runM s (k + 1)) * runL s k + ∑ j, Ideal.exp (s k j - runM s (k + 1)) = _
    rw [Finset.sum_range_succ, ih hk]
    congr 1
    rcases Nat.eq_zero_or_pos k with rfl | hkpos
    · simp
    · obtain ⟨m, hm⟩ := runM_isReal h hkpos hk
      rw [hm, hm']
      have := rescale_sum s (fun _ _ => 1) k (fun t ht => h.ne_top t (lt_of_lt_of_le ht hk))
        (fun _ _ _ => isReal_one) m m'
      simpa only [mul_one] using this

theorem runL_isReal {n : ℕ} {s : ℕ → Fin n → EReal} {T : ℕ} (h : Scores s T) {k : ℕ} (hkT : k ≤ T) :
    IsReal (runL s k) := by
  rcases Nat.eq_zero_or_pos k with rfl | hkpos
  · exact isReal_zero
  · rw [runL_eq h hkT]
    obtain ⟨m, hm⟩ := runM_isReal h hkpos hkT
    rw [hm]
    exact isReal_finset_sum _ _ fun t ht => isReal_sum _ fun j =>
      isReal_exp_sub (h.ne_top t (lt_of_lt_of_le (Finset.mem_range.mp ht) hkT) j) m

theorem runAcc_isReal {n : ℕ} {s v : ℕ → Fin n → EReal} {T : ℕ} (h : Scores s T)
    (hv : ∀ t, t < T → ∀ j, IsReal (v t j)) {k : ℕ} (hkT : k ≤ T) : IsReal (runAcc s v k) := by
  rcases Nat.eq_zero_or_pos k with rfl | hkpos
  · exact isReal_zero
  · rw [runAcc_eq h hv hkT]
    obtain ⟨m, hm⟩ := runM_isReal h hkpos hkT
    rw [hm]
    exact isReal_finset_sum _ _ fun t ht => isReal_sum _ fun j =>
      (isReal_exp_sub (h.ne_top t (lt_of_lt_of_le (Finset.mem_range.mp ht) hkT) j) m).mul
        (hv t (lt_of_lt_of_le (Finset.mem_range.mp ht) hkT) j)

theorem runL_pos {n : ℕ} {s : ℕ → Fin n → EReal} {T : ℕ} (h : Scores s T) {k : ℕ} (hk : 0 < k) (hkT : k ≤ T) :
    0 < runL s k := by
  rw [runL_eq h hkT]
  obtain ⟨m, hm⟩ := runM_isReal h hk hkT
  rw [hm]
  obtain ⟨j, hj⟩ := h.first
  have h0T : 0 < T := h.pos
  calc (0 : EReal) < Ideal.exp (s 0 j - (m : EReal)) := exp_sub_pos (h.ne_top 0 h0T j) hj m
    _ ≤ ∑ j', Ideal.exp (s 0 j' - (m : EReal)) :=
        Finset.single_le_sum (f := fun j' => Ideal.exp (s 0 j' - (m : EReal))) (fun j' _ => exp_nonneg _)
          (Finset.mem_univ j)
    _ ≤ ∑ t ∈ Finset.range k, ∑ j', Ideal.exp (s t j' - (m : EReal)) :=
        Finset.single_le_sum (f := fun t => ∑ j', Ideal.exp (s t j' - (m : EReal)))
          (fun t _ => Finset.sum_nonneg fun j' _ => exp_nonneg _) (Finset.mem_range.mpr hk)

/-! ## The online softmax is the softmax -/

/-- The online softmax after T tiles is the softmax-weighted sum of the values. -/
theorem online_softmax {n : ℕ} {s v : ℕ → Fin n → EReal} {T : ℕ} (h : Scores s T)
    (hv : ∀ t, t < T → ∀ j, IsReal (v t j)) :
    onlineRow T s v
      = ∑ t ∈ Finset.range T, ∑ j,
          Ideal.div (Ideal.exp (s t j - runM s T)) (∑ t' ∈ Finset.range T, ∑ j', Ideal.exp (s t' j' - runM s T))
            * v t j := by
  unfold onlineRow
  rw [← runL_eq h le_rfl, runAcc_eq h hv le_rfl]
  obtain ⟨z, hz⟩ := runL_isReal h (le_refl T)
  have hzpos : 0 < z := by
    have := runL_pos h h.pos le_rfl
    rw [hz] at this
    exact EReal.coe_pos.mp this
  obtain ⟨m, hm⟩ := runM_isReal h h.pos le_rfl
  rw [hz, hm, Ideal.div_coe hzpos.ne']
  have hc : IsReal (((1 / z : ℝ)) : EReal) := isReal_coe _
  rw [sum_mul_of_isReal _ hc _ fun t ht => isReal_sum _ fun j =>
    (isReal_exp_sub (h.ne_top t (Finset.mem_range.mp ht) j) m).mul (hv t (Finset.mem_range.mp ht) j)]
  refine Finset.sum_congr rfl fun t ht => ?_
  have ht' := Finset.mem_range.mp ht
  rw [sum_mul_of_isReal _ hc _ fun j _ => (isReal_exp_sub (h.ne_top t ht' j) m).mul (hv t ht' j)]
  refine Finset.sum_congr rfl fun j _ => ?_
  rw [Ideal.div_coe hzpos.ne', mul_right_comm]

/-! ## A full row whose keys beyond the first T tiles are −∞ -/

/-- Every key of a row of K · n keys is a place of a tile. -/
theorem exists_tile {K n N : ℕ} (hN : K * n = N) (g : Fin K → Fin n → Fin N)
    (hg : ∀ t p, (g t p).val = t.val * n + p.val) (e : Fin N) : ∃ t p, g t p = e := by
  subst hN
  have hn : 0 < n := Nat.pos_of_ne_zero fun h0 => by
    subst h0
    exact absurd e.isLt (by simp)
  have he : e.val / n < K := (Nat.div_lt_iff_lt_mul hn).mpr e.isLt
  refine ⟨⟨e.val / n, he⟩, ⟨e.val % n, Nat.mod_lt _ hn⟩, Fin.ext ?_⟩
  rw [hg]
  exact Nat.div_add_mod' e.val n

/-- A sum over the row, whose terms beyond the first T tiles vanish, as a sum over the first T tiles. -/
theorem sum_tiles {K n N : ℕ} (hN : K * n = N) (g : Fin K → Fin n → Fin N)
    (hg : ∀ t p, (g t p).val = t.val * n + p.val) {T : ℕ} (hTK : T ≤ K) (F : Fin N → EReal) (G : ℕ → Fin n → EReal)
    (hvis : ∀ t p, t.val < T → F (g t p) = G t.val p) (hmask : ∀ t p, ¬ t.val < T → F (g t p) = 0) :
    ∑ e, F e = ∑ t ∈ Finset.range T, ∑ j, G t j := by
  rw [sum_blocks K n hN F g hg]
  have h1 : ∀ t : Fin K, ∑ p, F (g t p) = (fun t : ℕ => if t < T then ∑ p, G t p else 0) t.val := fun t => by
    by_cases ht : t.val < T
    · simp only [if_pos ht]
      exact Finset.sum_congr rfl fun p _ => hvis t p ht
    · simp only [if_neg ht]
      exact Finset.sum_eq_zero fun p _ => hmask t p ht
  rw [Finset.sum_congr rfl fun t _ => h1 t, Fin.sum_univ_eq_sum_range (fun t : ℕ => if t < T then ∑ p, G t p else 0) K,
    ← Finset.sum_subset (Finset.range_mono hTK) fun t _ ht => if_neg (fun h => ht (Finset.mem_range.mpr h))]
  exact Finset.sum_congr rfl fun t ht => if_pos (Finset.mem_range.mp ht)

/-- A full row of N = K · n scores whose keys beyond the first T tiles are −∞: its softmax-weighted sum of values is the
    online softmax of its first T tiles. `g t p` is the key at place p of tile t. -/
theorem row_softmax_eq_online {K n N : ℕ} (hN : K * n = N) (g : Fin K → Fin n → Fin N)
    (hg : ∀ t p, (g t p).val = t.val * n + p.val) {s v : ℕ → Fin n → EReal} {T : ℕ} (h : Scores s T) (hTK : T ≤ K)
    (hv : ∀ t, t < T → ∀ j, IsReal (v t j)) (x vx : Fin N → EReal)
    (hx : ∀ t p, x (g t p) = if t.val < T then s t.val p else ⊥)
    (hvx : ∀ t p, t.val < T → vx (g t p) = v t.val p) :
    ∑ e, Ideal.div (Ideal.exp (x e - tileMax x)) (∑ e', Ideal.exp (x e' - tileMax x)) * vx e
      = onlineRow T s v := by
  have hM : tileMax x = runM s T := by
    refine eq_of_forall_ge_iff fun c => ?_
    rw [tileMax_le_iff, runM_le_iff]
    constructor
    · intro hc t ht j
      have := hc (g ⟨t, lt_of_lt_of_le ht hTK⟩ j)
      rwa [hx, if_pos (show (⟨t, lt_of_lt_of_le ht hTK⟩ : Fin K).val < T from ht)] at this
    · intro hc e
      obtain ⟨t, p, rfl⟩ := exists_tile hN g hg e
      rw [hx]
      by_cases ht : t.val < T
      · rw [if_pos ht]; exact hc t.val ht p
      · rw [if_neg ht]; exact bot_le
  rw [hM, online_softmax h hv]
  have hZ : ∑ e', Ideal.exp (x e' - runM s T) = ∑ t ∈ Finset.range T, ∑ j, Ideal.exp (s t j - runM s T) :=
    sum_tiles hN g hg hTK _ (fun t j => Ideal.exp (s t j - runM s T))
      (fun t p ht => by rw [hx, if_pos ht]) (fun t p ht => by rw [hx, if_neg ht, EReal.bot_sub, Ideal.exp_bot])
  rw [hZ]
  exact sum_tiles hN g hg hTK _
    (fun t j => Ideal.div (Ideal.exp (s t j - runM s T))
      (∑ t' ∈ Finset.range T, ∑ j', Ideal.exp (s t' j' - runM s T)) * v t j)
    (fun t p ht => by rw [hx, if_pos ht, hvx t p ht])
    (fun t p ht => by
      rw [hx, if_neg ht, EReal.bot_sub, Ideal.exp_bot]
      have hz0 : Ideal.div 0 (∑ t' ∈ Finset.range T, ∑ j', Ideal.exp (s t' j' - runM s T)) = 0 := by
        rw [← runL_eq h le_rfl]
        obtain ⟨z, hz⟩ := runL_isReal h (le_refl T)
        have hzpos : 0 < z := by
          have := runL_pos h h.pos le_rfl
          rw [hz] at this
          exact EReal.coe_pos.mp this
        rw [hz, Ideal.div_coe hzpos.ne', zero_mul]
      rw [hz0, zero_mul])

end Cert.Attn

end
-- ==== Proof.OnlineSoftmaxRef.lean ====
/-
  The reference's row form of the softmax-weighted sum (rowMax, rowZ, refRow) against the online softmax: a row of
  N = K · n scores whose keys beyond the first T tiles are −∞ has refRow equal to the online softmax of its first T
  tiles. The row maximum as a supremum over the index set is the fold of max from −∞.
-/
import proofs.«105760_j5128190951601_2_alg».proof.Proof.Spec
import proofs.«105760_j5128190951601_2_alg».proof.Proof.OnlineSoftmax

noncomputable section

namespace Cert.Attn

open Idealize.ShloMosaic Cert.Lib.ERealSums

theorem rowMax_eq_tileMax {n : ℕ} (x : Fin n → EReal) : rowMax x = tileMax x := rfl

/-- A full row of N = K · n scores whose keys beyond the first T tiles are −∞: the reference's row form equals the online
    softmax of the first T tiles. `g t p` is the key at place p of tile t. -/
theorem refRow_eq_onlineRow {K n N : ℕ} (hN : K * n = N) (g : Fin K → Fin n → Fin N)
    (hg : ∀ t p, (g t p).val = t.val * n + p.val) {s v : ℕ → Fin n → EReal} {T : ℕ} (h : Scores s T) (hTK : T ≤ K)
    (hv : ∀ t, t < T → ∀ j, IsReal (v t j)) (x vx : Fin N → EReal)
    (hx : ∀ t p, x (g t p) = if t.val < T then s t.val p else ⊥)
    (hvx : ∀ t p, t.val < T → vx (g t p) = v t.val p) :
    refRow x vx = onlineRow T s v := by
  unfold refRow rowZ
  simp only [rowMax_eq_tileMax]
  exact row_softmax_eq_online hN g hg h hTK hv x vx hx hvx

end Cert.Attn

end
-- ==== Proof.AttnRow.lean ====
/-
  One output element of causal attention, read tile by tile.

  For a query position i, batch b and output feature o, the row of masked, scaled scores x_j = score b i j
  (j over all 2048 key positions) is cut into 8 tiles of 256 keys. A key position j > i is masked (−∞); so every tile
  beyond tile i / 256 is entirely −∞, the tile i / 256 itself is partly masked, and tile 0 always contains the real
  score of key 0. All projections and raw scores are finite sums of products of reals, hence reals. The softmax of the
  row contracted with the value column is therefore the online softmax over the first i / 256 + 1 tiles.
-/
import proofs.«105760_j5128190951601_2_alg».proof.Proof.Spec
import proofs.«105760_j5128190951601_2_alg».proof.Proof.OnlineSoftmaxRef

noncomputable section

namespace Cert.Attn

open Idealize.ShloMosaic Idealize.ShloMosaic.ValueIdx Cert.Lib.ERealSums

/-- The scores of query i against the keys of tile t (256 keys a tile); −∞ past the end of the row. -/
def tileS (X : Act) (Wq Wk : Wt) (b : Fin 4) (i : Fin 2048) : ℕ → Fin 256 → EReal :=
  fun t j => if h : t * 256 + j.val < 2048 then score X Wq Wk b i ⟨t * 256 + j.val, h⟩ else ⊥

/-- Feature o of the values of the keys of tile t; 0 past the end of the row. -/
def tileV (X : Act) (Wv : Wt) (b : Fin 4) (o : Fin 1024) : ℕ → Fin 256 → EReal :=
  fun t j => if h : t * 256 + j.val < 2048 then proj X Wv b ⟨t * 256 + j.val, h⟩ o else 0

/-- Key p of tile t as a position of the row. -/
def tileKey (t : Fin 8) (p : Fin 256) : Fin 2048 := ⟨t.val * 256 + p.val, by omega⟩

/-! ## Finiteness -/

theorem proj_isReal {X : Act} {W : Wt} (hX : ∀ idx, IsReal (X idx)) (hW : ∀ idx, IsReal (W idx)) (b : Fin 4)
    (s : Fin 2048) (n : Fin 1024) : IsReal (proj X W b s n) :=
  isReal_sum _ fun _ => (hX _).mul (hW _)

theorem qk_isReal {X : Act} {Wq Wk : Wt} (hX : ∀ idx, IsReal (X idx)) (hWq : ∀ idx, IsReal (Wq idx))
    (hWk : ∀ idx, IsReal (Wk idx)) (b : Fin 4) (i j : Fin 2048) : IsReal (qk X Wq Wk b i j) :=
  isReal_sum _ fun _ => (proj_isReal hX hWq b i _).mul (proj_isReal hX hWk b j _)

/-- A visible (unmasked) score is a real. -/
theorem score_isReal {X : Act} {Wq Wk : Wt} (hX : ∀ idx, IsReal (X idx)) (hWq : ∀ idx, IsReal (Wq idx))
    (hWk : ∀ idx, IsReal (Wk idx)) (b : Fin 4) {i j : Fin 2048} (hji : j.val ≤ i.val) :
    IsReal (score X Wq Wk b i j) := by
  unfold score
  rw [if_neg (Nat.not_lt.mpr hji)]
  exact (qk_isReal hX hWq hWk b i j).mul (isReal_coe _)

/-- No score is +∞. -/
theorem score_ne_top {X : Act} {Wq Wk : Wt} (hX : ∀ idx, IsReal (X idx)) (hWq : ∀ idx, IsReal (Wq idx))
    (hWk : ∀ idx, IsReal (Wk idx)) (b : Fin 4) (i j : Fin 2048) : score X Wq Wk b i j ≠ ⊤ := by
  by_cases hji : j.val ≤ i.val
  · exact (isReal_iff.mp (score_isReal hX hWq hWk b hji)).1
  · unfold score
    rw [if_pos (Nat.lt_of_not_le hji)]
    exact bot_ne_top

/-! ## The tiles of a row -/

/-- The tiles of the score row of query i satisfy the hypotheses of the online softmax over i / 256 + 1 tiles. -/
theorem tileS_scores {X : Act} {Wq Wk : Wt} (hX : ∀ idx, IsReal (X idx)) (hWq : ∀ idx, IsReal (Wq idx))
    (hWk : ∀ idx, IsReal (Wk idx)) (b : Fin 4) (i : Fin 2048) :
    Scores (tileS X Wq Wk b i) (i.val / 256 + 1) where
  pos := Nat.succ_pos _
  ne_top := fun t _ j => by
    unfold tileS
    split
    · exact score_ne_top hX hWq hWk b i _
    · exact bot_ne_top
  first := ⟨0, by
    have h0 : 0 * 256 + (0 : Fin 256).val < 2048 := by decide
    unfold tileS
    rw [dif_pos h0]
    exact (isReal_iff.mp (score_isReal hX hWq hWk b (i := i) (j := ⟨0 * 256 + (0 : Fin 256).val, h0⟩)
      (Nat.zero_le _))).2⟩

theorem tileV_isReal {X : Act} {Wv : Wt} (hX : ∀ idx, IsReal (X idx)) (hWv : ∀ idx, IsReal (Wv idx)) (b : Fin 4)
    (o : Fin 1024) (t : ℕ) (j : Fin 256) : IsReal (tileV X Wv b o t j) := by
  unfold tileV
  split
  · exact proj_isReal hX hWv b _ o
  · exact isReal_zero

/-- Attention's output element (b, i, o): the softmax of the score row contracted with the value column is the online
    softmax over the first i / 256 + 1 tiles of 256 keys. -/
theorem attn_row {X : Act} {Wq Wk Wv : Wt} (hX : ∀ idx, IsReal (X idx)) (hWq : ∀ idx, IsReal (Wq idx))
    (hWk : ∀ idx, IsReal (Wk idx)) (hWv : ∀ idx, IsReal (Wv idx)) (b : Fin 4) (i : Fin 2048) (o : Fin 1024) :
    refRow (fun j => score X Wq Wk b i j) (fun j => proj X Wv b j o)
      = onlineRow (i.val / 256 + 1) (tileS X Wq Wk b i) (tileV X Wv b o) := by
  refine refRow_eq_onlineRow (K := 8) (n := 256) (N := 2048) (by norm_num) tileKey (fun _ _ => rfl)
    (tileS_scores hX hWq hWk b i) (by omega) (fun t _ j => tileV_isReal hX hWv b o t j) _ _ ?_ ?_
  · intro t p
    have hlt : t.val * 256 + p.val < 2048 := by omega
    by_cases ht : t.val < i.val / 256 + 1
    · rw [if_pos ht]
      unfold tileS
      rw [dif_pos hlt]
      rfl
    · rw [if_neg ht]
      show score X Wq Wk b i (tileKey t p) = ⊥
      unfold score
      rw [if_pos (show i.val < (tileKey t p).val by show i.val < t.val * 256 + p.val; omega)]
  · intro t p _
    have hlt : t.val * 256 + p.val < 2048 := by omega
    unfold tileV
    rw [dif_pos hlt]
    rfl

/-! ## The same, for row r of query tile qi, and the entries of a tile -/

/-- Row r of query tile qi is position qi · 256 + r. -/
def qPos (qi : Fin 8) (r : Fin 256) : Fin 2048 := ⟨qi.val * 256 + r.val, by omega⟩

theorem attn_row_tile {X : Act} {Wq Wk Wv : Wt} (hX : ∀ idx, IsReal (X idx)) (hWq : ∀ idx, IsReal (Wq idx))
    (hWk : ∀ idx, IsReal (Wk idx)) (hWv : ∀ idx, IsReal (Wv idx)) (b : Fin 4) (qi : Fin 8) (r : Fin 256)
    (o : Fin 1024) :
    refRow (fun j => score X Wq Wk b (qPos qi r) j) (fun j => proj X Wv b j o)
      = onlineRow (qi.val + 1) (tileS X Wq Wk b (qPos qi r)) (tileV X Wv b o) := by
  have h := attn_row hX hWq hWk hWv b (qPos qi r) o
  have hq : (qPos qi r).val / 256 = qi.val := by show (qi.val * 256 + r.val) / 256 = qi.val; omega
  rwa [hq] at h

/-- An entry of a key tile ki ≤ qi: the scaled raw score where the key position is at most the query position,
    −∞ where it is greater. -/
theorem tileS_apply (X : Act) (Wq Wk : Wt) (b : Fin 4) (qi : Fin 8) (r : Fin 256) (ki : ℕ) (hki : ki ≤ qi.val)
    (c : Fin 256) :
    tileS X Wq Wk b (qPos qi r) ki c
      = if ki * 256 + c.val ≤ qi.val * 256 + r.val then
          qk X Wq Wk b (qPos qi r) ⟨ki * 256 + c.val, by omega⟩ * ((1 / 32 : ℝ) : EReal)
        else ⊥ := by
  have hlt : ki * 256 + c.val < 2048 := by omega
  unfold tileS
  rw [dif_pos hlt]
  unfold score
  by_cases hle : ki * 256 + c.val ≤ qi.val * 256 + r.val
  · rw [if_pos hle, if_neg (show ¬ (qPos qi r).val < ki * 256 + c.val from Nat.not_lt.mpr hle)]
  · rw [if_neg hle, if_pos (show (qPos qi r).val < ki * 256 + c.val from Nat.lt_of_not_le hle)]

/-- An entry of a value tile ki ≤ 7. -/
theorem tileV_apply (X : Act) (Wv : Wt) (b : Fin 4) (o : Fin 1024) (ki : ℕ) (hki : ki ≤ 7) (c : Fin 256) :
    tileV X Wv b o ki c = proj X Wv b ⟨ki * 256 + c.val, by omega⟩ o := by
  have hlt : ki * 256 + c.val < 2048 := by omega
  unfold tileV
  rw [dif_pos hlt]

end Cert.Attn

end
-- ==== Proof.FlashOut.lean ====
/- The array the attention region leaves: from what each closing point writes back (one tile of 256 query rows of
   causal attention) to the whole result array, every row being in the block of its query tile's closing point. -/
import proofs.«105760_j5128190951601_2_alg».proof.Proof.FlashSched
import proofs.«105760_j5128190951601_2_alg».proof.Proof.FlashBlocks
import proofs.«105760_j5128190951601_2_alg».proof.Proof.AttnRow
import Idealize.ShloMosaic.Lib.Pipeline.Value
import Idealize.ShloMosaic.Lib.Pipeline.Kit
import Idealize.ShloMosaic.Lib.ValueIdx

set_option maxRecDepth 16384

noncomputable section

namespace Cert.KernelIdeal.FlashOut

open Cert.KernelIdeal Cert.KernelIdeal.Gen Cert.KernelIdeal.Flash Cert.Attn
open Idealize.ShloMosaic Idealize.ShloMosaic.TcCoe Idealize.ShloMosaic.ValueIdx
open Idealize.SL Idealize.SL.Sem
open Idealize.ShloMosaic.Pipeline (Dat)

/-- Causal attention as one function of the activations and the three weight matrices, index by index: batch b,
    position s, feature o is the stable softmax of row s of the masked scaled scores against column o of the values. -/
def attnG (X : Act) (Wq Wk Wv : Wt) : S4x2048x1024.Idx → EReal :=
  fun j => refRow (fun j' => score X Wq Wk (⟨(j 0).val, (j 0).isLt⟩ : Fin 4) (⟨(j 1).val, (j 1).isLt⟩ : Fin 2048) j')
    (fun j' => proj X Wv (⟨(j 0).val, (j 0).isLt⟩ : Fin 4) j' (⟨(j 2).val, (j 2).isLt⟩ : Fin 1024))

theorem attnG_apply (X : Act) (Wq Wk Wv : Wt) (b : Fin 4) (s : Fin 2048) (o : Fin 1024) :
    attnG X Wq Wk Wv (ix3 b s o) = refRow (fun j' => score X Wq Wk b s j') (fun j' => proj X Wv b j' o) := rfl

/-- The attention pipeline at the literal tables. -/
abbrev cfgA : Pipeline.Cfg sig Λ₀ := cfg1 (adm1 (F := Ideal))

/-- The query tile of a point, as one of the 8 tiles. -/
def qTile (t : Fin grid1.N) : Fin 8 := ⟨qiN t, Nat.lt_succ_of_le (sched_le t).2⟩

theorem qTile_val (t : Fin grid1.N) : (qTile t).val = qiN t := rfl

section

variable {c : Dev nD} (dat : Dat τ (Elt Ideal) Unit ℕ (UR sig nD τ) ℕ cfgA c) (X : Act) (Wq Wk Wv : Wt)

/-- FROM BLOCKS TO THE ARRAY, for any proof data of the attention pipeline: if every closing point writes its block back
    (hclose), the block of point t is rows qi t · 256 … of the array (hemb), and what a point that writes back leaves
    in the output block is attention at the array index under each block index (hafter), the result array ends
    holding attention everywhere. -/
theorem arrAt_eq_attn
    (hclose : ∀ t : Fin grid1.N, kiN t = qiN t → (cfgA.win 3).flush t = true)
    (hemb : ∀ (t : Fin grid1.N) (b : Fin 4) (r : Fin 256) (o : Fin 1024),
      ((cfgA.win 3).blk t).view.emb (ix3 b r o) = ix3 b (qPos (qTile t) r) o)
    (hafter : ∀ t : Fin grid1.N, (cfgA.win 3).flush t = true → ∀ j : S4x256x1024.Idx,
      dat.after 3 t j = attnG X Wq Wk Wv (((cfgA.win 3).blk t).view.emb j)) :
    dat.arrAt 3 cfgA.N = attnG X Wq Wk Wv := by
  refine dat.arrAt_eq_of_cover 3 (attnG X Wq Wk Wv) (fun t hf => ?_) (fun i => ?_)
  · funext j
    exact hafter t hf j
  · have hi0 : (i 0).val < 4 := (i 0).isLt
    have hi1 : (i 1).val < 2048 := (i 1).isLt
    have hi2 : (i 2).val < 1024 := (i 2).isLt
    obtain ⟨t, hq, hk⟩ := closing_surj (⟨(i 1).val / 256, by omega⟩ : Fin 8)
    refine ⟨t, hclose t (hk.trans hq.symm), ?_⟩
    have hmem := View.emb_mem_set ((cfgA.win 3).blk t).view (ix3 (⟨(i 0).val, hi0⟩ : Fin 4) (⟨(i 1).val % 256, Nat.mod_lt _ (by decide)⟩ : Fin 256) (⟨(i 2).val, hi2⟩ : Fin 1024))
    rw [hemb] at hmem
    have e : i = ix3 (⟨(i 0).val, hi0⟩ : Fin 4) (qPos (qTile t) (⟨(i 1).val % 256, Nat.mod_lt _ (by decide)⟩ : Fin 256)) (⟨(i 2).val, hi2⟩ : Fin 1024) := by
      funext a; apply Fin.ext
      match a with
      | ⟨0, _⟩ => rfl
      | ⟨1, _⟩ =>
        show (i 1).val = qiN t * 256 + (i 1).val % 256
        rw [hq]; show (i 1).val = (i 1).val / 256 * 256 + (i 1).val % 256; omega
      | ⟨2, _⟩ => rfl
    rw [e]; exact hmem

end

/-! ## Which points write the output block back, and where its rows sit -/

/-- The output block is written back exactly at the closing points: there the query tile changes, or the grid ends. -/
theorem flush3_iff (t : Fin grid1.N) : (cfgA.win 3).flush t = true ↔ kiN t = qiN t := by
  rw [← qi_changes_iff t]
  unfold Pipeline.Window.flush
  have hout : (cfgA.win 3).isOut = true := rfl
  rw [hout, Bool.true_and, Bool.or_eq_true, decide_eq_true_eq, decide_eq_true_eq]
  have key : ∀ h : t.val + 1 < grid1.N,
      ((cfgA.win 3).index ⟨t.val + 1, h⟩ ≠ (cfgA.win 3).index t) ↔ qiN ⟨t.val + 1, h⟩ ≠ qiN t := by
    intro h
    rw [blkIndex3 (adm1 (F := Ideal)) rfl ⟨t.val + 1, h⟩, blkIndex3 (adm1 (F := Ideal)) rfl t]
    constructor
    · intro hne e; exact hne (by rw [e])
    · intro hne e; exact hne (congrFun e (1 : Fin 3))
  constructor
  · rintro (h | ⟨h, hne⟩)
    · exact .inl h
    · exact .inr ⟨h, (key h).mp hne⟩
  · rintro (h | ⟨h, hne⟩)
    · exact .inl h
    · exact .inr ⟨h, (key h).mpr hne⟩

/-- Row r of the output block at point t is row qi t · 256 + r of the result. -/
theorem emb3_qPos (t : Fin grid1.N) (b : Fin 4) (r : Fin 256) (o : Fin 1024) :
    ((cfgA.win 3).blk t).view.emb (ix3 b r o) = ix3 b (qPos (qTile t) r) o :=
  emb3_adm (F := Ideal) t b r o

end Cert.KernelIdeal.FlashOut

end
-- ==== Proof.FlashValue.lean ====
/-
  The flash kernel's per-point arithmetic read at one index, on the extended reals.

  Each pure value of the attention kernel's body (masked scaled scores, the running maximum, the running
  denominator, the running numerator, the normalized output, and the three reset values) is read at a
  coordinate (b, r, c) or (b, r, d) as a closed expression: a sum over the head dimension, a fold of max over the
  key lanes, a sum of exponentials over the key lanes.
-/
import proofs.«105760_j5128190951601_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.FlashValue

open Cert.KernelIdeal Cert.KernelIdeal.Gen Idealize.ShloMosaic Idealize.ShloMosaic.ValueIdx

/-! ## Layout operations of this kernel read at coordinates -/

section Layout
variable {α : Type}

/-- A column [4,256,1] broadcast along the last axis to [4,256,n] reads, at (b, r, d), the column at (b, r, 0). -/
theorem bcastCol_apply {n : ℕ} (x : (⟨3, ![4, 256, 1]⟩ : Shape).Idx → α)
    (h : (⟨3, ![4, 256, 1]⟩ : Shape).Broadcasts ⟨3, ![4, 256, n]⟩) (b : Fin 4) (r : Fin 256) (d : Fin n) :
    broadcastTo ⟨3, ![4, 256, n]⟩ x h (ix3 b r d) = x (ix3 b r (0 : Fin 1)) :=
  broadcastTo_apply x h _ _ fun a => match a with
    | ⟨0, _⟩ => by show b.val = if (4 : Nat) = 1 then 0 else b.val; rw [if_neg (by decide)]
    | ⟨1, _⟩ => by show r.val = if (256 : Nat) = 1 then 0 else r.val; rw [if_neg (by decide)]
    | ⟨2, _⟩ => by show 0 = if (1 : Nat) = 1 then 0 else d.val; rw [if_pos rfl]

/-- A [4,256] matrix recast as a [4,256,1] column reads, at (b, r, u), the matrix at (b, r). -/
theorem keepdims_apply (y : (⟨2, ![4, 256]⟩ : Shape).Idx → α)
    (h : (⟨2, ![4, 256]⟩ : Shape).ShapeCasts ⟨3, ![4, 256, 1]⟩) (b : Fin 4) (r : Fin 256) (u : Fin 1) :
    shapeCast ⟨3, ![4, 256, 1]⟩ y h (ix3 b r u) = y (ix2 b r) :=
  shapeCast_apply y h _ _ (by
    have hu : u.val = 0 := by omega
    rw [Shape.rowMajor_val_three, Shape.rowMajor_val_two]
    show b.val * 256 + r.val = (b.val * 256 + r.val) * 1 + u.val
    rw [hu, Nat.mul_one, Nat.add_zero])

/-- Over the row (b, r) of a [4,256,256] array, the index with lane coordinate c inserted is (b, r, c). -/
theorem lift_lane (h : (⟨3, ![4, 256, 256]⟩ : Shape).Reduces [2] ⟨2, ![4, 256]⟩) (b : Fin 4) (r : Fin 256) (c : Fin 256) :
    h.lift (ix2 b r) c = ix3 b r c :=
  funext fun a => Fin.ext (by match a with | ⟨0, _⟩ => rfl | ⟨1, _⟩ => rfl | ⟨2, _⟩ => rfl)

end Layout

/-! ## The two contractions' operand indices -/

section Dots

/-- Scores contraction (q · kᵀ over the head dimension, batched over axis 0): the left operand's index. -/
theorem qk_lhsIdx (b : Fin 4) (r c : Fin 256) (e : Fin 1024) :
    dot_S4x256x1024_S4x256x1024_S4x256x256_2_2_1_1_0_0.lhsIdx (ix3 b r c)
      ((contrEquiv1 dot_S4x256x1024_S4x256x1024_S4x256x256_2_2_1_1_0_0 1024 rfl rfl).symm e) = ix3 b r e := by
  have hk := contrEquiv1_symm_val dot_S4x256x1024_S4x256x1024_S4x256x256_2_2_1_1_0_0 1024 rfl rfl e
  refine funext fun a => Fin.ext ?_
  match a with
  | ⟨0, _⟩ =>
    show (dot_S4x256x1024_S4x256x1024_S4x256x256_2_2_1_1_0_0.lhsIdx (ix3 b r c) ((contrEquiv1 dot_S4x256x1024_S4x256x1024_S4x256x256_2_2_1_1_0_0 1024 rfl rfl).symm e) (0 : Fin S4x256x1024.rank)).val = b.val
    unfold DotDims.lhsIdx
    rw [dif_pos (show (0 : Fin S4x256x1024.rank) ∈ dot_S4x256x1024_S4x256x1024_S4x256x256_2_2_1_1_0_0.lhsBatch by decide)]
    rfl
  | ⟨1, _⟩ =>
    show (dot_S4x256x1024_S4x256x1024_S4x256x256_2_2_1_1_0_0.lhsIdx (ix3 b r c) ((contrEquiv1 dot_S4x256x1024_S4x256x1024_S4x256x256_2_2_1_1_0_0 1024 rfl rfl).symm e) (1 : Fin S4x256x1024.rank)).val = r.val
    unfold DotDims.lhsIdx
    rw [dif_neg (show ¬(1 : Fin S4x256x1024.rank) ∈ dot_S4x256x1024_S4x256x1024_S4x256x256_2_2_1_1_0_0.lhsBatch by decide),
      dif_pos (show (1 : Fin S4x256x1024.rank) ∈ dot_S4x256x1024_S4x256x1024_S4x256x256_2_2_1_1_0_0.lhsNonContracting by decide)]
    rfl
  | ⟨2, _⟩ =>
    show (dot_S4x256x1024_S4x256x1024_S4x256x256_2_2_1_1_0_0.lhsIdx (ix3 b r c) ((contrEquiv1 dot_S4x256x1024_S4x256x1024_S4x256x256_2_2_1_1_0_0 1024 rfl rfl).symm e) (2 : Fin S4x256x1024.rank)).val = e.val
    exact (dot_S4x256x1024_S4x256x1024_S4x256x256_2_2_1_1_0_0.lhsIdx_val_of_single rfl (ix3 b r c) _).trans hk

/-- Scores contraction: the right operand's index. -/
theorem qk_rhsIdx (b : Fin 4) (r c : Fin 256) (e : Fin 1024) :
    dot_S4x256x1024_S4x256x1024_S4x256x256_2_2_1_1_0_0.rhsIdx (ix3 b r c)
      ((contrEquiv1 dot_S4x256x1024_S4x256x1024_S4x256x256_2_2_1_1_0_0 1024 rfl rfl).symm e) = ix3 b c e := by
  have hk := contrEquiv1_symm_val dot_S4x256x1024_S4x256x1024_S4x256x256_2_2_1_1_0_0 1024 rfl rfl e
  refine funext fun a => Fin.ext ?_
  match a with
  | ⟨0, _⟩ =>
    show (dot_S4x256x1024_S4x256x1024_S4x256x256_2_2_1_1_0_0.rhsIdx (ix3 b r c) ((contrEquiv1 dot_S4x256x1024_S4x256x1024_S4x256x256_2_2_1_1_0_0 1024 rfl rfl).symm e) (0 : Fin S4x256x1024.rank)).val = b.val
    unfold DotDims.rhsIdx
    rw [dif_pos (show (0 : Fin S4x256x1024.rank) ∈ dot_S4x256x1024_S4x256x1024_S4x256x256_2_2_1_1_0_0.rhsBatch by decide)]
    rfl
  | ⟨1, _⟩ =>
    show (dot_S4x256x1024_S4x256x1024_S4x256x256_2_2_1_1_0_0.rhsIdx (ix3 b r c) ((contrEquiv1 dot_S4x256x1024_S4x256x1024_S4x256x256_2_2_1_1_0_0 1024 rfl rfl).symm e) (1 : Fin S4x256x1024.rank)).val = c.val
    unfold DotDims.rhsIdx
    rw [dif_neg (show ¬(1 : Fin S4x256x1024.rank) ∈ dot_S4x256x1024_S4x256x1024_S4x256x256_2_2_1_1_0_0.rhsBatch by decide),
      dif_pos (show (1 : Fin S4x256x1024.rank) ∈ dot_S4x256x1024_S4x256x1024_S4x256x256_2_2_1_1_0_0.rhsNonContracting by decide)]
    rfl
  | ⟨2, _⟩ =>
    show (dot_S4x256x1024_S4x256x1024_S4x256x256_2_2_1_1_0_0.rhsIdx (ix3 b r c) ((contrEquiv1 dot_S4x256x1024_S4x256x1024_S4x256x256_2_2_1_1_0_0 1024 rfl rfl).symm e) (2 : Fin S4x256x1024.rank)).val = e.val
    exact (dot_S4x256x1024_S4x256x1024_S4x256x256_2_2_1_1_0_0.rhsIdx_val_of_single rfl (ix3 b r c) _).trans hk

/-- Weights-times-values contraction (p · v over the key lanes, batched over axis 0): the left operand's index. -/
theorem pv_lhsIdx (b : Fin 4) (r : Fin 256) (d : Fin 1024) (c : Fin 256) :
    dot_S4x256x256_S4x256x1024_S4x256x1024_2_1_1_2_0_0.lhsIdx (ix3 b r d)
      ((contrEquiv1 dot_S4x256x256_S4x256x1024_S4x256x1024_2_1_1_2_0_0 256 rfl rfl).symm c) = ix3 b r c := by
  have hk := contrEquiv1_symm_val dot_S4x256x256_S4x256x1024_S4x256x1024_2_1_1_2_0_0 256 rfl rfl c
  refine funext fun a => Fin.ext ?_
  match a with
  | ⟨0, _⟩ =>
    show (dot_S4x256x256_S4x256x1024_S4x256x1024_2_1_1_2_0_0.lhsIdx (ix3 b r d) ((contrEquiv1 dot_S4x256x256_S4x256x1024_S4x256x1024_2_1_1_2_0_0 256 rfl rfl).symm c) (0 : Fin S4x256x256.rank)).val = b.val
    unfold DotDims.lhsIdx
    rw [dif_pos (show (0 : Fin S4x256x256.rank) ∈ dot_S4x256x256_S4x256x1024_S4x256x1024_2_1_1_2_0_0.lhsBatch by decide)]
    rfl
  | ⟨1, _⟩ =>
    show (dot_S4x256x256_S4x256x1024_S4x256x1024_2_1_1_2_0_0.lhsIdx (ix3 b r d) ((contrEquiv1 dot_S4x256x256_S4x256x1024_S4x256x1024_2_1_1_2_0_0 256 rfl rfl).symm c) (1 : Fin S4x256x256.rank)).val = r.val
    unfold DotDims.lhsIdx
    rw [dif_neg (show ¬(1 : Fin S4x256x256.rank) ∈ dot_S4x256x256_S4x256x1024_S4x256x1024_2_1_1_2_0_0.lhsBatch by decide),
      dif_pos (show (1 : Fin S4x256x256.rank) ∈ dot_S4x256x256_S4x256x1024_S4x256x1024_2_1_1_2_0_0.lhsNonContracting by decide)]
    rfl
  | ⟨2, _⟩ =>
    show (dot_S4x256x256_S4x256x1024_S4x256x1024_2_1_1_2_0_0.lhsIdx (ix3 b r d) ((contrEquiv1 dot_S4x256x256_S4x256x1024_S4x256x1024_2_1_1_2_0_0 256 rfl rfl).symm c) (2 : Fin S4x256x256.rank)).val = c.val
    exact (dot_S4x256x256_S4x256x1024_S4x256x1024_2_1_1_2_0_0.lhsIdx_val_of_single rfl (ix3 b r d) _).trans hk

/-- Weights-times-values contraction: the right operand's index. -/
theorem pv_rhsIdx (b : Fin 4) (r : Fin 256) (d : Fin 1024) (c : Fin 256) :
    dot_S4x256x256_S4x256x1024_S4x256x1024_2_1_1_2_0_0.rhsIdx (ix3 b r d)
      ((contrEquiv1 dot_S4x256x256_S4x256x1024_S4x256x1024_2_1_1_2_0_0 256 rfl rfl).symm c) = ix3 b c d := by
  have hk := contrEquiv1_symm_val dot_S4x256x256_S4x256x1024_S4x256x1024_2_1_1_2_0_0 256 rfl rfl c
  refine funext fun a => Fin.ext ?_
  match a with
  | ⟨0, _⟩ =>
    show (dot_S4x256x256_S4x256x1024_S4x256x1024_2_1_1_2_0_0.rhsIdx (ix3 b r d) ((contrEquiv1 dot_S4x256x256_S4x256x1024_S4x256x1024_2_1_1_2_0_0 256 rfl rfl).symm c) (0 : Fin S4x256x1024.rank)).val = b.val
    unfold DotDims.rhsIdx
    rw [dif_pos (show (0 : Fin S4x256x1024.rank) ∈ dot_S4x256x256_S4x256x1024_S4x256x1024_2_1_1_2_0_0.rhsBatch by decide)]
    rfl
  | ⟨1, _⟩ =>
    show (dot_S4x256x256_S4x256x1024_S4x256x1024_2_1_1_2_0_0.rhsIdx (ix3 b r d) ((contrEquiv1 dot_S4x256x256_S4x256x1024_S4x256x1024_2_1_1_2_0_0 256 rfl rfl).symm c) (1 : Fin S4x256x1024.rank)).val = c.val
    exact (dot_S4x256x256_S4x256x1024_S4x256x1024_2_1_1_2_0_0.rhsIdx_val_of_single rfl (ix3 b r d) _).trans hk
  | ⟨2, _⟩ =>
    show (dot_S4x256x256_S4x256x1024_S4x256x1024_2_1_1_2_0_0.rhsIdx (ix3 b r d) ((contrEquiv1 dot_S4x256x256_S4x256x1024_S4x256x1024_2_1_1_2_0_0 256 rfl rfl).symm c) (2 : Fin S4x256x1024.rank)).val = d.val
    unfold DotDims.rhsIdx
    rw [dif_neg (show ¬(2 : Fin S4x256x1024.rank) ∈ dot_S4x256x256_S4x256x1024_S4x256x1024_2_1_1_2_0_0.rhsBatch by decide),
      dif_pos (show (2 : Fin S4x256x1024.rank) ∈ dot_S4x256x256_S4x256x1024_S4x256x1024_2_1_1_2_0_0.rhsNonContracting by decide)]
    rfl

end Dots

/-! ## The per-point values at an index -/

/-! ## The causal mask -/

/-- With both tile numbers below 8, query position `qi·256 + r` and key position `ki·256 + c` do not wrap in 32 bits,
    so the signed comparison "query position ≥ key position" is the comparison of naturals. -/
theorem causal_bit (qi ki : BitVec 32) (hqi : qi.toNat < 8) (hki : ki.toNat < 8) (r c : Fin 256) :
    IntOp.cmpi .sge (IntOp.addi (Scalar.muli qi 256#32) (BitVec.ofNat 32 r.val))
        (IntOp.addi (Scalar.muli ki 256#32) (BitVec.ofNat 32 c.val)) = 1#1
      ↔ ki.toNat * 256 + c.val ≤ qi.toNat * 256 + r.val := by
  have hr := r.isLt
  have hc := c.isLt
  have hx : (IntOp.addi (Scalar.muli qi 256#32) (BitVec.ofNat 32 r.val)).toNat = qi.toNat * 256 + r.val := by
    simp only [IntOp.addi, Scalar.muli, IntOp.muli, BitVec.toNat_add, BitVec.toNat_mul, BitVec.toNat_ofNat]
    omega
  have hy : (IntOp.addi (Scalar.muli ki 256#32) (BitVec.ofNat 32 c.val)).toNat = ki.toNat * 256 + c.val := by
    simp only [IntOp.addi, Scalar.muli, IntOp.muli, BitVec.toNat_add, BitVec.toNat_mul, BitVec.toNat_ofNat]
    omega
  rw [IntOp.cmpi_sge, BitVec.toInt_eq_toNat_of_lt (by omega), BitVec.toInt_eq_toNat_of_lt (by omega), hx, hy]
  omega

/-- The select on the causal mask, read at (b, r, c). -/
theorem select_causal {α : Type} (qi ki : BitVec 32) (hqi : qi.toNat < 8) (hki : ki.toNat < 8) (b : Fin 4) (r c : Fin 256)
    (x y : α) :
    Scalar.select
        (cmpi .sge (addi (broadcast S4x256x256 (Scalar.muli qi 256#32)) (iota .tc S4x256x256 32 [1] iota_S4x256x256_d1_w32))
          (addi (broadcast S4x256x256 (Scalar.muli ki 256#32)) (iota .tc S4x256x256 32 [2] iota_S4x256x256_d2_w32))
          (ix3 b r c)) x y
      = if ki.toNat * 256 + c.val ≤ qi.toNat * 256 + r.val then x else y := by
  have hi1 : iota .tc S4x256x256 32 [1] iota_S4x256x256_d1_w32 (ix3 b r c) = BitVec.ofNat 32 r.val :=
    iota_single_apply .tc S4x256x256 32 1 iota_S4x256x256_d1_w32 (ix3 b r c)
  have hi2 : iota .tc S4x256x256 32 [2] iota_S4x256x256_d2_w32 (ix3 b r c) = BitVec.ofNat 32 c.val :=
    iota_single_apply .tc S4x256x256 32 2 iota_S4x256x256_d2_w32 (ix3 b r c)
  have hbit := causal_bit qi ki hqi hki r c
  show Scalar.select (IntOp.cmpi .sge
      (IntOp.addi (Scalar.muli qi 256#32) (iota .tc S4x256x256 32 [1] iota_S4x256x256_d1_w32 (ix3 b r c)))
      (IntOp.addi (Scalar.muli ki 256#32) (iota .tc S4x256x256 32 [2] iota_S4x256x256_d2_w32 (ix3 b r c)))) x y = _
  rw [hi1, hi2]
  by_cases hle : ki.toNat * 256 + c.val ≤ qi.toNat * 256 + r.val
  · rw [if_pos hle, hbit.mpr hle, select_one]
  · rw [if_neg hle, eq_zero_of_ne_one (fun h => hle (hbit.mp h)), select_zero]

/-- The masked, scaled scores: where key position ≤ query position the dot product over the head
    dimension times the printed scale (1/32), elsewhere −∞. -/
theorem scores_apply (qi ki : BitVec 32) (q k : Vec Ideal S1x4x256x1024 .bf16)
    (hqi : qi.toNat < 8) (hki : ki.toNat < 8) (b : Fin 4) (r c : Fin 256) :
    k1_pay11 (F := Ideal) qi ki q k (ix3 b r c)
      = if ki.toNat * 256 + c.val ≤ qi.toNat * 256 + r.val then
          (∑ e : Fin 1024, q (ix4 (0 : Fin 1) b r e) * k (ix4 (0 : Fin 1) b c e)) * Ideal.ofBits .f32 0x3D000000#32
        else ⊥ := by
  unfold k1_pay11
  refine (select_causal qi ki hqi hki b r c _ _).trans ?_
  split
  · refine congrArg (· * Ideal.ofBits .f32 0x3D000000#32) ?_
    refine (Ideal.matmul_constant_zero_apply dot_S4x256x1024_S4x256x1024_S4x256x256_2_2_1_1_0_0 none _ _ (ix3 b r c)).trans ?_
    rw [← Equiv.sum_comp (contrEquiv1 dot_S4x256x1024_S4x256x1024_S4x256x256_2_2_1_1_0_0 1024 rfl rfl).symm]
    refine Finset.sum_congr rfl fun e _ => ?_
    rw [qk_lhsIdx, qk_rhsIdx, shapeCast_1abc_abc_apply, shapeCast_1abc_abc_apply]
  · exact IdealRules.named_const.ideal_named_scalar _ _ _ _ rfl

/-- The new running maximum: the old one against the row's maximum score. -/
theorem mNew_apply (qi ki : BitVec 32) (q k : Vec Ideal S1x4x256x1024 .bf16) (m : Vec Ideal S4x256x1 .f32)
    (b : Fin 4) (r : Fin 256) :
    k1_pay12 (F := Ideal) qi ki q k m (ix3 b r (0 : Fin 1))
      = max (m (ix3 b r (0 : Fin 1)))
          ((Finset.univ : Finset (Fin 256)).fold max ⊥ fun c : Fin 256 => k1_pay11 (F := Ideal) qi ki q k (ix3 b r c)) := by
  unfold k1_pay12
  refine congrArg (max (m (ix3 b r (0 : Fin 1)))) ?_
  refine (keepdims_apply _ _ b r 0).trans ?_
  refine (Ideal.multiReduction_maximumf_single _ _ reduces_S4x256x256_S4x256 _ _ (ix2 b r)).trans ?_
  have h0 : FloatOps.ofBits (F := Ideal) .f32 0xFF800000#32 = (⊥ : EReal) := by
    simp [Ideal.ofBits, Ideal.ieee]
  have hf : (k1_pay11 (F := Ideal) qi ki q k ∘ reduces_S4x256x256_S4x256.lift (ix2 b r))
      = fun c : Fin 256 => k1_pay11 (F := Ideal) qi ki q k (ix3 b r c) :=
    funext fun c => congrArg (k1_pay11 (F := Ideal) qi ki q k) (lift_lane reduces_S4x256x256_S4x256 b r c)
  exact congrArg₂ (fun z f => (Finset.univ : Finset (Fin 256)).fold max z f) h0 hf

/-- The new running denominator: the old one rescaled, plus the row's sum of exponentials. -/
theorem lOut_apply (S : FVec Ideal S4x256x256 .f32) (M : FVec Ideal S4x256x1 .f32) (m l : Vec Ideal S4x256x1 .f32)
    (b : Fin 4) (r : Fin 256) :
    k1_pay3 (F := Ideal) S M m l (ix3 b r (0 : Fin 1))
      = Ideal.exp (m (ix3 b r (0 : Fin 1)) - M (ix3 b r (0 : Fin 1))) * l (ix3 b r (0 : Fin 1))
        + ∑ c : Fin 256, Ideal.exp (S (ix3 b r c) - M (ix3 b r (0 : Fin 1))) := by
  unfold k1_pay3 k1_pay1 k1_pay2
  refine (congrFun (shapeCast_self _ _) _).trans ?_
  refine congrArg₂ (· + ·) rfl ?_
  refine (keepdims_apply _ _ b r 0).trans ?_
  refine (Ideal.multiReduction_add_single _ _ reduces_S4x256x256_S4x256 _ _ (ix2 b r)).trans ?_
  refine Finset.sum_congr rfl fun (c : Fin 256) _ => ?_
  refine (congrArg _ (lift_lane reduces_S4x256x256_S4x256 b r c)).trans ?_
  show Ideal.exp (S (ix3 b r c) - broadcastTo S4x256x256 M broadcasts_S4x256x1_S4x256x256 (ix3 b r c)) = _
  rw [bcastCol_apply]

/-- The new running numerator: the old one rescaled, plus the exponential weights times the values. -/
theorem aOut_apply (v : Vec Ideal S1x4x256x1024 .bf16) (S : FVec Ideal S4x256x256 .f32) (M : FVec Ideal S4x256x1 .f32)
    (m : Vec Ideal S4x256x1 .f32) (a : Vec Ideal S4x256x1024 .f32) (b : Fin 4) (r : Fin 256) (d : Fin 1024) :
    k1_pay4 (F := Ideal) (k1_pay10 (F := Ideal) v) S M m a (ix3 b r d)
      = Ideal.exp (m (ix3 b r (0 : Fin 1)) - M (ix3 b r (0 : Fin 1))) * a (ix3 b r d)
        + ∑ c : Fin 256, Ideal.exp (S (ix3 b r c) - M (ix3 b r (0 : Fin 1))) * v (ix4 (0 : Fin 1) b c d) := by
  unfold k1_pay4 k1_pay10 k1_pay1 k1_pay2
  refine (congrFun (shapeCast_self _ _) _).trans ?_
  refine congrArg₂ (· + ·) ?_ ?_
  · show broadcastTo S4x256x1024 (exp (subf m M)) broadcasts_S4x256x1_S4x256x1024 (ix3 b r d) * a (ix3 b r d) = _
    rw [bcastCol_apply]
    rfl
  · refine (Ideal.matmul_constant_zero_apply dot_S4x256x256_S4x256x1024_S4x256x1024_2_1_1_2_0_0 none _ _ (ix3 b r d)).trans ?_
    rw [← Equiv.sum_comp (contrEquiv1 dot_S4x256x256_S4x256x1024_S4x256x1024_2_1_1_2_0_0 256 rfl rfl).symm]
    refine Finset.sum_congr rfl fun c _ => ?_
    rw [pv_lhsIdx, pv_rhsIdx]
    show Ideal.exp (S (ix3 b r c) - broadcastTo S4x256x256 M broadcasts_S4x256x1_S4x256x256 (ix3 b r c))
        * shapeCast S4x256x1024 v shapeCasts_S1x4x256x1024_S4x256x1024 (ix3 b c d) = _
    rw [bcastCol_apply, shapeCast_1abc_abc_apply]

/-- The normalized output. -/
theorem oOut_apply (A : Vec Ideal S4x256x1024 .f32) (L : Vec Ideal S4x256x1 .f32) (b : Fin 4) (r : Fin 256) (d : Fin 1024) :
    k1_pay6 (F := Ideal) A L (ix3 b r d) = Ideal.div (A (ix3 b r d)) (L (ix3 b r (0 : Fin 1))) := by
  unfold k1_pay6
  show Ideal.div (A (ix3 b r d)) (broadcastTo S4x256x1024 L broadcasts_S4x256x1_S4x256x1024 (ix3 b r d)) = _
  rw [bcastCol_apply]

/-- The stored maximum is the new maximum. -/
theorem mOut_eq (M : FVec Ideal S4x256x1 .f32) : k1_pay5 (F := Ideal) M = M := by
  unfold k1_pay5
  exact shapeCast_self _ _

/-- The reset values: −∞ for the maximum, 0 for the denominator and the numerator. -/
theorem mReset_apply (b : Fin 4) (r : Fin 256) : k1_pay7 (F := Ideal) (ix3 b r (0 : Fin 1)) = ⊥ := by
  unfold k1_pay7
  rw [shapeCast_self]
  show Ideal.ofBits .f32 0xFF800000#32 = ⊥
  simp [Ideal.ofBits, Ideal.ieee]

theorem lReset_apply (b : Fin 4) (r : Fin 256) : k1_pay8 (F := Ideal) (ix3 b r (0 : Fin 1)) = 0 := by
  unfold k1_pay8
  rw [shapeCast_self]
  exact Ideal.ofBits_zero_f32

theorem aReset_apply (b : Fin 4) (r : Fin 256) (d : Fin 1024) : k1_pay9 (F := Ideal) (ix3 b r d) = 0 := by
  unfold k1_pay9
  rw [shapeCast_self]
  exact Ideal.ofBits_zero_f32

end Cert.KernelIdeal.FlashValue

end
-- ==== Proof.FlashTraj.lean ====
/-
  The carried scratch of the flash kernel, followed along the schedule.

  A grid point (query tile qi, key tile ki) turns the carried running maximum, running denominator and running
  numerator (m, l, a) into new ones; an opening point (ki = 0) first resets them to (−∞, 0, 0). Read at a row r of batch b
  (and an output feature d), the three are exactly the running maximum, denominator and numerator of the online softmax
  over the key tiles 0 … ki of that row's masked, scaled scores, whenever the schedule visits, for each query tile, the key
  tiles 0, 1, …, qi in order. At a closing point (ki = qi) the output block is the online softmax's quotient, which for
  real inputs is one output element of causal attention.
-/
import proofs.«105760_j5128190951601_2_alg».proof.Proof.FlashValue
import proofs.«105760_j5128190951601_2_alg».proof.Proof.FlashBody
import proofs.«105760_j5128190951601_2_alg».proof.Proof.AttnRow

noncomputable section

open scoped BigOperators

namespace Cert.KernelIdeal.FlashTraj

open Cert.KernelIdeal Cert.KernelIdeal.Gen Cert.KernelIdeal.Flash Cert.KernelIdeal.FlashValue Cert.Attn
open Idealize.ShloMosaic Idealize.ShloMosaic.ValueIdx

/-- The carried state: running maximum, running denominator, running numerator. -/
abbrev St : Type := Vec Ideal S4x256x1 .f32 × Vec Ideal S4x256x1 .f32 × Vec Ideal S4x256x1024 .f32

/-- What one grid point makes of the carried state (reset first at an opening point). -/
def step (qi ki : BitVec 32) (q k v : Vec Ideal S1x4x256x1024 .bf16) (s : St) : St :=
  (mOut qi ki q k (mIn ki s.1), lOut qi ki q k (mIn ki s.1) (lIn ki s.2.1), aOut qi ki q k v (mIn ki s.1) (aIn ki s.2.2))

/-- The output block a point would write from the carried state it finds. -/
def outAt (qi ki : BitVec 32) (q k v : Vec Ideal S1x4x256x1024 .bf16) (s : St) : Vec Ideal S4x256x1024 .f32 :=
  oOut qi ki q k v (mIn ki s.1) (lIn ki s.2.1) (aIn ki s.2.2)

/-! ## One point -/

/-- One point's update at a row: if the state the update finds is the online softmax's running triple after kiN key tiles
    of the row's score tiles, what it leaves is the triple after kiN + 1. -/
theorem point_step (X : Act) (Wq Wk Wv : Wt) (qi ki : BitVec 32) (qiF : Fin 8) (kiN : ℕ)
    (q k v : Vec Ideal S1x4x256x1024 .bf16)
    (hqi : qi.toNat = qiF.val) (hki : ki.toNat = kiN) (hle : kiN ≤ qiF.val)
    (hq : ∀ b r e, q (ix4 (0 : Fin 1) b r e) = proj X Wq b (qPos qiF r) e)
    (hk : ∀ b (c : Fin 256) e (j : Fin 2048), j.val = kiN * 256 + c.val → k (ix4 (0 : Fin 1) b c e) = proj X Wk b j e)
    (hv : ∀ b (c : Fin 256) d (j : Fin 2048), j.val = kiN * 256 + c.val → v (ix4 (0 : Fin 1) b c d) = proj X Wv b j d)
    (m0 l0 : Vec Ideal S4x256x1 .f32) (a0 : Vec Ideal S4x256x1024 .f32) (b : Fin 4) (r : Fin 256) (d : Fin 1024)
    (hm : m0 (ix3 b r (0 : Fin 1)) = runM (tileS X Wq Wk b (qPos qiF r)) kiN)
    (hl : l0 (ix3 b r (0 : Fin 1)) = runL (tileS X Wq Wk b (qPos qiF r)) kiN)
    (ha : a0 (ix3 b r d) = runAcc (tileS X Wq Wk b (qPos qiF r)) (tileV X Wv b d) kiN) :
    mOut qi ki q k m0 (ix3 b r (0 : Fin 1)) = runM (tileS X Wq Wk b (qPos qiF r)) (kiN + 1)
    ∧ lOut qi ki q k m0 l0 (ix3 b r (0 : Fin 1)) = runL (tileS X Wq Wk b (qPos qiF r)) (kiN + 1)
    ∧ aOut qi ki q k v m0 a0 (ix3 b r d)
        = runAcc (tileS X Wq Wk b (qPos qiF r)) (tileV X Wv b d) (kiN + 1) := by
  have h8 : qiF.val < 8 := qiF.isLt
  -- the point's masked, scaled scores of the row are the row's score tile kiN
  have hsc : ∀ c : Fin 256, k1_pay11 (F := Ideal) qi ki q k (ix3 b r c) = tileS X Wq Wk b (qPos qiF r) kiN c := by
    intro c
    rw [scores_apply qi ki q k (by omega) (by omega) b r c, tileS_apply X Wq Wk b qiF r kiN hle c, hqi, hki]
    by_cases hcr : kiN * 256 + c.val ≤ qiF.val * 256 + r.val
    · rw [if_pos hcr, if_pos hcr, word_inv32]
      refine congrArg (· * ((1 / 32 : ℝ) : EReal)) ?_
      unfold qk
      refine Finset.sum_congr rfl fun e _ => ?_
      rw [hq b r e, hk b c e ⟨kiN * 256 + c.val, by omega⟩ rfl]
    · rw [if_neg hcr, if_neg hcr]
  have hrow : (fun c : Fin 256 => k1_pay11 (F := Ideal) qi ki q k (ix3 b r c)) = tileS X Wq Wk b (qPos qiF r) kiN :=
    funext hsc
  -- the new maximum
  have hM : k1_pay12 (F := Ideal) qi ki q k m0 (ix3 b r (0 : Fin 1)) = runM (tileS X Wq Wk b (qPos qiF r)) (kiN + 1) := by
    rw [mNew_apply, hm, hrow]
    rfl
  refine ⟨?_, ?_, ?_⟩
  · show k1_pay5 (F := Ideal) (k1_pay12 (F := Ideal) qi ki q k m0) (ix3 b r (0 : Fin 1)) = _
    rw [mOut_eq, hM]
  · show k1_pay3 (F := Ideal) (k1_pay11 (F := Ideal) qi ki q k) (k1_pay12 (F := Ideal) qi ki q k m0) m0 l0 (ix3 b r (0 : Fin 1)) = _
    rw [lOut_apply, hM, hm, hl]
    simp only [hsc]
    rfl
  · show k1_pay4 (F := Ideal) (k1_pay10 (F := Ideal) v) (k1_pay11 (F := Ideal) qi ki q k) (k1_pay12 (F := Ideal) qi ki q k m0) m0 a0
        (ix3 b r d) = _
    rw [aOut_apply, hM, hm, ha]
    simp only [hsc]
    have hvv : ∀ c : Fin 256, v (ix4 (0 : Fin 1) b c d) = tileV X Wv b d kiN c := fun c => by
      rw [tileV_apply X Wv b d kiN (by omega) c]
      exact hv b c d ⟨kiN * 256 + c.val, by omega⟩ rfl
    simp only [hvv]
    rfl

section Traj

variable {N : ℕ} (X : Act) (Wq Wk Wv : Wt)
  (qiW kiW : Fin N → BitVec 32) (qiF : Fin N → Fin 8) (kiN : Fin N → ℕ)
  (q k v : Fin N → Vec Ideal S1x4x256x1024 .bf16) (S : ℕ → St)

/-- Along a schedule that visits, for each query tile, the key tiles 0, 1, … in order, the carried state after point t is
    the online softmax's running triple after kiN t + 1 key tiles, at every row and output feature. -/
theorem traj_inv
    (hqi : ∀ t, (qiW t).toNat = (qiF t).val) (hki : ∀ t, (kiW t).toNat = kiN t)
    (hle : ∀ t, kiN t ≤ (qiF t).val)
    (hchain : ∀ t : Fin N, kiN t = 0 ∨ ∃ t' : Fin N, t'.val + 1 = t.val ∧ qiF t' = qiF t ∧ kiN t' + 1 = kiN t)
    (hq : ∀ t b r e, q t (ix4 (0 : Fin 1) b r e) = proj X Wq b (qPos (qiF t) r) e)
    (hk : ∀ t b (c : Fin 256) e (j : Fin 2048), j.val = kiN t * 256 + c.val → k t (ix4 (0 : Fin 1) b c e) = proj X Wk b j e)
    (hv : ∀ t b (c : Fin 256) d (j : Fin 2048), j.val = kiN t * 256 + c.val → v t (ix4 (0 : Fin 1) b c d) = proj X Wv b j d)
    (hS : ∀ t : Fin N, S (t.val + 1) = step (qiW t) (kiW t) (q t) (k t) (v t) (S t.val))
    (t : Fin N) (b : Fin 4) (r : Fin 256) (d : Fin 1024) :
    (S (t.val + 1)).1 (ix3 b r (0 : Fin 1)) = runM (tileS X Wq Wk b (qPos (qiF t) r)) (kiN t + 1)
    ∧ (S (t.val + 1)).2.1 (ix3 b r (0 : Fin 1)) = runL (tileS X Wq Wk b (qPos (qiF t) r)) (kiN t + 1)
    ∧ (S (t.val + 1)).2.2 (ix3 b r d)
        = runAcc (tileS X Wq Wk b (qPos (qiF t) r)) (tileV X Wv b d) (kiN t + 1) := by
  suffices H : ∀ (n : ℕ) (t : Fin N), t.val = n → ∀ (b : Fin 4) (r : Fin 256) (d : Fin 1024),
      (S (t.val + 1)).1 (ix3 b r (0 : Fin 1)) = runM (tileS X Wq Wk b (qPos (qiF t) r)) (kiN t + 1)
      ∧ (S (t.val + 1)).2.1 (ix3 b r (0 : Fin 1)) = runL (tileS X Wq Wk b (qPos (qiF t) r)) (kiN t + 1)
      ∧ (S (t.val + 1)).2.2 (ix3 b r d)
          = runAcc (tileS X Wq Wk b (qPos (qiF t) r)) (tileV X Wv b d) (kiN t + 1) from H t.val t rfl b r d
  intro n
  induction n using Nat.strong_induction_on with
  | _ n ih =>
    intro t ht b r d
    rw [hS t]
    show mOut (qiW t) (kiW t) (q t) (k t) (mIn (kiW t) (S t.val).1) (ix3 b r (0 : Fin 1)) = _
      ∧ lOut (qiW t) (kiW t) (q t) (k t) (mIn (kiW t) (S t.val).1) (lIn (kiW t) (S t.val).2.1) (ix3 b r (0 : Fin 1)) = _
      ∧ aOut (qiW t) (kiW t) (q t) (k t) (v t) (mIn (kiW t) (S t.val).1) (aIn (kiW t) (S t.val).2.2) (ix3 b r d) = _
    refine point_step X Wq Wk Wv (qiW t) (kiW t) (qiF t) (kiN t) (q t) (k t) (v t) (hqi t) (hki t) (hle t)
      (hq t) (hk t) (hv t) _ _ _ b r d ?_ ?_ ?_
    all_goals rcases hchain t with h0 | ⟨t', ht', hqq, hkk⟩
    -- an opening point: the resets
    · have hz : kiW t = 0#32 := BitVec.eq_of_toNat_eq (by rw [hki t, h0]; rfl)
      unfold mIn
      rw [if_pos hz, h0, mReset_apply]
      rfl
    -- a later point of the same query tile: what the point before left
    · have hnz : ¬ kiW t = 0#32 := fun hz => by
        have := hki t; rw [hz] at this; simp at this; omega
      unfold mIn
      rw [if_neg hnz, ← ht', ← hqq, ← hkk]
      exact (ih t'.val (by omega) t' rfl b r d).1
    · have hz : kiW t = 0#32 := BitVec.eq_of_toNat_eq (by rw [hki t, h0]; rfl)
      unfold lIn
      rw [if_pos hz, h0, lReset_apply]
      rfl
    · have hnz : ¬ kiW t = 0#32 := fun hz => by
        have := hki t; rw [hz] at this; simp at this; omega
      unfold lIn
      rw [if_neg hnz, ← ht', ← hqq, ← hkk]
      exact (ih t'.val (by omega) t' rfl b r d).2.1
    · have hz : kiW t = 0#32 := BitVec.eq_of_toNat_eq (by rw [hki t, h0]; rfl)
      unfold aIn
      rw [if_pos hz, h0, aReset_apply]
      rfl
    · have hnz : ¬ kiW t = 0#32 := fun hz => by
        have := hki t; rw [hz] at this; simp at this; omega
      unfold aIn
      rw [if_neg hnz, ← ht', ← hqq, ← hkk]
      exact (ih t'.val (by omega) t' rfl b r d).2.2

/-- At a closing point (key tile = query tile) the output block is the online softmax over the row's qi + 1 key tiles. -/
theorem out_closing
    (hqi : ∀ t, (qiW t).toNat = (qiF t).val) (hki : ∀ t, (kiW t).toNat = kiN t)
    (hle : ∀ t, kiN t ≤ (qiF t).val)
    (hchain : ∀ t : Fin N, kiN t = 0 ∨ ∃ t' : Fin N, t'.val + 1 = t.val ∧ qiF t' = qiF t ∧ kiN t' + 1 = kiN t)
    (hq : ∀ t b r e, q t (ix4 (0 : Fin 1) b r e) = proj X Wq b (qPos (qiF t) r) e)
    (hk : ∀ t b (c : Fin 256) e (j : Fin 2048), j.val = kiN t * 256 + c.val → k t (ix4 (0 : Fin 1) b c e) = proj X Wk b j e)
    (hv : ∀ t b (c : Fin 256) d (j : Fin 2048), j.val = kiN t * 256 + c.val → v t (ix4 (0 : Fin 1) b c d) = proj X Wv b j d)
    (hS : ∀ t : Fin N, S (t.val + 1) = step (qiW t) (kiW t) (q t) (k t) (v t) (S t.val))
    (t : Fin N) (hclose : kiN t = (qiF t).val) (b : Fin 4) (r : Fin 256) (d : Fin 1024) :
    outAt (qiW t) (kiW t) (q t) (k t) (v t) (S t.val) (ix3 b r d)
      = onlineRow ((qiF t).val + 1) (tileS X Wq Wk b (qPos (qiF t) r)) (tileV X Wv b d) := by
  have h := traj_inv X Wq Wk Wv qiW kiW qiF kiN q k v S hqi hki hle hchain hq hk hv hS t b r d
  rw [hS t] at h
  unfold outAt oOut
  rw [oOut_apply]
  unfold onlineRow
  rw [← hclose]
  exact congrArg₂ Ideal.div h.2.2 h.2.1

/-- … which, for real inputs, is the output element (b, qi·256 + r, d) of causal attention. -/
theorem out_closing_ref
    (hX : ∀ idx, Cert.Lib.ERealSums.IsReal (X idx)) (hWq : ∀ idx, Cert.Lib.ERealSums.IsReal (Wq idx))
    (hWk : ∀ idx, Cert.Lib.ERealSums.IsReal (Wk idx)) (hWv : ∀ idx, Cert.Lib.ERealSums.IsReal (Wv idx))
    (hqi : ∀ t, (qiW t).toNat = (qiF t).val) (hki : ∀ t, (kiW t).toNat = kiN t)
    (hle : ∀ t, kiN t ≤ (qiF t).val)
    (hchain : ∀ t : Fin N, kiN t = 0 ∨ ∃ t' : Fin N, t'.val + 1 = t.val ∧ qiF t' = qiF t ∧ kiN t' + 1 = kiN t)
    (hq : ∀ t b r e, q t (ix4 (0 : Fin 1) b r e) = proj X Wq b (qPos (qiF t) r) e)
    (hk : ∀ t b (c : Fin 256) e (j : Fin 2048), j.val = kiN t * 256 + c.val → k t (ix4 (0 : Fin 1) b c e) = proj X Wk b j e)
    (hv : ∀ t b (c : Fin 256) d (j : Fin 2048), j.val = kiN t * 256 + c.val → v t (ix4 (0 : Fin 1) b c d) = proj X Wv b j d)
    (hS : ∀ t : Fin N, S (t.val + 1) = step (qiW t) (kiW t) (q t) (k t) (v t) (S t.val))
    (t : Fin N) (hclose : kiN t = (qiF t).val) (b : Fin 4) (r : Fin 256) (d : Fin 1024) :
    outAt (qiW t) (kiW t) (q t) (k t) (v t) (S t.val) (ix3 b r d)
      = refRow (fun j => score X Wq Wk b (qPos (qiF t) r) j) (fun j => proj X Wv b j d) := by
  rw [out_closing X Wq Wk Wv qiW kiW qiF kiN q k v S hqi hki hle hchain hq hk hv hS t hclose b r d]
  exact (attn_row_tile hX hWq hWk hWv b (qiF t) r d).symm

end Traj

end Cert.KernelIdeal.FlashTraj

end
-- ==== Proof.FlashRows.lean ====
/- The attention region's result array is causal attention: what a closing point leaves in the output block, read through
   the schedule and the block reads, is one tile of rows of attention; the blocks then fill the array. -/
import proofs.«105760_j5128190951601_2_alg».proof.Proof.FlashOut
import proofs.«105760_j5128190951601_2_alg».proof.Proof.FlashTraj

set_option maxRecDepth 16384

noncomputable section

namespace Cert.KernelIdeal.FlashOut

open Cert.KernelIdeal Cert.KernelIdeal.Gen Cert.KernelIdeal.Flash Cert.KernelIdeal.FlashTraj Cert.Attn
open Idealize.ShloMosaic Idealize.ShloMosaic.TcCoe Idealize.ShloMosaic.ValueIdx
open Idealize.SL Idealize.SL.Sem
open Idealize.ShloMosaic.Pipeline (Dat)

/-- A point continues the point before it, or opens a query tile: the schedule's chain fact in the form the carried
    state's invariant takes it. -/
theorem chain_qTile (t : Fin grid1.N) :
    kiN t = 0 ∨ ∃ t' : Fin grid1.N, t'.val + 1 = t.val ∧ qTile t' = qTile t ∧ kiN t' + 1 = kiN t := by
  rcases sched_chain t with h | ⟨h0, h1, h2⟩
  · exact .inl h
  · refine .inr ⟨backPt t 1, ?_, Fin.ext h1, h2⟩
    rw [backPt_val]; omega

section

variable {c : Dev nD} (dat : Dat τ (Elt Ideal) Unit ℕ (UR sig nD τ) ℕ cfgA c) (X : Act) (Wq Wk Wv : Wt)
variable (x10 : S3x4x2048x1024.Idx → EReal) (S : ℕ → St)

/-- The three input blocks of point t, read off the projections' array. -/
abbrev qBlk (t : Fin grid1.N) : Vec Ideal S1x4x256x1024 .bf16 := ((cfgA.win 0).blk t).view.read (Elt Ideal) x10
abbrev kBlk (t : Fin grid1.N) : Vec Ideal S1x4x256x1024 .bf16 := ((cfgA.win 1).blk t).view.read (Elt Ideal) x10
abbrev vBlk (t : Fin grid1.N) : Vec Ideal S1x4x256x1024 .bf16 := ((cfgA.win 2).blk t).view.read (Elt Ideal) x10

/-- THE RESULT ARRAY for any proof data of the attention pipeline whose output block after a point is the normalized
    numerator of the carried state the point finds (hafter3), the carried state following the points' steps (hS), over
    an operand array holding the three projections (h10) of real activations and weights. -/
theorem arrAt_eq_attn_of_traj
    (hX : ∀ idx, Cert.Lib.ERealSums.IsReal (X idx)) (hWq : ∀ idx, Cert.Lib.ERealSums.IsReal (Wq idx))
    (hWk : ∀ idx, Cert.Lib.ERealSums.IsReal (Wk idx)) (hWv : ∀ idx, Cert.Lib.ERealSums.IsReal (Wv idx))
    (h10q : ∀ b s n, x10 (ix4 (0 : Fin 3) b s n) = proj X Wq b s n)
    (h10k : ∀ b s n, x10 (ix4 (1 : Fin 3) b s n) = proj X Wk b s n)
    (h10v : ∀ b s n, x10 (ix4 (2 : Fin 3) b s n) = proj X Wv b s n)
    (hS : ∀ t : Fin grid1.N, S (t.val + 1) = step (qiW t) (kiW t) (qBlk x10 t) (kBlk x10 t) (vBlk x10 t) (S t.val))
    (hafter3 : ∀ t : Fin grid1.N, (cfgA.win 3).flush t = true →
      dat.after 3 t = outAt (qiW t) (kiW t) (qBlk x10 t) (kBlk x10 t) (vBlk x10 t) (S t.val)) :
    dat.arrAt 3 cfgA.N = attnG X Wq Wk Wv := by
  refine arrAt_eq_attn dat X Wq Wk Wv (fun t h => (flush3_iff t).mpr h) emb3_qPos (fun t hf j => ?_)
  obtain ⟨b, r, o, rfl⟩ : ∃ (b : Fin 4) (r : Fin 256) (o : Fin 1024), j = ix3 b r o := ⟨j 0, j 1, j 2, eq_ix3 j⟩
  rw [emb3_qPos, attnG_apply, hafter3 t hf]
  refine out_closing_ref X Wq Wk Wv qiW kiW qTile kiN (qBlk x10) (kBlk x10) (vBlk x10) S hX hWq hWk hWv
    (fun t => qiW_toNat t) (fun t => kiW_toNat t) (fun t => (sched_le t).1) chain_qTile ?_ ?_ ?_ hS t
    ((flush3_iff t).mp hf) b r o
  · intro t b r e
    show ((cfgA.win 0).blk t).view.read (Elt Ideal) x10 (ix4 (0 : Fin 1) b r e) = _
    rw [read0_adm (F := Ideal) x10 t b r e]
    exact h10q b _ e
  · intro t b c' e j hj
    show ((cfgA.win 1).blk t).view.read (Elt Ideal) x10 (ix4 (0 : Fin 1) b c' e) = _
    rw [read1_adm (F := Ideal) x10 t b c' e, h10k]
    exact congrArg (fun s => proj X Wk b s e) (Fin.ext hj.symm)
  · intro t b c' d j hj
    show ((cfgA.win 2).blk t).view.read (Elt Ideal) x10 (ix4 (0 : Fin 1) b c' d) = _
    rw [read2_adm (F := Ideal) x10 t b c' d, h10v]
    exact congrArg (fun s => proj X Wv b s d) (Fin.ext hj.symm)

end

end Cert.KernelIdeal.FlashOut

end
-- ==== Proof.FlashFinal.lean ====
/- The attention region's result array is causal attention, at the region's own proof data: the carried state the data
   name follows the points' steps, and the output block after a closing point is its normalized numerator. -/
import proofs.«105760_j5128190951601_2_alg».proof.Proof.FlashRows
import proofs.«105760_j5128190951601_2_alg».proof.Proof.FlashDat

set_option maxRecDepth 16384

noncomputable section

namespace Cert.KernelIdeal.FlashOut

open Cert.KernelIdeal Cert.KernelIdeal.Gen Cert.KernelIdeal.Flash Cert.KernelIdeal.FlashTraj Cert.Attn
open Idealize.ShloMosaic Idealize.ShloMosaic.TcCoe Idealize.ShloMosaic.ValueIdx
open Idealize.SL Idealize.SL.Sem
open Idealize.ShloMosaic.Pipeline (Dat)

/-! ## At the attention region's proof data -/

/-- The words the proof data read from the tables at a point are the schedule's. -/
theorem qiAt_eq : ∀ t : Fin grid1.N, qiAt t = qiW t := by decide +kernel
theorem kiAt_eq : ∀ t : Fin grid1.N, kiAt t = kiW t := by decide +kernel

section

variable (V : (c : Dev nD) → (b : Ref sig .tc) → Buf (Elt Ideal) ((c : Thread nD τ).loc b))

/-- THE ARRAY the attention region leaves in its result: causal attention of the activations X under the weights
    Wq, Wk, Wv, whenever the region's operand array holds the three projections (h10) and all entries are real. -/
theorem final3 (c : Dev nD) (X : Act) (Wq Wk Wv : Wt)
    (hX : ∀ idx, Cert.Lib.ERealSums.IsReal (X idx)) (hWq : ∀ idx, Cert.Lib.ERealSums.IsReal (Wq idx))
    (hWk : ∀ idx, Cert.Lib.ERealSums.IsReal (Wk idx)) (hWv : ∀ idx, Cert.Lib.ERealSums.IsReal (Wv idx))
    (h10q : ∀ (b : Fin 4) (s : Fin 2048) (n : Fin 1024), V c main_v10 (ix4 (0 : Fin 3) b s n) = proj X Wq b s n)
    (h10k : ∀ (b : Fin 4) (s : Fin 2048) (n : Fin 1024), V c main_v10 (ix4 (1 : Fin 3) b s n) = proj X Wk b s n)
    (h10v : ∀ (b : Fin 4) (s : Fin 2048) (n : Fin 1024), V c main_v10 (ix4 (2 : Fin 3) b s n) = proj X Wv b s n) :
    (dat1 V c).arrAt 3 (cfgF (F := Ideal)).N = attnG X Wq Wk Wv :=
  arrAt_eq_attn_of_traj (dat1 V c) X Wq Wk Wv (V c main_v10) (traj V c) hX hWq hWk hWv h10q h10k h10v
    (fun t => by rw [traj_succ]; unfold stepS step; rw [qiAt_eq, kiAt_eq]; rfl)
    (fun t _ => by rw [after1_3]; unfold outS outAt; rw [qiAt_eq, kiAt_eq]; rfl)

/-- The same at an index: batch b, position s, feature o. -/
theorem final3_apply (c : Dev nD) (X : Act) (Wq Wk Wv : Wt)
    (hX : ∀ idx, Cert.Lib.ERealSums.IsReal (X idx)) (hWq : ∀ idx, Cert.Lib.ERealSums.IsReal (Wq idx))
    (hWk : ∀ idx, Cert.Lib.ERealSums.IsReal (Wk idx)) (hWv : ∀ idx, Cert.Lib.ERealSums.IsReal (Wv idx))
    (h10q : ∀ (b : Fin 4) (s : Fin 2048) (n : Fin 1024), V c main_v10 (ix4 (0 : Fin 3) b s n) = proj X Wq b s n)
    (h10k : ∀ (b : Fin 4) (s : Fin 2048) (n : Fin 1024), V c main_v10 (ix4 (1 : Fin 3) b s n) = proj X Wk b s n)
    (h10v : ∀ (b : Fin 4) (s : Fin 2048) (n : Fin 1024), V c main_v10 (ix4 (2 : Fin 3) b s n) = proj X Wv b s n)
    (b : Fin 4) (s : Fin 2048) (o : Fin 1024) :
    (dat1 V c).arrAt 3 (cfgF (F := Ideal)).N (ix3 b s o)
      = refRow (fun j' => score X Wq Wk b s j') (fun j' => proj X Wv b j' o) := by
  rw [final3 V c X Wq Wk Wv hX hWq hWk hWv h10q h10k h10v, attnG_apply]

end

end Cert.KernelIdeal.FlashOut

end
-- ==== Proof.HostGlue.lean ====
/-
  The host lines before the projection region, read back: what the two operand arrays of the projection hold when
  the region is entered. The activations are the first argument laid out as 8192 rows of 1024 (row b·2048+s is token s
  of batch b); the stacked weights hold, at (i, k, n), entry (n, k) of the i-th weight matrix (its transpose), the
  three transposes stacked along a new leading axis, the change of float format left as the library's `truncf`.
-/
import proofs.«105760_j5128190951601_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F] [Named F]
variable (m : (ℓ : Loc nD τ sig) → Buf (Elt F) ℓ)

/-- One operation's result read at a reference: its own result there, what was there before elsewhere. -/
macro "results_step" : tactic =>
  `(tactic| (repeat (first
               | rw [nullary_result] | rw [unary_result] | rw [binary_result] | rw [reshape_result] | rw [nary_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-- The activations as the projection finds them: the first argument, reshaped. -/
theorem V1_main_v8 (c : Dev nD) :
    Gen.V1 m c main_v8 = shapeCast S8192x1024 (m ((c : Thread nD τ).loc main_arg0)) shapeCasts_S4x2048x1024_S8192x1024 := by
  show StableHlo.after hostOps0 (fun b => m (c, b)) (Proc.devRef .tc main_v8) = _
  after_results
  rfl

/-- The stacked weights as the projection finds them. -/
theorem V1_main_v7 (c : Dev nD) :
    Gen.V1 m c main_v7 = truncf .bf16 (concatenate S3x1024x1024 0
        [⟨S1x1024x1024, broadcastInDim S1x1024x1024 ![1, 2] bcast_S1024x1024_S1x1024x1024_1_2
            (transpose S1024x1024 [1, 0] (m ((c : Thread nD τ).loc main_arg1)) transposes_S1024x1024_S1024x1024_1_0)⟩,
         ⟨S1x1024x1024, broadcastInDim S1x1024x1024 ![1, 2] bcast_S1024x1024_S1x1024x1024_1_2
            (transpose S1024x1024 [1, 0] (m ((c : Thread nD τ).loc main_arg2)) transposes_S1024x1024_S1024x1024_1_0)⟩,
         ⟨S1x1024x1024, broadcastInDim S1x1024x1024 ![1, 2] bcast_S1024x1024_S1x1024x1024_1_2
            (transpose S1024x1024 [1, 0] (m ((c : Thread nD τ).loc main_arg3)) transposes_S1024x1024_S1024x1024_1_0)⟩]
        concatenates_S1x1024x1024_S1x1024x1024_S1x1024x1024_S3x1024x1024_d0) bitsLt_bf16_f32 := by
  show StableHlo.after hostOps0 (fun b => m (c, b)) (Proc.devRef .tc main_v7) = _
  after_results
  dsimp only [Matrix.cons_val_zero, Matrix.cons_val_one, Matrix.cons_val]
  results_step

end Cert.KernelIdeal.Host

end
-- ==== Proof.HostValue.lean ====
/-
  The projection's operand arrays read at an index. Row b·2048+s of the activations is token s of batch b of the
  first argument; entry (i, k, n) of the stacked weights is entry (n, k) of the i-th weight matrix: a transpose, a new
  leading axis, the three stacked along it; the change of float format is the identity on the extended reals.
-/
import proofs.«105760_j5128190951601_2_alg».proof.Proof.HostGlue
import Idealize.ShloMosaic.PureOps.Ideal

noncomputable section

namespace Cert.KernelIdeal.Host

open Idealize.ShloMosaic Idealize.ShloMosaic.TcCoe Idealize.SL.Sem Idealize.ShloMosaic.StableHlo Idealize.ShloMosaic.ValueIdx
open Cert.KernelIdeal Cert.KernelIdeal.Gen

/-- Row `b·2048+s` of the reshaped activations. -/
def flatRow (b : Fin 4) (s : Fin 2048) : Fin 8192 := ⟨b.val * 2048 + s.val, by have := b.isLt; have := s.isLt; omega⟩

section
variable {F : FTy → Type} [FloatOps F] [Named F]
variable (m : (ℓ : Loc nD τ sig) → Buf (Elt F) ℓ)

theorem v8_apply (c : Dev nD) (b : Fin 4) (s : Fin 2048) (k : Fin 1024) :
    Gen.V1 m c main_v8 (ix2 (flatRow b s) k) = m ((c : Thread nD τ).loc main_arg0) (ix3 b s k) := by
  rw [V1_main_v8]
  refine shapeCast_apply _ _ _ _ ?_
  show (S4x2048x1024.rowMajor (ix3 b s k)).val = (S8192x1024.rowMajor (ix2 (flatRow b s) k)).val
  rw [Shape.rowMajor_val_three, Shape.rowMajor_val_two]
  rfl
end

section
variable (m : (ℓ : Loc nD τ sig) → Buf (Elt Ideal) ℓ)

/-- One stacked piece read at (0, k, n): the weight matrix at (n, k). -/
theorem piece_apply (W : S1024x1024.Idx → EReal) (k n : Fin 1024) :
    broadcastInDim S1x1024x1024 ![1, 2] bcast_S1024x1024_S1x1024x1024_1_2
      (transpose S1024x1024 [1, 0] W transposes_S1024x1024_S1024x1024_1_0) (ix3 (0 : Fin 1) k n) = W (ix2 n k) := by
  refine (broadcastInDim_apply _ _ _ _ (ix2 k n) ?_).trans ?_
  · intro a; match a with
    | ⟨0, _⟩ => rfl
    | ⟨1, _⟩ => rfl
  · refine transpose_apply _ _ _ _ (ix2 n k) ?_
    intro a; match a with
    | ⟨0, _⟩ => rfl
    | ⟨1, _⟩ => rfl

/-- The stacked weights at (i, k, n), for each of the three matrices. -/
theorem v7_apply0 (c : Dev nD) (k n : Fin 1024) :
    Gen.V1 m c main_v7 (ix3 (0 : Fin 3) k n) = m ((c : Thread nD τ).loc main_arg1) (ix2 n k) := by
  rw [V1_main_v7]
  unfold truncf
  simp only [Ideal.truncf_def]
  refine Eq.trans (concatenate_apply_piece (0 : Fin 3) _ _ (ix3 (0 : Fin 3) k n) 0 ?_ S1x1024x1024
    (broadcastInDim S1x1024x1024 ![1, 2] bcast_S1024x1024_S1x1024x1024_1_2
      (transpose S1024x1024 [1, 0] (m ((c : Thread nD τ).loc main_arg1)) transposes_S1024x1024_S1024x1024_1_0))
    ?_ rfl 0 ?_ (ix3 (0 : Fin 1) k n) ?_ ?_) (piece_apply _ k n)
  · show _ < 3; omega
  · rfl
  · rfl
  · intro a ha; match a with
    | ⟨0, _⟩ => exact absurd rfl ha
    | ⟨1, _⟩ => rfl
    | ⟨2, _⟩ => rfl
  · rfl
theorem v7_apply1 (c : Dev nD) (k n : Fin 1024) :
    Gen.V1 m c main_v7 (ix3 (1 : Fin 3) k n) = m ((c : Thread nD τ).loc main_arg2) (ix2 n k) := by
  rw [V1_main_v7]
  unfold truncf
  simp only [Ideal.truncf_def]
  refine Eq.trans (concatenate_apply_piece (0 : Fin 3) _ _ (ix3 (1 : Fin 3) k n) 1 ?_ S1x1024x1024
    (broadcastInDim S1x1024x1024 ![1, 2] bcast_S1024x1024_S1x1024x1024_1_2
      (transpose S1024x1024 [1, 0] (m ((c : Thread nD τ).loc main_arg2)) transposes_S1024x1024_S1024x1024_1_0))
    ?_ rfl 1 ?_ (ix3 (0 : Fin 1) k n) ?_ ?_) (piece_apply _ k n)
  · show _ < 3; omega
  · rfl
  · rfl
  · intro a ha; match a with
    | ⟨0, _⟩ => exact absurd rfl ha
    | ⟨1, _⟩ => rfl
    | ⟨2, _⟩ => rfl
  · rfl
theorem v7_apply2 (c : Dev nD) (k n : Fin 1024) :
    Gen.V1 m c main_v7 (ix3 (2 : Fin 3) k n) = m ((c : Thread nD τ).loc main_arg3) (ix2 n k) := by
  rw [V1_main_v7]
  unfold truncf
  simp only [Ideal.truncf_def]
  refine Eq.trans (concatenate_apply_piece (0 : Fin 3) _ _ (ix3 (2 : Fin 3) k n) 2 ?_ S1x1024x1024
    (broadcastInDim S1x1024x1024 ![1, 2] bcast_S1024x1024_S1x1024x1024_1_2
      (transpose S1024x1024 [1, 0] (m ((c : Thread nD τ).loc main_arg3)) transposes_S1024x1024_S1024x1024_1_0))
    ?_ rfl 2 ?_ (ix3 (0 : Fin 1) k n) ?_ ?_) (piece_apply _ k n)
  · show _ < 3; omega
  · rfl
  · rfl
  · intro a ha; match a with
    | ⟨0, _⟩ => exact absurd rfl ha
    | ⟨1, _⟩ => rfl
    | ⟨2, _⟩ => rfl
  · rfl

end

end Cert.KernelIdeal.Host

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.Region0Value.lean ====
/- Region 0's value at the ideal instance: the array the projection kernel leaves, index by index. -/
import proofs.«105760_j5128190951601_2_alg».proof.Proof.Region0Body
import proofs.«105760_j5128190951601_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal.Gen
open Idealize.ShloMosaic Idealize.ShloMosaic.TcCoe Idealize.ShloMosaic.ValueIdx
open Idealize.SL Idealize.SL.Sem

/-- The projection's contraction: the left operand's axis 1 against the right operand's axis 0. -/
abbrev D0 : DotDims S1024x1024 S1024x1024 S1024x1024 := dot_S1024x1024_S1024x1024_S1024x1024_1_0_0_1_n_n

theorem dl0 (i : S1024x1024.Idx) (q : D0.contr.Idx) : (D0.lhsIdx i q 0).val = (i 0).val := by
  unfold DotDims.lhsIdx
  rw [dif_neg (show ¬(0 : Fin S1024x1024.rank) ∈ D0.lhsBatch by decide), dif_pos (show (0 : Fin S1024x1024.rank) ∈ D0.lhsNonContracting by decide)]
  rfl
theorem dl1 (i : S1024x1024.Idx) (q : D0.contr.Idx) : (D0.lhsIdx i q 1).val = (q ⟨0, by decide⟩).val :=
  D0.lhsIdx_val_of_single rfl i q
theorem dr0 (i : S1024x1024.Idx) (q : D0.contr.Idx) : (D0.rhsIdx i q 0).val = (q ⟨0, by decide⟩).val :=
  D0.rhsIdx_val_of_single rfl i q
theorem dr1 (i : S1024x1024.Idx) (q : D0.contr.Idx) : (D0.rhsIdx i q 1).val = (i 1).val := by
  unfold DotDims.rhsIdx
  rw [dif_neg (show ¬(1 : Fin S1024x1024.rank) ∈ D0.rhsBatch by decide), dif_pos (show (1 : Fin S1024x1024.rank) ∈ D0.rhsNonContracting by decide)]
  rfl

set_option maxHeartbeats 400000 in
/-- One projection's payload at an index: row p of the row block against column q of the weight. -/
theorem pay2_apply (x0 : Vec Ideal S1024x1024 .f32) (w : Vec Ideal S1x1024x1024 .bf16) (p q : Fin 1024) :
    k0_pay2 x0 w (ix3 (0 : Fin 1) p q) = ∑ k : Fin 1024, x0 (ix2 p k) * w (ix3 (0 : Fin 1) k q) := by
  unfold k0_pay2 k0_pay1
  rw [shapeCast_addUnit_apply ![1024, 1024]]
  have e : (fun a : Fin 2 => ix3 (0 : Fin 1) p q a.succ) = ix2 p q := funext fun a => by
    match a with | ⟨0, _⟩ => rfl | ⟨1, _⟩ => rfl
  rw [e, truncf_apply]
  refine (Ideal.matmul_constant_zero_apply D0 none _ _ _).trans ?_
  rw [Cert.Lib.PlainDot.sum_contr D0 rfl rfl dl0 dl1 dr0 dr1]
  refine Finset.sum_congr rfl fun k _ => ?_
  rw [truncf_apply, shapeCast_self, shapeCast_dropUnit_apply ![1024, 1024]]
  refine congrArg (x0 (ix2 p k) * ·) (congrArg w (funext fun a => ?_))
  match a with | ⟨0, _⟩ => rfl | ⟨1, _⟩ => rfl | ⟨2, _⟩ => rfl

/-- The three payloads are one function of the row block and a weight slab. -/
theorem pay3_eq : k0_pay3 (F := Ideal) = k0_pay2 (F := Ideal) := rfl
theorem pay4_eq : k0_pay4 (F := Ideal) = k0_pay2 (F := Ideal) := rfl

/-! ## The block the body leaves, index by index -/

/-- What the body leaves in the output block: slab i, row p, column q is row p of the row block against column q of
    weight slab i. -/
def blockG (x0 : Vec Ideal S1024x1024 .f32) (x1 : Vec Ideal S3x1024x1024 .bf16) : Vec Ideal S3x1024x1024 .bf16 :=
  fun j => ∑ k : Fin 1024, x0 (ix2 (⟨(j 1).val, (j 1).isLt⟩ : Fin 1024) k)
    * x1 (ix3 (⟨(j 0).val, (j 0).isLt⟩ : Fin 3) k (⟨(j 2).val, (j 2).isLt⟩ : Fin 1024))

theorem hz2 : (![0, 0] : Fin 2 → Nat) = fun _ => 0 := funext fun a => by fin_cases a <;> rfl

/-- Each store's payload is the tile of blockG its rectangle names. -/
theorem piece_eq (s : Fin 3) (off : Fin 3 → Nat) (inb : ∀ a, off a + S1x1024x1024.size a ≤ S3x1024x1024.size a)
    (hr : ∀ (p q : Fin 1024), (Rect.unit (s := S3x1024x1024) off S1x1024x1024.size inb).emb (ix3 (0 : Fin 1) p q) = ix3 s p q)
    (x0 : Vec Ideal S1024x1024 .f32) (x1 : Vec Ideal S3x1024x1024 .bf16) (x : S1x1024x1024.Idx) :
    k0_pay2 (View.ld x0 rX) (View.ld x1 (Rect.unit (s := S3x1024x1024) off S1x1024x1024.size inb)) x
      = blockG x0 x1 ((Rect.unit (s := S3x1024x1024) off S1x1024x1024.size inb).emb x) := by
  obtain ⟨a, p, q, rfl⟩ : ∃ (a : Fin 1) (p q : Fin 1024), x = ix3 a p q := ⟨x 0, x 1, x 2, eq_ix3 x⟩
  obtain rfl : a = 0 := Subsingleton.elim _ _
  rw [pay2_apply, View.ld_unit_zero (S := S1024x1024) hz2, hr]
  refine Finset.sum_congr rfl fun k _ => ?_
  show x0 (ix2 p k) * x1 ((Rect.unit (s := S3x1024x1024) off S1x1024x1024.size inb).emb (ix3 (0 : Fin 1) k q)) = _
  rw [hr]

theorem emb_rW0 (p q : Fin 1024) : rW0.emb (ix3 (0 : Fin 1) p q) = ix3 (0 : Fin 3) p q := funext fun a => Fin.ext (by
  match a with
  | ⟨0, _⟩ => show 0 + 1 * 0 = 0; rfl
  | ⟨1, _⟩ => show 0 + 1 * p.val = p.val; omega
  | ⟨2, _⟩ => show 0 + 1 * q.val = q.val; omega)
theorem emb_rW1 (p q : Fin 1024) : rW1.emb (ix3 (0 : Fin 1) p q) = ix3 (1 : Fin 3) p q := funext fun a => Fin.ext (by
  match a with
  | ⟨0, _⟩ => show 1 + 1 * 0 = 1; rfl
  | ⟨1, _⟩ => show 0 + 1 * p.val = p.val; omega
  | ⟨2, _⟩ => show 0 + 1 * q.val = q.val; omega)
theorem emb_rW2 (p q : Fin 1024) : rW2.emb (ix3 (0 : Fin 1) p q) = ix3 (2 : Fin 3) p q := funext fun a => Fin.ext (by
  match a with
  | ⟨0, _⟩ => show 2 + 1 * 0 = 2; rfl
  | ⟨1, _⟩ => show 0 + 1 * p.val = p.val; omega
  | ⟨2, _⟩ => show 0 + 1 * q.val = q.val; omega)

/-- The output block after the body is blockG of the input blocks. -/
theorem out0_2_eq (x0 : Vec Ideal S1024x1024 .f32) (x1 : Vec Ideal S3x1024x1024 .bf16) : out0_2 x0 x1 = blockG x0 x1 := by
  funext y
  unfold out0_2
  refine View.canon_apply_of_pieces (blockG x0 x1) _ ?_ y (cover0_2 _ _ _ y)
  intro pc hpc x
  simp only [List.mem_cons, List.not_mem_nil, or_false] at hpc
  rcases hpc with rfl | rfl | rfl
  · rw [pay4_eq]; exact piece_eq 2 _ _ emb_rW2 x0 x1 x
  · rw [pay3_eq]; exact piece_eq 1 _ _ emb_rW1 x0 x1 x
  · exact piece_eq 0 _ _ emb_rW0 x0 x1 x

/-! ## From blocks to the array -/

/-- The array the region leaves: slab i, row r, column n is row r of the activations against column n of weight slab i. -/
def projG (X : S8192x1024.Idx → EReal) (Wt : S3x1024x1024.Idx → EReal) : S3x8192x1024.Idx → EReal :=
  fun j => ∑ k : Fin 1024, X (ix2 (⟨(j 1).val, (j 1).isLt⟩ : Fin 8192) k)
    * Wt (ix3 (⟨(j 0).val, (j 0).isLt⟩ : Fin 3) k (⟨(j 2).val, (j 2).isLt⟩ : Fin 1024))

/-- The printed index maps, decided over the grid: the row block moves with the output block along the rows; the
    weights stay put. -/
theorem idx_facts : ∀ t : Fin cfg0.N, win0_0.index t (0 : Fin 2) = win0_2.index t (1 : Fin 3)
    ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (2 : Fin 3) = 0 ∧ win0_2.index t (1 : Fin 3) = t.val :=
  (by decide +kernel : ∀ t : Fin grid0.N, _)

variable (V : (c : Dev nD) → (b : Ref sig .tc) → Buf (Elt Ideal) ((c : Thread nD τ).loc b))

/-- What point t writes back is block t of projG of the arrays as the region finds them. -/
theorem flushed2_eq (c : Dev nD) (t : Fin cfg0.N) :
    (dat0 V c).flushed 2 t = ((cfg0.win 2).blk t).view.read (Elt Ideal) (projG (V c main_v8) (V c main_v7)) := by
  show (cfg0.win 2).cut (grid0.coords t) ((dat0 V c).after 2 t) = _
  rw [after0_2, out0_2_eq]
  obtain ⟨e0, e1, e2, e3, e4, e5, e6, e7⟩ := idx_facts t
  funext j
  show blockG (iblk0 V c 0 t) (iblk0 V c 1 t) j = projG (V c main_v8) (V c main_v7) (((cfg0.win 2).blk t).view.emb j)
  unfold blockG projG
  refine Finset.sum_congr rfl fun k _ => ?_
  have h0 : ((cfg0.win 0).blk t).view.emb (ix2 (⟨(j 1).val, (j 1).isLt⟩ : Fin 1024) k)
      = ix2 (⟨((((cfg0.win 2).blk t).view.emb j) 1).val, ((((cfg0.win 2).blk t).view.emb j) 1).isLt⟩ : Fin 8192) k := by
    funext a; apply Fin.ext
    match a with
    | ⟨0, _⟩ => show win0_0.index t (0 : Fin 2) * 1024 + 1 * (j 1).val = win0_2.index t (1 : Fin 3) * 1024 + 1 * (j 1).val; omega
    | ⟨1, _⟩ => show win0_0.index t (1 : Fin 2) * 1024 + 1 * k.val = k.val; omega
  have h1 : ((cfg0.win 1).blk t).view.emb (ix3 (⟨(j 0).val, (j 0).isLt⟩ : Fin 3) k (⟨(j 2).val, (j 2).isLt⟩ : Fin 1024))
      = ix3 (⟨((((cfg0.win 2).blk t).view.emb j) 0).val, ((((cfg0.win 2).blk t).view.emb j) 0).isLt⟩ : Fin 3) k
          (⟨((((cfg0.win 2).blk t).view.emb j) 2).val, ((((cfg0.win 2).blk t).view.emb j) 2).isLt⟩ : Fin 1024) := by
    funext a; apply Fin.ext
    match a with
    | ⟨0, _⟩ => show win0_1.index t (0 : Fin 3) * 3 + 1 * (j 0).val = win0_2.index t (0 : Fin 3) * 3 + 1 * (j 0).val; omega
    | ⟨1, _⟩ => show win0_1.index t (1 : Fin 3) * 1024 + 1 * k.val = k.val; omega
    | ⟨2, _⟩ => show win0_1.index t (2 : Fin 3) * 1024 + 1 * (j 2).val = win0_2.index t (2 : Fin 3) * 1024 + 1 * (j 2).val; omega
  exact congrArg₂ (fun (a b : EReal) => a * b)
    (congrArg (V c main_v8 : S8192x1024.Idx → EReal) h0) (congrArg (V c main_v7 : S3x1024x1024.Idx → EReal) h1)

/-- An index of the array is in point t's block iff each coordinate is in the block's range on its axis. -/
theorem mem_blk2 (t : Fin cfg0.N) (i : S3x8192x1024.Idx) :
    i ∈ ((cfg0.win 2).blk t).view.set ↔ ∀ a : Fin 3, win0_2.index t a * S3x1024x1024.size a ≤ (i a).val ∧ (i a).val < win0_2.index t a * S3x1024x1024.size a + S3x1024x1024.size a := by
  show i ∈ ((View.whole main_v9).slice (win0_2.rect t)).set ↔ _
  rw [View.set_slice_whole, Rect.mem_set_unit]
  exact Iff.rfl

/-- Every index of the array is in some point's block: row r is in the block of point r / 1024. -/
theorem cover2 (i : S3x8192x1024.Idx) : ∃ t : Fin cfg0.N, (cfg0.win 2).flush t = true ∧ i ∈ ((cfg0.win 2).blk t).view.set := by
  have hi0 : (i 0).val < 3 := (i 0).isLt
  have hi1 : (i 1).val < 8192 := (i 1).isLt
  have hi2 : (i 2).val < 1024 := (i 2).isLt
  have hN : cfg0.N = 8 := N_0
  let t : Fin cfg0.N := ⟨(i 1).val / 1024, by rw [hN]; omega⟩
  obtain ⟨e0, e1, e2, e3, e4, e5, e6, e7⟩ := idx_facts t
  have e7' : win0_2.index t (1 : Fin 3) = (i 1).val / 1024 := e7
  refine ⟨t, flush0_2 t, ?_⟩
  rw [mem_blk2]
  intro a
  match a with
  | ⟨0, _⟩ => show win0_2.index t (0 : Fin 3) * 3 ≤ (i 0).val ∧ (i 0).val < win0_2.index t (0 : Fin 3) * 3 + 3; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE ARRAY region 0 leaves in its output: projG of the activations and the stacked weights as the region finds them. -/
theorem final2 (c : Dev nD) : (dat0 V c).arrAt 2 cfg0.N = projG (V c main_v8) (V c main_v7) :=
  (dat0 V c).arrAt_eq_of_cover 2 (projG (V c main_v8) (V c main_v7)) (fun t _ => flushed2_eq V c t) cover2

/-- projG at an index: slab i, row r, column n. -/
theorem projG_apply (X : S8192x1024.Idx → EReal) (Wt : S3x1024x1024.Idx → EReal) (i : Fin 3) (r : Fin 8192) (n : Fin 1024) :
    projG X Wt (ix3 i r n) = ∑ k : Fin 1024, X (ix2 r k) * Wt (ix3 i k n) := rfl

/-- The array region 0 leaves, at an index. -/
theorem arrAt0_2_apply (c : Dev nD) (i : Fin 3) (r : Fin 8192) (n : Fin 1024) :
    (dat0 V c).arrAt 2 cfg0.N (ix3 i r n) = projG (V c main_v8) (V c main_v7) (ix3 i r n) := by
  rw [final2]

end Cert.KernelIdeal.R0

end
-- ==== Proof.QKV.lean ====
/-
  What the attention region's operand array holds at an index: the projection region's output, laid out as
  [3, 4, 2048, 1024], holds at (i, b, s, n) output feature n of token s of batch b under the i-th weight matrix
  (i = 0 the queries, 1 the keys, 2 the values): the linear layer `y = x · Wᵀ` of Spec.lean.
-/
import proofs.«105760_j5128190951601_2_alg».proof.Proof.HostValue
import proofs.«105760_j5128190951601_2_alg».proof.Proof.Spec
import proofs.«105760_j5128190951601_2_alg».proof.Proof.Region0Value

noncomputable section

open scoped BigOperators

namespace Cert.KernelIdeal.QKV

open Idealize.ShloMosaic Idealize.ShloMosaic.TcCoe Idealize.SL.Sem Idealize.ShloMosaic.StableHlo Idealize.ShloMosaic.ValueIdx
open Cert.KernelIdeal Cert.KernelIdeal.Gen Cert.KernelIdeal.Host Cert.Attn

section AnyF
variable {F : FTy → Type} [FloatOps F] [Named F]
variable (m : (ℓ : Loc nD τ sig) → Buf (Elt F) ℓ) (outs : Gen.Outs (F := F))

/-- The attention region's operand array is the projection region's output, reshaped. -/
theorem V3_main_v10 (c : Dev nD) :
    Gen.V3 m outs c main_v10
      = shapeCast S3x4x2048x1024 (outs 2 main_v9 c) shapeCasts_S3x8192x1024_S3x4x2048x1024 := by
  show StableHlo.after hostOps1 (Gen.V2 m outs c) (Proc.devRef .tc main_v10) = _
  after_results
  have e : Gen.V2 m outs c (Proc.devRef .tc main_v9) = outs 2 main_v9 c := Function.update_self ..
  rw [e]
  rfl

/-- Entry `(i, b, s, n)` of the reshaped array is entry `(i, b·2048+s, n)` of the projection's output. -/
theorem v10_read (c : Dev nD) (i : Fin 3) (b : Fin 4) (s : Fin 2048) (n : Fin 1024) :
    Gen.V3 m outs c main_v10 (ix4 i b s n) = outs 2 main_v9 c (ix3 i (flatRow b s) n) := by
  rw [V3_main_v10]
  refine shapeCast_apply _ _ _ _ ?_
  show (S3x8192x1024.rowMajor (ix3 i (flatRow b s) n)).val = (S3x4x2048x1024.rowMajor (ix4 i b s n)).val
  rw [Shape.rowMajor_val_three, Shape.rowMajor_val_four]
  show (i.val * 8192 + (b.val * 2048 + s.val)) * 1024 + n.val = ((i.val * 4 + b.val) * 2048 + s.val) * 1024 + n.val
  ring

end AnyF

section AtIdeal
variable (m : (ℓ : Loc nD τ sig) → Buf (Elt Ideal) ℓ) (outs : Gen.Outs (F := Ideal))

/-- The queries: entry `(0, b, s, n)` is output feature `n` of token `(b, s)` under the first weight matrix. -/
theorem v10_q (c : Dev nD)
    (houts : outs 2 main_v9 c = (R0.dat0 (fun c b => Gen.V1 m c b) c).arrAt 2 cfg0.N)
    (b : Fin 4) (s : Fin 2048) (n : Fin 1024) :
    Gen.V3 m outs c main_v10 (ix4 (0 : Fin 3) b s n)
      = proj (m ((c : Thread nD τ).loc main_arg0)) (m ((c : Thread nD τ).loc main_arg1)) b s n := by
  rw [v10_read, houts, R0.arrAt0_2_apply, R0.projG_apply]
  show @Eq EReal _ _
  unfold proj
  refine Finset.sum_congr rfl fun k _ => ?_
  exact congrArg₂ (· * ·) (v8_apply m c b s k) (v7_apply0 m c k n)

/-- The keys: entry `(1, b, s, n)`, under the second weight matrix. -/
theorem v10_k (c : Dev nD)
    (houts : outs 2 main_v9 c = (R0.dat0 (fun c b => Gen.V1 m c b) c).arrAt 2 cfg0.N)
    (b : Fin 4) (s : Fin 2048) (n : Fin 1024) :
    Gen.V3 m outs c main_v10 (ix4 (1 : Fin 3) b s n)
      = proj (m ((c : Thread nD τ).loc main_arg0)) (m ((c : Thread nD τ).loc main_arg2)) b s n := by
  rw [v10_read, houts, R0.arrAt0_2_apply, R0.projG_apply]
  show @Eq EReal _ _
  unfold proj
  refine Finset.sum_congr rfl fun k _ => ?_
  exact congrArg₂ (· * ·) (v8_apply m c b s k) (v7_apply1 m c k n)

/-- The values: entry `(2, b, s, n)`, under the third weight matrix. -/
theorem v10_v (c : Dev nD)
    (houts : outs 2 main_v9 c = (R0.dat0 (fun c b => Gen.V1 m c b) c).arrAt 2 cfg0.N)
    (b : Fin 4) (s : Fin 2048) (n : Fin 1024) :
    Gen.V3 m outs c main_v10 (ix4 (2 : Fin 3) b s n)
      = proj (m ((c : Thread nD τ).loc main_arg0)) (m ((c : Thread nD τ).loc main_arg3)) b s n := by
  rw [v10_read, houts, R0.arrAt0_2_apply, R0.projG_apply]
  show @Eq EReal _ _
  unfold proj
  refine Finset.sum_congr rfl fun k _ => ?_
  exact congrArg₂ (· * ·) (v8_apply m c b s k) (v7_apply2 m c k n)

end AtIdeal

end Cert.KernelIdeal.QKV

end
-- ==== Proof.Finite.lean ====
/-
  Finiteness: the precondition `finite_inputs` says `|x| < +∞` of every entry of the four argument
  arrays, so every entry is a real number (neither infinity, and not the junk value `−∞` a NaN
  pattern reads as).
-/
import proofs.«105760_j5128190951601_2_alg».proof.Proof.Gen.Pre_finite_inputs
import proofs.«105760_j5128190951601_2_alg».proof.Proof.Spec
import proofs.«105760_j5128190951601_2_alg».proof.Proof.LibERealSums
import Idealize.ShloMosaic.Lib.ReduceAll
import proofs.«105760_j5128190951601_2_alg».proof.Defs

noncomputable section

namespace Cert.Finite

open Idealize.ShloMosaic Idealize.ShloMosaic.ValueIdx Idealize.ShloMosaic.TcCoe Idealize.SL.Sem Cert.Pre_finite_inputs
  Cert.Pre_finite_inputs.Gen Cert.Attn

/-- An extended real is a real number. -/
abbrev IsReal (x : EReal) : Prop := ∃ r : ℝ, x = (r : EReal)

/-- The scalar shape has one index. -/
instance : Subsingleton S_.Idx := ⟨fun a b => funext fun d => d.elim0⟩

/-- `|x| < +∞`, as the comparison's bit says it, makes `x` a real number. -/
theorem isReal_of_abs_lt (x : EReal)
    (h : Ideal.cmp .olt (max x (-x)) (Ideal.ofBits .f32 0x7F800000#32) = 1#1) : IsReal x := by
  rw [word_pos_inf] at h
  have h' : max x (-x) < ⊤ := by
    by_contra hn
    have : Ideal.cmp .olt (max x (-x)) ⊤ = 0#1 := by
      simp only [Ideal.cmp, decide_eq_false hn]; rfl
    rw [this] at h
    exact absurd h (by decide)
  induction x using EReal.rec with
  | bot => simp at h'
  | coe r => exact ⟨r, rfl⟩
  | top => simp at h'

/-- The precondition's function is all ones only at arrays of real numbers. -/
theorem isReal_of_fn (x0 : FVec Ideal S4x2048x1024 .f32) (x1 x2 x3 : FVec Ideal S1024x1024 .f32)
    (h : fn (F := Ideal) x0 x1 x2 x3 = fun _ => 1#1) :
    (∀ i, IsReal (x0 i)) ∧ (∀ i, IsReal (x1 i)) ∧ (∀ i, IsReal (x2 i)) ∧ (∀ i, IsReal (x3 i)) := by
  have h0 := congrFun h ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact isReal_of_abs_lt _ (Host.reduce_andi_all _ _ _ _ _ h0' i)
  · exact isReal_of_abs_lt _ (Host.reduce_andi_all _ _ _ _ _ h1 i)
  · exact isReal_of_abs_lt _ (Host.reduce_andi_all _ _ _ _ _ h2 i)
  · exact isReal_of_abs_lt _ (Host.reduce_andi_all _ _ _ _ _ h3 i)

/-- Under the idealized kernel's precondition every entry of its four argument arrays is a real number. -/
theorem isReal_of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i)) :=
  isReal_of_fn _ _ _ _ (h c)

/-- The same under the reference's precondition. -/
theorem isReal_of_Pre_ReferenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, IsReal (m ((c.tc : Thread Cert.ReferenceIdeal.nD Cert.ReferenceIdeal.τ).loc Cert.ReferenceIdeal.main_arg0) i))
    ∧ (∀ i, IsReal (m ((c.tc : Thread Cert.ReferenceIdeal.nD Cert.ReferenceIdeal.τ).loc Cert.ReferenceIdeal.main_arg1) i))
    ∧ (∀ i, IsReal (m ((c.tc : Thread Cert.ReferenceIdeal.nD Cert.ReferenceIdeal.τ).loc Cert.ReferenceIdeal.main_arg2) i))
    ∧ (∀ i, IsReal (m ((c.tc : Thread Cert.ReferenceIdeal.nD Cert.ReferenceIdeal.τ).loc Cert.ReferenceIdeal.main_arg3) i)) :=
  isReal_of_fn _ _ _ _ (h c)

/-! ## The same facts over the sums library's predicate

`Cert.Lib.ERealSums.IsReal` is the same statement (some real's image), so each fact above is one over it. -/

theorem isReal_iff_lib (x : EReal) : IsReal x ↔ Cert.Lib.ERealSums.IsReal x := Iff.rfl

/-- Under the idealized kernel's precondition every entry of its four argument arrays is a real number, stated
    over the sums library's predicate. -/
theorem lib_isReal_of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Lib.ERealSums.IsReal (m ((c.tc : Thread Cert.KernelIdeal.nD Cert.KernelIdeal.τ).loc Cert.KernelIdeal.main_arg0) i))
    ∧ (∀ i, Cert.Lib.ERealSums.IsReal (m ((c.tc : Thread Cert.KernelIdeal.nD Cert.KernelIdeal.τ).loc Cert.KernelIdeal.main_arg1) i))
    ∧ (∀ i, Cert.Lib.ERealSums.IsReal (m ((c.tc : Thread Cert.KernelIdeal.nD Cert.KernelIdeal.τ).loc Cert.KernelIdeal.main_arg2) i))
    ∧ (∀ i, Cert.Lib.ERealSums.IsReal (m ((c.tc : Thread Cert.KernelIdeal.nD Cert.KernelIdeal.τ).loc Cert.KernelIdeal.main_arg3) i)) :=
  isReal_of_Pre_KernelIdeal m h c

end Cert.Finite

end
-- ==== Proof.RefValue.lean ====
/-
  The reference program's result, read at one index, in row form: element (b, i, o) of its
  result is the stable softmax of row i of the masked, scaled scores of batch b, contracted
  with column o of the value projection (Spec.lean's `Cert.Attn.refRow`).
-/
import proofs.«105760_j5128190951601_2_alg».proof.Proof.Gen.ReferenceIdeal.Read
import proofs.«105760_j5128190951601_2_alg».proof.Proof.Spec
import Idealize.ShloMosaic.Lib.Affine

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Cert.Attn

/-! ## The three projections -/

theorem v0_row (X : Act) (W : Wt) (b : Fin 4) (s : Fin 2048) (n : Fin 1024) :
    val_main_v0 (F := Ideal) X W (ix3 b s n) = proj X W b s n := by
  rw [val_main_v0_apply]
  refine Finset.sum_congr rfl fun d _ => ?_
  have e1 : lidx_main_v0 (ix3 b s n) d = ix3 b s d := by
    funext a; match a with | ⟨0, _⟩ => rfl | ⟨1, _⟩ => rfl | ⟨2, _⟩ => rfl
  have e2 : ridx_main_v0 (ix3 b s n) d = ix2 n d := by
    funext a; match a with | ⟨0, _⟩ => rfl | ⟨1, _⟩ => rfl
  rw [e1, e2]

theorem v1_row (X : Act) (W : Wt) (b : Fin 4) (s : Fin 2048) (n : Fin 1024) :
    val_main_v1 (F := Ideal) X W (ix3 b s n) = proj X W b s n := v0_row X W b s n

theorem v2_row (X : Act) (W : Wt) (b : Fin 4) (s : Fin 2048) (n : Fin 1024) :
    val_main_v2 (F := Ideal) X W (ix3 b s n) = proj X W b s n := v0_row X W b s n

/-! ## The raw scores -/

theorem v3_row (X : Act) (Wq Wk : Wt) (b : Fin 4) (i j : Fin 2048) :
    val_main_v3 (F := Ideal) X Wq Wk (ix3 b i j) = qk X Wq Wk b i j := by
  rw [val_main_v3_apply]
  refine Finset.sum_congr rfl fun n _ => ?_
  have e1 : lidx_main_v3 (ix3 b i j) n = ix3 b i n := by
    funext a; match a with | ⟨0, _⟩ => rfl | ⟨1, _⟩ => rfl | ⟨2, _⟩ => rfl
  have e2 : ridx_main_v3 (ix3 b i j) n = ix3 b j n := by
    funext a; match a with | ⟨0, _⟩ => rfl | ⟨1, _⟩ => rfl | ⟨2, _⟩ => rfl
  rw [e1, e2, v0_row, v1_row]

/-! ## The causal mask

`triu(ones, k = 1)`: the entry at `(i, j)` is set exactly when `j > i`. -/

private theorem toInt_ofNat32 (n : Nat) (h : n < 2048) : (BitVec.ofNat 32 n).toInt = (n : Int) := by
  have h2 : (BitVec.ofNat 32 n).toNat = n := by
    rw [BitVec.toNat_ofNat]; exact Nat.mod_eq_of_lt (by omega)
  rw [BitVec.toInt_eq_toNat_of_lt (by rw [h2]; omega), h2]

theorem mask_row (i j : Fin 2048) :
    val_main_v5 (F := Ideal) (ix2 i j) = if i.val < j.val then 1#1 else 0#1 := by
  rw [val_main_v5_apply, val_main_call0_v4_apply, val_main_call0_v2_apply, val_main_call0_v0_apply,
    val_main_call0_v3_apply, val_main_call0_v1_apply, val_main_call0_c_apply, val_main_call0_v5_apply,
    val_main_call0_c_0_apply, val_main_v4_apply, val_main_c_apply]
  show Scalar.select (IntOp.cmpi .sge (IntOp.addi (BitVec.ofNat 32 i.val) 0#32) (BitVec.ofNat 32 j.val)) 0#1 1#1 = _
  have hi := i.isLt
  have hj := j.isLt
  by_cases h : i.val < j.val
  · rw [if_pos h]
    have : IntOp.cmpi .sge (IntOp.addi (BitVec.ofNat 32 i.val) 0#32) (BitVec.ofNat 32 j.val) = 0#1 := by
      refine eq_zero_of_ne_one fun hc => ?_
      rw [IntOp.cmpi_sge] at hc
      simp only [IntOp.addi, BitVec.add_zero] at hc
      rw [toInt_ofNat32 _ hi, toInt_ofNat32 _ hj] at hc
      omega
    rw [this, select_zero]
  · rw [if_neg h]
    have : IntOp.cmpi .sge (IntOp.addi (BitVec.ofNat 32 i.val) 0#32) (BitVec.ofNat 32 j.val) = 1#1 := by
      rw [IntOp.cmpi_sge]
      simp only [IntOp.addi, BitVec.add_zero]
      rw [toInt_ofNat32 _ hi, toInt_ofNat32 _ hj]
      omega
    rw [this, select_one]

theorem call1_v1_row (b : Fin 4) (i j : Fin 2048) :
    val_main_call1_v1 (F := Ideal) (ix3 b i j) = if i.val < j.val then 1#1 else 0#1 := by
  rw [val_main_call1_v1_apply]
  have e : idx_main_call1_v1 (ix3 b i j) = ix2 i j := by
    funext a; match a with | ⟨0, _⟩ => rfl | ⟨1, _⟩ => rfl
  rw [e, mask_row]

/-! ## The masked, scaled scores -/

theorem v6_row (X : Act) (Wq Wk : Wt) (b : Fin 4) (i j : Fin 2048) :
    val_main_v6 (F := Ideal) X Wq Wk (ix3 b i j) = if i.val < j.val then ⊥ else qk X Wq Wk b i j := by
  rw [val_main_v6_apply, call1_v1_row, val_main_call1_v2_apply, val_main_call1_v0_apply, val_main_cst_apply,
    v3_row]
  show Scalar.select _ (Ideal.ofBits .f32 0xFF800000#32) _ = _
  rw [word_neg_inf]
  by_cases h : i.val < j.val
  · rw [if_pos h, if_pos h, select_one]
  · rw [if_neg h, if_neg h, select_zero]

theorem v8_row (idx : S4x2048x2048.Idx) : val_main_v8 (F := Ideal) idx = ((32 : ℝ) : EReal) := by
  rw [val_main_v8_apply, val_main_v7_apply, val_main_cst_0_apply]
  exact sqrt_word_1024

theorem v9_row (X : Act) (Wq Wk : Wt) (b : Fin 4) (i j : Fin 2048) :
    val_main_v9 (F := Ideal) X Wq Wk (ix3 b i j) = score X Wq Wk b i j := by
  rw [val_main_v9_apply, v6_row, v8_row]
  show Ideal.div _ _ = _
  rw [div32]
  unfold score
  by_cases h : i.val < j.val
  · rw [if_pos h, if_pos h, bot_mul_inv32]
  · rw [if_neg h, if_neg h]

/-! ## The row maximum -/

/-- The reduced index `(b, i)` with coordinate `k` put back on the last axis is `(b, i, k)`. -/
private theorem lift_ix3 (h : S4x2048x2048.Reduces [2] S4x2048) (b : Fin 4) (i : Fin 2048)
    (k : Fin (S4x2048x2048.size 2)) : h.lift (ix2 b i) k = ix3 b i (⟨k.val, k.isLt⟩ : Fin 2048) := by
  funext c; apply Fin.ext
  fin_cases c <;> rfl

theorem v10_row (X : Act) (Wq Wk : Wt) (b : Fin 4) (i : Fin 2048) :
    val_main_v10 (F := Ideal) X Wq Wk (ix2 b i) = rowMax fun j => score X Wq Wk b i j := by
  have h : S4x2048x2048.Reduces [2] S4x2048 := by decide
  unfold val_main_v10
  rw [Host.reduce_eq_fold_single FloatOps.maximumf _ _ reducesTo_S4x2048x2048_S4x2048_d2 h h_S_]
  have hf : (val_main_v9 (F := Ideal) X Wq Wk ∘ h.lift (ix2 b i))
      = fun k : Fin 2048 => score X Wq Wk b i k :=
    funext fun k => (congrArg (val_main_v9 (F := Ideal) X Wq Wk) (lift_ix3 h b i k)).trans (v9_row X Wq Wk b i _)
  rw [val_main_cst_1_apply]
  show Finset.fold max (Ideal.ofBits .f32 0xFF800000#32) _ _ = _
  rw [word_neg_inf, hf]
  rfl

theorem v12_row (X : Act) (Wq Wk : Wt) (b : Fin 4) (i : Fin 2048) :
    val_main_v12 (F := Ideal) X Wq Wk (ix2 b i) = rowMax fun j => score X Wq Wk b i j := by
  rw [val_main_v12_apply, val_main_v11_apply, val_main_cst_2_apply, v10_row]
  show max (Ideal.ofBits .f32 0xFF800000#32) _ = _
  rw [word_neg_inf]
  exact max_eq_right bot_le

theorem v14_row (X : Act) (Wq Wk : Wt) (b : Fin 4) (i j : Fin 2048) :
    val_main_v14 (F := Ideal) X Wq Wk (ix3 b i j) = rowMax fun j => score X Wq Wk b i j := by
  rw [val_main_v14_apply, val_main_v13_apply]
  have e : idx_main_v13 (idx_main_v14 (ix3 b i j)) = ix2 b i := by
    funext a; match a with | ⟨0, _⟩ => rfl | ⟨1, _⟩ => rfl
  rw [e, v12_row]

/-! ## The shifted exponentials and their sum -/

theorem v16_row (X : Act) (Wq Wk : Wt) (b : Fin 4) (i j : Fin 2048) :
    val_main_v16 (F := Ideal) X Wq Wk (ix3 b i j)
      = Ideal.exp (score X Wq Wk b i j - rowMax fun j => score X Wq Wk b i j) := by
  rw [val_main_v16_apply, val_main_v15_apply, v9_row, v14_row]
  rfl

theorem v17_row (X : Act) (Wq Wk : Wt) (b : Fin 4) (i : Fin 2048) :
    val_main_v17 (F := Ideal) X Wq Wk (ix2 b i) = rowZ fun j => score X Wq Wk b i j := by
  rw [val_main_v17_apply, val_main_cst_3_apply]
  show Ideal.ofBits .f32 0x00000000#32 + _ = _
  rw [word_zero, zero_add]
  unfold rowZ
  refine Finset.sum_congr rfl fun k _ => ?_
  have e : idx_main_v17 (ix2 b i) k = ix3 b i k := by
    funext a; match a with | ⟨0, _⟩ => rfl | ⟨1, _⟩ => rfl | ⟨2, _⟩ => rfl
  rw [e, v16_row]

theorem v19_row (X : Act) (Wq Wk : Wt) (b : Fin 4) (i j : Fin 2048) :
    val_main_v19 (F := Ideal) X Wq Wk (ix3 b i j) = rowZ fun j => score X Wq Wk b i j := by
  rw [val_main_v19_apply, val_main_v18_apply]
  have e : idx_main_v18 (idx_main_v19 (ix3 b i j)) = ix2 b i := by
    funext a; match a with | ⟨0, _⟩ => rfl | ⟨1, _⟩ => rfl
  rw [e, v17_row]

/-! ## The attention weights and the result -/

theorem v20_row (X : Act) (Wq Wk : Wt) (b : Fin 4) (i j : Fin 2048) :
    val_main_v20 (F := Ideal) X Wq Wk (ix3 b i j)
      = Ideal.div (Ideal.exp (score X Wq Wk b i j - rowMax fun j => score X Wq Wk b i j))
          (rowZ fun j => score X Wq Wk b i j) := by
  rw [val_main_v20_apply, v16_row, v19_row]
  rfl

/-- THE REFERENCE IN ROW FORM: element `(b, i, o)` of its result is `refRow` of row `i` of the masked, scaled
    scores of batch `b` and column `o` of the value projection. -/
theorem val_main_v21_row (X : Act) (Wq Wk Wv : Wt) (b : Fin 4) (i : Fin 2048) (o : Fin 1024) :
    val_main_v21 (F := Ideal) X Wq Wk Wv (ix3 b i o)
      = refRow (fun j => score X Wq Wk b i j) (fun j => proj X Wv b j o) := by
  rw [val_main_v21_apply]
  unfold refRow
  refine Finset.sum_congr rfl fun k _ => ?_
  have e1 : lidx_main_v21 (ix3 b i o) k = ix3 b i k := by
    funext a; match a with | ⟨0, _⟩ => rfl | ⟨1, _⟩ => rfl | ⟨2, _⟩ => rfl
  have e2 : ridx_main_v21 (ix3 b i o) k = ix3 b k o := by
    funext a; match a with | ⟨0, _⟩ => rfl | ⟨1, _⟩ => rfl | ⟨2, _⟩ => rfl
  rw [e1, e2, v20_row, v2_row]

/-- The same, of the term the reference's run states its result by. -/
theorem res_out0_row (m : (ℓ : Loc nD τ sig) → Buf (Elt Ideal) ℓ) (c : Dev nD) (b : Fin 4) (i : Fin 2048)
    (o : Fin 1024) :
    Cert.ReferenceIdeal.Value.res_out0 (F := Ideal) m c (ix3 b i o)
      = refRow (fun j => score (m ((c.tc : Thread nD τ).loc main_arg0)) (m ((c.tc : Thread nD τ).loc main_arg1))
            (m ((c.tc : Thread nD τ).loc main_arg2)) b i j)
          (fun j => proj (m ((c.tc : Thread nD τ).loc main_arg0)) (m ((c.tc : Thread nD τ).loc main_arg3)) b j o) := by
  show Cert.ReferenceIdeal.Value.res_main_v21 (F := Ideal) m c (ix3 b i o) = _
  rw [val_main_v21_eq]
  exact val_main_v21_row _ _ _ _ b i o

end Cert.ReferenceIdeal.RefValue

end
-- ==== Proof.ResultEq.lean ====
/-
  The two results are one function of the arguments. At the ideal instance the attention region leaves, at (b, s, o),
  the softmax over the keys j ≤ s of the scaled scores of row s, weighted against column o of the value projection:
  the kernel's running maximum, running sum and rescaled accumulator over the key tiles 0 … s/256 are the row's
  softmax when every argument entry is a real. The reference's result read at (b, s, o) is the same row form.
-/
import proofs.«105760_j5128190951601_2_alg».proof.Proof.Final
import proofs.«105760_j5128190951601_2_alg».proof.Proof.FlashFinal
import proofs.«105760_j5128190951601_2_alg».proof.Proof.QKV
import proofs.«105760_j5128190951601_2_alg».proof.Proof.Finite
import proofs.«105760_j5128190951601_2_alg».proof.Proof.RefValue

noncomputable section

namespace Cert.KernelIdeal.Final

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Under the precondition, what the attention region leaves in the result array is the causal softmax attention of
    the arguments. -/
theorem result_eq (hpre : Cert.Pre_KernelIdeal m) (c : Dev nD) :
    outs m 4 main_v11 c = FlashOut.attnG (m ((c : Thread nD τ).loc main_arg0)) (m ((c : Thread nD τ).loc main_arg1))
      (m ((c : Thread nD τ).loc main_arg2)) (m ((c : Thread nD τ).loc main_arg3)) := by
  obtain ⟨hX, hWq, hWk, hWv⟩ := Cert.Finite.lib_isReal_of_Pre_KernelIdeal m hpre c
  have hV : ∀ b : Ref sig .tc, V3r m c b = Gen.V3 m (outs m) c b := fun b =>
    (congrFun (Asm.V3_mkOuts m (o9 m) (o11 m) c) _).symm
  refine (Asm.mkOuts_v11 _ _ _ _).trans ?_
  refine FlashOut.final3 (V3r m) c _ _ _ _ hX hWq hWk hWv ?_ ?_ ?_
  · intro b s n; rw [hV]; exact QKV.v10_q m (outs m) c (houts0 m c) b s n
  · intro b s n; rw [hV]; exact QKV.v10_k m (outs m) c (houts0 m c) b s n
  · intro b s n; rw [hV]; exact QKV.v10_v m (outs m) c (houts0 m c) b s n

end Cert.KernelIdeal.Final

end
-- ==== Proof.Bits.Base.lean ====
/-
  Shared names for the two kernel regions' records and the program's run: the ghost-state parameters at which the
  whole certificate is stated (no variants, no dues between cores, no levels), what rides beside the buffers between
  two items of the program (the generator register at some state, nothing owed), and the launch's ghost element.
-/
import proofs.«105760_j5128190951601_2_alg».proof.Proof.Gen.Kernel.Regions
import Idealize.ShloMosaic.Lib.Pipeline.Kit

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- No variant is used, no core owes another anything, no level is assigned. -/
abbrev 𝒱₀ : Variants := Variants.none
abbrev L : GSem nD τ sig → Finset Unit := fun _ => ∅
abbrev lv : GSem nD τ sig → Unit → ℕ := fun _ _ => 0

/-- What rides beside the buffers between two items of the program: the core's generator register at some state and
    the core owing nothing. -/
abbrev E (_ : Fin 3) (c : Dev nD) : sProp 𝕄 :=
  iprop((∃ r, prngReg c r) ∗ ∃ W, owes (c : Thread nD τ) (0 : CellTallies nD τ sig Unit) W)

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, H⟩; iexact H

/-- The launch's ghost element: the staging cells of both regions and their launch tokens. -/
abbrev u₀ (a : (p : Fin 2) → (pcfgs (F := F) p).Adm) : UR sig nD τ :=
  initOf (Pipeline.cells (Pipeline.pin (pcfgs (F := F)) a) (cellOf_inj a)) (Pipeline.launchToks (Pipeline.pin (pcfgs (F := F)) a) (cellOf_inj a))

theorem hu₀ (a : (p : Fin 2) → (pcfgs (F := F) p).Adm) :
    (ownU (u₀ a) : sProp 𝕄) ⊢ |={Set.univ}=> iprop(BI.own (emb₁ (u₀ a)) ∗ bigSep Finset.univ (fun _ : Dev nD => (iprop(emp) : sProp 𝕄))) := by
  iintro Hu; imodintro
  isplitl [Hu]
  · iapply (show (ownU (u₀ a) : sProp 𝕄) ⊢ BI.own (emb₁ (u₀ a)) from .rfl)
    iexact Hu
  iapply (show (BI.emp : sProp 𝕄) ⊢ bigSep Finset.univ (fun _ : Dev nD => (BI.emp : sProp 𝕄)) from by rw [BI.bigSep_emp_const])
  iempintro

end Cert.Kernel.Asm

end
-- ==== Proof.Bits.Assemble.lean ====
/-
  The idealized kernel program's run, assembled from its two regions.

  The program is a line of host operations (transposes of the three weight matrices, their stacking, a change of format,
  a reshape of the activations), the projection region, a reshape, and the attention region. Given, for each region, a
  record saying that the region runs from the buffer contents the line before it leaves to those contents with the
  region's result array replaced by what its write-backs leave, the whole program runs from any memory: it terminates,
  faults nowhere, leaves the four argument arrays as launched — and the result array ends holding what the attention
  region's write-backs leave in it.
-/
import proofs.«105760_j5128190951601_2_alg».proof.Proof.Bits.Base

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- The launch: on every core the unscoped buffers are held at the launch contents, and whatever the rest of the
    launch's resources make (`E0`) rides beside them. -/
theorem hinit_of (m : (ℓ : Loc nD τ sig) → Buf (Elt F) ℓ) (ρ : Dev nD → PrngReg) (E0 : Dev nD → sProp 𝕄)
    (hE : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => iprop(StableHlo.held (c : Thread nD τ) (Pipeline.ucRefs τ sig) (V0 m c) ∗ E0 c)) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod hE $$ [Hr Hla] with HE
  · isplitl [Hr]; · iexact Hr
    iexact Hla
  imodintro
  rw [bigSep_sep']
  isplitl [Hh]; · iexact Hh
  iexact HE

section
variable (m : (ℓ : Loc nD τ sig) → Buf (Elt F) ℓ) (ρ : Dev nD → PrngReg) (outs : Outs (F := F))
  (a : (p : Fin 2) → (pcfgs (F := F) p).Adm)
  (pdats : (p : Fin 2) → (c : Dev nD) → Dat τ (Elt F) Unit ℕ (UR sig nD τ) ℕ (Pipeline.pin (pcfgs (F := F)) a p) c)
  (R0 : RegionSeg (pcfgs (F := F)) a pdats () defs₀ 𝒱₀ L lv 0)
  (hpre0 : ∀ c : Dev nD, iprop(StableHlo.held (c : Thread nD τ) (Pipeline.ucRefs τ sig) (V1 m c) ∗ E 0 c) ⊢ R0.pre c)
  (hpost0 : ∀ c : Dev nD, R0.post c ⊢ iprop(StableHlo.held (c : Thread nD τ) (Pipeline.ucRefs τ sig) (V2 m outs c) ∗ E 1 c))
  (R1 : RegionSeg (pcfgs (F := F)) a pdats () defs₀ 𝒱₀ L lv 1)
  (hpre1 : ∀ c : Dev nD, iprop(StableHlo.held (c : Thread nD τ) (Pipeline.ucRefs τ sig) (V3 m outs c) ∗ E 1 c) ⊢ R1.pre c)
  (hpost1 : ∀ c : Dev nD, R1.post c ⊢ iprop(StableHlo.held (c : Thread nD τ) (Pipeline.ucRefs τ sig) (V4 m outs c) ∗ E 2 c))

include hpre0 hpost0 hpre1 hpost1 in
/-- The frame: with a record for each region, the program runs and its argument arrays end as launched. -/
theorem frame_of_regions :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ outs a pdats 0 (fun _ => iprop(emp)) (u₀ a) (hu₀ a) E (hE0 ρ) hE2
    R0 hpre0 hpost0 R1 hpre1 hpost1

set_option backward.isDefEq.respectTransparency.types false in
include hpre0 hpost0 hpre1 hpost1 in
/-- The run with the result named: besides the frame, the result array ends at what the attention region leaves in it. -/
theorem run_of_regions :
    θ_run defs (onTc (τ := τ) (main (F := F))) ⟨m, fun _ => 0, ρ⟩ (fun r => ∀ c : Dev nD,
      r.2.mem ((c.tc : Thread nD τ).loc main_v11) = outs 4 main_v11 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) a pdats () (cellOf_inj a) emb₁ defs₀ 𝒱₀ L lv m ρ main
    (segs m outs 𝒱₀ L lv E () a pdats R0 R1)
    (fun c Q => by
      rewrite [main_chain c, Seg.run_eq_chain,
        show (segs m outs 𝒱₀ L lv E () a pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) 0 (fun _ _ => rfl) (fun _ => iprop(emp)) (u₀ a) (hu₀ a)
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v11) = outs 4 main_v11 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · exact hinit_of m ρ (E 0) (hE0 ρ)
  · -- the end: the result's and each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)).trans (Function.update_self ..),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c)⟩
    · iexact HSI

end

end Cert.Kernel.Asm

end
-- ==== Proof.Bits.Outs.lean ====
/-
  The contents the two regions leave, as one family: the projection region leaves its result array at what its
  write-backs make of it; the attention region is entered from the buffers after the reshape of that array, and leaves
  its own result array at what its write-backs make of it.
-/
import proofs.«105760_j5128190951601_2_alg».proof.Proof.Gen.Kernel.Regions

noncomputable section

namespace Cert.Kernel.Asm

open Idealize.ShloMosaic Idealize.ShloMosaic.TcCoe Idealize.SL.Sem
open Cert.Kernel Cert.Kernel.Gen

variable {F : FTy → Type} [FloatOps F]

/-- The family that is `o9` at the projection's result array and `o11` at the attention's, whatever elsewhere. -/
def mkOuts (o9 : (c : Dev nD) → Buf (Elt F) ((c : Thread nD τ).loc main_v9))
    (o11 : (c : Dev nD) → Buf (Elt F) ((c : Thread nD τ).loc main_v11)) : Outs (F := F) :=
  fun _ r c => if h : r = main_v9 then (by subst h; exact o9 c) else if h' : r = main_v11 then (by subst h'; exact o11 c)
    else fun _ => Classical.choice inferInstance

theorem mkOuts_v9 (o9 : (c : Dev nD) → Buf (Elt F) ((c : Thread nD τ).loc main_v9))
    (o11 : (c : Dev nD) → Buf (Elt F) ((c : Thread nD τ).loc main_v11)) (J : ℕ) (c : Dev nD) :
    mkOuts o9 o11 J main_v9 c = o9 c := by
  unfold mkOuts; rw [dif_pos rfl]

theorem mkOuts_v11 (o9 : (c : Dev nD) → Buf (Elt F) ((c : Thread nD τ).loc main_v9))
    (o11 : (c : Dev nD) → Buf (Elt F) ((c : Thread nD τ).loc main_v11)) (J : ℕ) (c : Dev nD) :
    mkOuts o9 o11 J main_v11 c = o11 c := by
  unfold mkOuts; rw [dif_neg (by decide), dif_pos rfl]

variable (m : (ℓ : Loc nD τ sig) → Buf (Elt F) ℓ)

/-- The buffers when the attention region is entered, from what the projection region left in its result array. -/
abbrev V3' (o9 : (c : Dev nD) → Buf (Elt F) ((c : Thread nD τ).loc main_v9)) (c : Dev nD) : Valuation τ sig (Elt F) :=
  StableHlo.after hostOps1 (Function.update (V1 m c) main_v9 (o9 c))

theorem V3_mkOuts (o9 : (c : Dev nD) → Buf (Elt F) ((c : Thread nD τ).loc main_v9))
    (o11 : (c : Dev nD) → Buf (Elt F) ((c : Thread nD τ).loc main_v11)) (c : Dev nD) :
    V3 m (mkOuts o9 o11) c = V3' m o9 c := by
  show StableHlo.after hostOps1 (Function.update (V1 m c) main_v9 (mkOuts o9 o11 2 main_v9 c)) = _
  rw [mkOuts_v9]

end Cert.Kernel.Asm

end
-- ==== Proof.Bits.Region0Body.lean ====
/- Region 0 of @main: the projection kernel, one grid point per block of 1024 rows.  Its three stores write the
   three projections of the row block; the proof data, the body's triple and the body obligation, at a
   PARAMETER V, the TensorCore buffers' contents when the region is entered. -/
import proofs.«105760_j5128190951601_2_alg».proof.Proof.Gen.Kernel.Launch
import proofs.«105760_j5128190951601_2_alg».proof.Proof.Gen.Kernel.Skeleton
import proofs.«105760_j5128190951601_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S1024x1024 := Rect.unit (s := S1024x1024) ![0, 0] S1024x1024.size inb_S1024x1024_S1024x1024_0_0
abbrev rW0 : Rect S3x1024x1024 := Rect.unit (s := S3x1024x1024) ![0, 0, 0] S1x1024x1024.size inb_S3x1024x1024_S1x1024x1024_0_0_0
abbrev rW1 : Rect S3x1024x1024 := Rect.unit (s := S3x1024x1024) ![1, 0, 0] S1x1024x1024.size inb_S3x1024x1024_S1x1024x1024_1_0_0
abbrev rW2 : Rect S3x1024x1024 := Rect.unit (s := S3x1024x1024) ![2, 0, 0] S1x1024x1024.size inb_S3x1024x1024_S1x1024x1024_2_0_0

/-! ## What the body leaves in the output window's buffer -/

/-- Window 2's staging buffer after the body, from the input windows' blocks: its three stores as pieces, last first. -/
def out0_2 (x0 : Vec F S1024x1024 .f32) (x1 : Vec F S3x1024x1024 .bf16) : Vec F S3x1024x1024 .bf16 :=
  View.canon [⟨rW2, k0_pay4 (View.ld x0 rX) (View.ld x1 rW2)⟩,
    ⟨rW1, k0_pay3 (View.ld x0 rX) (View.ld x1 rW1)⟩,
    ⟨rW0, k0_pay2 (View.ld x0 rX) (View.ld x1 rW0)⟩]

/-- The three stores tile the buffer, so they cover it. -/
theorem cover0_2 (p0 p1 p2 : Vec F S1x1024x1024 .bf16) (y : S3x1024x1024.Idx) :
    ∃ pc ∈ ([⟨rW2, p0⟩, ⟨rW1, p1⟩, ⟨rW0, p2⟩] : List (View.Piece (Elt F) S3x1024x1024 .bf16)), y ∈ pc.1.set :=
  View.cover_of_tiled [⟨rW2, p0⟩, ⟨rW1, p1⟩, ⟨rW0, p2⟩] S1x1024x1024.size (by rfl) y

/-! ## The body's triple -/

set_option maxHeartbeats 1000000 in
/-- The kernel body on whole staging memrefs, the inputs' at read contents and the output's at anything, runs to the
    continuation holding the inputs' as they were and the output's at out0_2 of the inputs'. -/
theorem sound_kernel0 (c : Dev nD) (E : Set ℕ) (i : grid0.Coords)
    (arg1 : Memref sig .tc .vmem S1024x1024 .f32) (harg1 : arg1.IsWhole)
    (arg2 : Memref sig .tc .vmem S3x1024x1024 .bf16) (harg2 : arg2.IsWhole)
    (arg3 : Memref sig .tc .vmem S3x1024x1024 .bf16) (harg3 : arg3.IsWhole)
    (x0 : Vec F S1024x1024 .f32) (x1 : Vec F S3x1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _ _ _)

/-! ## The pipeline's proof data -/

/-- The proof data of pipeline 0 on core c: the arrays as the region finds them; after the body at point t each
    input's buffer at its block and the output's at out0_2 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) :
    BodyObligation (dat0 (F := F) V c) (defs₀ (F := F)) Variants.none () Set.univ := fun t => by
  rw [bigSep_W0, bigSep_W0]
  exact sound_body0 V c t

end Cert.Kernel.R0

end
-- ==== Proof.Bits.FlashAdm.lean ====
/-
  The admissible contents of the flash kernel's two prefetched tables.

  The tables are host constants: the schedule's query-tile index and key-tile index at each of the
  2 x 18 grid points.  Their contents are stated once, as the literals the program writes.  The
  pipeline's side condition on them (every block the index maps name lies inside its array and ends on
  whole words) follows from every tile index being below 8 = 2048 / 256: the blocks are whole tiles.
-/
import proofs.«105760_j5128190951601_2_alg».proof.Proof.Gen.Kernel

set_option synthInstance.maxSize 4096
set_option Elab.async false

noncomputable section

namespace Cert.Kernel.Flash

open Idealize.ShloMosaic Idealize.SL.Sem
open Cert.Kernel Cert.Kernel.Gen
open Cert.Kernel.Facts₀ Cert.Kernel.Facts

variable {F : FTy → Type} [FloatOps F]

/-- Every tile index either table names is below 8. -/
theorem lit0_lt : ∀ j : Fin 36, (lit0 j).toNat < 8 := by decide
theorem lit1_lt : ∀ j : Fin 36, (lit1 j).toNat < 8 := by decide

/-- The pipeline's side condition holds of any tables all of whose words are below 8: each window's block
    index is then a tile of its array (8 tiles of 256 rows), and every block is whole rows of whole words. -/
theorem ok1_of_lt (pf : pre1.Contents (Elt F))
    (h0 : ∀ x : S2x18.Idx, BitVec.toNat (pf 0 x : BitVec 32) < 8) (h1 : ∀ x : S2x18.Idx, BitVec.toNat (pf 1 x : BitVec 32) < 8) :
    ok1 pf := by
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · intro a
    have key : ∀ (x : S2x18.Idx) (a : Fin 4), ((![0, 0, BitVec.toNat (pf 0 x : BitVec 32), 0] : Fin 4 → ℕ) a + 1) * S1x4x256x1024.size a ≤ S3x4x2048x1024.size a := by
      intro x a; have := h0 x
      match a with
      | ⟨0, _⟩ => show (0 + 1) * 1 ≤ 3; omega
      | ⟨1, _⟩ => show (0 + 1) * 4 ≤ 4; omega
      | ⟨2, _⟩ => show (BitVec.toNat (pf 0 x : BitVec 32) + 1) * 256 ≤ 2048; omega
      | ⟨3, _⟩ => show (0 + 1) * 1024 ≤ 1024; omega
      | ⟨_ + 4, h⟩ => exact absurd h (by omega)
    exact key _ a
  · intro a
    have key : ∀ (x : S2x18.Idx) (a : Fin 4), ((![1, 0, BitVec.toNat (pf 1 x : BitVec 32), 0] : Fin 4 → ℕ) a + 1) * S1x4x256x1024.size a ≤ S3x4x2048x1024.size a := by
      intro x a; have := h1 x
      match a with
      | ⟨0, _⟩ => show (1 + 1) * 1 ≤ 3; omega
      | ⟨1, _⟩ => show (0 + 1) * 4 ≤ 4; omega
      | ⟨2, _⟩ => show (BitVec.toNat (pf 1 x : BitVec 32) + 1) * 256 ≤ 2048; omega
      | ⟨3, _⟩ => show (0 + 1) * 1024 ≤ 1024; omega
      | ⟨_ + 4, h⟩ => exact absurd h (by omega)
    exact key _ a
  · intro a
    have key : ∀ (x : S2x18.Idx) (a : Fin 4), ((![2, 0, BitVec.toNat (pf 1 x : BitVec 32), 0] : Fin 4 → ℕ) a + 1) * S1x4x256x1024.size a ≤ S3x4x2048x1024.size a := by
      intro x a; have := h1 x
      match a with
      | ⟨0, _⟩ => show (2 + 1) * 1 ≤ 3; omega
      | ⟨1, _⟩ => show (0 + 1) * 4 ≤ 4; omega
      | ⟨2, _⟩ => show (BitVec.toNat (pf 1 x : BitVec 32) + 1) * 256 ≤ 2048; omega
      | ⟨3, _⟩ => show (0 + 1) * 1024 ≤ 1024; omega
      | ⟨_ + 4, h⟩ => exact absurd h (by omega)
    exact key _ a
  · intro a
    have key : ∀ (x : S2x18.Idx) (a : Fin 3), ((![0, BitVec.toNat (pf 0 x : BitVec 32), 0] : Fin 3 → ℕ) a + 1) * S4x256x1024.size a ≤ S4x2048x1024.size a := by
      intro x a; have := h0 x
      match a with
      | ⟨0, _⟩ => show (0 + 1) * 4 ≤ 4; omega
      | ⟨1, _⟩ => show (BitVec.toNat (pf 0 x : BitVec 32) + 1) * 256 ≤ 2048; omega
      | ⟨2, _⟩ => show (0 + 1) * 1024 ≤ 1024; omega
      | ⟨_ + 3, h⟩ => exact absurd h (by omega)
    exact key _ a

/-- The two tables' contents: table 0 the query-tile index of each grid point, table 1 its key-tile index. -/
def tbl : pre1.Contents (Elt F) := fun
  | 0 => fun i => lit0 (S2x18.rowMajor i)
  | 1 => fun i => lit1 (S2x18.rowMajor i)
  | ⟨_ + 2, h⟩ => absurd h (Nat.not_lt.2 (Nat.le_add_left _ _))

theorem tbl_0 : (tbl (F := F)) 0 = fun i => lit0 (S2x18.rowMajor i) := rfl
theorem tbl_1 : (tbl (F := F)) 1 = fun i => lit1 (S2x18.rowMajor i) := rfl

/-- The pipeline's side condition holds of the literal tables. -/
theorem ok1_tbl : ok1 (F := F) tbl := ok1_of_lt tbl (fun x => lit0_lt _) (fun x => lit1_lt _)

/-- The tables' admissible contents. -/
def adm1 : (pcfg1 (F := F)).Adm := ⟨tbl, ok1_tbl⟩

theorem adm1_val : (adm1 (F := F)).1 = tbl := rfl

/-- The admissible contents of every pipeline's tables: the projection kernel has none. -/
def adm : (p : Fin 2) → (pcfgs (F := F) p).Adm
  | ⟨0, _⟩ => cfg0.toPCfg_adm
  | ⟨1, _⟩ => adm1
  | ⟨_ + 2, h⟩ => absurd h (Nat.not_lt.2 (Nat.le_add_left _ _))

theorem adm_0 : adm (F := F) 0 = cfg0.toPCfg_adm := rfl
theorem adm_1 : adm (F := F) 1 = adm1 := rfl

end Cert.Kernel.Flash

end
-- ==== Proof.Bits.Region0Seg.lean ====
/- Region 0 of @main as a segment of the program's run: entered from every unscoped buffer at the contents the first
   host stretch leaves, left with the projection's output array at what the pipeline's write-backs leave and every other
   buffer as entered; the generator register rides into the region's invariant and out; nothing is owed. -/
import proofs.«105760_j5128190951601_2_alg».proof.Proof.Bits.Region0Body
import proofs.«105760_j5128190951601_2_alg».proof.Proof.Bits.Base
import proofs.«105760_j5128190951601_2_alg».proof.Proof.Bits.FlashAdm

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Region 0's entry contents, read at the TensorCore's references (what its proof data take). -/
abbrev V1r : (c : Dev nD) → (b : Ref sig .tc) → Buf (Elt F) ((c : Thread nD τ).loc b) := fun c b => Gen.V1 m c b

/-- Every pipeline's proof data: region 0's at its entry contents, region 1's a parameter. -/
def pdats (d1 : (c : Dev nD) → Dat τ (Elt F) Unit ℕ (UR sig nD τ) ℕ (Pipeline.pin (pcfgs (F := F)) Flash.adm 1) c) :
    (p : Fin 2) → (c : Dev nD) → Dat τ (Elt F) Unit ℕ (UR sig nD τ) ℕ (Pipeline.pin (pcfgs (F := F)) Flash.adm p) c
  | ⟨0, _⟩ => fun c => dat0 (V1r m) c
  | ⟨1, _⟩ => d1

variable (d1 : (c : Dev nD) → Dat τ (Elt F) Unit ℕ (UR sig nD τ) ℕ (Pipeline.pin (pcfgs (F := F)) Flash.adm 1) c)
variable (outs : Gen.Outs (F := F))

/-- Region 0's exit contents, read at the TensorCore's references. -/
abbrev V2r : (c : Dev nD) → (b : Ref sig .tc) → Buf (Elt F) ((c : Thread nD τ).loc b) := fun c b => Gen.V2 m outs c b

/-- At region 0's exit each of its arrays holds what the pipeline leaves, -/
theorem hF0 (houts : ∀ c, outs 2 main_v9 c = (dat0 (V1r m) c).arrAt 2 cfg0.N) (c : Dev nD) (w : Fin cfg0.W) :
    (dat0 (V1r m) c).arrAt w cfg0.N = V2r m outs c (Pipeline.arrRef spec0 w) := by
  match w with
  | ⟨0, _⟩ => exact ((dat0 (V1r m) c).arrAt_in 0 rfl _).trans ((A_eq0 (V1r m) c 0).trans (Gen.V2_of m outs c main_v8 (by decide)).symm)
  | ⟨1, _⟩ => exact ((dat0 (V1r m) c).arrAt_in 1 rfl _).trans ((A_eq0 (V1r m) c 1).trans (Gen.V2_of m outs c main_v7 (by decide)).symm)
  | ⟨2, _⟩ =>
    refine (houts c).symm.trans ?_
    show outs 2 main_v9 c = Function.update (Gen.V1 m c) (Proc.devRef .tc main_v9) (outs 2 main_v9 c) (Proc.devRef .tc main_v9)
    rw [Function.update_self]

/-- and every other buffer what it held at entry. -/
theorem hrest0 (c : Dev nD) : ∀ b, b ∉ Finset.univ.image (Pipeline.arrRef spec0) → V2r m outs c b = V1r m c b := by
  intro b hb
  refine Gen.V2_of m outs c b fun h => hb ?_
  rw [List.mem_singleton] at h
  subst h
  exact Finset.mem_image.mpr ⟨2, Finset.mem_univ _, rfl⟩

set_option backward.isDefEq.respectTransparency.types false in
/-- REGION 0 over the thread state: entered from every unscoped buffer at the first host stretch's contents, left at
    those contents with the output array replaced by what the write-backs leave. Its arrays split out of the unscoped
    buffers and put back at the exit contents; the generator register into the region's invariant and out; nothing
    owed; no semaphore of the kernel's own. -/
def reg0 (houts : ∀ c, outs 2 main_v9 c = (dat0 (V1r m) c).arrAt 2 cfg0.N) :
    RegionSeg (pcfgs (F := F)) Flash.adm (pdats m d1) () defs₀ Asm.𝒱₀ Asm.L Asm.lv 0 where
  win := winFacts0.to₀
  block_pos := block_pos0
  stage_whole := stage_whole0
  K := PEmpty
  osem k := k.elim
  ho := Pipeline.OwnSemFacts.none _
  hbody c := (body_obligation0 (V1r m) c).loose
  hwaits := Pipeline.hwaits_of_owed_zero _ _ _ _ Asm.L Asm.lv 0 fun _ _ => rfl
  pre c := iprop(StableHlo.held (c : Thread nD τ) (Pipeline.ucRefs τ sig) (Gen.V1 m c) ∗ Asm.E 0 c)
  post c := iprop(StableHlo.held (c : Thread nD τ) (Pipeline.ucRefs τ sig) (Gen.V2 m outs c) ∗ Asm.E 1 c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) Flash.adm (pdats m d1) winFacts0 arr_whole0 c
      ((pdats m d1 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Flash.adm (Ix := Unit) (Name := ℕ) (U := UR sig nD τ) (Lvl := ℕ)
      winFacts0 arr_whole0 c (pdats m d1) ((pdats m d1 0 c).share_full fun _ => rfl)
      (V1r m c) (V2r m outs c) ((pdats m d1 0 c).arrAt · cfg0.N) (hF0 m outs houts c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from, and left at, exactly the thread states the program's run names. -/
theorem reg0_pre (houts : ∀ c, outs 2 main_v9 c = (dat0 (V1r m) c).arrAt 2 cfg0.N) (c : Dev nD) :
    iprop(StableHlo.held (c : Thread nD τ) (Pipeline.ucRefs τ sig) (Gen.V1 m c) ∗ Asm.E 0 c) ⊢ (reg0 m d1 outs houts).pre c := .rfl
theorem reg0_post (houts : ∀ c, outs 2 main_v9 c = (dat0 (V1r m) c).arrAt 2 cfg0.N) (c : Dev nD) :
    (reg0 m d1 outs houts).post c ⊢ iprop(StableHlo.held (c : Thread nD τ) (Pipeline.ucRefs τ sig) (Gen.V2 m outs c) ∗ Asm.E 1 c) := .rfl

end Cert.Kernel.R0

end
-- ==== Proof.Bits.FlashBody.lean ====
/-
  One grid point of the causal flash-attention kernel, as a triple over pure functions.

  At a grid point the kernel body reads two table words — the query tile `qi` and the key tile `ki` —, the
  query, key and value blocks `q`, `k`, `v`, and three carried buffers: the running row maximum `m`, the running
  denominator `l` and the running numerator `a`. At an opening point (`ki = 0`) it first resets them to `−∞`, `0`,
  `0`. It then forms the masked scaled scores `s = where(qpos ≥ kpos, q·kᵀ/32, NEG)`, the new maximum
  `m' = max(m, rowmax s)`, and leaves `l ← exp(m − m')·l + rowsum exp(s − m')`,
  `a ← exp(m − m')·a + exp(s − m')·v`, `m ← m'`; at a closing point (`ki = qi`) it writes the output block `a / l`.

  This module names what each buffer holds afterwards as a pure function of what it held before and of the blocks
  (`mOut`, `lOut`, `aOut`, `oOut`, compositions of the generated skeleton's payloads; `mIn`, `lIn`, `aIn` for the
  reset), and proves, for each of the four control cases and for all of them at once (`body_step`), that the printed
  body run on whole buffers at those contents ends with the buffers at those functions' values, the tables and the
  input blocks unchanged. Nothing here evaluates a payload: the values' meaning is read elsewhere.
-/
import proofs.«105760_j5128190951601_2_alg».proof.Proof.Gen.Kernel.Launch
import proofs.«105760_j5128190951601_2_alg».proof.Proof.Gen.Kernel.Skeleton
import proofs.«105760_j5128190951601_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.WholeRead

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-! ## What one grid point of the flash kernel leaves, as pure functions

The body reads two table words `qi`, `ki` (the query tile and the key tile of the point), the three
blocks `q`, `k`, `v`, and the carried running maximum `m`, running denominator `l` and running
numerator `a`. Below: the masked scaled scores, the new maximum, and what the three carried buffers
and the output block hold afterwards, each as a composition of the skeleton's payloads. -/

/-- The masked, scaled scores `s = where(qpos ≥ kpos, q·kᵀ/32, NEG)` of the point. -/
def scores (qi ki : BitVec 32) (q k : Vec F S1x4x256x1024 .bf16) : FVec F S4x256x256 .f32 :=
  k1_pay11 qi ki q k

/-- The new running maximum `m' = max(m, rowmax s)`. -/
def mNew (qi ki : BitVec 32) (q k : Vec F S1x4x256x1024 .bf16) (m : Vec F S4x256x1 .f32) : FVec F S4x256x1 .f32 :=
  k1_pay12 qi ki q k m

/-- The running maximum the point leaves (the new maximum, stored). -/
def mOut (qi ki : BitVec 32) (q k : Vec F S1x4x256x1024 .bf16) (m : Vec F S4x256x1 .f32) : Vec F S4x256x1 .f32 :=
  k1_pay5 (mNew qi ki q k m)

/-- The running denominator the point leaves: `exp(m − m')·l + rowsum exp(s − m')`. -/
def lOut (qi ki : BitVec 32) (q k : Vec F S1x4x256x1024 .bf16) (m l : Vec F S4x256x1 .f32) : Vec F S4x256x1 .f32 :=
  k1_pay3 (scores qi ki q k) (mNew qi ki q k m) m l

/-- The running numerator the point leaves: `exp(m − m')·a + exp(s − m')·v`. -/
def aOut (qi ki : BitVec 32) (q k v : Vec F S1x4x256x1024 .bf16) (m : Vec F S4x256x1 .f32) (a : Vec F S4x256x1024 .f32) :
    Vec F S4x256x1024 .f32 :=
  k1_pay4 (k1_pay10 v) (scores qi ki q k) (mNew qi ki q k m) m a

/-- The output block a closing point (`ki = qi`) writes: numerator over denominator, both as just left. -/
def oOut (qi ki : BitVec 32) (q k v : Vec F S1x4x256x1024 .bf16) (m l : Vec F S4x256x1 .f32) (a : Vec F S4x256x1024 .f32) :
    Vec F S4x256x1024 .f32 :=
  k1_pay6 (aOut qi ki q k v m a) (lOut qi ki q k m l)

/-- The carried buffers as the point's update finds them: reset (`−∞`, `0`, `0`) at an opening point
    (`ki = 0`), else as the point before left them. -/
def mIn (ki : BitVec 32) (m : Vec F S4x256x1 .f32) : Vec F S4x256x1 .f32 := if ki = 0#32 then k1_pay7 (F := F) else m
def lIn (ki : BitVec 32) (l : Vec F S4x256x1 .f32) : Vec F S4x256x1 .f32 := if ki = 0#32 then k1_pay8 (F := F) else l
def aIn (ki : BitVec 32) (a : Vec F S4x256x1024 .f32) : Vec F S4x256x1024 .f32 := if ki = 0#32 then k1_pay9 (F := F) else a

/-- The word the body loads from a table held at contents `T`, at the grid point `i`. -/
def tword (c : Dev nD) (M : Memref sig .tc .smem S2x18 .i32) (T : Buf (Elt F) (M.view.loc (c : Thread nD τ))) (i : grid1.Coords) : BitVec 32 :=
  M.view.readAt (Elt F) (Rect.unit (s := S2x18) (k1_off1 i) S1x1.size (k1_off1_inb i)).toLoadRect T (Shape.Idx.first (numel1_S1x1.symm ▸ Nat.one_pos))

/-- A table's buffer as the body is handed it: the right half of the full share (read-only). -/
abbrev tbPt (c : Dev nD) (M : Memref sig .tc .smem S2x18 .i32) (T : Buf (Elt F) (M.view.loc (c : Thread nD τ))) : sProp 𝕄 :=
  M.view.loc (c : Thread nD τ) ↦{fullShare.right} T

/-- The reset test on the key-tile word: `(zext (ki == 0)) ≠ 0` holds exactly when `ki = 0`. -/
theorem open_iff (w : BitVec 32) :
    Scalar.cmpi .ne (Scalar.extui (Scalar.cmpi .eq w 0#32)) 0#32 = 1#1 ↔ w = 0#32 := by
  by_cases h : w = 0#32
  · subst h; decide
  · have hb : (w == 0#32) = false := by simpa using h
    have : Scalar.cmpi .eq w 0#32 = 0#1 := by
      show BitVec.ofBool (w == 0#32) = 0#1
      rw [hb]; rfl
    rw [this]
    constructor
    · intro h'; exact absurd h' (by decide)
    · intro h'; exact absurd h' h

theorem zeros3 : (![0, 0, 0] : Fin 3 → ℕ) = fun _ => 0 := by funext a; fin_cases a <;> rfl
theorem zeros4 : (![0, 0, 0, 0] : Fin 4 → ℕ) = fun _ => 0 := by funext a; fin_cases a <;> rfl

/-- A load of the whole shape through a whole memref held at the contents that read `X` reads `X`. -/
theorem readAt_full {κ : Kind} {sp : Space} {S : Shape} {e : EltTy} {m : Memref sig κ sp S e} (h : m.IsWhole) (X : S.Idx → Elt F e)
    {off : Fin S.rank → ℕ} (ho : off = fun _ => 0) (inb : ∀ a, off a + S.size a ≤ S.size a) :
    m.view.readAt (Elt F) (Rect.unit off S.size inb).toLoadRect (h.unread X) = X := by
  rw [View.readAt_eq_ld, h.read_unread, View.ld_unit_zero ho]

/-- A load of the whole shape after stores the LAST of which filled the whole shape reads that store's payload. -/
theorem readCov_cons_unit_zero {κ : Kind} {sp : Space} {S : Shape} {e : EltTy} (v : View sig κ sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-! ## The body's triples

Each triple: with the two tables held (read-only halves) at contents whose words at the point are `qi`, `ki`, the three
input blocks' buffers at `q`, `k`, `v`, the output block's buffer at `d7` and the carried buffers at `m0`, `l0`, `a0`,
the body runs to the continuation holding the tables and the inputs as they were, the carried buffers at `mOut`,
`lOut`, `aOut` of what the update found (the reset values at an opening point), and the output block's buffer at
`oOut` at a closing point, else untouched. The two conditionals are decided from the hypotheses on `ki` and on the
closing test; every load of a buffer filled earlier in the body reads the payload last stored. -/

set_option maxHeartbeats 1000000 in
/-- An opening and closing point (`ki = 0 = qi`): the carried buffers are reset, updated, and the output block written. -/
theorem body_open_close (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki = 0#32) (hfin : k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (oOut qi ki q k v (k1_pay7 (F := F)) (k1_pay8 (F := F)) (k1_pay9 (F := F)))
            ∗ owns (c : Thread nD τ) arg8 fullShare (mOut qi ki q k (k1_pay7 (F := F)))
            ∗ owns (c : Thread nD τ) arg9 fullShare (lOut qi ki q k (k1_pay7 (F := F)) (k1_pay8 (F := F)))
            ∗ owns (c : Thread nD τ) arg10 fullShare (aOut qi ki q k v (k1_pay7 (F := F)) (k1_pay9 (F := F)))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := (open_iff _).2 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    delta body_open_close.sl.v62 body_open_close.sl.v63 body_open_close.sl.H10_2 body_open_close.sl.H9_2 body_open_close.sl.H10_1 body_open_close.sl.H9_1 body_open_close.sl.r_4 body_open_close.sl.r_3 body_open_close.sl.r_2 body_open_close.sl.r_1 body_open_close.sl.r body_open_close.sl.v29 body_open_close.sl.v33 body_open_close.sl.v39 body_open_close.sl.v47 body_open_close.sl.H8_1
    refine (View.read_writes_eq_canon _ _ _ (fun y => ⟨_, List.mem_singleton_self _, View.mem_set_unit_zero zeros3 inb_S4x256x1024_S4x256x1024_0_0_0 y⟩)).trans ?_
    refine (View.canon_unit_zero zeros3 inb_S4x256x1024_S4x256x1024_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, readCov_cons_unit_zero (S := S4x256x1) _ zeros3 inb_S4x256x1_S4x256x1_0_0_0 _ _, readCov_cons_unit_zero (S := S4x256x1024) _ zeros3 inb_S4x256x1024_S4x256x1024_0_0_0 _ _, oOut, aOut, lOut, mNew, scores]
  isplitl [H8]
  · iexists _; isplitr
    swap; · iexact H8
    ipureintro
    delta body_open_close.sl.r_4 body_open_close.sl.r_1 body_open_close.sl.r body_open_close.sl.v29 body_open_close.sl.H8_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_open_close.sl.H9_2 body_open_close.sl.H9_1 body_open_close.sl.r_4 body_open_close.sl.r_3 body_open_close.sl.r_1 body_open_close.sl.r body_open_close.sl.v29 body_open_close.sl.v33 body_open_close.sl.v39 body_open_close.sl.H8_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_open_close.sl.H10_2 body_open_close.sl.H10_1 body_open_close.sl.r_4 body_open_close.sl.r_3 body_open_close.sl.r_2 body_open_close.sl.r_1 body_open_close.sl.r body_open_close.sl.v29 body_open_close.sl.v33 body_open_close.sl.v47 body_open_close.sl.H8_1
  refine (View.read_writes_eq_canon _ _ _ (fun y => ⟨_, List.mem_cons_self, View.mem_set_unit_zero zeros3 inb_S4x256x1024_S4x256x1024_0_0_0 y⟩)).trans ?_
  refine (View.canon_cons_unit_zero zeros3 inb_S4x256x1024_S4x256x1024_0_0_0 _ _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

set_option maxHeartbeats 1000000 in
/-- An opening point that does not close (`ki = 0 ≠ qi`): reset and update; the output block is left as it was. -/
theorem body_open (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki = 0#32) (hfin : ¬ k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (d7)
            ∗ owns (c : Thread nD τ) arg8 fullShare (mOut qi ki q k (k1_pay7 (F := F)))
            ∗ owns (c : Thread nD τ) arg9 fullShare (lOut qi ki q k (k1_pay7 (F := F)) (k1_pay8 (F := F)))
            ∗ owns (c : Thread nD τ) arg10 fullShare (aOut qi ki q k v (k1_pay7 (F := F)) (k1_pay9 (F := F)))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := (open_iff _).2 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    delta body_open.sl.r_4 body_open.sl.r_1 body_open.sl.r body_open.sl.v29 body_open.sl.H8_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_open.sl.r_4 body_open.sl.r_3 body_open.sl.r_1 body_open.sl.r body_open.sl.v29 body_open.sl.v33 body_open.sl.v39 body_open.sl.H8_1 body_open.sl.H9_1
    refine (View.read_writes_eq_canon _ _ _ (fun y => ⟨_, List.mem_cons_self, View.mem_set_unit_zero zeros3 inb_S4x256x1_S4x256x1_0_0_0 y⟩)).trans ?_
    refine (View.canon_cons_unit_zero zeros3 inb_S4x256x1_S4x256x1_0_0_0 _ _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_open.sl.r_4 body_open.sl.r_3 body_open.sl.r_2 body_open.sl.r_1 body_open.sl.r body_open.sl.v29 body_open.sl.v33 body_open.sl.v47 body_open.sl.H8_1 body_open.sl.H10_1
  refine (View.read_writes_eq_canon _ _ _ (fun y => ⟨_, List.mem_cons_self, View.mem_set_unit_zero zeros3 inb_S4x256x1024_S4x256x1024_0_0_0 y⟩)).trans ?_
  refine (View.canon_cons_unit_zero zeros3 inb_S4x256x1024_S4x256x1024_0_0_0 _ _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

set_option maxHeartbeats 1000000 in
/-- A closing point that does not open (`ki = qi ≠ 0`): update from what the point before left, and write the output block. -/
theorem body_close (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki ≠ 0#32) (hfin : k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (oOut qi ki q k v (m0) (l0) (a0))
            ∗ owns (c : Thread nD τ) arg8 fullShare (mOut qi ki q k (m0))
            ∗ owns (c : Thread nD τ) arg9 fullShare (lOut qi ki q k (m0) (l0))
            ∗ owns (c : Thread nD τ) arg10 fullShare (aOut qi ki q k v (m0) (a0))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := mt (open_iff _).1 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    delta body_close.sl.v62 body_close.sl.v63 body_close.sl.H10_1 body_close.sl.H9_1 body_close.sl.r_4 body_close.sl.r_3 body_close.sl.r_2 body_close.sl.r_1 body_close.sl.r
    refine (View.read_writes_eq_canon _ _ _ (fun y => ⟨_, List.mem_singleton_self _, View.mem_set_unit_zero zeros3 inb_S4x256x1024_S4x256x1024_0_0_0 y⟩)).trans ?_
    refine (View.canon_unit_zero zeros3 inb_S4x256x1024_S4x256x1024_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, oOut, aOut, lOut, mNew, scores]
  isplitl [H8]
  · iexists _; isplitr
    swap; · iexact H8
    ipureintro
    delta body_close.sl.r_4 body_close.sl.r_1 body_close.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_close.sl.H9_1 body_close.sl.r_4 body_close.sl.r_3 body_close.sl.r_1 body_close.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_close.sl.H10_1 body_close.sl.r_4 body_close.sl.r_3 body_close.sl.r_2 body_close.sl.r_1 body_close.sl.r
  refine (View.read_writes_eq_canon _ _ _ (fun y => ⟨_, List.mem_singleton_self _, View.mem_set_unit_zero zeros3 inb_S4x256x1024_S4x256x1024_0_0_0 y⟩)).trans ?_
  refine (View.canon_unit_zero zeros3 inb_S4x256x1024_S4x256x1024_0_0_0 _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

set_option maxHeartbeats 1000000 in
/-- A point that neither opens nor closes: update only. -/
theorem body_mid (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : ki ≠ 0#32) (hfin : ¬ k1_cond2 qi ki = 1#1)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (d7)
            ∗ owns (c : Thread nD τ) arg8 fullShare (mOut qi ki q k (m0))
            ∗ owns (c : Thread nD τ) arg9 fullShare (lOut qi ki q k (m0) (l0))
            ∗ owns (c : Thread nD τ) arg10 fullShare (aOut qi ki q k v (m0) (a0))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  simp only [cc1__flash_causal_kernel_eq_skeleton]; unfold cc1__flash_causal_kernel_skel
  simp only [k1_part1_eq_skeleton]
  unfold owns tword at *
  iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  subst hqi hki
  have hc1 := mt (open_iff _).1 hk0
  sl_exec (disch := first | sl_exact hc1 | sl_exact hfin)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    delta body_mid.sl.r_4 body_mid.sl.r_1 body_mid.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, mOut, mNew]
  isplitl [H9]
  · iexists _; isplitr
    swap; · iexact H9
    ipureintro
    delta body_mid.sl.r_4 body_mid.sl.r_3 body_mid.sl.r_1 body_mid.sl.r
    refine (View.read_writes_eq_canon _ _ _ (fun y => ⟨_, List.mem_singleton_self _, View.mem_set_unit_zero zeros3 inb_S4x256x1_S4x256x1_0_0_0 y⟩)).trans ?_
    refine (View.canon_unit_zero zeros3 inb_S4x256x1_S4x256x1_0_0_0 _).trans ?_
    simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, lOut, mNew, scores]
  iexists _; isplitr
  swap; · iexact H10
  ipureintro
  delta body_mid.sl.r_4 body_mid.sl.r_3 body_mid.sl.r_2 body_mid.sl.r_1 body_mid.sl.r
  refine (View.read_writes_eq_canon _ _ _ (fun y => ⟨_, List.mem_singleton_self _, View.mem_set_unit_zero zeros3 inb_S4x256x1024_S4x256x1024_0_0_0 y⟩)).trans ?_
  refine (View.canon_unit_zero zeros3 inb_S4x256x1024_S4x256x1024_0_0_0 _).trans ?_
  simp only [readAt_full (S := S4x256x1) _ _ zeros3, readAt_full (S := S4x256x1024) _ _ zeros3, readAt_full (S := S1x4x256x1024) _ _ zeros4, View.readCov_unit_zero (S := S4x256x1) _ zeros3 inb_S4x256x1_S4x256x1_0_0_0 _, View.readCov_unit_zero (S := S4x256x1024) _ zeros3 inb_S4x256x1024_S4x256x1024_0_0_0 _, aOut, mNew, scores]

/-- Every point, the four cases in one statement. -/
theorem body_step (c : Dev nD) (E : Set ℕ) (i : grid1.Coords)
    (arg2 : Memref sig .tc .smem S2x18 .i32) (harg2 : arg2.IsWhole) (arg3 : Memref sig .tc .smem S2x18 .i32) (harg3 : arg3.IsWhole)
    (arg4 : Memref sig .tc .vmem S1x4x256x1024 .bf16) (harg4 : arg4.IsWhole) (arg5 : Memref sig .tc .vmem S1x4x256x1024 .bf16) (harg5 : arg5.IsWhole)
    (arg6 : Memref sig .tc .vmem S1x4x256x1024 .bf16) (harg6 : arg6.IsWhole) (arg7 : Memref sig .tc .vmem S4x256x1024 .f32) (harg7 : arg7.IsWhole)
    (arg8 : Memref sig .tc .vmem S4x256x1 .f32) (harg8 : arg8.IsWhole) (arg9 : Memref sig .tc .vmem S4x256x1 .f32) (harg9 : arg9.IsWhole)
    (arg10 : Memref sig .tc .vmem S4x256x1024 .f32) (harg10 : arg10.IsWhole)
    (T0 : Buf (Elt F) (arg2.view.loc (c : Thread nD τ))) (T1 : Buf (Elt F) (arg3.view.loc (c : Thread nD τ)))
    (qi ki : BitVec 32) (hqi : tword c arg2 T0 i = qi) (hki : tword c arg3 T1 i = ki)
    (hk0 : True) (hfin : True)
    (q k v : Vec F S1x4x256x1024 .bf16) (d7 : Vec F S4x256x1024 .f32)
    (m0 l0 : Vec F S4x256x1 .f32) (a0 : Vec F S4x256x1024 .f32) (K : PUnit → sProp 𝕄) :
    iprop(tbPt c arg2 T0 ∗ tbPt c arg3 T1
        ∗ owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare m0 ∗ owns (c : Thread nD τ) arg9 fullShare l0 ∗ owns (c : Thread nD τ) arg10 fullShare a0
        ∗ (iprop(tbPt c arg2 T0 ∗ tbPt c arg3 T1
            ∗ owns (c : Thread nD τ) arg4 fullShare q ∗ owns (c : Thread nD τ) arg5 fullShare k ∗ owns (c : Thread nD τ) arg6 fullShare v
            ∗ owns (c : Thread nD τ) arg7 fullShare (if k1_cond2 qi ki = 1#1 then oOut qi ki q k v (mIn ki m0) (lIn ki l0) (aIn ki a0) else d7)
            ∗ owns (c : Thread nD τ) arg8 fullShare (mOut qi ki q k (mIn ki m0))
            ∗ owns (c : Thread nD τ) arg9 fullShare (lOut qi ki q k (mIn ki m0) (lIn ki l0))
            ∗ owns (c : Thread nD τ) arg10 fullShare (aOut qi ki q k v (mIn ki m0) (aIn ki a0))) -∗ K ⟨⟩))
      ⊢ wp frame (wpE (defs₀ (F := F)) Variants.none c none) E
          (cc1__flash_causal_kernel i arg2 harg2 arg3 harg3 arg4 harg4 arg5 harg5 arg6 harg6 arg7 harg7 arg8 harg8 arg9 harg9 arg10 harg10) K := by
  by_cases h0 : ki = 0#32
  · by_cases hf : k1_cond2 qi ki = 1#1
    · rw [show mIn ki m0 = k1_pay7 (F := F) from if_pos h0, show lIn ki l0 = k1_pay8 (F := F) from if_pos h0,
        show aIn ki a0 = k1_pay9 (F := F) from if_pos h0, if_pos hf]
      exact body_open_close c E i arg2 harg2 arg3 harg3 arg4 harg4 arg5 harg5 arg6 harg6 arg7 harg7 arg8 harg8 arg9 harg9 arg10 harg10 T0 T1 qi ki hqi hki h0 hf q k v d7 m0 l0 a0 K
    · rw [show mIn ki m0 = k1_pay7 (F := F) from if_pos h0, show lIn ki l0 = k1_pay8 (F := F) from if_pos h0,
        show aIn ki a0 = k1_pay9 (F := F) from if_pos h0, if_neg hf]
      exact body_open c E i arg2 harg2 arg3 harg3 arg4 harg4 arg5 harg5 arg6 harg6 arg7 harg7 arg8 harg8 arg9 harg9 arg10 harg10 T0 T1 qi ki hqi hki h0 hf q k v d7 m0 l0 a0 K
  · by_cases hf : k1_cond2 qi ki = 1#1
    · rw [show mIn ki m0 = m0 from if_neg h0, show lIn ki l0 = l0 from if_neg h0, show aIn ki a0 = a0 from if_neg h0, if_pos hf]
      exact body_close c E i arg2 harg2 arg3 harg3 arg4 harg4 arg5 harg5 arg6 harg6 arg7 harg7 arg8 harg8 arg9 harg9 arg10 harg10 T0 T1 qi ki hqi hki h0 hf q k v d7 m0 l0 a0 K
    · rw [show mIn ki m0 = m0 from if_neg h0, show lIn ki l0 = l0 from if_neg h0, show aIn ki a0 = a0 from if_neg h0, if_neg hf]
      exact body_mid c E i arg2 harg2 arg3 harg3 arg4 harg4 arg5 harg5 arg6 harg6 arg7 harg7 arg8 harg8 arg9 harg9 arg10 harg10 T0 T1 qi ki hqi hki h0 hf q k v d7 m0 l0 a0 K

end Cert.Kernel.Flash

end
-- ==== Proof.Bits.FlashDat.lean ====
/-
  The attention region's proof data: what each of its 36 grid points finds and leaves.

  The region visits, for each query tile, the key tiles 0 .. (that tile) in order; the two tables name
  the query tile and the key tile of every point.  Three carried buffers hold the running row maximum,
  the running denominator and the running numerator of the online softmax: a point whose key tile is 0
  resets them, every point updates them from its three blocks, and a point whose key tile is its query
  tile divides numerator by denominator into the output block, which is written back after that point
  and at no other.  The carried contents are named by a recursion over the points (the first point
  resets, so what the buffers held before the region does not matter).
-/
import proofs.«105760_j5128190951601_2_alg».proof.Proof.Bits.FlashAdm
import proofs.«105760_j5128190951601_2_alg».proof.Proof.Bits.FlashBody
import proofs.«105760_j5128190951601_2_alg».proof.Proof.Gen.Kernel.Launch
import proofs.«105760_j5128190951601_2_alg».proof.Proof.Gen.Kernel.Skeleton
import Idealize.ShloMosaic.Lib.Pipeline.FrameBody
import Idealize.ShloMosaic.Lib.Pipeline.TableIdle
import Idealize.ShloMosaic.Lib.Pipeline.Kit
import Idealize.ShloMosaic.Lib.Tactic

set_option maxRecDepth 16384
set_option Elab.async false

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The attention pipeline at the literal tables. -/
abbrev cfgF : Pipeline.Cfg sig Λ₀ := cfg1 (adm1 (F := F))

/-! ## The tables' words, point by point -/

/-- The row-major position, in a 2 x 18 table, of the word the body and the index maps read at grid point `i`. -/
def pos (i : grid1.Coords) : Fin 36 :=
  S2x18.rowMajor ((Rect.unit (s := S2x18) (k1_off1 i) S1x1.size (Facts₀.k1_off1_inb i)).emb (Shape.Idx.first (Facts₀.numel1_S1x1.symm ▸ Nat.one_pos)))

/-- The query tile and the key tile of point `t`. -/
def qiAt (t : Fin grid1.N) : BitVec 32 := lit0 (pos (grid1.coords t))
def kiAt (t : Fin grid1.N) : BitVec 32 := lit1 (pos (grid1.coords t))

/-- The first point opens a query tile's run: its key tile is 0. -/
theorem ki_first : kiAt ⟨0, by decide⟩ = 0#32 := by decide +kernel
/-- A point that does not close its query tile's run (key tile ≠ query tile) is followed by a point of the same
    query tile. -/
theorem sched3 : ∀ t : Fin grid1.N, ¬ k1_cond2 (qiAt t) (kiAt t) = 1#1 → ∃ h : t.val + 1 < grid1.N, qiAt ⟨t.val + 1, h⟩ = qiAt t := by decide +kernel

/-- The words the body loads from the two tables at a grid point. -/
theorem tword_tbl0 (c : Dev nD) (i : grid1.Coords) : tword (F := F) c (Memref.whole main_c) ((tbl (F := F)) 0) i = lit0 (pos i) := rfl
theorem tword_tbl1 (c : Dev nD) (i : grid1.Coords) : tword (F := F) c (Memref.whole main_c_0) ((tbl (F := F)) 1) i = lit1 (pos i) := rfl

theorem atD_tbl0 (i : grid1.Coords) : (tbl (F := F)).atD 0 (k1_off1 i) = lit0 (pos i) := by
  have h : ∀ a : Fin 2, k1_off1 i a + 1 ≤ S2x18.size a := fun a => match a with
    | ⟨0, _⟩ => Facts₀.k1_off1_inb i 0
    | ⟨1, _⟩ => Facts₀.k1_off1_inb i 1
  unfold Pipeline.Prefetch.Contents.atD
  refine (dif_pos h).trans ?_
  show lit0 (S2x18.rowMajor _) = lit0 (pos i)
  refine congrArg lit0 (congrArg S2x18.rowMajor ?_)
  funext a; exact Fin.ext rfl

theorem atD_tbl1 (i : grid1.Coords) : (tbl (F := F)).atD 1 (k1_off1 i) = lit1 (pos i) := by
  have h : ∀ a : Fin 2, k1_off1 i a + 1 ≤ S2x18.size a := fun a => match a with
    | ⟨0, _⟩ => Facts₀.k1_off1_inb i 0
    | ⟨1, _⟩ => Facts₀.k1_off1_inb i 1
  unfold Pipeline.Prefetch.Contents.atD
  refine (dif_pos h).trans ?_
  show lit1 (S2x18.rowMajor _) = lit1 (pos i)
  refine congrArg lit1 (congrArg S2x18.rowMajor ?_)
  funext a; exact Fin.ext rfl

/-- The output window's block index at a point: the point's query tile. -/
theorem outIndex3 (t : Fin (cfgF (F := F)).N) : ((cfgF (F := F)).win (3 : Fin 4)).index t = ![0, (qiAt t).toNat, 0] := rfl

/-- The output window is idle exactly at the points that do not close a run. -/
theorem idle3 (t : Fin (cfgF (F := F)).N) :
    (cfgF (F := F)).idle (3 : Fin 4) ((cfgF (F := F)).grid.coords t) = !(k1_cond2 (qiAt t) (kiAt t) == 1#1) := by
  show (!(k1_cond2 ((tbl (F := F)).atD 0 (k1_off1 (grid1.coords t))) ((tbl (F := F)).atD 1 (k1_off1 (grid1.coords t))) == 1#1)) = _
  rw [atD_tbl0, atD_tbl1]; rfl

/-- and at those points it is not written back: the next point has the same block index. -/
theorem flush3_of_idle (t : Fin (cfgF (F := F)).N) (h : ¬ k1_cond2 (qiAt t) (kiAt t) = 1#1) :
    ((cfgF (F := F)).win (3 : Fin 4)).flush t = false := by
  obtain ⟨hlt, hq⟩ := sched3 t h
  unfold Pipeline.Window.flush
  have h1 : decide (t.val + 1 = (cfgF (F := F)).grid.N) = false := decide_eq_false (Nat.ne_of_lt hlt)
  have h2 : decide (∃ h : t.val + 1 < (cfgF (F := F)).grid.N, ((cfgF (F := F)).win (3 : Fin 4)).index ⟨t.val + 1, h⟩ ≠ ((cfgF (F := F)).win (3 : Fin 4)).index t) = false := by
    refine decide_eq_false ?_
    rintro ⟨h', hne⟩
    apply hne
    rw [outIndex3, outIndex3, hq]
  rw [h1, h2]; simp

/-! ## The blocks, and the carried buffers' contents point by point -/

section Data

variable (V : (c : Dev nD) → (b : Ref sig .tc) → Buf (Elt F) ((c : Thread nD τ).loc b))

/-- Window `w`'s block at point `t`, read off its array as the region finds it (`V`). -/
def iblk (c : Dev nD) (w : Fin 4) (t : Fin (cfgF (F := F)).N) :
    (((cfgF (F := F)).win w).xblock ((cfgF (F := F)).grid.coords t)).Idx → Elt F ((cfgF (F := F)).win w).elt :=
  (((cfgF (F := F)).win w).blk t).view.read (Elt F) (V c (Pipeline.arrRef spec1 w))

/-- The three carried buffers' contents: running maximum, running denominator, running numerator. -/
abbrev St (F : FTy → Type) [FloatOps F] : Type := Vec F S4x256x1 .f32 × Vec F S4x256x1 .f32 × Vec F S4x256x1024 .f32

/-- What the carried buffers hold after the body at point `t`, from what they held before it. -/
def stepS (c : Dev nD) (t : Fin (cfgF (F := F)).N) (s : St F) : St F :=
  (mOut (qiAt t) (kiAt t) (iblk V c 0 t) (iblk V c 1 t) (mIn (kiAt t) s.1),
   lOut (qiAt t) (kiAt t) (iblk V c 0 t) (iblk V c 1 t) (mIn (kiAt t) s.1) (lIn (kiAt t) s.2.1),
   aOut (qiAt t) (kiAt t) (iblk V c 0 t) (iblk V c 1 t) (iblk V c 2 t) (mIn (kiAt t) s.1) (aIn (kiAt t) s.2.2))

/-- The output block a closing point writes, from what the carried buffers held before it. -/
def outS (c : Dev nD) (t : Fin (cfgF (F := F)).N) (s : St F) : Vec F S4x256x1024 .f32 :=
  oOut (qiAt t) (kiAt t) (iblk V c 0 t) (iblk V c 1 t) (iblk V c 2 t) (mIn (kiAt t) s.1) (lIn (kiAt t) s.2.1) (aIn (kiAt t) s.2.2)

/-- A point whose key tile is 0 resets the carried buffers: what they held before does not matter. -/
theorem stepS_reset (c : Dev nD) (t : Fin (cfgF (F := F)).N) (h : kiAt t = 0#32) (s s' : St F) : stepS V c t s = stepS V c t s' := by
  simp only [stepS, mIn, lIn, aIn, if_pos h]
theorem outS_reset (c : Dev nD) (t : Fin (cfgF (F := F)).N) (h : kiAt t = 0#32) (s s' : St F) : outS V c t s = outS V c t s' := by
  simp only [outS, mIn, lIn, aIn, if_pos h]

/-- The carried buffers' contents before position `n` (before the first point: the reset values, which the
    first point would write anyway). -/
def traj (c : Dev nD) : ℕ → St F
  | 0 => (k1_pay7 (F := F), k1_pay8 (F := F), k1_pay9 (F := F))
  | n + 1 => if h : n < (cfgF (F := F)).N then stepS V c ⟨n, h⟩ (traj c n) else traj c n

theorem traj_succ (c : Dev nD) (t : Fin (cfgF (F := F)).N) : traj V c (t.val + 1) = stepS V c t (traj V c t.val) := by
  rw [traj, dif_pos t.isLt]

/-- Contents that are the recursion's once a point has run are as good as the recursion's at every point:
    the first point resets. -/
theorem stepS_known (c : Dev nD) (t : Fin (cfgF (F := F)).N) (s : St F) (hs : t.val ≠ 0 → s = traj V c t.val) :
    stepS V c t s = traj V c (t.val + 1) := by
  rw [traj_succ]
  by_cases h0 : t.val = 0
  · exact stepS_reset V c t (by obtain ⟨tv, ht⟩ := t; simp only at h0; subst h0; exact ki_first) _ _
  · rw [hs h0]
theorem outS_known (c : Dev nD) (t : Fin (cfgF (F := F)).N) (s : St F) (hs : t.val ≠ 0 → s = traj V c t.val) :
    outS V c t s = outS V c t (traj V c t.val) := by
  by_cases h0 : t.val = 0
  · exact outS_reset V c t (by obtain ⟨tv, ht⟩ := t; simp only at h0; subst h0; exact ki_first) _ _
  · rw [hs h0]

/-! ## The invariant and the proof data -/

/-- The projection region's staging buffers, which this region does not touch, each at some contents. -/
def otherBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The carried buffers at contents `s`. -/
def carried (c : Dev nD) (s : St F) : sProp 𝕄 :=
  iprop(owns (c : Thread nD τ) (Memref.whole cc1_scratch0) fullShare s.1
    ∗ owns (c : Thread nD τ) (Memref.whole cc1_scratch1) fullShare s.2.1
    ∗ owns (c : Thread nD τ) (Memref.whole cc1_scratch2) fullShare s.2.2)

/-- THE INVARIANT before point `t`: the two tables whole at their contents; the carried buffers at what the
    recursion says once a point has run (anything before the first point); the other region's buffers and the
    generator register, untouched. -/
def Phi (c : Dev nD) (t : Fin ((cfgF (F := F)).N + 1)) : sProp 𝕄 :=
  iprop(Pipeline.prefHeld (Ix := Unit) (Name := ℕ) (U := UR sig nD τ) (Lvl := ℕ) pre1 c (fun _ => fullShare) (tbl (F := F))
    ∗ (∃ s : St F, ⌜t.val ≠ 0 → s = traj V c t.val⌝ ∗ carried c s)
    ∗ otherBufs (F := F) c ∗ ∃ r, prngReg c r)

/-- The proof data of the attention pipeline on core `c`: the arrays as the region finds them (`V`); after the
    body each input's buffer at its block and, at a closing point, the output's at the quotient; the three input
    windows' shares of the one array they read; nothing owed. -/
def dat1 (c : Dev nD) : Dat τ (Elt F) Unit ℕ (UR sig nD τ) ℕ (cfgF (F := F)) c where
  A w := V c (Pipeline.arrRef spec1 w)
  after w t := match w with
    | ⟨0, _⟩ => iblk V c 0 t
    | ⟨1, _⟩ => iblk V c 1 t
    | ⟨2, _⟩ => iblk V c 2 t
    | ⟨3, _⟩ => outS V c t (traj V c t.val)
  Φ t := Phi V c t
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfgF (F := F)).W) : (dat1 V c).A w = V c (Pipeline.arrRef spec1 w) := by
  dsimp only [dat1]

theorem after1_0 (c : Dev nD) (t : Fin (cfgF (F := F)).N) : (dat1 V c).after 0 t = iblk V c 0 t := by dsimp only [dat1]; try rfl
theorem after1_1 (c : Dev nD) (t : Fin (cfgF (F := F)).N) : (dat1 V c).after 1 t = iblk V c 1 t := by dsimp only [dat1]; try rfl
theorem after1_2 (c : Dev nD) (t : Fin (cfgF (F := F)).N) : (dat1 V c).after 2 t = iblk V c 2 t := by dsimp only [dat1]; try rfl
theorem after1_3 (c : Dev nD) (t : Fin (cfgF (F := F)).N) : (dat1 V c).after 3 t = outS V c t (traj V c t.val) := by dsimp only [dat1]; try rfl

/-- Each input's current staging buffer holds its block at every point, fetched there or not. -/
theorem before1_0 (c : Dev nD) (t : Fin (cfgF (F := F)).N) (d) : (dat1 V c).before 0 t d = iblk V c 0 t :=
  ((dat1 V c).before_in_eq_fetched 0 rfl (fun _ => rfl) (fun _ _ _ => rfl) (fun t => by rw [after1_0]; unfold Dat.blockOf iblk; rw [A_eq1]; try rfl) t d).trans
    (by unfold Dat.fetched Dat.blockOf iblk; rw [A_eq1]; try rfl)
theorem before1_1 (c : Dev nD) (t : Fin (cfgF (F := F)).N) (d) : (dat1 V c).before 1 t d = iblk V c 1 t :=
  ((dat1 V c).before_in_eq_fetched 1 rfl (fun _ => rfl) (fun _ _ _ => rfl) (fun t => by rw [after1_1]; unfold Dat.blockOf iblk; rw [A_eq1]; try rfl) t d).trans
    (by unfold Dat.fetched Dat.blockOf iblk; rw [A_eq1]; try rfl)
theorem before1_2 (c : Dev nD) (t : Fin (cfgF (F := F)).N) (d) : (dat1 V c).before 2 t d = iblk V c 2 t :=
  ((dat1 V c).before_in_eq_fetched 2 rfl (fun _ => rfl) (fun _ _ _ => rfl) (fun t => by rw [after1_2]; unfold Dat.blockOf iblk; rw [A_eq1]; try rfl) t d).trans
    (by unfold Dat.fetched Dat.blockOf iblk; rw [A_eq1]; try rfl)

end Data

/-! ## The body obligation -/

section Body

variable (V : (c : Dev nD) → (b : Ref sig .tc) → Buf (Elt F) ((c : Thread nD τ).loc b))

/-- The two tables, one by one. -/
theorem prefHeld1_eq (c : Dev nD) (q : Fin 2 → PosShare TreeShare) (v : pre1.Contents (Elt F)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

/-- A whole buffer's points-to along the halves of the full share. -/
theorem pt_split (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem pt_join (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- Once a point has run, the invariant names the carried buffers' contents. -/
theorem Phi_pos (c : Dev nD) (t : Fin ((cfgF (F := F)).N + 1)) (h0 : t.val ≠ 0) :
    Phi V c t = iprop(Pipeline.prefHeld (Ix := Unit) (Name := ℕ) (U := UR sig nD τ) (Lvl := ℕ) pre1 c (fun _ => fullShare) (tbl (F := F))
      ∗ carried c (traj V c t.val) ∗ otherBufs (F := F) c ∗ ∃ r, prngReg c r) := by
  unfold Phi; rw [exists_held h0 (traj V c t.val) (carried (F := F) c)]

/-- The current staging memref of each window at point `t`. -/
abbrev st1_0 (t : Fin (cfgF (F := F)).N) := ((cfgF (F := F)).win 0).stage ((cfgF (F := F)).slots t 0)
abbrev st1_1 (t : Fin (cfgF (F := F)).N) := ((cfgF (F := F)).win 1).stage ((cfgF (F := F)).slots t 1)
abbrev st1_2 (t : Fin (cfgF (F := F)).N) := ((cfgF (F := F)).win 2).stage ((cfgF (F := F)).slots t 2)
abbrev st1_3 (t : Fin (cfgF (F := F)).N) := ((cfgF (F := F)).win 3).stage ((cfgF (F := F)).slots t 3)

/-- The kernel body at point `t`, on what the pipeline calls it with. -/
abbrev bodyAt1 (t : Fin (cfgF (F := F)).N) : Prog (TpuEff nD τ sig (Elt F) Λ₀ .tc) PUnit :=
  cc1__flash_causal_kernel (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)

/-- What the body obligation asks at point `t`, the windows one by one on the left. -/
def BodyGoal (c : Dev nD) (t : Fin (cfgF (F := F)).N) : Prop :=
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ bigSep Finset.univ fun w : Fin (cfgF (F := F)).W =>
                match (cfgF (F := F)).idle w ((cfgF (F := F)).grid.coords t) with
                | true =>
                  match ((cfgF (F := F)).win w).flush t with
                  | false => iprop(∃ d, owns (c : Thread nD τ) (((cfgF (F := F)).win w).stage ((cfgF (F := F)).slots t w)) fullShare ((dat1 V c).before w t d))
                  | true => owns (c : Thread nD τ) (((cfgF (F := F)).win w).stage ((cfgF (F := F)).slots t w)) fullShare ((dat1 V c).after w t)
                | false => owns (c : Thread nD τ) (((cfgF (F := F)).win w).stage ((cfgF (F := F)).slots t w)) fullShare ((dat1 V c).after w t))

set_option maxHeartbeats 4000000 in
/-- The body at the first point (its key tile is 0: the carried buffers are reset whatever they held), closing its run: the output's buffer ends at the quotient. -/
theorem sound_first_close (c : Dev nD) (t : Fin (cfgF (F := F)).N) (h0 : t.val = 0) (hc : k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have hk0 : kiAt t = 0#32 := by obtain ⟨tv, ht⟩ := t; simp only at h0; subst h0; exact ki_first
  unfold Phi
  rw [prefHeld1_eq]
  have hb : (!(k1_cond2 (qiAt t) (kiAt t) == 1#1)) = false := by rw [hc]; rfl
  rw [hb]
  simp only [if_pos hc] at hB
  simp only [before1_0, before1_1, before1_2, after1_0, after1_1, after1_2, after1_3, carried, stepS, outS, mIn, lIn, aIn, if_pos hk0]
  simp only [mIn, lIn, aIn, if_pos hk0] at hB
  iintro ⟨⟨⟨HT0, HT1⟩, ⟨%s, -, HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) s.1 s.2.1 s.2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexact H3

set_option maxHeartbeats 4000000 in
/-- The body at the first point (its key tile is 0: the carried buffers are reset whatever they held), not closing its run: the output's buffer is handed back as found. -/
theorem sound_first_open (c : Dev nD) (t : Fin (cfgF (F := F)).N) (h0 : t.val = 0) (hc : ¬ k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have hk0 : kiAt t = 0#32 := by obtain ⟨tv, ht⟩ := t; simp only at h0; subst h0; exact ki_first
  unfold Phi
  rw [prefHeld1_eq]
  have hb : (!(k1_cond2 (qiAt t) (kiAt t) == 1#1)) = true := by simp [hc]
  rw [hb, flush3_of_idle t hc]
  simp only [if_neg hc] at hB
  simp only [before1_0, before1_1, before1_2, after1_0, after1_1, after1_2, carried, stepS, mIn, lIn, aIn, if_pos hk0]
  simp only [mIn, lIn, aIn, if_pos hk0] at hB
  iintro ⟨⟨⟨HT0, HT1⟩, ⟨%s, -, HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) s.1 s.2.1 s.2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexists d3; iexact H3

set_option maxHeartbeats 4000000 in
/-- The body at a later point (the carried buffers hold what the recursion says), closing its run: the output's buffer ends at the quotient. -/
theorem sound_later_close (c : Dev nD) (t : Fin (cfgF (F := F)).N) (h0 : t.val ≠ 0) (hc : k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have h0' : t.castSucc.val ≠ 0 := by rw [Fin.coe_castSucc]; exact h0
  rw [Phi_pos V c t.castSucc h0', Fin.coe_castSucc, prefHeld1_eq]
  have hb : (!(k1_cond2 (qiAt t) (kiAt t) == 1#1)) = false := by rw [hc]; rfl
  rw [hb]
  simp only [if_pos hc] at hB
  simp only [before1_0, before1_1, before1_2, after1_0, after1_1, after1_2, after1_3, carried, stepS, outS]
  iintro ⟨⟨⟨HT0, HT1⟩, ⟨HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) (traj V c t.val).1 (traj V c t.val).2.1 (traj V c t.val).2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexact H3

set_option maxHeartbeats 4000000 in
/-- The body at a later point (the carried buffers hold what the recursion says), not closing its run: the output's buffer is handed back as found. -/
theorem sound_later_open (c : Dev nD) (t : Fin (cfgF (F := F)).N) (h0 : t.val ≠ 0) (hc : ¬ k1_cond2 (qiAt t) (kiAt t) = 1#1) : BodyGoal V c t := by
  unfold BodyGoal
  rw [bigSep_W1]
  rw [show (cfgF (F := F)).idle (0 : Fin 4) ((cfgF (F := F)).grid.coords t) = false from rfl, idle3]
  have hB := fun d7 m0 l0 a0 K => body_step (F := F) c Set.univ (grid1.coords t) (Memref.whole main_c) (Memref.isWhole_whole _) (Memref.whole main_c_0) (Memref.isWhole_whole _)
    (spec1_0.stage ((cfgF (F := F)).slots t 0)) (Facts₀.hstage1_0 (((cfgF (F := F)).slots t 0).cast Facts₀.nbuf1_0))
    (spec1_1.stage ((cfgF (F := F)).slots t 1)) (Facts₀.hstage1_1 (((cfgF (F := F)).slots t 1).cast Facts₀.nbuf1_1))
    (spec1_2.stage ((cfgF (F := F)).slots t 2)) (Facts₀.hstage1_2 (((cfgF (F := F)).slots t 2).cast Facts₀.nbuf1_2))
    (spec1_3.stage ((cfgF (F := F)).slots t 3)) (Facts₀.hstage1_3 (((cfgF (F := F)).slots t 3).cast Facts₀.nbuf1_3))
    (Memref.whole cc1_scratch0) (Memref.isWhole_whole _) (Memref.whole cc1_scratch1) (Memref.isWhole_whole _) (Memref.whole cc1_scratch2) (Memref.isWhole_whole _)
    ((tbl (F := F)) 0) ((tbl (F := F)) 1) (qiAt t) (kiAt t) (tword_tbl0 c _) (tword_tbl1 c _) trivial trivial
    (iblk V c 0 t) (iblk V c 1 t) (iblk V c 2 t) d7 m0 l0 a0 K
  have hs0 := pt_split (F := F) ((c : Thread nD τ).loc main_c) ((tbl (F := F)) 0)
  have hs1 := pt_split (F := F) ((c : Thread nD τ).loc main_c_0) ((tbl (F := F)) 1)
  have hj0 := pt_join (F := F) ((c : Thread nD τ).loc main_c) ((tbl (F := F)) 0)
  have hj1 := pt_join (F := F) ((c : Thread nD τ).loc main_c_0) ((tbl (F := F)) 1)
  rw [show (dat1 V c).Φ t.succ = Phi V c t.succ from rfl, show (dat1 V c).Φ t.castSucc = Phi V c t.castSucc from rfl,
    show (dat1 V c).owesAt () t.succ = (dat1 V c).owesAt () t.castSucc from rfl]
  rw [Phi_pos V c t.succ (Nat.succ_ne_zero _), show t.succ.val = t.val + 1 from rfl, traj_succ]
  have h0' : t.castSucc.val ≠ 0 := by rw [Fin.coe_castSucc]; exact h0
  rw [Phi_pos V c t.castSucc h0', Fin.coe_castSucc, prefHeld1_eq]
  have hb : (!(k1_cond2 (qiAt t) (kiAt t) == 1#1)) = true := by simp [hc]
  rw [hb, flush3_of_idle t hc]
  simp only [if_neg hc] at hB
  simp only [before1_0, before1_1, before1_2, after1_0, after1_1, after1_2, carried, stepS]
  iintro ⟨⟨⟨HT0, HT1⟩, ⟨HS0, HS1, HS2⟩, Hoth, Hp⟩, Ho, ⟨%d0, H0⟩, ⟨%d1, H1⟩, ⟨%d2, H2⟩, ⟨%d3, H3⟩⟩
  ihave HT0' := hs0 $$ HT0
  icases HT0' with ⟨HT0l, HT0r⟩
  ihave HT1' := hs1 $$ HT1
  icases HT1' with ⟨HT1l, HT1r⟩
  iapply (hB ((dat1 V c).before 3 t d3) (traj V c t.val).1 (traj V c t.val).2.1 (traj V c t.val).2.2 _)
  isplitl [HT0r]; · iexact HT0r
  isplitl [HT1r]; · iexact HT1r
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨HT0r, HT1r, H0, H1, H2, H3, HS0, HS1, HS2⟩
  isplitl [HT0l HT0r HT1l HT1r HS0 HS1 HS2 Hoth Hp]
  · isplitl [HT0l HT0r HT1l HT1r]
    · isplitl [HT0l HT0r]
      · iapply hj0
        isplitl [HT0l]; · iexact HT0l
        iexact HT0r
      · iapply hj1
        isplitl [HT1l]; · iexact HT1l
        iexact HT1r
    isplitl [HS0 HS1 HS2]
    · isplitl [HS0]; · iexact HS0
      isplitl [HS1]; · iexact HS1
      iexact HS2
    isplitl [Hoth]; · iexact Hoth
    iexact Hp
  isplitl [Ho]; · iexact Ho
  isplitl [H0]; · iexact H0
  isplitl [H1]; · iexact H1
  isplitl [H2]; · iexact H2
  iexists d3; iexact H3

/-- The body at any point: the tables' words are the point's tiles; the inputs' memrefs hold their blocks; the carried
    buffers hold what the recursion says (or anything, at the first point, which resets them); so the kernel's triple
    applies.  The output's buffer is left as found at a point that does not close its run, and holds the quotient at a
    closing point. -/
theorem sound_body1 (c : Dev nD) (t : Fin (cfgF (F := F)).N) : BodyGoal V c t := by
  by_cases h0 : t.val = 0
  · by_cases hc : k1_cond2 (qiAt t) (kiAt t) = 1#1
    · exact sound_first_close V c t h0 hc
    · exact sound_first_open V c t h0 hc
  · by_cases hc : k1_cond2 (qiAt t) (kiAt t) = 1#1
    · exact sound_later_close V c t h0 hc
    · exact sound_later_open V c t h0 hc

/-- The library's body obligation, at every point. -/
theorem body_obligation1 (c : Dev nD) : BodyObligation (dat1 (F := F) V c) (defs₀ (F := F)) Variants.none () Set.univ := fun t => by
  rw [bigSep_W1]
  exact sound_body1 V c t

end Body

end Cert.Kernel.Flash

end
-- ==== Proof.Bits.Final.lean ====
/-
  The kernel program's run, put together: what the two regions leave in their result arrays, named once; the family
  of those contents the program's run is stated over; the frame of the whole program and its run with the result named.
-/
import proofs.«105760_j5128190951601_2_alg».proof.Proof.Bits.Assemble
import proofs.«105760_j5128190951601_2_alg».proof.Proof.Bits.Outs
import proofs.«105760_j5128190951601_2_alg».proof.Proof.Bits.Region0Seg
import proofs.«105760_j5128190951601_2_alg».proof.Proof.Bits.FlashDat

noncomputable section

namespace Cert.Kernel.Final

open Idealize.ShloMosaic Idealize.ShloMosaic.TcCoe Idealize.SL.Sem
open Idealize.ShloMosaic.Pipeline (Dat RegionSeg)
open Cert.Kernel Cert.Kernel.Gen

variable {F : FTy → Type} [FloatOps F]
variable (m : (ℓ : Loc nD τ sig) → Buf (Elt F) ℓ)

/-- What the projection region leaves in its result array. -/
def o9 (c : Dev nD) : Buf (Elt F) ((c : Thread nD τ).loc main_v9) := (R0.dat0 (R0.V1r m) c).arrAt 2 cfg0.N

/-- The buffers when the attention region is entered. -/
abbrev V3r : (c : Dev nD) → (b : Ref sig .tc) → Buf (Elt F) ((c : Thread nD τ).loc b) := fun c b => Asm.V3' m (o9 m) c b

/-- What the attention region leaves in its result array. -/
def o11 (c : Dev nD) : Buf (Elt F) ((c : Thread nD τ).loc main_v11) := (Flash.dat1 (V3r m) c).arrAt 3 (Flash.cfgF (F := F)).N

/-- The family of contents the regions leave. -/
def outs : Outs (F := F) := Asm.mkOuts (o9 m) (o11 m)

theorem houts0 (c : Dev nD) : outs m 2 main_v9 c = (R0.dat0 (R0.V1r m) c).arrAt 2 cfg0.N := Asm.mkOuts_v9 _ _ _ _

theorem V3_eq : (fun (c : Dev nD) (b : Ref sig .tc) => Gen.V3 m (outs m) c b) = V3r m :=
  funext fun c => funext fun b => congrFun (Asm.V3_mkOuts m (o9 m) (o11 m) c) _

theorem houts1 (c : Dev nD) :
    outs m 4 main_v11 c = (Flash.dat1 (fun c b => Gen.V3 m (outs m) c b) c).arrAt 3 (Flash.cfgF (F := F)).N := by
  rw [V3_eq]; exact Asm.mkOuts_v11 _ _ _ _

end Cert.Kernel.Final

end
-- ==== Proof.Bits.FlashSplitGen.lean ====
/-
  The attention region's entry and exit, as separation-logic bookkeeping.  Three of the region's four windows read
  one array; the fourth writes another.  At the entry the core's unscoped buffers, each whole at the full share, are
  dealt out: the shared array in three holdings (a half and two quarters of its full share), one per reading window,
  the output array whole, the two tables, and the rest.  At the exit the three holdings are put back together (the
  reading windows never write, so all three still hold the entry contents), the output array is taken at what the
  region left in it, and the buffers are whole again.  Stated for any proof data of the pipeline with those entry
  contents and shares.
-/
import proofs.«105760_j5128190951601_2_alg».proof.Proof.Bits.FlashAdm
import proofs.«105760_j5128190951601_2_alg».proof.Proof.Gen.Kernel.Launch
import Idealize.ShloMosaic.Lib.Pipeline.Regions
import Idealize.ShloMosaic.Lib.Pipeline.Frame

set_option maxRecDepth 16384
set_option Elab.async false

noncomputable section

namespace Cert.Kernel.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The attention pipeline at the literal tables. -/
abbrev cfgSplit : Pipeline.Cfg sig Λ₀ := cfg1 (adm1 (F := F))

/-- The windows' arrays, one by one. -/
theorem arrays_eq4 (c : Dev nD) (dat : Dat τ (Elt F) Unit ℕ (UR sig nD τ) ℕ (cfgSplit (F := F)) c)
    (hq0 : dat.q 0 = fullShare.left) (hq1 : dat.q 1 = fullShare.right.left) (hq2 : dat.q 2 = fullShare.right.right)
    (G : (w : Fin (cfgSplit (F := F)).W) → Buf (Elt F) (((cfgSplit (F := F)).win w).arr.view.loc (c.tc : Thread nD τ))) :
    (dat.arrays G : sProp 𝕄)
      = iprop((((c : Thread nD τ).loc main_v10) ↦{fullShare.left} G 0) ∗ (((c : Thread nD τ).loc main_v10) ↦{fullShare.right.left} G 1)
          ∗ (((c : Thread nD τ).loc main_v10) ↦{fullShare.right.right} G 2) ∗ (((c : Thread nD τ).loc main_v11) ↦{fullShare} G 3)) := by
  unfold Dat.arrays
  rw [bigSep_W1]
  have s0 : dat.share 0 = fullShare.left := by unfold Dat.share; exact (if_neg Bool.false_ne_true).trans hq0
  have s1 : dat.share 1 = fullShare.right.left := by unfold Dat.share; exact (if_neg Bool.false_ne_true).trans hq1
  have s2 : dat.share 2 = fullShare.right.right := by unfold Dat.share; exact (if_neg Bool.false_ne_true).trans hq2
  have s3 : dat.share 3 = fullShare := by unfold Dat.share; exact if_pos rfl
  have e0 : ((cfgSplit (F := F)).win 0).arr.view.set = Finset.univ := (arr_whole1 0).set_eq_univ
  have e1 : ((cfgSplit (F := F)).win 1).arr.view.set = Finset.univ := (arr_whole1 1).set_eq_univ
  have e2 : ((cfgSplit (F := F)).win 2).arr.view.set = Finset.univ := (arr_whole1 2).set_eq_univ
  have e3 : ((cfgSplit (F := F)).win 3).arr.view.set = Finset.univ := (arr_whole1 3).set_eq_univ
  rw [s0, s1, s2, s3]
  have p0 : ∀ (q : PosShare TreeShare) (g : Buf (Elt F) (((cfgSplit (F := F)).win 0).arr.view.loc (c.tc : Thread nD τ))),
      ((((cfgSplit (F := F)).win 0).arr.view.loc (c.tc : Thread nD τ)) ↦[((cfgSplit (F := F)).win 0).arr.view.set]{q} g : sProp 𝕄)
        = (((c : Thread nD τ).loc main_v10) ↦{q} g) :=
    fun q g => congrArg (fun I => ((((cfgSplit (F := F)).win 0).arr.view.loc (c.tc : Thread nD τ)) ↦[I]{q} g : sProp 𝕄)) e0
  have p1 : ∀ (q : PosShare TreeShare) (g : Buf (Elt F) (((cfgSplit (F := F)).win 1).arr.view.loc (c.tc : Thread nD τ))),
      ((((cfgSplit (F := F)).win 1).arr.view.loc (c.tc : Thread nD τ)) ↦[((cfgSplit (F := F)).win 1).arr.view.set]{q} g : sProp 𝕄)
        = (((c : Thread nD τ).loc main_v10) ↦{q} g) :=
    fun q g => congrArg (fun I => ((((cfgSplit (F := F)).win 1).arr.view.loc (c.tc : Thread nD τ)) ↦[I]{q} g : sProp 𝕄)) e1
  have p2 : ∀ (q : PosShare TreeShare) (g : Buf (Elt F) (((cfgSplit (F := F)).win 2).arr.view.loc (c.tc : Thread nD τ))),
      ((((cfgSplit (F := F)).win 2).arr.view.loc (c.tc : Thread nD τ)) ↦[((cfgSplit (F := F)).win 2).arr.view.set]{q} g : sProp 𝕄)
        = (((c : Thread nD τ).loc main_v10) ↦{q} g) :=
    fun q g => congrArg (fun I => ((((cfgSplit (F := F)).win 2).arr.view.loc (c.tc : Thread nD τ)) ↦[I]{q} g : sProp 𝕄)) e2
  have p3 : ∀ (q : PosShare TreeShare) (g : Buf (Elt F) (((cfgSplit (F := F)).win 3).arr.view.loc (c.tc : Thread nD τ))),
      ((((cfgSplit (F := F)).win 3).arr.view.loc (c.tc : Thread nD τ)) ↦[((cfgSplit (F := F)).win 3).arr.view.set]{q} g : sProp 𝕄)
        = (((c : Thread nD τ).loc main_v11) ↦{q} g) :=
    fun q g => congrArg (fun I => ((((cfgSplit (F := F)).win 3).arr.view.loc (c.tc : Thread nD τ)) ↦[I]{q} g : sProp 𝕄)) e3
  exact congrArg₂ (fun a b : sProp 𝕄 => iprop(a ∗ b)) (p0 _ _)
    (congrArg₂ (fun a b : sProp 𝕄 => iprop(a ∗ b)) (p1 _ _)
      (congrArg₂ (fun a b : sProp 𝕄 => iprop(a ∗ b)) (p2 _ _) (p3 _ _)))

/-- A core's unscoped buffers are the buffers behind the windows' arrays and the rest, the arrays distinct or not. -/
theorem unscopedBufs_split1 (c : Dev nD) (V : (b : Ref sig .tc) → Buf (Elt F) ((c.tc : Thread nD τ).loc b)) :
    (unscopedBufs c V : sProp 𝕄) = iprop((Pipeline.arrBufs spec1 c V : sProp 𝕄) ∗ Pipeline.unscopedRest spec1 c V) := by
  classical
  have hA : Finset.univ.image (Pipeline.arrRef spec1) ⊆ Finset.univ.filter fun b : Ref sig .tc => ¬ b.isScoped := fun b hb => by
    obtain ⟨w, -, rfl⟩ := Finset.mem_image.mp hb
    exact Finset.mem_filter.mpr ⟨Finset.mem_univ _, by simp [winFacts₀1.arr_unscoped w]⟩
  unfold unscopedBufs Pipeline.unscopedRest Pipeline.arrBufs
  rw [bigSep_sdiff_split hA]
  rfl

/-- The buffers behind the windows' arrays are two: the operand array and the output array. -/
theorem arrBufs1_eq (c : Dev nD) (V : (b : Ref sig .tc) → Buf (Elt F) ((c.tc : Thread nD τ).loc b)) :
    (Pipeline.arrBufs spec1 c V : sProp 𝕄)
      = iprop((((c : Thread nD τ).loc main_v10) ↦{fullShare} V main_v10) ∗ (((c : Thread nD τ).loc main_v11) ↦{fullShare} V main_v11)) := by
  unfold Pipeline.arrBufs
  rw [show Finset.univ.image (Pipeline.arrRef spec1) = insert main_v10 {main_v11} from by decide, bigSep_insert (by decide), bigSep_singleton]
  rfl

/-- A whole buffer at the full share is three holdings of it at a half and two quarters … -/
theorem share3_split {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) :=
  (pointsTo_share (PosShare.mem_left_op_right fullShare)).1.trans
    (sep_mono .rfl (pointsTo_share (PosShare.mem_left_op_right fullShare.right)).1)

/-- … and back. -/
theorem share3_join {ℓ : Loc nD τ sig} (f : Buf (Elt F) ℓ) :
    iprop((ℓ ↦{fullShare.left} f) ∗ (ℓ ↦{fullShare.right.left} f) ∗ (ℓ ↦{fullShare.right.right} f)) ⊢ (ℓ ↦{fullShare} f : sProp 𝕄) :=
  (sep_mono .rfl (pointsTo_share (PosShare.mem_left_op_right fullShare.right)).2).trans
    (pointsTo_share (PosShare.mem_left_op_right fullShare)).2

/-! ## Entry and exit, for any proof data with these entry contents and shares -/

section Gen
variable (W : Dev nD → Valuation τ sig (Elt F))

/-- A valuation of the core's buffers, read reference by reference. -/
abbrev VofW : (c : Dev nD) → (b : Ref sig .tc) → Buf (Elt F) ((c : Thread nD τ).loc b) := fun c b => W c b

/-- ENTRY: the unscoped buffers held whole at `W c` are the windows' arrays at their entry contents, dealt among
    the windows, the two tables, and the rest. -/
theorem entry_split_gen (c : Dev nD) (dat : Dat τ (Elt F) Unit ℕ (UR sig nD τ) ℕ (cfgSplit (F := F)) c)
    (hA : ∀ w, dat.A w = VofW W c (Pipeline.arrRef spec1 w))
    (hq0 : dat.q 0 = fullShare.left) (hq1 : dat.q 1 = fullShare.right.left) (hq2 : dat.q 2 = fullShare.right.right)
    (htbl : ∀ k, W c (pre1.ref k) = tbl (F := F) k) :
    (StableHlo.held (c : Thread nD τ) (Pipeline.ucRefs τ sig) (W c) : sProp 𝕄)
      ⊢ iprop(dat.arrays (dat.arrAt · 0)
          ∗ Pipeline.prefHeld pre1 c (fun _ => fullShare) (tbl (F := F))
          ∗ Pipeline.unscopedRestP pre1 spec1 c (VofW W c)) := by
  rw [← Pipeline.unscopedBufs_held (Ix := Unit) (Name := ℕ) (U := UR sig nD τ) (Lvl := ℕ) c (W c)]
  rw [unscopedBufs_split1, Pipeline.unscopedRest_split preFacts1, arrBufs1_eq,
    arrays_eq4 c dat hq0 hq1 hq2]
  have ht : (fun k => W c (Proc.devRef .tc (pre1.ref k))) = tbl (F := F) := funext htbl
  rw [ht]
  have a0 : dat.arrAt 0 0 = W c (Proc.devRef .tc main_v10) := hA 0
  have a1 : dat.arrAt 1 0 = W c (Proc.devRef .tc main_v10) := hA 1
  have a2 : dat.arrAt 2 0 = W c (Proc.devRef .tc main_v10) := hA 2
  have a3 : dat.arrAt 3 0 = W c (Proc.devRef .tc main_v11) := hA 3
  rw [a0, a1, a2, a3]
  iintro ⟨⟨HA, HB⟩, Hrest⟩
  ihave H := (share3_split _) $$ HA
  icases H with ⟨Hp, Hq, Hr⟩
  isplitr [Hrest]
  · isplitl [Hp]; · iexact Hp
    isplitl [Hq]; · iexact Hq
    isplitl [Hr]; · iexact Hr
    iexact HB
  · iexact Hrest

/-- EXIT: the windows' arrays at their final contents — the three reading windows' holdings still at the entry
    contents, the output array at what the region left — with the tables and the rest make the unscoped buffers
    held whole at any valuation `W'` that is `W c` off the output array and the region's result on it. -/
theorem exit_join_gen (c : Dev nD) (dat : Dat τ (Elt F) Unit ℕ (UR sig nD τ) ℕ (cfgSplit (F := F)) c)
    (hA : ∀ w, dat.A w = VofW W c (Pipeline.arrRef spec1 w))
    (hq0 : dat.q 0 = fullShare.left) (hq1 : dat.q 1 = fullShare.right.left) (hq2 : dat.q 2 = fullShare.right.right)
    (W' : Valuation τ sig (Elt F))
    (hout : W' main_v11 = dat.arrAt 3 (cfgSplit (F := F)).N)
    (hrest : ∀ b : Ref sig .tc, b ≠ main_v11 → W' b = W c b)
    (htbl : ∀ k, W c (pre1.ref k) = tbl (F := F) k) :
    iprop(dat.arrays (dat.arrAt · (cfgSplit (F := F)).N)
        ∗ Pipeline.prefHeld pre1 c (fun _ => fullShare) (tbl (F := F))
        ∗ Pipeline.unscopedRestP pre1 spec1 c (VofW W c))
      ⊢ (StableHlo.held (c : Thread nD τ) (Pipeline.ucRefs τ sig) W' : sProp 𝕄) := by
  rw [← Pipeline.unscopedBufs_held (Ix := Unit) (Name := ℕ) (U := UR sig nD τ) (Lvl := ℕ) c W']
  rw [unscopedBufs_split1, Pipeline.unscopedRest_split preFacts1, arrBufs1_eq,
    arrays_eq4 c dat hq0 hq1 hq2]
  have ht : (fun k => W' (Proc.devRef .tc (pre1.ref k))) = tbl (F := F) :=
    funext fun k => (hrest (pre1.ref k) (preFacts1.disj k 3)).trans (htbl k)
  rw [ht]
  have hr : (Pipeline.unscopedRestP pre1 spec1 c (fun b => W' (Proc.devRef .tc b)) : sProp 𝕄)
      = Pipeline.unscopedRestP pre1 spec1 c (VofW W c) := by
    unfold Pipeline.unscopedRestP
    refine bigSep_congr fun b hb => ?_
    have hne : b ≠ main_v11 := fun e =>
      (Finset.mem_sdiff.mp (Finset.mem_sdiff.mp hb).1).2 (Finset.mem_image.mpr ⟨3, Finset.mem_univ _, e ▸ rfl⟩)
    exact congrArg (fun f => (((c.tc : Thread nD τ).loc b) ↦{fullShare} f : sProp 𝕄)) (hrest b hne)
  rw [hr]
  have a0 : dat.arrAt 0 (cfgSplit (F := F)).N = W c (Proc.devRef .tc main_v10) := (Dat.arrAt_in dat 0 rfl _).trans (hA 0)
  have a1 : dat.arrAt 1 (cfgSplit (F := F)).N = W c (Proc.devRef .tc main_v10) := (Dat.arrAt_in dat 1 rfl _).trans (hA 1)
  have a2 : dat.arrAt 2 (cfgSplit (F := F)).N = W c (Proc.devRef .tc main_v10) := (Dat.arrAt_in dat 2 rfl _).trans (hA 2)
  have a3 : dat.arrAt 3 (cfgSplit (F := F)).N = W' (Proc.devRef .tc main_v11) := hout.symm
  have b0 : W' (Proc.devRef .tc main_v10) = W c (Proc.devRef .tc main_v10) := hrest main_v10 (by decide)
  rw [a0, a1, a2, a3, b0]
  iintro ⟨⟨Hp, Hq, Hr, HB⟩, Hrest⟩
  isplitr [Hrest]
  · isplitr [HB]
    · iapply (share3_join _)
      isplitl [Hp]; · iexact Hp
      isplitl [Hq]; · iexact Hq
      iexact Hr
    · iexact HB
  · iexact Hrest

end Gen

end Cert.Kernel.Flash

end
-- ==== Proof.Bits.FlashSplit.lean ====
/-
  The attention region's entry and exit at its proof data: the general statements of the entry and exit
  bookkeeping, at the data's entry contents (the buffers as the region finds them) and its three shares of the
  operand array.
-/
import proofs.«105760_j5128190951601_2_alg».proof.Proof.Bits.FlashDat
import proofs.«105760_j5128190951601_2_alg».proof.Proof.Bits.FlashSplitGen

set_option maxRecDepth 16384
set_option Elab.async false

noncomputable section

namespace Cert.Kernel.Flash

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (W : Dev nD → Valuation τ sig (Elt F))

/-- ENTRY of the attention region from the buffers held at `W c`. -/
theorem entry_split (c : Dev nD) (htbl : ∀ k, W c (pre1.ref k) = tbl (F := F) k) :
    (StableHlo.held (c : Thread nD τ) (Pipeline.ucRefs τ sig) (W c) : sProp 𝕄)
      ⊢ iprop((dat1 (VofW W) c).arrays ((dat1 (VofW W) c).arrAt · 0)
          ∗ Pipeline.prefHeld pre1 c (fun _ => fullShare) (tbl (F := F))
          ∗ Pipeline.unscopedRestP pre1 spec1 c (VofW W c)) :=
  entry_split_gen W c (dat1 (VofW W) c) (fun _ => rfl) rfl rfl rfl htbl

/-- EXIT of the attention region to the buffers held at `W'`. -/
theorem exit_join (c : Dev nD) (W' : Valuation τ sig (Elt F))
    (hout : W' main_v11 = (dat1 (VofW W) c).arrAt 3 (cfgF (F := F)).N)
    (hrest : ∀ b : Ref sig .tc, b ≠ main_v11 → W' b = W c b)
    (htbl : ∀ k, W c (pre1.ref k) = tbl (F := F) k) :
    iprop((dat1 (VofW W) c).arrays ((dat1 (VofW W) c).arrAt · (cfgF (F := F)).N)
        ∗ Pipeline.prefHeld pre1 c (fun _ => fullShare) (tbl (F := F))
        ∗ Pipeline.unscopedRestP pre1 spec1 c (VofW W c))
      ⊢ (StableHlo.held (c : Thread nD τ) (Pipeline.ucRefs τ sig) W' : sProp 𝕄) :=
  exit_join_gen W c (dat1 (VofW W) c) (fun _ => rfl) rfl rfl rfl W' hout hrest htbl

end Cert.Kernel.Flash

end
-- ==== Proof.Bits.FlashSeg.lean ====
/-
  The attention region as a segment of the program's run: entered from every unscoped buffer at the contents the
  reshape before it leaves, left with the result array replaced by what the write-backs leave and every other buffer
  as entered.  At entry the one array the three input windows read is dealt among them (a third of the full share
  each, in effect), the two tables go to the pipeline, and the generator register and the carried buffers enter the
  region's invariant; at exit everything is put back.
-/
import proofs.«105760_j5128190951601_2_alg».proof.Proof.Bits.FlashDat
import proofs.«105760_j5128190951601_2_alg».proof.Proof.Bits.FlashSplit
import proofs.«105760_j5128190951601_2_alg».proof.Proof.Bits.Region0Seg
import proofs.«105760_j5128190951601_2_alg».proof.Proof.Bits.Base
import Idealize.ShloMosaic.Lib.StableHlo.Run
import Idealize.ShloMosaic.Lib.Pipeline.Regions

set_option maxRecDepth 16384
set_option Elab.async false

noncomputable section

namespace Cert.Kernel.Flash

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

/-- The region's entry contents, read at the TensorCore's references (what its proof data take). -/
abbrev V3r : (c : Dev nD) → (b : Ref sig .tc) → Buf (Elt F) ((c : Thread nD τ).loc b) := fun c b => Gen.V3 m outs c b

/-- The region's proof data at its entry contents. -/
abbrev d1 : (c : Dev nD) → Dat τ (Elt F) Unit ℕ (UR sig nD τ) ℕ (Pipeline.pin (pcfgs (F := F)) adm 1) c :=
  fun c => dat1 (V3r m outs) c

/-! ## The tables when the region is entered: the literals the first host lines wrote -/

theorem V1_main_c (c : Dev nD) : Gen.V1 m c main_c = (tbl (F := F)) 0 := by
  show StableHlo.after hostOps0 (fun b => m (c, b)) (Proc.devRef .tc main_c) = _
  after_results
  rfl
theorem V1_main_c_0 (c : Dev nD) : Gen.V1 m c main_c_0 = (tbl (F := F)) 1 := by
  show StableHlo.after hostOps0 (fun b => m (c, b)) (Proc.devRef .tc main_c_0) = _
  after_results
  rfl

theorem V3_tbl (c : Dev nD) (k : Fin 2) : Gen.V3 m outs c (pre1.ref k) = (tbl (F := F)) k := by
  match k with
  | ⟨0, _⟩ => exact (Gen.V3_of m outs c main_c (by decide)).trans ((Gen.V2_of m outs c main_c (by decide)).trans (V1_main_c m c))
  | ⟨1, _⟩ => exact (Gen.V3_of m outs c main_c_0 (by decide)).trans ((Gen.V2_of m outs c main_c_0 (by decide)).trans (V1_main_c_0 m c))

/-! ## The invariant at the first point, and what the last point gives back -/

theorem hin1 (c : Dev nD) :
    iprop((∃ r, prngReg c r) ∗ Pipeline.prefHeld (Ix := Unit) (Name := ℕ) (U := UR sig nD τ) (Lvl := ℕ) pre1 c (fun _ => fullShare) (tbl (F := F))
        ∗ Pipeline.scopedRest (Ix := Unit) (Name := ℕ) (U := UR sig nD τ) (Lvl := ℕ) (Val := Elt F) spec1 c)
      ⊢ (Phi (V3r m outs) c 0 : sProp 𝕄) := by
  rw [Gen.scopedRest1_eq]
  unfold Phi otherBufs carried
  iintro ⟨Hp, HT, H00, H01, H10, H20, H21, ⟨%f0, HS0⟩, ⟨%f1, HS1⟩, ⟨%f2, HS2⟩⟩
  isplitl [HT]; · iexact HT
  isplitl [HS0 HS1 HS2]
  · iexists (f0, f1, f2)
    isplitr; · ipureintro; intro h; exact absurd rfl h
    rw [owns_whole, owns_whole, owns_whole]
    isplitl [HS0]; · iexact HS0
    isplitl [HS1]; · iexact HS1
    iexact HS2
  isplitl [H00 H01 H10 H20 H21]
  · isplitl [H00]; · iexact H00
    isplitl [H01]; · iexact H01
    isplitl [H10]; · iexact H10
    isplitl [H20]; · iexact H20
    iexact H21
  iexact Hp

theorem hout1 (c : Dev nD) :
    (Phi (V3r m outs) c (Fin.last (cfgF (F := F)).N) : sProp 𝕄)
      ⊢ iprop(((∃ r, prngReg c r) ∗ Pipeline.prefHeld (Ix := Unit) (Name := ℕ) (U := UR sig nD τ) (Lvl := ℕ) pre1 c (fun _ => fullShare) (tbl (F := F)))
        ∗ Pipeline.scopedRest (Ix := Unit) (Name := ℕ) (U := UR sig nD τ) (Lvl := ℕ) (Val := Elt F) spec1 c) := by
  rw [Gen.scopedRest1_eq]
  unfold Phi otherBufs carried
  simp only [owns_whole]
  iintro ⟨HT, ⟨%s, -, HS0, HS1, HS2⟩, ⟨H00, H01, H10, H20, H21⟩, Hp⟩
  isplitl [Hp HT]
  · isplitl [Hp]; · iexact Hp
    iexact HT
  isplitl [H00]; · iexact H00
  isplitl [H01]; · iexact H01
  isplitl [H10]; · iexact H10
  isplitl [H20]; · iexact H20
  isplitl [H21]; · iexact H21
  isplitl [HS0]; · iexists _; iexact HS0
  isplitl [HS1]; · iexists _; iexact HS1
  iexists _; iexact HS2

/-! ## The region -/

-- a library lemma stated over the pinned configuration unifies with the printed one only when unification may
-- unfold plain definitions in a metavariable's type
set_option backward.isDefEq.respectTransparency.types false in
/-- REGION 1 over the thread state. -/
def reg1 (houts : ∀ c, outs 4 main_v11 c = (dat1 (V3r m outs) c).arrAt 3 (cfgF (F := F)).N) :
    RegionSeg (pcfgs (F := F)) adm (R0.pdats m (d1 m outs)) () defs₀ Asm.𝒱₀ Asm.L Asm.lv 1 where
  win := winFacts₀1
  block_pos := block_pos1
  stage_whole := stage_whole1
  K := PEmpty
  osem k := k.elim
  ho := Pipeline.OwnSemFacts.none _
  hbody c := (body_obligation1 (V3r m outs) c).loose
  hwaits := Pipeline.hwaits_of_owed_zero _ _ _ _ Asm.L Asm.lv 1 fun _ _ => rfl
  pre c := iprop(StableHlo.held (c : Thread nD τ) (Pipeline.ucRefs τ sig) (Gen.V3 m outs c) ∗ Asm.E 1 c)
  post c := iprop(StableHlo.held (c : Thread nD τ) (Pipeline.ucRefs τ sig) (Gen.V4 m outs c) ∗ Asm.E 2 c)
  X c := iprop(∃ r, prngReg c r)
  Y c := iprop((∃ r, prngReg c r) ∗ Pipeline.prefHeld (Ix := Unit) (Name := ℕ) (U := UR sig nD τ) (Lvl := ℕ) pre1 c (fun _ => fullShare) (tbl (F := F)))
  Z c := Pipeline.unscopedRestP (Ix := Unit) (Name := ℕ) (U := UR sig nD τ) (Lvl := ℕ) pre1 spec1 c (V3r m outs c)
  hentry c := by
    rw [Pipeline.ownSems0_none]
    have hsplit := entry_split (F := F) (Gen.V3 m outs) c (V3_tbl m outs c)
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (R0.pdats m (d1 m outs) 1 c).Φ 0 = Phi (V3r m outs) c 0 from rfl]
    exact hin1 m outs c
  hout c := by
    rw [Pipeline.ownSems0_none, show (R0.pdats m (d1 m outs) 1 c).Φ (Fin.last _) = Phi (V3r m outs) c (Fin.last _) from rfl]
    refine (hout1 m outs c).trans ?_
    iintro ⟨HY, Hr⟩
    isplitl [HY]; · iexact HY
    isplitr; · iempintro
    iexact Hr
  hexit c := by
    have hjoin := exit_join (F := F) (Gen.V3 m outs) c (Gen.V4 m outs c)
      ((show Gen.V4 m outs c main_v11 = outs 4 main_v11 c from Function.update_self ..).trans (houts c))
      (fun b hb => Gen.V4_of m outs c b (by simpa using hb)) (V3_tbl m outs c)
    iintro ⟨Ha, HO, ⟨Hp, HT⟩, Hrest⟩
    imodintro
    isplitl [Ha HT Hrest]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

/-- The region is entered from, and left at, exactly the thread states the program's run names. -/
theorem reg1_pre (houts : ∀ c, outs 4 main_v11 c = (dat1 (V3r m outs) c).arrAt 3 (cfgF (F := F)).N) (c : Dev nD) :
    iprop(StableHlo.held (c : Thread nD τ) (Pipeline.ucRefs τ sig) (Gen.V3 m outs c) ∗ Asm.E 1 c) ⊢ (reg1 m outs houts).pre c := .rfl
theorem reg1_post (houts : ∀ c, outs 4 main_v11 c = (dat1 (V3r m outs) c).arrAt 3 (cfgF (F := F)).N) (c : Dev nD) :
    (reg1 m outs houts).post c ⊢ iprop(StableHlo.held (c : Thread nD τ) (Pipeline.ucRefs τ sig) (Gen.V4 m outs c) ∗ Asm.E 2 c) := .rfl

end Cert.Kernel.Flash

end
-- ==== Proof.Bits.FinalRun.lean ====
/-
  The kernel program's frame and its run with the result named, from the two regions' records.
-/
import proofs.«105760_j5128190951601_2_alg».proof.Proof.Bits.Final
import proofs.«105760_j5128190951601_2_alg».proof.Proof.Bits.FlashSeg

noncomputable section

namespace Cert.Kernel.Final

open Idealize.ShloMosaic Idealize.ShloMosaic.TcCoe Idealize.SL.Sem
open Idealize.ShloMosaic.Pipeline (Dat RegionSeg)
open Cert.Kernel Cert.Kernel.Gen

variable {F : FTy → Type} [FloatOps F]
variable (m : (ℓ : Loc nD τ sig) → Buf (Elt F) ℓ) (ρ : Dev nD → PrngReg)

/-- The frame: every weakly fair execution terminates, nothing faults, the argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Asm.frame_of_regions m ρ (outs m) Flash.adm (R0.pdats m (Flash.d1 m (outs m)))
    (R0.reg0 m (Flash.d1 m (outs m)) (outs m) (houts0 m)) (R0.reg0_pre m (Flash.d1 m (outs m)) (outs m) (houts0 m))
    (R0.reg0_post m (Flash.d1 m (outs m)) (outs m) (houts0 m))
    (Flash.reg1 m (outs m) (houts1 m)) (Flash.reg1_pre m (outs m) (houts1 m)) (Flash.reg1_post m (outs m) (houts1 m))

/-- The run with the result named: the result array ends at what the attention region's write-backs leave. -/
theorem run :
    θ_run defs (onTc (τ := τ) (main (F := F))) ⟨m, fun _ => 0, ρ⟩ (fun r => ∀ c : Dev nD,
      r.2.mem ((c.tc : Thread nD τ).loc main_v11) = outs m 4 main_v11 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Asm.run_of_regions m ρ (outs m) Flash.adm (R0.pdats m (Flash.d1 m (outs m)))
    (R0.reg0 m (Flash.d1 m (outs m)) (outs m) (houts0 m)) (R0.reg0_pre m (Flash.d1 m (outs m)) (outs m) (houts0 m))
    (R0.reg0_post m (Flash.d1 m (outs m)) (outs m) (houts0 m))
    (Flash.reg1 m (outs m) (houts1 m)) (Flash.reg1_pre m (outs m) (houts1 m)) (Flash.reg1_post m (outs m) (houts1 m))

end Cert.Kernel.Final

end
-- ==== Proof.Claims.lean ====
/-
  The five claims. The three frames: each kernel program runs from any memory, faults nowhere and leaves its argument
  arrays as launched; the reference is a line of host operations. The one rewrite of the idealization: the mask's fill
  constant is named, and the name denotes −∞. The value claim: under finite inputs the idealized kernel and the
  idealized reference end with the same result array — causal softmax attention of the same three projections, the
  kernel's running maximum / running sum / rescaled accumulator over the key tiles being the row's softmax.
-/
import proofs.«105760_j5128190951601_2_alg».proof.Defs
import proofs.«105760_j5128190951601_2_alg».proof.Proof.FinalRun
import proofs.«105760_j5128190951601_2_alg».proof.Proof.ResultEq
import proofs.«105760_j5128190951601_2_alg».proof.Proof.Bits.FinalRun
import proofs.«105760_j5128190951601_2_alg».proof.Proof.Gen.Kernel
import proofs.«105760_j5128190951601_2_alg».proof.Proof.Gen.KernelIdeal
import proofs.«105760_j5128190951601_2_alg».proof.Proof.Gen.ReferenceIdeal
import proofs.«105760_j5128190951601_2_alg».proof.Proof.Gen.ReferenceIdeal.Run
import proofs.«105760_j5128190951601_2_alg».proof.Proof.Gen.Pre_finite_inputs
import Idealize.ShloMosaic.PureOps.IdealRules

noncomputable section

namespace Cert.Proof.Claims

open Idealize.ShloMosaic Idealize.ShloMosaic.TcCoe Idealize.SL.Sem Idealize.ShloMosaic.ValueIdx

theorem frame_k : Cert.frame_Kernel := fun m ρ _ => Cert.Kernel.Final.frame m ρ

theorem frame_ki : Cert.frame_KernelIdeal := fun m ρ _ => Cert.KernelIdeal.Final.frame m ρ

theorem frame_ri : Cert.frame_ReferenceIdeal := fun m ρ _ =>
  (θ_run Cert.ReferenceIdeal.defs _ _).mono (fun _ h c => (h c).2) (Cert.ReferenceIdeal.Value.run (F := Ideal) m ρ)

/-- The mask's fill constant, named: the name denotes −∞ at the ideal instance. -/
theorem preserves : Cert.preserves_Kernel_KernelIdeal :=
  IdealRules.named_const.statement Cert.KernelIdeal.κ "neg_big" .f32 0xFF333332#32 ⊥ rfl

/-- Both programs end at the causal softmax attention of the arguments, read row by row. -/
theorem algebraic : Cert.algebraic_KernelIdeal_ReferenceIdeal := by
  intro m ρ m' ρ' hpre hagree
  refine ⟨fun c => Cert.KernelIdeal.Final.outs m 4 Cert.KernelIdeal.main_v11 c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine Eq.trans ?_ (Cert.KernelIdeal.Final.result_eq m hpre c).symm
  funext idx
  obtain ⟨b, s, o, rfl⟩ : ∃ (b : Fin 4) (s : Fin 2048) (o : Fin 1024), idx = ix3 b s o := ⟨idx 0, idx 1, idx 2, eq_ix3 idx⟩
  rw [Cert.KernelIdeal.FlashOut.attnG_apply]
  refine (Cert.ReferenceIdeal.RefValue.res_out0_row m' c b s o).trans ?_
  rw [(hagree c).1, (hagree c).2.1, (hagree c).2.2.1, (hagree c).2.2.2]

end Cert.Proof.Claims

end
-- ==== Proof.lean ====
/-
  The certificate: single-head causal attention as two kernel regions — a fused projection of the activations against
  the three stacked weight matrices, and a tiled attention whose schedule of (query tile, key tile) pairs is read from
  two tables, with a running maximum, a running sum and a rescaled accumulator carried across the key tiles of a query
  tile — against the plain einsum / softmax reference. The frames of the three programs, the one named constant of the
  idealization, and the equality of the two results over the extended reals under finite inputs.
-/
import proofs.«105760_j5128190951601_2_alg».proof.Defs
import proofs.«105760_j5128190951601_2_alg».proof.Proof.Claims
import proofs.«105760_j5128190951601_2_alg».proof.Proof.Gen.Kernel
import proofs.«105760_j5128190951601_2_alg».proof.Proof.Gen.KernelIdeal
import proofs.«105760_j5128190951601_2_alg».proof.Proof.Gen.ReferenceIdeal
import proofs.«105760_j5128190951601_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
